-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v193)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v193) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x1600000 : Shape := ⟨2, ![2, 1600000]⟩
abbrev S1600000x4 : Shape := ⟨2, ![1600000, 4]⟩
abbrev S5x64 : Shape := ⟨2, ![5, 64]⟩
abbrev S64 : Shape := ⟨1, ![64]⟩
abbrev S3x68x64 : Shape := ⟨3, ![3, 68, 64]⟩
abbrev S3x64 : Shape := ⟨2, ![3, 64]⟩
abbrev S3x64x64 : Shape := ⟨3, ![3, 64, 64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S3x68x64 : S_.BroadcastsInDim S3x68x64 (![] : Fin 0 → Fin S3x68x64.rank)
  reducesTo_S3x68x64_S_d0_1_2 : S3x68x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x3 .f32) (main_arg14 : FVec F S3 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x3 .f32 := Host.absf main_arg13
  let main_cst_22 : FVec F S_ .f32 := constant S_ .f32 0x7F800000#32
  let main_v60 : FVec F S64x3 .f32 := broadcastInDim S64x3 ![] bcast_S_S64x3 main_cst_22
  let main_v61 : IVec S64x3 1 := cmpf .olt main_v59 main_v60
  let main_c_23 : IVec S_ 1 := constantI S_ 1 1#1
  let main_v62 : IVec S_ 1 := (fun x v => Host.reduce IntOp.andi x v reducesTo_S64x3_S_d0_1 h_S_) main_v61 main_c_23
  let main_v63 : IVec S_ 1 := andi main_v58 main_v62
  let main_v64 : FVec F S3 .f32 := Host.absf main_arg14
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_v63 main_v67

def fn_part2 {F : FTy → Type} [FloatOps F] (main_arg8 : FVec F S3x64 .f32) (main_arg9 : FVec F S3x64 .f32) (main_arg10 : FVec F S3x64 .f32) (main_arg11 : FVec F S64x64 .f32) (main_arg12 : FVec F S64 .f32) (main_arg13 : FVec F S64x3 .f32) (main_arg14 : FVec F S3 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg10
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_v48 main_v49 main_v50

def fn_part1 {F : FTy → Type} [FloatOps F] (main_arg5 : FVec F S3x68x64 .f32) (main_arg6 : FVec F S3x64 .f32) (main_arg7 : FVec F S3x64x64 .f32) (main_arg8 : FVec F S3x64 .f32) (main_arg9 : FVec F S3x64 .f32) (main_arg10 : FVec F S3x64 .f32) (main_arg11 : FVec F S64x64 .f32) (main_arg12 : FVec F S64 .f32) (main_arg13 : FVec F S64x3 .f32) (main_arg14 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x68x64 .f32 := Host.absf main_arg5
  let main_cst_6 : FVec F S_ .f32 := constant S_ .f32 0x7F800000#32
  let main_v20 : FVec F S3x68x64 .f32 := broadcastInDim S3x68x64 ![] bcast_S_S3x68x64 main_cst_6
  let main_v21 : IVec S3x68x64 1 := cmpf .olt main_v19 main_v20
  let main_c_7 : IVec S_ 1 := constantI S_ 1 1#1
  let main_v22 : IVec S_ 1 := (fun x v => Host.reduce IntOp.andi x v reducesTo_S3x68x64_S_d0_1_2 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x5 .f32) (main_arg1 : IVec S2x1600000 32) (main_arg2 : FVec F S1600000x4 .f32) (main_arg3 : FVec F S5x64 .f32) (main_arg4 : FVec F S64 .f32) (main_arg5 : FVec F S3x68x64 .f32) (main_arg6 : FVec F S3x64 .f32) (main_arg7 : FVec F S3x64x64 .f32) (main_arg8 : FVec F S3x64 .f32) (main_arg9 : FVec F S3x64 .f32) (main_arg10 : FVec F S3x64 .f32) (main_arg11 : FVec F S64x64 .f32) (main_arg12 : FVec F S64 .f32) (main_arg13 : FVec F S64x3 .f32) (main_arg14 : FVec F S3 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S1600000x4 .f32 := Host.absf main_arg2
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S5x64 .f32 := Host.absf main_arg3
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x5 : Shape := ⟨2, ![100000, 5]⟩
abbrev S2x1600000 : Shape := ⟨2, ![2, 1600000]⟩
abbrev S1600000x4 : Shape := ⟨2, ![1600000, 4]⟩
abbrev S5x64 : Shape := ⟨2, ![5, 64]⟩
abbrev S64 : Shape := ⟨1, ![64]⟩
abbrev S3x68x64 : Shape := ⟨3, ![3, 68, 64]⟩
abbrev S3x64 : Shape := ⟨2, ![3, 64]⟩
abbrev S3x64x64 : Shape := ⟨3, ![3, 64, 64]⟩
abbrev S64x64 : Shape := ⟨2, ![64, 64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S10000x5 : Shape := ⟨2, ![10000, 5]⟩
abbrev S10000x64 : Shape := ⟨2, ![10000, 64]⟩
abbrev S3x4x64 : Shape := ⟨3, ![3, 4, 64]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S1x4x64 : Shape := ⟨3, ![1, 4, 64]⟩
abbrev S4x64 : Shape := ⟨2, ![4, 64]⟩
abbrev S8000x64 : Shape := ⟨2, ![8000, 64]⟩
abbrev S8000x4 : Shape := ⟨2, ![8000, 4]⟩
abbrev S50000x128 : Shape := ⟨2, ![50000, 128]⟩
abbrev S2x64 : Shape := ⟨2, ![2, 64]⟩
abbrev S128 : Shape := ⟨1, ![128]⟩
abbrev S1x128 : Shape := ⟨2, ![1, 128]⟩
abbrev S5000x128 : Shape := ⟨2, ![5000, 128]⟩
abbrev S1x3 : Shape := ⟨2, ![1, 3]⟩
abbrev S100000x3 : Shape := ⟨2, ![100000, 3]⟩
abbrev S10000x3 : Shape := ⟨2, ![10000, 3]⟩

abbrev nBuf : Space → Nat
  | .hbm => 230
  | .vmem => 77
  | .smem => 0
  | _ => 0

abbrev hbmTy0_0 (i : Nat) : BufTy := match i % 128 with
  | 0 => ⟨S100000x5, .f32⟩
  | 1 => ⟨S2x1600000, .i32⟩
  | 2 => ⟨S1600000x4, .f32⟩
  | 3 => ⟨S5x64, .f32⟩
  | 4 => ⟨S64, .f32⟩
  | 5 => ⟨S3x68x64, .f32⟩
  | 6 => ⟨S3x64, .f32⟩
  | 7 => ⟨S3x64x64, .f32⟩
  | 8 => ⟨S3x64, .f32⟩
  | 9 => ⟨S3x64, .f32⟩
  | 10 => ⟨S3x64, .f32⟩
  | 11 => ⟨S64x64, .f32⟩
  | 12 => ⟨S64, .f32⟩
  | 13 => ⟨S64x3, .f32⟩
  | 14 => ⟨S3, .f32⟩
  | 15 => ⟨S1x1600000, .i32⟩
  | 16 => ⟨S1600000, .i32⟩
  | 17 => ⟨S1x1600000, .i32⟩
  | 18 => ⟨S1600000, .i32⟩
  | 19 => ⟨S100000x5, .bf16⟩
  | 20 => ⟨S5x64, .bf16⟩
  | 21 => ⟨S1x64, .f32⟩
  | 22 => ⟨S100000x64, .f32⟩
  | 23 => ⟨S1600000x4, .bf16⟩
  | 24 => ⟨S3x64x64, .f32⟩
  | 25 => ⟨S3x64x64, .bf16⟩
  | 26 => ⟨S3x4x64, .f32⟩
  | 27 => ⟨S3x4x64, .bf16⟩
  | 28 => ⟨S3x64x64, .bf16⟩
  | 29 => ⟨S100000x64, .bf16⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x64, .bf16⟩
  | 39 => ⟨S1x64x64, .bf16⟩
  | 40 => ⟨S64x64, .bf16⟩
  | 41 => ⟨S1x4x64, .bf16⟩
  | 42 => ⟨S4x64, .bf16⟩
  | 43 => ⟨S1x64, .f32⟩
  | 44 => ⟨S64, .f32⟩
  | 45 => ⟨S1x64x64, .bf16⟩
  | 46 => ⟨S64x64, .bf16⟩
  | 47 => ⟨S1x64, .f32⟩
  | 48 => ⟨S64, .f32⟩
  | 49 => ⟨S1x64, .f32⟩
  | 50 => ⟨S1x64, .f32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S_, .f32⟩
  | 57 => ⟨S64, .f32⟩
  | 58 => ⟨S_, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S100000x64, .f32⟩
  | 65 => ⟨S_, .f32⟩
  | 66 => ⟨S64, .f32⟩
  | 67 => ⟨S_, .f32⟩
  | 68 => ⟨S64, .f32⟩
  | 69 => ⟨S64, .f32⟩
  | 70 => ⟨S1x64, .f32⟩
  | 71 => ⟨S64, .f32⟩
  | 72 => ⟨S1x64, .f32⟩
  | 73 => ⟨S64, .f32⟩
  | 74 => ⟨S50000x128, .f32⟩
  | 75 => ⟨S50000x128, .f32⟩
  | 76 => ⟨S1x64, .f32⟩
  | 77 => ⟨S2x64, .f32⟩
  | 78 => ⟨S128, .f32⟩
  | 79 => ⟨S1x128, .f32⟩
  | 80 => ⟨S1x64, .f32⟩
  | 81 => ⟨S2x64, .f32⟩
  | 82 => ⟨S128, .f32⟩
  | 83 => ⟨S1x128, .f32⟩
  | 84 => ⟨S1x64, .f32⟩
  | 85 => ⟨S2x64, .f32⟩
  | 86 => ⟨S128, .f32⟩
  | 87 => ⟨S1x128, .f32⟩
  | 88 => ⟨S1x64, .f32⟩
  | 89 => ⟨S2x64, .f32⟩
  | 90 => ⟨S128, .f32⟩
  | 91 => ⟨S1x128, .f32⟩
  | 92 => ⟨S50000x128, .f32⟩
  | 93 => ⟨S100000x64, .f32⟩
  | 94 => ⟨S100000x64, .bf16⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .bf16⟩
  | 104 => ⟨S1x64x64, .bf16⟩
  | 105 => ⟨S64x64, .bf16⟩
  | 106 => ⟨S1x4x64, .bf16⟩
  | 107 => ⟨S4x64, .bf16⟩
  | 108 => ⟨S1x64, .f32⟩
  | 109 => ⟨S64, .f32⟩
  | 110 => ⟨S1x64x64, .bf16⟩
  | 111 => ⟨S64x64, .bf16⟩
  | 112 => ⟨S1x64, .f32⟩
  | 113 => ⟨S64, .f32⟩
  | 114 => ⟨S1x64, .f32⟩
  | 115 => ⟨S1x64, .f32⟩
  | 116 => ⟨S1600000x64, .f32⟩
  | 117 => ⟨S_, .f32⟩
  | 118 => ⟨S100000x64, .f32⟩
  | 119 => ⟨S1600000x1, .i32⟩
  | 120 => ⟨S100000x64, .f32⟩
  | 121 => ⟨S_, .f32⟩
  | 122 => ⟨S64, .f32⟩
  | 123 => ⟨S_, .f32⟩
  | 124 => ⟨S64, .f32⟩
  | 125 => ⟨S64, .f32⟩
  | 126 => ⟨S1x64, .f32⟩
  | 127 => ⟨S100000x64, .f32⟩
  | _ => ⟨S100000x5, .f32⟩

abbrev hbmTy0_1 (i : Nat) : BufTy := match i % 128 with
  | 0 => ⟨S100000x64, .f32⟩
  | 1 => ⟨S100000x64, .f32⟩
  | 2 => ⟨S_, .f32⟩
  | 3 => ⟨S64, .f32⟩
  | 4 => ⟨S_, .f32⟩
  | 5 => ⟨S64, .f32⟩
  | 6 => ⟨S64, .f32⟩
  | 7 => ⟨S1x64, .f32⟩
  | 8 => ⟨S64, .f32⟩
  | 9 => ⟨S1x64, .f32⟩
  | 10 => ⟨S64, .f32⟩
  | 11 => ⟨S50000x128, .f32⟩
  | 12 => ⟨S50000x128, .f32⟩
  | 13 => ⟨S1x64, .f32⟩
  | 14 => ⟨S2x64, .f32⟩
  | 15 => ⟨S128, .f32⟩
  | 16 => ⟨S1x128, .f32⟩
  | 17 => ⟨S1x64, .f32⟩
  | 18 => ⟨S2x64, .f32⟩
  | 19 => ⟨S128, .f32⟩
  | 20 => ⟨S1x128, .f32⟩
  | 21 => ⟨S1x64, .f32⟩
  | 22 => ⟨S2x64, .f32⟩
  | 23 => ⟨S128, .f32⟩
  | 24 => ⟨S1x128, .f32⟩
  | 25 => ⟨S1x64, .f32⟩
  | 26 => ⟨S2x64, .f32⟩
  | 27 => ⟨S128, .f32⟩
  | 28 => ⟨S1x128, .f32⟩
  | 29 => ⟨S50000x128, .f32⟩
  | 30 => ⟨S100000x64, .f32⟩
  | 31 => ⟨S100000x64, .bf16⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .bf16⟩
  | 41 => ⟨S1x64x64, .bf16⟩
  | 42 => ⟨S64x64, .bf16⟩
  | 43 => ⟨S1x4x64, .bf16⟩
  | 44 => ⟨S4x64, .bf16⟩
  | 45 => ⟨S1x64, .f32⟩
  | 46 => ⟨S64, .f32⟩
  | 47 => ⟨S1x64x64, .bf16⟩
  | 48 => ⟨S64x64, .bf16⟩
  | 49 => ⟨S1x64, .f32⟩
  | 50 => ⟨S64, .f32⟩
  | 51 => ⟨S1x64, .f32⟩
  | 52 => ⟨S1x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S_, .f32⟩
  | 59 => ⟨S64, .f32⟩
  | 60 => ⟨S_, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S100000x64, .f32⟩
  | 67 => ⟨S_, .f32⟩
  | 68 => ⟨S64, .f32⟩
  | 69 => ⟨S_, .f32⟩
  | 70 => ⟨S64, .f32⟩
  | 71 => ⟨S64, .f32⟩
  | 72 => ⟨S1x64, .f32⟩
  | 73 => ⟨S64, .f32⟩
  | 74 => ⟨S1x64, .f32⟩
  | 75 => ⟨S64, .f32⟩
  | 76 => ⟨S50000x128, .f32⟩
  | 77 => ⟨S50000x128, .f32⟩
  | 78 => ⟨S1x64, .f32⟩
  | 79 => ⟨S2x64, .f32⟩
  | 80 => ⟨S128, .f32⟩
  | 81 => ⟨S1x128, .f32⟩
  | 82 => ⟨S1x64, .f32⟩
  | 83 => ⟨S2x64, .f32⟩
  | 84 => ⟨S128, .f32⟩
  | 85 => ⟨S1x128, .f32⟩
  | 86 => ⟨S1x64, .f32⟩
  | 87 => ⟨S2x64, .f32⟩
  | 88 => ⟨S128, .f32⟩
  | 89 => ⟨S1x128, .f32⟩
  | 90 => ⟨S1x64, .f32⟩
  | 91 => ⟨S2x64, .f32⟩
  | 92 => ⟨S128, .f32⟩
  | 93 => ⟨S1x128, .f32⟩
  | 94 => ⟨S50000x128, .f32⟩
  | 95 => ⟨S100000x64, .f32⟩
  | 96 => ⟨S100000x64, .bf16⟩
  | 97 => ⟨S64x64, .bf16⟩
  | 98 => ⟨S64x3, .bf16⟩
  | 99 => ⟨S1x64, .f32⟩
  | 100 => ⟨S1x3, .f32⟩
  | 101 => ⟨S100000x3, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | .local _ .vmem, ⟨0, _⟩ => ⟨S10000x5, .bf16⟩
  | .local _ .vmem, ⟨1, _⟩ => ⟨S10000x5, .bf16⟩
  | .local _ .vmem, ⟨2, _⟩ => ⟨S5x64, .bf16⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S8000x64, .bf16⟩
  | .local _ .vmem, ⟨7, _⟩ => ⟨S8000x64, .bf16⟩
  | .local _ .vmem, ⟨8, _⟩ => ⟨S8000x4, .bf16⟩
  | .local _ .vmem, ⟨9, _⟩ => ⟨S8000x4, .bf16⟩
  | .local _ .vmem, ⟨10, _⟩ => ⟨S64x64, .bf16⟩
  | .local _ .vmem, ⟨11, _⟩ => ⟨S4x64, .bf16⟩
  | .local _ .vmem, ⟨12, _⟩ => ⟨S1x64, .f32⟩
  | .local _ .vmem, ⟨13, _⟩ => ⟨S64x64, .bf16⟩
  | .local _ .vmem, ⟨14, _⟩ => ⟨S1x64, .f32⟩
  | .local _ .vmem, ⟨15, _⟩ => ⟨S8000x64, .f32⟩
  | .local _ .vmem, ⟨16, _⟩ => ⟨S8000x64, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S8000x64, .bf16⟩
  | .local _ .vmem, ⟨28, _⟩ => ⟨S8000x64, .bf16⟩
  | .local _ .vmem, ⟨29, _⟩ => ⟨S8000x4, .bf16⟩
  | .local _ .vmem, ⟨30, _⟩ => ⟨S8000x4, .bf16⟩
  | .local _ .vmem, ⟨31, _⟩ => ⟨S64x64, .bf16⟩
  | .local _ .vmem, ⟨32, _⟩ => ⟨S4x64, .bf16⟩
  | .local _ .vmem, ⟨33, _⟩ => ⟨S1x64, .f32⟩
  | .local _ .vmem, ⟨34, _⟩ => ⟨S64x64, .bf16⟩
  | .local _ .vmem, ⟨35, _⟩ => ⟨S1x64, .f32⟩
  | .local _ .vmem, ⟨36, _⟩ => ⟨S8000x64, .f32⟩
  | .local _ .vmem, ⟨37, _⟩ => ⟨S8000x64, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S8000x64, .bf16⟩
  | .local _ .vmem, ⟨49, _⟩ => ⟨S8000x64, .bf16⟩
  | .local _ .vmem, ⟨50, _⟩ => ⟨S8000x4, .bf16⟩
  | .local _ .vmem, ⟨51, _⟩ => ⟨S8000x4, .bf16⟩
  | .local _ .vmem, ⟨52, _⟩ => ⟨S64x64, .bf16⟩
  | .local _ .vmem, ⟨53, _⟩ => ⟨S4x64, .bf16⟩
  | .local _ .vmem, ⟨54, _⟩ => ⟨S1x64, .f32⟩
  | .local _ .vmem, ⟨55, _⟩ => ⟨S64x64, .bf16⟩
  | .local _ .vmem, ⟨56, _⟩ => ⟨S1x64, .f32⟩
  | .local _ .vmem, ⟨57, _⟩ => ⟨S8000x64, .f32⟩
  | .local _ .vmem, ⟨58, _⟩ => ⟨S8000x64, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S5000x128, .f32⟩
  | .local _ .vmem, ⟨68, _⟩ => ⟨S5000x128, .f32⟩
  | .local _ .vmem, ⟨69, _⟩ => ⟨S10000x64, .bf16⟩
  | .local _ .vmem, ⟨70, _⟩ => ⟨S10000x64, .bf16⟩
  | .local _ .vmem, ⟨71, _⟩ => ⟨S64x64, .bf16⟩
  | .local _ .vmem, ⟨72, _⟩ => ⟨S1x64, .f32⟩
  | .local _ .vmem, ⟨73, _⟩ => ⟨S64x3, .bf16⟩
  | .local _ .vmem, ⟨74, _⟩ => ⟨S1x3, .f32⟩
  | .local _ .vmem, ⟨75, _⟩ => ⟨S10000x3, .f32⟩
  | .local _ .vmem, ⟨76, _⟩ => ⟨S10000x3, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_1 : Ref sig .tc := ⟨.hbm, 56, rfl⟩
abbrev main_v38 : Ref sig .tc := ⟨.hbm, 57, rfl⟩
abbrev main_cst_2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_3 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_5 : Ref sig .tc := ⟨.hbm, 95, rfl⟩
abbrev main_v73 : Ref sig .tc := ⟨.hbm, 96, rfl⟩
abbrev main_v74 : Ref sig .tc := ⟨.hbm, 97, rfl⟩
abbrev main_c_6 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_7 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_8 : Ref sig .tc := ⟨.hbm, 121, rfl⟩
abbrev main_v96 : Ref sig .tc := ⟨.hbm, 122, rfl⟩
abbrev main_cst_9 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_10 : Ref sig .tc := ⟨.hbm, 130, rfl⟩
abbrev main_v103 : Ref sig .tc := ⟨.hbm, 131, rfl⟩
abbrev main_cst_11 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_c_12 : Ref sig .tc := ⟨.hbm, 160, rfl⟩
abbrev main_v131 : Ref sig .tc := ⟨.hbm, 161, rfl⟩
abbrev main_v132 : Ref sig .tc := ⟨.hbm, 162, rfl⟩
abbrev main_c_13 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_cst_14 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_cst_15 : Ref sig .tc := ⟨.hbm, 186, rfl⟩
abbrev main_v154 : Ref sig .tc := ⟨.hbm, 187, rfl⟩
abbrev main_cst_16 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_17 : Ref sig .tc := ⟨.hbm, 195, rfl⟩
abbrev main_v161 : Ref sig .tc := ⟨.hbm, 196, rfl⟩
abbrev main_cst_18 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg6_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg6_0 : Ref sig .tc := ⟨.vmem, 56, rfl⟩
abbrev cc5_stg7_0 : Ref sig .tc := ⟨.vmem, 57, rfl⟩
abbrev cc5_stg7_1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg1_1 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg6_0 : Ref sig .tc := ⟨.vmem, 67, rfl⟩
abbrev cc6_stg6_1 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg2_0 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg5_0 : Ref sig .tc := ⟨.vmem, 75, rfl⟩
abbrev cc7_stg5_1 : Ref sig .tc := ⟨.vmem, 76, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem6_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem6_0 : DmaSem sig := 56
abbrev cc5_sem7_0 : DmaSem sig := 57
abbrev cc5_sem7_1 : DmaSem sig := 58
abbrev cc6_sem0_0 : DmaSem sig := 59
abbrev cc6_sem0_1 : DmaSem sig := 60
abbrev cc6_sem1_0 : DmaSem sig := 61
abbrev cc6_sem1_1 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem6_0 : DmaSem sig := 67
abbrev cc6_sem6_1 : DmaSem sig := 68
abbrev cc7_sem0_0 : DmaSem sig := 69
abbrev cc7_sem0_1 : DmaSem sig := 70
abbrev cc7_sem1_0 : DmaSem sig := 71
abbrev cc7_sem2_0 : DmaSem sig := 72
abbrev cc7_sem3_0 : DmaSem sig := 73
abbrev cc7_sem4_0 : DmaSem sig := 74
abbrev cc7_sem5_0 : DmaSem sig := 75
abbrev cc7_sem5_1 : DmaSem sig := 76

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x5 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x4 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x4 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S8000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x4 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S4x64 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S8000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x3 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x3 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x3 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  shapeCasts_S64_S1x64 : S64.ShapeCasts S1x64
  inb_S10000x5_S10000x5_0_0 : ∀ a, (![0, 0] : Fin 2 → Nat) a + S10000x5.size a ≤ S10000x5.size a
  h_S10000x5 : 0 < S10000x5.numel
  shapeCasts_S10000x5_S10000x5 : S10000x5.ShapeCasts S10000x5
  inb_S5x64_S5x64_0_0 : ∀ a, (![0, 0] : Fin 2 → Nat) a + S5x64.size a ≤ S5x64.size a
  h_S5x64 : 0 < S5x64.numel
  shapeCasts_S5x64_S5x64 : S5x64.ShapeCasts S5x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  slices_S3x68x64_S3x64x64_0_0_0 : S3x68x64.Slices ![0, 0, 0] S3x64x64
  slices_S3x68x64_S3x4x64_0_64_0 : S3x68x64.Slices ![0, 64, 0] S3x4x64
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x64x64_S1x64x64_0_0_0 : S3x64x64.Slices ![0, 0, 0] S1x64x64
  shapeCasts_S1x64x64_S64x64 : S1x64x64.ShapeCasts S64x64
  slices_S3x4x64_S1x4x64_0_0_0 : S3x4x64.Slices ![0, 0, 0] S1x4x64
  shapeCasts_S1x4x64_S4x64 : S1x4x64.ShapeCasts S4x64
  slices_S3x64_S1x64_0_0 : S3x64.Slices ![0, 0] S1x64
  shapeCasts_S1x64_S64 : S1x64.ShapeCasts S64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4x64_S4x64_0_0 : ∀ a, (![0, 0] : Fin 2 → Nat) a + S4x64.size a ≤ S4x64.size a
  h_S4x64 : 0 < S4x64.numel
  shapeCasts_S4x64_S4x64 : S4x64.ShapeCasts S4x64
  broadcasts_S1x64_S8000x64 : S1x64.Broadcasts S8000x64
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S100000x64_S50000x128 : S100000x64.ShapeCasts S50000x128
  bcast_S1x64_S2x64_0_1 : S1x64.BroadcastsInDim S2x64 (![0, 1] : Fin 2 → Fin S2x64.rank)
  shapeCasts_S2x64_S128 : S2x64.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  shapeCasts_S50000x128_S100000x64 : S50000x128.ShapeCasts S100000x64
  slices_S3x64x64_S1x64x64_1_0_0 : S3x64x64.Slices ![1, 0, 0] S1x64x64
  slices_S3x4x64_S1x4x64_1_0_0 : S3x4x64.Slices ![1, 0, 0] S1x4x64
  slices_S3x64_S1x64_1_0 : S3x64.Slices ![1, 0] S1x64
  slices_S3x64x64_S1x64x64_2_0_0 : S3x64x64.Slices ![2, 0, 0] S1x64x64
  slices_S3x4x64_S1x4x64_2_0_0 : S3x4x64.Slices ![2, 0, 0] S1x4x64
  slices_S3x64_S1x64_2_0 : S3x64.Slices ![2, 0] S1x64
  shapeCasts_S3_S1x3 : S3.ShapeCasts S1x3
  shapeCasts_S10000x64_S10000x64 : S10000x64.ShapeCasts S10000x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  inb_S10000x3_S10000x3_0_0 : ∀ a, (![0, 0] : Fin 2 → Nat) a + S10000x3.size a ≤ S10000x3.size a
  h_S10000x3 : 0 < S10000x3.numel
  dot_S10000x5_S5x64_S10000x64_1_0_0_1_n_n_wf : DotDims.WF S10000x5 S5x64 S10000x64 [1] [0] [0] [1] [] []
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  dot_S8000x4_S4x64_S8000x64_1_0_0_1_n_n_wf : DotDims.WF S8000x4 S4x64 S8000x64 [1] [0] [0] [1] [] []
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x3_S10000x3_1_0_0_1_n_n_wf : DotDims.WF S10000x64 S64x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x5.size a ≤ S100000x5.size a
  hwx0_0 : ∀ i : grid0.Coords, EltTy.bits .bf16 = 32 ∨ (Rect.block (s := S100000x5) S10000x5.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .bf16 = 32 ∨ (Rect.block (s := S5x64) S5x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .bf16 = 32 ∨ (Rect.block (s := S1600000x64) S8000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x4.size a ≤ S1600000x4.size a
  hwx1_1 : ∀ i : grid1.Coords, EltTy.bits .bf16 = 32 ∨ (Rect.block (s := S1600000x4) S8000x4.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x64.size a ≤ S4x64.size a
  hwx1_3 : ∀ i : grid1.Coords, EltTy.bits .bf16 = 32 ∨ (Rect.block (s := S4x64) S4x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .bf16 = 32 ∨ (Rect.block (s := S64x64) S64x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x64.size a ≤ S1600000x64.size a
  hwx1_7 : ∀ i : grid1.Coords, EltTy.bits .f32 = 32 ∨ (Rect.block (s := S1600000x64) S8000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1600000x64.size a
  hwx3_0 : ∀ i : grid3.Coords, EltTy.bits .bf16 = 32 ∨ (Rect.block (s := S1600000x64) S8000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x4.size a ≤ S1600000x4.size a
  hwx3_1 : ∀ i : grid3.Coords, EltTy.bits .bf16 = 32 ∨ (Rect.block (s := S1600000x4) S8000x4.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .bf16 = 32 ∨ (Rect.block (s := S64x64) S64x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4x64.size a ≤ S4x64.size a
  hwx3_3 : ∀ i : grid3.Coords, EltTy.bits .bf16 = 32 ∨ (Rect.block (s := S4x64) S4x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .bf16 = 32 ∨ (Rect.block (s := S64x64) S64x64.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8000x64.size a ≤ S1600000x64.size a
  hwx3_7 : ∀ i : grid3.Coords, EltTy.bits .f32 = 32 ∨ (Rect.block (s := S1600000x64) S8000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S1600000x64.size a
  hwx5_0 : ∀ i : grid5.Coords, EltTy.bits .bf16 = 32 ∨ (Rect.block (s := S1600000x64) S8000x64.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x4.size a ≤ S1600000x4.size a
  hwx5_1 : ∀ i : grid5.Coords, EltTy.bits .bf16 = 32 ∨ (Rect.block (s := S1600000x4) S8000x4.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .bf16 = 32 ∨ (Rect.block (s := S64x64) S64x64.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S4x64.size a ≤ S4x64.size a
  hwx5_3 : ∀ i : grid5.Coords, EltTy.bits .bf16 = 32 ∨ (Rect.block (s := S4x64) S4x64.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .bf16 = 32 ∨ (Rect.block (s := S64x64) S64x64.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S8000x64.size a ≤ S1600000x64.size a
  hwx5_7 : ∀ i : grid5.Coords, EltTy.bits .f32 = 32 ∨ (Rect.block (s := S1600000x64) S8000x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .bf16 = 32 ∨ (Rect.block (s := S100000x64) S10000x64.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .bf16 = 32 ∨ (Rect.block (s := S64x64) S64x64.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x3.size a ≤ S64x3.size a
  hwx7_3 : ∀ i : grid7.Coords, EltTy.bits .bf16 = 32 ∨ (Rect.block (s := S64x3) S64x3.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x3.size a ≤ S1x3.size a
  hwx7_4 : ∀ i : grid7.Coords, EltTy.bits .f32 = 32 ∨ (Rect.block (s := S1x3) S1x3.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x3.size a ≤ S100000x3.size a
  hwx7_5 : ∀ i : grid7.Coords, EltTy.bits .f32 = 32 ∨ (Rect.block (s := S100000x3) S10000x3.size (cc7_transform_5 i) (hinb7_5 i)).WholeWords (EltTy.packing .f32)

variable [Facts₀]

def dot_S10000x5_S5x64_S10000x64_1_0_0_1_n_n : DotDims S10000x5 S5x64 S10000x64 where
  lhsContracting := [1]
  rhsContracting := [0]
  lhsNonContracting := [0]
  rhsNonContracting := [1]
  lhsBatch := []
  rhsBatch := []
  wf := dot_S10000x5_S5x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x4_S4x64_S8000x64_1_0_0_1_n_n : DotDims S8000x4 S4x64 S8000x64 where
  lhsContracting := [1]
  rhsContracting := [0]
  lhsNonContracting := [0]
  rhsNonContracting := [1]
  lhsBatch := []
  rhsBatch := []
  wf := dot_S8000x4_S4x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x3_S10000x3_1_0_0_1_n_n : DotDims S10000x64 S64x3 S10000x3 where
  lhsContracting := [1]
  rhsContracting := [0]
  lhsNonContracting := [0]
  rhsNonContracting := [1]
  lhsBatch := []
  rhsBatch := []
  wf := dot_S10000x64_S64x3_S10000x3_1_0_0_1_n_n_wf

abbrev win0_0 : Pipeline.Window sig grid0 :=
  Pipeline.Window.ofSpec (Memref.whole main_v4) S10000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S8000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S4x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S8000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v79) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S8000x4.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S4x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v91) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v92) S8000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v110) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v111) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v115) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v119) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v123) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v127) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v128) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v137) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v8) S8000x4.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v139) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v141) S4x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v148) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v145) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v149) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v150) S8000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v168) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v169) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v173) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v177) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v181) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v185) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v186) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v188) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v189) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v191) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v190) S64x3.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v192) S1x3.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v193) S10000x3.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x5 : Shape := ⟨2, ![100000, 5]⟩
abbrev S2x1600000 : Shape := ⟨2, ![2, 1600000]⟩
abbrev S1600000x4 : Shape := ⟨2, ![1600000, 4]⟩
abbrev S5x64 : Shape := ⟨2, ![5, 64]⟩
abbrev S64 : Shape := ⟨1, ![64]⟩
abbrev S3x68x64 : Shape := ⟨3, ![3, 68, 64]⟩
abbrev S3x64 : Shape := ⟨2, ![3, 64]⟩
abbrev S3x64x64 : Shape := ⟨3, ![3, 64, 64]⟩
abbrev S64x64 : Shape := ⟨2, ![64, 64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S1600000x68 : Shape := ⟨2, ![1600000, 68]⟩
abbrev S1x68x64 : Shape := ⟨3, ![1, 68, 64]⟩
abbrev S68x64 : Shape := ⟨2, ![68, 64]⟩
abbrev S1x64x64 : Shape := ⟨3, ![1, 64, 64]⟩
abbrev S100000x3 : Shape := ⟨2, ![100000, 3]⟩
abbrev S1x3 : Shape := ⟨2, ![1, 3]⟩

abbrev nBuf : Space → Nat
  | .hbm => 250
  | .vmem => 0
  | .smem => 0
  | _ => 0

abbrev hbmTy0_0 (i : Nat) : BufTy := match i % 128 with
  | 0 => ⟨S100000x5, .f32⟩
  | 1 => ⟨S2x1600000, .i32⟩
  | 2 => ⟨S1600000x4, .f32⟩
  | 3 => ⟨S5x64, .f32⟩
  | 4 => ⟨S64, .f32⟩
  | 5 => ⟨S3x68x64, .f32⟩
  | 6 => ⟨S3x64, .f32⟩
  | 7 => ⟨S3x64x64, .f32⟩
  | 8 => ⟨S3x64, .f32⟩
  | 9 => ⟨S3x64, .f32⟩
  | 10 => ⟨S3x64, .f32⟩
  | 11 => ⟨S64x64, .f32⟩
  | 12 => ⟨S64, .f32⟩
  | 13 => ⟨S64x3, .f32⟩
  | 14 => ⟨S3, .f32⟩
  | 15 => ⟨S1x1600000, .i32⟩
  | 16 => ⟨S1600000, .i32⟩
  | 17 => ⟨S1x1600000, .i32⟩
  | 18 => ⟨S1600000, .i32⟩
  | 19 => ⟨S100000x64, .f32⟩
  | 20 => ⟨S1x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S1600000x68, .f32⟩
  | 36 => ⟨S1x68x64, .f32⟩
  | 37 => ⟨S68x64, .f32⟩
  | 38 => ⟨S1600000x64, .f32⟩
  | 39 => ⟨S1x64, .f32⟩
  | 40 => ⟨S64, .f32⟩
  | 41 => ⟨S1x64, .f32⟩
  | 42 => ⟨S1600000x64, .f32⟩
  | 43 => ⟨S1600000x64, .f32⟩
  | 44 => ⟨S_, .f32⟩
  | 45 => ⟨S1600000x64, .f32⟩
  | 46 => ⟨S1600000x64, .f32⟩
  | 47 => ⟨S1x64x64, .f32⟩
  | 48 => ⟨S64x64, .f32⟩
  | 49 => ⟨S1600000x64, .f32⟩
  | 50 => ⟨S1x64, .f32⟩
  | 51 => ⟨S64, .f32⟩
  | 52 => ⟨S1x64, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S1x64, .f32⟩
  | 60 => ⟨S64, .f32⟩
  | 61 => ⟨S1x64, .f32⟩
  | 62 => ⟨S64, .f32⟩
  | 63 => ⟨S_, .f32⟩
  | 64 => ⟨S64, .f32⟩
  | 65 => ⟨S_, .f32⟩
  | 66 => ⟨S64, .f32⟩
  | 67 => ⟨S64, .f32⟩
  | 68 => ⟨S1x64, .f32⟩
  | 69 => ⟨S100000x64, .f32⟩
  | 70 => ⟨S100000x64, .f32⟩
  | 71 => ⟨S100000x64, .f32⟩
  | 72 => ⟨S_, .f32⟩
  | 73 => ⟨S64, .f32⟩
  | 74 => ⟨S_, .f32⟩
  | 75 => ⟨S64, .f32⟩
  | 76 => ⟨S64, .f32⟩
  | 77 => ⟨S1x64, .f32⟩
  | 78 => ⟨S100000x64, .f32⟩
  | 79 => ⟨S100000x64, .f32⟩
  | 80 => ⟨S_, .f32⟩
  | 81 => ⟨S64, .f32⟩
  | 82 => ⟨S64, .f32⟩
  | 83 => ⟨S64, .f32⟩
  | 84 => ⟨S1x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x68, .f32⟩
  | 107 => ⟨S1x68x64, .f32⟩
  | 108 => ⟨S68x64, .f32⟩
  | 109 => ⟨S1600000x64, .f32⟩
  | 110 => ⟨S1x64, .f32⟩
  | 111 => ⟨S64, .f32⟩
  | 112 => ⟨S1x64, .f32⟩
  | 113 => ⟨S1600000x64, .f32⟩
  | 114 => ⟨S1600000x64, .f32⟩
  | 115 => ⟨S_, .f32⟩
  | 116 => ⟨S1600000x64, .f32⟩
  | 117 => ⟨S1600000x64, .f32⟩
  | 118 => ⟨S1x64x64, .f32⟩
  | 119 => ⟨S64x64, .f32⟩
  | 120 => ⟨S1600000x64, .f32⟩
  | 121 => ⟨S1x64, .f32⟩
  | 122 => ⟨S64, .f32⟩
  | 123 => ⟨S1x64, .f32⟩
  | 124 => ⟨S1600000x64, .f32⟩
  | 125 => ⟨S1600000x64, .f32⟩
  | 126 => ⟨S_, .f32⟩
  | 127 => ⟨S100000x64, .f32⟩
  | _ => ⟨S100000x5, .f32⟩

abbrev hbmTy0_1 (i : Nat) : BufTy := match i % 128 with
  | 0 => ⟨S1600000x1, .i32⟩
  | 1 => ⟨S100000x64, .f32⟩
  | 2 => ⟨S1x64, .f32⟩
  | 3 => ⟨S64, .f32⟩
  | 4 => ⟨S1x64, .f32⟩
  | 5 => ⟨S64, .f32⟩
  | 6 => ⟨S_, .f32⟩
  | 7 => ⟨S64, .f32⟩
  | 8 => ⟨S_, .f32⟩
  | 9 => ⟨S64, .f32⟩
  | 10 => ⟨S64, .f32⟩
  | 11 => ⟨S1x64, .f32⟩
  | 12 => ⟨S100000x64, .f32⟩
  | 13 => ⟨S100000x64, .f32⟩
  | 14 => ⟨S100000x64, .f32⟩
  | 15 => ⟨S_, .f32⟩
  | 16 => ⟨S64, .f32⟩
  | 17 => ⟨S_, .f32⟩
  | 18 => ⟨S64, .f32⟩
  | 19 => ⟨S64, .f32⟩
  | 20 => ⟨S1x64, .f32⟩
  | 21 => ⟨S100000x64, .f32⟩
  | 22 => ⟨S100000x64, .f32⟩
  | 23 => ⟨S_, .f32⟩
  | 24 => ⟨S64, .f32⟩
  | 25 => ⟨S64, .f32⟩
  | 26 => ⟨S64, .f32⟩
  | 27 => ⟨S1x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x64, .f32⟩
  | 49 => ⟨S1600000x68, .f32⟩
  | 50 => ⟨S1x68x64, .f32⟩
  | 51 => ⟨S68x64, .f32⟩
  | 52 => ⟨S1600000x64, .f32⟩
  | 53 => ⟨S1x64, .f32⟩
  | 54 => ⟨S64, .f32⟩
  | 55 => ⟨S1x64, .f32⟩
  | 56 => ⟨S1600000x64, .f32⟩
  | 57 => ⟨S1600000x64, .f32⟩
  | 58 => ⟨S_, .f32⟩
  | 59 => ⟨S1600000x64, .f32⟩
  | 60 => ⟨S1600000x64, .f32⟩
  | 61 => ⟨S1x64x64, .f32⟩
  | 62 => ⟨S64x64, .f32⟩
  | 63 => ⟨S1600000x64, .f32⟩
  | 64 => ⟨S1x64, .f32⟩
  | 65 => ⟨S64, .f32⟩
  | 66 => ⟨S1x64, .f32⟩
  | 67 => ⟨S1600000x64, .f32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S1x64, .f32⟩
  | 74 => ⟨S64, .f32⟩
  | 75 => ⟨S1x64, .f32⟩
  | 76 => ⟨S64, .f32⟩
  | 77 => ⟨S_, .f32⟩
  | 78 => ⟨S64, .f32⟩
  | 79 => ⟨S_, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S100000x64, .f32⟩
  | 86 => ⟨S_, .f32⟩
  | 87 => ⟨S64, .f32⟩
  | 88 => ⟨S_, .f32⟩
  | 89 => ⟨S64, .f32⟩
  | 90 => ⟨S64, .f32⟩
  | 91 => ⟨S1x64, .f32⟩
  | 92 => ⟨S100000x64, .f32⟩
  | 93 => ⟨S100000x64, .f32⟩
  | 94 => ⟨S_, .f32⟩
  | 95 => ⟨S64, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S100000x3, .f32⟩
  | 119 => ⟨S1x3, .f32⟩
  | 120 => ⟨S100000x3, .f32⟩
  | 121 => ⟨S100000x3, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_cst : Ref sig .tc := ⟨.hbm, 44, rfl⟩
abbrev main_call1_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_1 : Ref sig .tc := ⟨.hbm, 63, rfl⟩
abbrev main_v41 : Ref sig .tc := ⟨.hbm, 64, rfl⟩
abbrev main_cst_2 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_3 : Ref sig .tc := ⟨.hbm, 72, rfl⟩
abbrev main_v48 : Ref sig .tc := ⟨.hbm, 73, rfl⟩
abbrev main_cst_4 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_v67 : Ref sig .tc := ⟨.hbm, 96, rfl⟩
abbrev main_c_6 : Ref sig .tc := ⟨.hbm, 97, rfl⟩
abbrev main_v68 : Ref sig .tc := ⟨.hbm, 98, rfl⟩
abbrev main_v69 : Ref sig .tc := ⟨.hbm, 99, rfl⟩
abbrev main_c_7 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call3_cst : Ref sig .tc := ⟨.hbm, 115, rfl⟩
abbrev main_call3_v0 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_8 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_9 : Ref sig .tc := ⟨.hbm, 134, rfl⟩
abbrev main_v100 : Ref sig .tc := ⟨.hbm, 135, rfl⟩
abbrev main_cst_10 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_11 : Ref sig .tc := ⟨.hbm, 143, rfl⟩
abbrev main_v107 : Ref sig .tc := ⟨.hbm, 144, rfl⟩
abbrev main_cst_12 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_13 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_call4_cst : Ref sig .tc := ⟨.hbm, 164, rfl⟩
abbrev main_call4_v0 : Ref sig .tc := ⟨.hbm, 165, rfl⟩
abbrev main_v125 : Ref sig .tc := ⟨.hbm, 166, rfl⟩
abbrev main_v126 : Ref sig .tc := ⟨.hbm, 167, rfl⟩
abbrev main_c_14 : Ref sig .tc := ⟨.hbm, 168, rfl⟩
abbrev main_v127 : Ref sig .tc := ⟨.hbm, 169, rfl⟩
abbrev main_v128 : Ref sig .tc := ⟨.hbm, 170, rfl⟩
abbrev main_c_15 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_call5_cst : Ref sig .tc := ⟨.hbm, 186, rfl⟩
abbrev main_call5_v0 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_cst_16 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_cst_17 : Ref sig .tc := ⟨.hbm, 205, rfl⟩
abbrev main_v159 : Ref sig .tc := ⟨.hbm, 206, rfl⟩
abbrev main_cst_18 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_cst_19 : Ref sig .tc := ⟨.hbm, 214, rfl⟩
abbrev main_v166 : Ref sig .tc := ⟨.hbm, 215, rfl⟩
abbrev main_cst_20 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_cst_21 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_call6_cst : Ref sig .tc := ⟨.hbm, 235, rfl⟩
abbrev main_call6_v0 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_call7_cst : Ref sig .tc := ⟨.hbm, 243, rfl⟩
abbrev main_call7_v0 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x4_S1600000x68_d1 : Shape.Concatenates [S1600000x64, S1600000x4] S1600000x68 1
  slices_S3x68x64_S1x68x64_0_0_0 : S3x68x64.Slices ![0, 0, 0] S1x68x64
  shapeCasts_S1x68x64_S68x64 : S1x68x64.ShapeCasts S68x64
  slices_S3x64_S1x64_0_0 : S3x64.Slices ![0, 0] S1x64
  shapeCasts_S1x64_S64 : S1x64.ShapeCasts S64
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  slices_S3x64x64_S1x64x64_0_0_0 : S3x64x64.Slices ![0, 0, 0] S1x64x64
  shapeCasts_S1x64x64_S64x64 : S1x64x64.ShapeCasts S64x64
  reducesTo_S100000x64_S64_d0 : S100000x64.ReducesTo [0] S64
  h_S_ : 0 < S_.numel
  bcast_S_S64 : S_.BroadcastsInDim S64 (![] : Fin 0 → Fin S64.rank)
  slices_S3x68x64_S1x68x64_1_0_0 : S3x68x64.Slices ![1, 0, 0] S1x68x64
  slices_S3x64_S1x64_1_0 : S3x64.Slices ![1, 0] S1x64
  slices_S3x64x64_S1x64x64_1_0_0 : S3x64x64.Slices ![1, 0, 0] S1x64x64
  slices_S3x68x64_S1x68x64_2_0_0 : S3x68x64.Slices ![2, 0, 0] S1x68x64
  slices_S3x64_S1x64_2_0 : S3x64.Slices ![2, 0] S1x64
  slices_S3x64x64_S1x64x64_2_0_0 : S3x64x64.Slices ![2, 0, 0] S1x64x64
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x5_S5x64_S100000x64_1_0_0_1_n_n_wf : DotDims.WF S100000x5 S5x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x68_S68x64_S1600000x64_1_0_0_1_n_n_wf : DotDims.WF S1600000x68 S68x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x3_S100000x3_1_0_0_1_n_n_wf : DotDims.WF S100000x64 S64x3 S100000x3 [1] [0] [0] [1] [] []

variable [Facts₀]

def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x68_S68x64_S1600000x64_1_0_0_1_n_n : DotDims S1600000x68 S68x64 S1600000x64 where
  lhsContracting := [1]
  rhsContracting := [0]
  lhsNonContracting := [0]
  rhsNonContracting := [1]
  lhsBatch := []
  rhsBatch := []
  wf := dot_S1600000x68_S68x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.KRun.lean ====
/-
  The kernel program's run with its result named.

  Every weakly fair execution of the program on the TensorCores terminates without a fault; in the final state the
  result array holds what the program's last region leaves in it — the fold of the program's sixteen segments (eight
  stretches of host operations, eight regions) over the launch memory, read at the result array — and every argument
  array is as launched.
-/
import proofs.«163580_j15788299780297_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments unchanged. -/
theorem run_value : θ_run defs (onTc (τ := τ) (main (F := F))) ⟨m, fun _ => 0, ρ⟩ (fun r => ∀ c : Dev nD,
      r.2.mem ((c.tc : Thread nD τ).loc main_v193) = W16 m ρ c (Proc.devRef .tc main_v193)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v193 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c)⟩)

end Cert.KernelIdeal.Whole

end
-- ==== Proof.Spec.lean ====
/-
  The four dense stages of a message-passing network, as functions of whole arrays on the extended reals.

  A matrix is a function of its two coordinates.  Every stage below is ROW-LOCAL in its first argument(s): row `r` of the
  result depends only on row `r` of the row-indexed operands (and on all of the weights), which is what lets a result
  computed block of rows by block of rows be read as one function of the whole arrays (`*_rows`).

  * `denseRelu`  : `max (x·W + b, 0)`                                          — the node encoder;
  * `edgeMsg`    : `max (hs·Wh + ea·We + b1, 0)·W2 + b2`                       — an edge's message, the first product split
                    into the part acting on the gathered node features and the part acting on the edge attributes;
  * `edgeMsgCat` : the same with the two parts joined: `max (cat·W1 + b1, 0)·W2 + b2`, `W1` of 64 + 4 rows;
  * `normResid`  : `h + max ((a - μ)·rsqrt (v + ε)·γ + β, 0)`                   — batch normalisation, relu, residual;
  * `mlpTwo`     : `max (x·W3 + b3, 0)·W4 + b4`                                — the read-out.
  Each is given first at a row `r` and a column `c` (`…At`), then as the matrix `fun i => …At (i 0) (i 1)`; at an index built
  from its coordinates the matrix is the entry (`…_apply`, by `rfl`).
  The zero and ε are kept as the f32 words the programs carry (`0x00000000`, `0x3727C5AC`).
-/
import Idealize.ShloMosaic.PureOps.Ideal.Laws
import Idealize.ShloMosaic.Lib.ValueIdx

noncomputable section

namespace Cert.Gnn

open Idealize.ShloMosaic Idealize.ShloMosaic.ValueIdx
open scoped BigOperators

/-- A matrix of extended reals: a function of its two coordinates. -/
abbrev Mat (a b : ℕ) : Type := (⟨2, ![a, b]⟩ : Shape).Idx → EReal

/-- The f32 zero word's value. -/
abbrev zeroE : EReal := Ideal.ofBits .f32 0x00000000#32
/-- The normalisation's ε: the f32 word nearest 1e-5. -/
abbrev epsE : EReal := Ideal.ofBits .f32 0x3727C5AC#32

/-- `max (x·W + b, 0)` at row `r`, column `c`; the bias a one-row matrix. -/
def denseReluAt (n k h : ℕ) (x : Mat n k) (w : Mat k h) (b : Mat 1 h) (r : Fin n) (c : Fin h) : EReal :=
  max ((∑ q : Fin k, x (ix2 r q) * w (ix2 q c)) + b (ix2 0 c)) zeroE
def denseRelu (n k h : ℕ) (x : Mat n k) (w : Mat k h) (b : Mat 1 h) : Mat n h :=
  fun i => denseReluAt n k h x w b (i 0) (i 1)
theorem denseRelu_apply (n k h : ℕ) (x : Mat n k) (w : Mat k h) (b : Mat 1 h) (r : Fin n) (c : Fin h) :
    denseRelu n k h x w b (ix2 r c) = denseReluAt n k h x w b r c := rfl

/-- The hidden layer of an edge's message at edge `r`, hidden unit `j`: `max (hs·Wh + ea·We + b1, 0)`. -/
def edgeHidAt (n : ℕ) (hs : Mat n 64) (ea : Mat n 4) (wh : Mat 64 64) (we : Mat 4 64) (b1 : Mat 1 64) (r : Fin n) (j : Fin 64) : EReal :=
  max (((∑ q : Fin 64, hs (ix2 r q) * wh (ix2 q j)) + (∑ q : Fin 4, ea (ix2 r q) * we (ix2 q j))) + b1 (ix2 0 j)) zeroE
/-- `max (hs·Wh + ea·We + b1, 0)·W2 + b2` at edge `r`, column `c`. -/
def edgeMsgAt (n : ℕ) (hs : Mat n 64) (ea : Mat n 4) (wh : Mat 64 64) (we : Mat 4 64) (b1 : Mat 1 64) (w2 : Mat 64 64)
    (b2 : Mat 1 64) (r : Fin n) (c : Fin 64) : EReal :=
  (∑ j : Fin 64, edgeHidAt n hs ea wh we b1 r j * w2 (ix2 j c)) + b2 (ix2 0 c)
def edgeMsg (n : ℕ) (hs : Mat n 64) (ea : Mat n 4) (wh : Mat 64 64) (we : Mat 4 64) (b1 : Mat 1 64) (w2 : Mat 64 64)
    (b2 : Mat 1 64) : Mat n 64 :=
  fun i => edgeMsgAt n hs ea wh we b1 w2 b2 (i 0) (i 1)
theorem edgeMsg_apply (n : ℕ) (hs : Mat n 64) (ea : Mat n 4) (wh : Mat 64 64) (we : Mat 4 64) (b1 : Mat 1 64) (w2 : Mat 64 64)
    (b2 : Mat 1 64) (r : Fin n) (c : Fin 64) :
    edgeMsg n hs ea wh we b1 w2 b2 (ix2 r c) = edgeMsgAt n hs ea wh we b1 w2 b2 r c := rfl

/-- `max (cat·W1 + b1, 0)·W2 + b2` with `cat` of 68 columns, at edge `r`, column `c`. -/
def edgeMsgCatAt (n : ℕ) (cat : Mat n 68) (w1 : Mat 68 64) (b1 : Mat 1 64) (w2 : Mat 64 64) (b2 : Mat 1 64) (r : Fin n) (c : Fin 64) : EReal :=
  (∑ j : Fin 64, max ((∑ q : Fin 68, cat (ix2 r q) * w1 (ix2 q j)) + b1 (ix2 0 j)) zeroE * w2 (ix2 j c)) + b2 (ix2 0 c)
def edgeMsgCat (n : ℕ) (cat : Mat n 68) (w1 : Mat 68 64) (b1 : Mat 1 64) (w2 : Mat 64 64) (b2 : Mat 1 64) : Mat n 64 :=
  fun i => edgeMsgCatAt n cat w1 b1 w2 b2 (i 0) (i 1)
theorem edgeMsgCat_apply (n : ℕ) (cat : Mat n 68) (w1 : Mat 68 64) (b1 : Mat 1 64) (w2 : Mat 64 64) (b2 : Mat 1 64) (r : Fin n) (c : Fin 64) :
    edgeMsgCat n cat w1 b1 w2 b2 (ix2 r c) = edgeMsgCatAt n cat w1 b1 w2 b2 r c := rfl

/-- `h + max ((a - μ)·rsqrt (v + ε)·γ + β, 0)` at row `r`, column `c`; the statistics and the affine pair one-row matrices. -/
def normResidAt (n k : ℕ) (h a : Mat n k) (mu var gam bet : Mat 1 k) (r : Fin n) (c : Fin k) : EReal :=
  h (ix2 r c) + max ((((a (ix2 r c) - mu (ix2 0 c)) * Ideal.rsqrt (var (ix2 0 c) + epsE)) * gam (ix2 0 c)) + bet (ix2 0 c)) zeroE
def normResid (n k : ℕ) (h a : Mat n k) (mu var gam bet : Mat 1 k) : Mat n k :=
  fun i => normResidAt n k h a mu var gam bet (i 0) (i 1)
theorem normResid_apply (n k : ℕ) (h a : Mat n k) (mu var gam bet : Mat 1 k) (r : Fin n) (c : Fin k) :
    normResid n k h a mu var gam bet (ix2 r c) = normResidAt n k h a mu var gam bet r c := rfl

/-- `max (x·W3 + b3, 0)·W4 + b4` at row `r`, column `c`. -/
def mlpTwoAt (n k h o : ℕ) (x : Mat n k) (w3 : Mat k h) (b3 : Mat 1 h) (w4 : Mat h o) (b4 : Mat 1 o) (r : Fin n) (c : Fin o) : EReal :=
  (∑ j : Fin h, denseReluAt n k h x w3 b3 r j * w4 (ix2 j c)) + b4 (ix2 0 c)
def mlpTwo (n k h o : ℕ) (x : Mat n k) (w3 : Mat k h) (b3 : Mat 1 h) (w4 : Mat h o) (b4 : Mat 1 o) : Mat n o :=
  fun i => mlpTwoAt n k h o x w3 b3 w4 b4 (i 0) (i 1)
theorem mlpTwo_apply (n k h o : ℕ) (x : Mat n k) (w3 : Mat k h) (b3 : Mat 1 h) (w4 : Mat h o) (b4 : Mat 1 o) (r : Fin n) (c : Fin o) :
    mlpTwo n k h o x w3 b3 w4 b4 (ix2 r c) = mlpTwoAt n k h o x w3 b3 w4 b4 r c := rfl

/-! ## Row-locality: a block of rows of the operands gives the same rows of the result -/

theorem denseReluAt_rows {n n' k h : ℕ} (x : Mat n k) (x' : Mat n' k) (w : Mat k h) (b : Mat 1 h) (p : Fin n) (r : Fin n') (c : Fin h)
    (hx : ∀ q, x (ix2 p q) = x' (ix2 r q)) : denseReluAt n k h x w b p c = denseReluAt n' k h x' w b r c := by
  unfold denseReluAt
  simp only [hx]

theorem edgeMsgAt_rows {n n' : ℕ} (hs : Mat n 64) (hs' : Mat n' 64) (ea : Mat n 4) (ea' : Mat n' 4) (wh : Mat 64 64) (we : Mat 4 64)
    (b1 : Mat 1 64) (w2 : Mat 64 64) (b2 : Mat 1 64) (p : Fin n) (r : Fin n') (c : Fin 64)
    (hh : ∀ q, hs (ix2 p q) = hs' (ix2 r q)) (he : ∀ q, ea (ix2 p q) = ea' (ix2 r q)) :
    edgeMsgAt n hs ea wh we b1 w2 b2 p c = edgeMsgAt n' hs' ea' wh we b1 w2 b2 r c := by
  unfold edgeMsgAt edgeHidAt
  simp only [hh, he]

theorem normResidAt_rows {n n' k : ℕ} (h a : Mat n k) (h' a' : Mat n' k) (mu var gam bet : Mat 1 k) (p : Fin n) (r : Fin n') (c : Fin k)
    (hh : h (ix2 p c) = h' (ix2 r c)) (ha : a (ix2 p c) = a' (ix2 r c)) :
    normResidAt n k h a mu var gam bet p c = normResidAt n' k h' a' mu var gam bet r c := by
  unfold normResidAt
  simp only [hh, ha]

theorem mlpTwoAt_rows {n n' k h o : ℕ} (x : Mat n k) (x' : Mat n' k) (w3 : Mat k h) (b3 : Mat 1 h) (w4 : Mat h o) (b4 : Mat 1 o)
    (p : Fin n) (r : Fin n') (c : Fin o) (hx : ∀ q, x (ix2 p q) = x' (ix2 r q)) :
    mlpTwoAt n k h o x w3 b3 w4 b4 p c = mlpTwoAt n' k h o x' w3 b3 w4 b4 r c := by
  unfold mlpTwoAt
  simp only [denseReluAt_rows x x' w3 b3 p r _ hx]

end Cert.Gnn

end
-- ==== Proof.KTerms.lean ====
/-
  The kernel program's stages as functions of arrays: the host operations around the regions in the program's own
  spelling, each region by the specification's stage function (its result array is that function of its operand arrays).

  `encK` is the node encoder on the operands rounded to the narrow format (the identity on the extended reals);
  `srcIdx` / `dstIdx` the two rows of the edge list; `gatherK` the rows of the (rounded) node features at the wrapped
  source indices; `whAt…` / `weAt…` the layer's first weight cut into its 64 rows acting on node features and its 4 rows
  acting on edge attributes; `msgK` an edge's message; `aggK` the sum of the messages at their destination nodes;
  `meanK` / `varK` the column statistics; `view` the `[100000, 64]` array read as `[50000, 128]` (two rows per row),
  `tile` a `[64]` vector repeated twice as a `[1, 128]` row; `normK` normalisation and residual on that view, read back
  as `[100000, 64]`; `layerK` one layer; `finK` the read-out; `outK` the whole program.
-/
import proofs.«163580_j15788299780297_2_alg».proof.KernelIdeal
import proofs.«163580_j15788299780297_2_alg».proof.Proof.Gen.KernelIdeal
import proofs.«163580_j15788299780297_2_alg».proof.Proof.Spec

noncomputable section

namespace Cert.KernelIdeal.Terms

open Cert.KernelIdeal Cert.KernelIdeal.Gen Idealize.ShloMosaic

/-- The contents of an f32 array of shape `S`, as extended reals. -/
abbrev A (S : Shape) : Type := (⟨S, .f32⟩ : BufTy).Contents (Elt Ideal)
/-- The contents of a bf16 array of shape `S`, as extended reals. -/
abbrev B (S : Shape) : Type := (⟨S, .bf16⟩ : BufTy).Contents (Elt Ideal)
/-- The contents of a 32-bit integer array of shape `S`. -/
abbrev I (S : Shape) : Type := (⟨S, .i32⟩ : BufTy).Contents (Elt Ideal)

def srcIdx (ei : I S2x1600000) : I S1600000 :=
  shapeCast _ (extractStridedSlice S1x1600000 ![0, 0] ei slices_S2x1600000_S1x1600000_0_0) shapeCasts_S1x1600000_S1600000
def dstIdx (ei : I S2x1600000) : I S1600000 :=
  shapeCast _ (extractStridedSlice S1x1600000 ![1, 0] ei slices_S2x1600000_S1x1600000_1_0) shapeCasts_S1x1600000_S1600000

/-- A `[64]` vector as a `[1, 64]` row. -/
def asRow (v : A S64) : A S1x64 := shapeCast _ v shapeCasts_S64_S1x64

def encK (x : A S100000x5) (win : A S5x64) (bin : A S64) : A S100000x64 :=
  Cert.Gnn.denseRelu 100000 5 64 (truncf (F := Ideal) .bf16 x bitsLt_bf16_f32 : B S100000x5) (truncf (F := Ideal) .bf16 win bitsLt_bf16_f32 : B S5x64) (asRow bin)

def gatherK (h : A S100000x64) (src : I S1600000) : B S1600000x64 :=
  Host.gather gather_S100000x64_S1600000x1_S1600000x64_1_0_n_n_0_1_164 (truncf (F := Ideal) .bf16 h bitsLt_bf16_f32 : B S100000x64)
    (broadcastInDim S1600000x1 ![0] bcast_S1600000_S1600000x1_0
      (select (cmpi .slt src (broadcastInDim S1600000 ![] bcast_S_S1600000 (constantI S_ 32 0#32)))
        (addi src (broadcastInDim S1600000 ![] bcast_S_S1600000 (constantI S_ 32 100000#32))) src))

/-- The stacked first weights' 64 rows acting on node features, rounded. -/
def whAll (w1 : A S3x68x64) : B S3x64x64 :=
  truncf (F := Ideal) .bf16 (extractStridedSlice S3x64x64 ![0, 0, 0] w1 slices_S3x68x64_S3x64x64_0_0_0) bitsLt_bf16_f32
/-- The stacked first weights' 4 rows acting on edge attributes, rounded. -/
def weAll (w1 : A S3x68x64) : B S3x4x64 :=
  truncf (F := Ideal) .bf16 (extractStridedSlice S3x4x64 ![0, 64, 0] w1 slices_S3x68x64_S3x4x64_0_64_0) bitsLt_bf16_f32
/-- The stacked second weights, rounded. -/
def w2All (w2 : A S3x64x64) : B S3x64x64 := truncf (F := Ideal) .bf16 w2 bitsLt_bf16_f32

def mat0 (w : B S3x64x64) : B S64x64 := shapeCast _ (extractStridedSlice S1x64x64 ![0, 0, 0] w slices_S3x64x64_S1x64x64_0_0_0) shapeCasts_S1x64x64_S64x64
def mat1 (w : B S3x64x64) : B S64x64 := shapeCast _ (extractStridedSlice S1x64x64 ![1, 0, 0] w slices_S3x64x64_S1x64x64_1_0_0) shapeCasts_S1x64x64_S64x64
def mat2 (w : B S3x64x64) : B S64x64 := shapeCast _ (extractStridedSlice S1x64x64 ![2, 0, 0] w slices_S3x64x64_S1x64x64_2_0_0) shapeCasts_S1x64x64_S64x64
def emat0 (w : B S3x4x64) : B S4x64 := shapeCast _ (extractStridedSlice S1x4x64 ![0, 0, 0] w slices_S3x4x64_S1x4x64_0_0_0) shapeCasts_S1x4x64_S4x64
def emat1 (w : B S3x4x64) : B S4x64 := shapeCast _ (extractStridedSlice S1x4x64 ![1, 0, 0] w slices_S3x4x64_S1x4x64_1_0_0) shapeCasts_S1x4x64_S4x64
def emat2 (w : B S3x4x64) : B S4x64 := shapeCast _ (extractStridedSlice S1x4x64 ![2, 0, 0] w slices_S3x4x64_S1x4x64_2_0_0) shapeCasts_S1x4x64_S4x64
def rowAt0 (v : A S3x64) : A S64 := shapeCast _ (extractStridedSlice S1x64 ![0, 0] v slices_S3x64_S1x64_0_0) shapeCasts_S1x64_S64
def rowAt1 (v : A S3x64) : A S64 := shapeCast _ (extractStridedSlice S1x64 ![1, 0] v slices_S3x64_S1x64_1_0) shapeCasts_S1x64_S64
def rowAt2 (v : A S3x64) : A S64 := shapeCast _ (extractStridedSlice S1x64 ![2, 0] v slices_S3x64_S1x64_2_0) shapeCasts_S1x64_S64

def msgK (hs : B S1600000x64) (ea : A S1600000x4) (wh : B S64x64) (we : B S4x64) (b1 : A S64) (w2 : B S64x64) (b2 : A S64) :
    A S1600000x64 :=
  Cert.Gnn.edgeMsg 1600000 hs (truncf (F := Ideal) .bf16 ea bitsLt_bf16_f32 : B S1600000x4) wh we (asRow b1) w2 (asRow b2)

def aggK (dst : I S1600000) (msg : A S1600000x64) : A S100000x64 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst) msg

def meanK (a : A S100000x64) : A S64 :=
  Host.divf (F := Ideal) (Host.reduceAdd (F := Ideal) a (constant (F := Ideal) S_ .f32 0x00000000#32) reducesTo_S100000x64_S64_d0 h_S_)
    (broadcastInDim S64 ![] bcast_S_S64 (constant (F := Ideal) S_ .f32 0x47C35000#32))

/-- A `[64]` vector as every row of a `[100000, 64]` matrix. -/
abbrev rowsN (v : A S64) : A S100000x64 :=
  broadcastInDim S100000x64 ![0, 1] bcast_S1x64_S100000x64_0_1 (broadcastInDim S1x64 ![1] bcast_S64_S1x64_1 v)

def varK (a : A S100000x64) (mu : A S64) : A S64 :=
  meanK (mulf (F := Ideal) (φ := .f32) (subf (F := Ideal) (φ := .f32) a (rowsN mu)) (subf (F := Ideal) (φ := .f32) a (rowsN mu)))

/-- The `[100000, 64]` array read two rows per row. -/
def view (h : A S100000x64) : A S50000x128 := shapeCast _ h shapeCasts_S100000x64_S50000x128
/-- A `[64]` vector twice in a `[1, 128]` row. -/
def tile (v : A S64) : A S1x128 :=
  shapeCast _ (shapeCast _ (broadcastInDim S2x64 ![0, 1] bcast_S1x64_S2x64_0_1 (asRow v)) shapeCasts_S2x64_S128) shapeCasts_S128_S1x128

def normK (h a : A S100000x64) (mu var gam bet : A S64) : A S100000x64 :=
  shapeCast _ (Cert.Gnn.normResid 50000 128 (view h) (view a) (tile mu) (tile var) (tile gam) (tile bet) : A S50000x128)
    shapeCasts_S50000x128_S100000x64

/-- One layer: gather, message, aggregate, statistics, normalise and add. -/
def layerK (h : A S100000x64) (src dst : I S1600000) (ea : A S1600000x4) (wh : B S64x64) (we : B S4x64) (b1 : A S64)
    (w2 : B S64x64) (b2 gam bet : A S64) : A S100000x64 :=
  normK h (aggK dst (msgK (gatherK h src) ea wh we b1 w2 b2))
    (meanK (aggK dst (msgK (gatherK h src) ea wh we b1 w2 b2)))
    (varK (aggK dst (msgK (gatherK h src) ea wh we b1 w2 b2)) (meanK (aggK dst (msgK (gatherK h src) ea wh we b1 w2 b2))))
    gam bet

def finK (h : A S100000x64) (w3 : A S64x64) (b3 : A S64) (w4 : A S64x3) (b4 : A S3) : A S100000x3 :=
  Cert.Gnn.mlpTwo 100000 64 64 3 (truncf (F := Ideal) .bf16 h bitsLt_bf16_f32 : B S100000x64) (truncf (F := Ideal) .bf16 w3 bitsLt_bf16_f32 : B S64x64) (asRow b3)
    (truncf (F := Ideal) .bf16 w4 bitsLt_bf16_f32 : B S64x3) (shapeCast _ b4 shapeCasts_S3_S1x3 : A S1x3)

/-- The node features after the first layer. -/
def h1K (x : A S100000x5) (ei : I S2x1600000) (ea : A S1600000x4) (win : A S5x64) (bin : A S64) (w1 : A S3x68x64)
    (b1 : A S3x64) (w2 : A S3x64x64) (b2 gam bet : A S3x64) : A S100000x64 :=
  layerK (encK x win bin) (srcIdx ei) (dstIdx ei) ea (mat0 (whAll w1)) (emat0 (weAll w1)) (rowAt0 b1) (mat0 (w2All w2)) (rowAt0 b2) (rowAt0 gam) (rowAt0 bet)
/-- … after the second … -/
def h2K (x : A S100000x5) (ei : I S2x1600000) (ea : A S1600000x4) (win : A S5x64) (bin : A S64) (w1 : A S3x68x64)
    (b1 : A S3x64) (w2 : A S3x64x64) (b2 gam bet : A S3x64) : A S100000x64 :=
  layerK (h1K x ei ea win bin w1 b1 w2 b2 gam bet) (srcIdx ei) (dstIdx ei) ea (mat1 (whAll w1)) (emat1 (weAll w1)) (rowAt1 b1) (mat1 (w2All w2)) (rowAt1 b2) (rowAt1 gam) (rowAt1 bet)
/-- … and after the third. -/
def h3K (x : A S100000x5) (ei : I S2x1600000) (ea : A S1600000x4) (win : A S5x64) (bin : A S64) (w1 : A S3x68x64)
    (b1 : A S3x64) (w2 : A S3x64x64) (b2 gam bet : A S3x64) : A S100000x64 :=
  layerK (h2K x ei ea win bin w1 b1 w2 b2 gam bet) (srcIdx ei) (dstIdx ei) ea (mat2 (whAll w1)) (emat2 (weAll w1)) (rowAt2 b1) (mat2 (w2All w2)) (rowAt2 b2) (rowAt2 gam) (rowAt2 bet)

/-- The whole kernel program: encoder, three layers, read-out. -/
def outK (x : A S100000x5) (ei : I S2x1600000) (ea : A S1600000x4) (win : A S5x64) (bin : A S64) (w1 : A S3x68x64)
    (b1 : A S3x64) (w2 : A S3x64x64) (b2 gam bet : A S3x64) (w3 : A S64x64) (b3 : A S64) (w4 : A S64x3) (b4 : A S3) :
    A S100000x3 :=
  finK (h3K x ei ea win bin w1 b1 w2 b2 gam bet) w3 b3 w4 b4

end Cert.KernelIdeal.Terms

end
-- ==== Proof.KFoldDefs.lean ====
/-
  Names for what the kernel program's buffers hold along its run, as functions of the launch memory `m` on a core `c`:
  the fifteen argument arrays `X0 … X14`; the node features after the encoder and after each layer (`Hk0 … Hk3`); the
  edge list's rows; and per layer its parameters, the gathered features, the messages, the aggregate, the column mean
  and variance, and the normalised, residual-added features on the two-rows-per-row view (`NV…`).
-/
import proofs.«163580_j15788299780297_2_alg».proof.Proof.Gen.KernelIdeal.Frame
import proofs.«163580_j15788299780297_2_alg».proof.Proof.KTerms

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

abbrev X0 (c : Dev nD) : Terms.A S100000x5 := m ((c : Thread nD τ).loc main_arg0)
abbrev X1 (c : Dev nD) : Terms.I S2x1600000 := m ((c : Thread nD τ).loc main_arg1)
abbrev X2 (c : Dev nD) : Terms.A S1600000x4 := m ((c : Thread nD τ).loc main_arg2)
abbrev X3 (c : Dev nD) : Terms.A S5x64 := m ((c : Thread nD τ).loc main_arg3)
abbrev X4 (c : Dev nD) : Terms.A S64 := m ((c : Thread nD τ).loc main_arg4)
abbrev X5 (c : Dev nD) : Terms.A S3x68x64 := m ((c : Thread nD τ).loc main_arg5)
abbrev X6 (c : Dev nD) : Terms.A S3x64 := m ((c : Thread nD τ).loc main_arg6)
abbrev X7 (c : Dev nD) : Terms.A S3x64x64 := m ((c : Thread nD τ).loc main_arg7)
abbrev X8 (c : Dev nD) : Terms.A S3x64 := m ((c : Thread nD τ).loc main_arg8)
abbrev X9 (c : Dev nD) : Terms.A S3x64 := m ((c : Thread nD τ).loc main_arg9)
abbrev X10 (c : Dev nD) : Terms.A S3x64 := m ((c : Thread nD τ).loc main_arg10)
abbrev X11 (c : Dev nD) : Terms.A S64x64 := m ((c : Thread nD τ).loc main_arg11)
abbrev X12 (c : Dev nD) : Terms.A S64 := m ((c : Thread nD τ).loc main_arg12)
abbrev X13 (c : Dev nD) : Terms.A S64x3 := m ((c : Thread nD τ).loc main_arg13)
abbrev X14 (c : Dev nD) : Terms.A S3 := m ((c : Thread nD τ).loc main_arg14)

/-- The node features after the encoder and after each layer. -/
def Hk0 (c : Dev nD) : Terms.A S100000x64 := Terms.encK (X0 m c) (X3 m c) (X4 m c)
def Hk1 (c : Dev nD) : Terms.A S100000x64 := Terms.h1K (X0 m c) (X1 m c) (X2 m c) (X3 m c) (X4 m c) (X5 m c) (X6 m c) (X7 m c) (X8 m c) (X9 m c) (X10 m c)
def Hk2 (c : Dev nD) : Terms.A S100000x64 := Terms.h2K (X0 m c) (X1 m c) (X2 m c) (X3 m c) (X4 m c) (X5 m c) (X6 m c) (X7 m c) (X8 m c) (X9 m c) (X10 m c)
def Hk3 (c : Dev nD) : Terms.A S100000x64 := Terms.h3K (X0 m c) (X1 m c) (X2 m c) (X3 m c) (X4 m c) (X5 m c) (X6 m c) (X7 m c) (X8 m c) (X9 m c) (X10 m c)
/-- The edge list's source and destination rows. -/
def Sx (c : Dev nD) : Terms.I S1600000 := Terms.srcIdx (X1 m c)
def Dx (c : Dev nD) : Terms.I S1600000 := Terms.dstIdx (X1 m c)

/-- Layer 1's parameters, gathered features, messages, aggregate and column statistics. -/
def WH0 (c : Dev nD) : Terms.B S64x64 := Terms.mat0 (Terms.whAll (X5 m c))
def WE0 (c : Dev nD) : Terms.B S4x64 := Terms.emat0 (Terms.weAll (X5 m c))
def B10 (c : Dev nD) : Terms.A S64 := Terms.rowAt0 (X6 m c)
def W20 (c : Dev nD) : Terms.B S64x64 := Terms.mat0 (Terms.w2All (X7 m c))
def B20 (c : Dev nD) : Terms.A S64 := Terms.rowAt0 (X8 m c)
def G0 (c : Dev nD) : Terms.A S64 := Terms.rowAt0 (X9 m c)
def Bt0 (c : Dev nD) : Terms.A S64 := Terms.rowAt0 (X10 m c)
def HS0 (c : Dev nD) : Terms.B S1600000x64 := Terms.gatherK (Hk0 m c) (Sx m c)
def M0 (c : Dev nD) : Terms.A S1600000x64 := Terms.msgK (HS0 m c) (X2 m c) (WH0 m c) (WE0 m c) (B10 m c) (W20 m c) (B20 m c)
def AG0 (c : Dev nD) : Terms.A S100000x64 := Terms.aggK (Dx m c) (M0 m c)
def MU0 (c : Dev nD) : Terms.A S64 := Terms.meanK (AG0 m c)
def VAR0 (c : Dev nD) : Terms.A S64 := Terms.varK (AG0 m c) (MU0 m c)
def NV0 (c : Dev nD) : Terms.A S50000x128 := Cert.Gnn.normResid 50000 128 (Terms.view (Hk0 m c)) (Terms.view (AG0 m c)) (Terms.tile (MU0 m c)) (Terms.tile (VAR0 m c)) (Terms.tile (G0 m c)) (Terms.tile (Bt0 m c))
theorem Hk1_eq (c : Dev nD) : Hk1 m c = (shapeCast _ (NV0 m c) shapeCasts_S50000x128_S100000x64 : Terms.A S100000x64) := rfl

/-- Layer 2's parameters, gathered features, messages, aggregate and column statistics. -/
def WH1 (c : Dev nD) : Terms.B S64x64 := Terms.mat1 (Terms.whAll (X5 m c))
def WE1 (c : Dev nD) : Terms.B S4x64 := Terms.emat1 (Terms.weAll (X5 m c))
def B11 (c : Dev nD) : Terms.A S64 := Terms.rowAt1 (X6 m c)
def W21 (c : Dev nD) : Terms.B S64x64 := Terms.mat1 (Terms.w2All (X7 m c))
def B21 (c : Dev nD) : Terms.A S64 := Terms.rowAt1 (X8 m c)
def G1 (c : Dev nD) : Terms.A S64 := Terms.rowAt1 (X9 m c)
def Bt1 (c : Dev nD) : Terms.A S64 := Terms.rowAt1 (X10 m c)
def HS1 (c : Dev nD) : Terms.B S1600000x64 := Terms.gatherK (Hk1 m c) (Sx m c)
def M1 (c : Dev nD) : Terms.A S1600000x64 := Terms.msgK (HS1 m c) (X2 m c) (WH1 m c) (WE1 m c) (B11 m c) (W21 m c) (B21 m c)
def AG1 (c : Dev nD) : Terms.A S100000x64 := Terms.aggK (Dx m c) (M1 m c)
def MU1 (c : Dev nD) : Terms.A S64 := Terms.meanK (AG1 m c)
def VAR1 (c : Dev nD) : Terms.A S64 := Terms.varK (AG1 m c) (MU1 m c)
def NV1 (c : Dev nD) : Terms.A S50000x128 := Cert.Gnn.normResid 50000 128 (Terms.view (Hk1 m c)) (Terms.view (AG1 m c)) (Terms.tile (MU1 m c)) (Terms.tile (VAR1 m c)) (Terms.tile (G1 m c)) (Terms.tile (Bt1 m c))
theorem Hk2_eq (c : Dev nD) : Hk2 m c = (shapeCast _ (NV1 m c) shapeCasts_S50000x128_S100000x64 : Terms.A S100000x64) := rfl

/-- Layer 3's parameters, gathered features, messages, aggregate and column statistics. -/
def WH2 (c : Dev nD) : Terms.B S64x64 := Terms.mat2 (Terms.whAll (X5 m c))
def WE2 (c : Dev nD) : Terms.B S4x64 := Terms.emat2 (Terms.weAll (X5 m c))
def B12 (c : Dev nD) : Terms.A S64 := Terms.rowAt2 (X6 m c)
def W22 (c : Dev nD) : Terms.B S64x64 := Terms.mat2 (Terms.w2All (X7 m c))
def B22 (c : Dev nD) : Terms.A S64 := Terms.rowAt2 (X8 m c)
def G2 (c : Dev nD) : Terms.A S64 := Terms.rowAt2 (X9 m c)
def Bt2 (c : Dev nD) : Terms.A S64 := Terms.rowAt2 (X10 m c)
def HS2 (c : Dev nD) : Terms.B S1600000x64 := Terms.gatherK (Hk2 m c) (Sx m c)
def M2 (c : Dev nD) : Terms.A S1600000x64 := Terms.msgK (HS2 m c) (X2 m c) (WH2 m c) (WE2 m c) (B12 m c) (W22 m c) (B22 m c)
def AG2 (c : Dev nD) : Terms.A S100000x64 := Terms.aggK (Dx m c) (M2 m c)
def MU2 (c : Dev nD) : Terms.A S64 := Terms.meanK (AG2 m c)
def VAR2 (c : Dev nD) : Terms.A S64 := Terms.varK (AG2 m c) (MU2 m c)
def NV2 (c : Dev nD) : Terms.A S50000x128 := Cert.Gnn.normResid 50000 128 (Terms.view (Hk2 m c)) (Terms.view (AG2 m c)) (Terms.tile (MU2 m c)) (Terms.tile (VAR2 m c)) (Terms.tile (G2 m c)) (Terms.tile (Bt2 m c))
theorem Hk3_eq (c : Dev nD) : Hk3 m c = (shapeCast _ (NV2 m c) shapeCasts_S50000x128_S100000x64 : Terms.A S100000x64) := rfl

end Cert.KernelIdeal.Whole

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.KEncode.lean ====
/-
  The node encoder's region: ten blocks of 10000 rows, each block the dense layer `max (x·W + b, 0)` of its rows.

  The block payload is the dense layer at block size (`pay_eq`); the row-blocked windows sit at block index `(t, 0)`,
  the weight and the bias windows at `(0, 0)`, so their blocks are the whole arrays (`idx_facts`, `wblk`, `bblk`);
  row `p` of block `t` is row `10000·t + p` of the array, and the dense layer is row-local, so what point `t` writes
  back is block `t` of the dense layer of the whole arrays (`flushed_eq`); the ten blocks cover the 100000 rows
  (`cover`), hence the array ends holding the dense layer of the whole arrays (`final`).
-/
import proofs.«163580_j15788299780297_2_alg».proof.Proof.Gen.KernelIdeal.Frame
import proofs.«163580_j15788299780297_2_alg».proof.Proof.Spec
import proofs.«163580_j15788299780297_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Enc

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

theorem hz : (![0, 0] : Fin 2 → Nat) = fun _ => 0 := funext fun a => by fin_cases a <;> rfl

/-- The block payload at an entry: the product's sum plus the bias, cut below at zero. -/
theorem pay_apply (v0 : Vec Ideal S10000x5 .bf16) (v2 : Vec Ideal S5x64 .bf16) (v5 : Vec Ideal S1x64 .f32)
    (p : Fin 10000) (q : Fin 64) :
    k0_pay1 v0 v2 v5 (ix2 p q) = Cert.Gnn.denseReluAt 10000 5 64 v0 v2 v5 p q := by
  unfold k0_pay1
  simp only [shapeCast_self]
  rw [maximumf_apply, addf_apply, broadcast_apply]
  rw [show dot_S10000x5_S5x64_S10000x64_1_0_0_1_n_n = DotDims.plain 10000 5 64 from rfl]
  rw [Cert.LibPlainMatmul.matmul_zero_apply 10000 5 64 none v0 v2 p q]
  rw [broadcastTo_1b_ab_apply v5 broadcasts_S1x64_S10000x64 p q]
  rfl

/-- The block payload is the dense layer at block size. -/
theorem pay_eq (v0 : Vec Ideal S10000x5 .bf16) (v2 : Vec Ideal S5x64 .bf16) (v5 : Vec Ideal S1x64 .f32) :
    k0_pay1 v0 v2 v5 = Cert.Gnn.denseRelu 10000 5 64 v0 v2 v5 := by
  funext j
  obtain ⟨p, q, rfl⟩ : ∃ (p : Fin 10000) (q : Fin 64), j = ix2 p q := ⟨j 0, j 1, eq_ix2 j⟩
  rw [pay_apply, Cert.Gnn.denseRelu_apply]

/-- The printed index maps over the grid: the row-blocked windows at `(t, 0)`, the weight and bias windows at `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The weight window's block is the whole weight array. -/
theorem wblk (c : Dev nD) (t : Fin cfg0.N) : iblk0 (F := Ideal) V c 1 t = V c (Pipeline.arrRef spec0 1) := by
  obtain ⟨-, -, e0, e1, -⟩ := idx_facts t
  unfold iblk0
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 5 + 1 * (y 0).val = (y 0).val; omega
  | ⟨1, _⟩ => show win0_1.index t (1 : Fin 2) * 64 + 1 * (y 1).val = (y 1).val; omega

/-- The bias window's block is the whole bias row. -/
theorem bblk (c : Dev nD) (t : Fin cfg0.N) : iblk0 (F := Ideal) V c 2 t = V c (Pipeline.arrRef spec0 2) := by
  obtain ⟨-, -, -, -, e0, e1, -⟩ := idx_facts t
  unfold iblk0
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What point `t` writes back is block `t` of the dense layer of the whole arrays. -/
theorem flushed_eq (c : Dev nD) (t : Fin cfg0.N) :
    (dat0 (F := Ideal) V c).flushed 3 t = ((cfg0.win 3).blk t).view.read (Elt Ideal)
      (Cert.Gnn.denseRelu 100000 5 64 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S10000x5) hz, View.ld_unit_zero (S := S5x64) hz, View.ld_unit_zero (S := S1x64) hz]
  rw [pay_eq, wblk, bblk]
  obtain ⟨e0, e1, -, -, -, -, e6, e7⟩ := idx_facts t
  have hN : cfg0.N = 10 := N_0
  have ht : t.val < 10 := hN ▸ t.isLt
  refine funext fun (j : S10000x64.Idx) => ?_
  obtain ⟨p, q, rfl⟩ : ∃ (p : Fin 10000) (q : Fin 64), j = ix2 p q := ⟨j 0, j 1, eq_ix2 j⟩
  have hr : t.val * 10000 + p.val < 100000 := by have := p.isLt; omega
  have hemb : ((cfg0.win 3).blk t).view.emb (ix2 p q) = ix2 (⟨t.val * 10000 + p.val, hr⟩ : Fin 100000) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  show Cert.Gnn.denseRelu 10000 5 64 (iblk0 V c 0 t) (V c (Pipeline.arrRef spec0 1)) (V c (Pipeline.arrRef spec0 2)) (ix2 p q)
    = Cert.Gnn.denseRelu 100000 5 64 (V c (Pipeline.arrRef spec0 0)) (V c (Pipeline.arrRef spec0 1)) (V c (Pipeline.arrRef spec0 2))
        (((cfg0.win 3).blk t).view.emb (ix2 p q))
  rw [hemb, Cert.Gnn.denseRelu_apply, Cert.Gnn.denseRelu_apply]
  refine Cert.Gnn.denseReluAt_rows _ _ _ _ p _ q fun k => ?_
  unfold iblk0
  show V c (Pipeline.arrRef spec0 0) (((cfg0.win 0).blk t).view.emb (ix2 p k)) = V c (Pipeline.arrRef spec0 0) (ix2 _ k)
  refine congrArg _ (funext fun a => Fin.ext ?_)
  match a with
  | ⟨0, _⟩ => show win0_0.index t (0 : Fin 2) * 10000 + 1 * p.val = t.val * 10000 + p.val; omega
  | ⟨1, _⟩ => show win0_0.index t (1 : Fin 2) * 5 + 1 * k.val = k.val; omega

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v7).slice (win0_3.rect t)).set ↔ _
  rw [View.set_slice_whole, Rect.mem_set_unit]
  exact Iff.rfl

/-- Every index of the array is in some point's block: row `r` is in block `r / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, -, -, e6, e7⟩ := idx_facts t
  have e6' : win0_3.index t (0 : Fin 2) = (i 0).val / 10000 := e6
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The encoder's output array after the region: the dense layer of the arrays the region finds. -/
theorem final (c : Dev nD) :
    (dat0 (F := Ideal) V c).arrAt 3 cfg0.N = Cert.Gnn.denseRelu 100000 5 64 (V c (Pipeline.arrRef spec0 0)) (V c (Pipeline.arrRef spec0 1)) (V c (Pipeline.arrRef spec0 2)) :=
  (dat0 (F := Ideal) V c).arrAt_eq_of_cover 3 _ (fun t _ => flushed_eq V c t) cover

end Cert.KernelIdeal.Enc

end
-- ==== Proof.KFold0.lean ====
/-
  The kernel program's buffers at the two boundaries around region 0: after the stretch of host operations before it,
  each buffer the region or a later segment reads is the named function of the launch memory (read off the stretch's
  operations, the earlier boundary's contents substituted); after the region its result array is the specification's
  stage function of its operand arrays, and every buffer still to be read is as before (an operand array of the region
  is not written by it).
-/
import proofs.«163580_j15788299780297_2_alg».proof.Proof.KFoldDefs
import proofs.«163580_j15788299780297_2_alg».proof.Proof.KEncode

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## After the host operations before region 0 (boundary 1) -/

set_option maxHeartbeats 4000000 in
theorem W1_main_v1 (c : Dev nD) : W1 m ρ c (Proc.devRef .tc main_v1) = Sx m c := by
  show StableHlo.after hostOps0 (W0 m ρ c) (Proc.devRef .tc main_v1) = _
  after_results
  all_goals rfl
set_option maxHeartbeats 4000000 in
theorem W1_main_v3 (c : Dev nD) : W1 m ρ c (Proc.devRef .tc main_v3) = Dx m c := by
  show StableHlo.after hostOps0 (W0 m ρ c) (Proc.devRef .tc main_v3) = _
  after_results
  all_goals rfl
set_option maxHeartbeats 4000000 in
theorem W1_main_v4 (c : Dev nD) : W1 m ρ c (Proc.devRef .tc main_v4) = (truncf (F := Ideal) .bf16 (X0 m c) bitsLt_bf16_f32 : Terms.B S100000x5) := by
  show StableHlo.after hostOps0 (W0 m ρ c) (Proc.devRef .tc main_v4) = _
  after_results
  all_goals rfl
set_option maxHeartbeats 4000000 in
theorem W1_main_v5 (c : Dev nD) : W1 m ρ c (Proc.devRef .tc main_v5) = (truncf (F := Ideal) .bf16 (X3 m c) bitsLt_bf16_f32 : Terms.B S5x64) := by
  show StableHlo.after hostOps0 (W0 m ρ c) (Proc.devRef .tc main_v5) = _
  after_results
  all_goals rfl
set_option maxHeartbeats 4000000 in
theorem W1_main_v6 (c : Dev nD) : W1 m ρ c (Proc.devRef .tc main_v6) = Terms.asRow (X4 m c) := by
  show StableHlo.after hostOps0 (W0 m ρ c) (Proc.devRef .tc main_v6) = _
  after_results
  all_goals rfl
theorem W1_main_arg2 (c : Dev nD) : W1 m ρ c (Proc.devRef .tc main_arg2) = X2 m c :=
  (StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (rfl)
theorem W1_main_arg5 (c : Dev nD) : W1 m ρ c (Proc.devRef .tc main_arg5) = X5 m c :=
  (StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (rfl)
theorem W1_main_arg6 (c : Dev nD) : W1 m ρ c (Proc.devRef .tc main_arg6) = X6 m c :=
  (StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (rfl)
theorem W1_main_arg7 (c : Dev nD) : W1 m ρ c (Proc.devRef .tc main_arg7) = X7 m c :=
  (StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (rfl)
theorem W1_main_arg8 (c : Dev nD) : W1 m ρ c (Proc.devRef .tc main_arg8) = X8 m c :=
  (StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (rfl)
theorem W1_main_arg9 (c : Dev nD) : W1 m ρ c (Proc.devRef .tc main_arg9) = X9 m c :=
  (StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (rfl)
theorem W1_main_arg10 (c : Dev nD) : W1 m ρ c (Proc.devRef .tc main_arg10) = X10 m c :=
  (StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (rfl)
theorem W1_main_arg11 (c : Dev nD) : W1 m ρ c (Proc.devRef .tc main_arg11) = X11 m c :=
  (StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (rfl)
theorem W1_main_arg12 (c : Dev nD) : W1 m ρ c (Proc.devRef .tc main_arg12) = X12 m c :=
  (StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (rfl)
theorem W1_main_arg13 (c : Dev nD) : W1 m ρ c (Proc.devRef .tc main_arg13) = X13 m c :=
  (StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (rfl)
theorem W1_main_arg14 (c : Dev nD) : W1 m ρ c (Proc.devRef .tc main_arg14) = X14 m c :=
  (StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (rfl)

/-! ## After region 0 (boundary 2) -/

set_option maxHeartbeats 4000000 in
theorem W2_main_v7 (c : Dev nD) : W2 m ρ c (Proc.devRef .tc main_v7) = Hk0 m c := by
  refine (W2_arr m ρ c 3).trans ?_
  refine (Cert.KernelIdeal.Enc.final (V1 m ρ) c).trans ?_
  show Cert.Gnn.denseRelu 100000 5 64 (W1 m ρ c (Proc.devRef .tc main_v4)) (W1 m ρ c (Proc.devRef .tc main_v5)) (W1 m ρ c (Proc.devRef .tc main_v6)) = _
  rw [W1_main_v4 m ρ c, W1_main_v5 m ρ c, W1_main_v6 m ρ c]
  all_goals rfl
theorem W2_main_v1 (c : Dev nD) : W2 m ρ c (Proc.devRef .tc main_v1) = Sx m c :=
  (W2_of_ne m ρ c main_v1 (by decide)).trans (W1_main_v1 m ρ c)
theorem W2_main_v3 (c : Dev nD) : W2 m ρ c (Proc.devRef .tc main_v3) = Dx m c :=
  (W2_of_ne m ρ c main_v3 (by decide)).trans (W1_main_v3 m ρ c)
theorem W2_main_arg6 (c : Dev nD) : W2 m ρ c (Proc.devRef .tc main_arg6) = X6 m c :=
  (W2_of_ne m ρ c main_arg6 (by decide)).trans (W1_main_arg6 m ρ c)
theorem W2_main_arg8 (c : Dev nD) : W2 m ρ c (Proc.devRef .tc main_arg8) = X8 m c :=
  (W2_of_ne m ρ c main_arg8 (by decide)).trans (W1_main_arg8 m ρ c)
theorem W2_main_arg9 (c : Dev nD) : W2 m ρ c (Proc.devRef .tc main_arg9) = X9 m c :=
  (W2_of_ne m ρ c main_arg9 (by decide)).trans (W1_main_arg9 m ρ c)
theorem W2_main_arg10 (c : Dev nD) : W2 m ρ c (Proc.devRef .tc main_arg10) = X10 m c :=
  (W2_of_ne m ρ c main_arg10 (by decide)).trans (W1_main_arg10 m ρ c)
theorem W2_main_arg11 (c : Dev nD) : W2 m ρ c (Proc.devRef .tc main_arg11) = X11 m c :=
  (W2_of_ne m ρ c main_arg11 (by decide)).trans (W1_main_arg11 m ρ c)
theorem W2_main_arg12 (c : Dev nD) : W2 m ρ c (Proc.devRef .tc main_arg12) = X12 m c :=
  (W2_of_ne m ρ c main_arg12 (by decide)).trans (W1_main_arg12 m ρ c)
theorem W2_main_arg13 (c : Dev nD) : W2 m ρ c (Proc.devRef .tc main_arg13) = X13 m c :=
  (W2_of_ne m ρ c main_arg13 (by decide)).trans (W1_main_arg13 m ρ c)
theorem W2_main_arg14 (c : Dev nD) : W2 m ρ c (Proc.devRef .tc main_arg14) = X14 m c :=
  (W2_of_ne m ρ c main_arg14 (by decide)).trans (W1_main_arg14 m ρ c)
theorem W2_main_arg2 (c : Dev nD) : W2 m ρ c (Proc.devRef .tc main_arg2) = X2 m c :=
  (W2_of_ne m ρ c main_arg2 (by decide)).trans (W1_main_arg2 m ρ c)
theorem W2_main_arg5 (c : Dev nD) : W2 m ρ c (Proc.devRef .tc main_arg5) = X5 m c :=
  (W2_of_ne m ρ c main_arg5 (by decide)).trans (W1_main_arg5 m ρ c)
theorem W2_main_arg7 (c : Dev nD) : W2 m ρ c (Proc.devRef .tc main_arg7) = X7 m c :=
  (W2_of_ne m ρ c main_arg7 (by decide)).trans (W1_main_arg7 m ρ c)

end Cert.KernelIdeal.Whole

end
-- ==== Proof.KMsg1.lean ====
/-
  The edge-message region: what its output array holds after the last grid point.

  The region runs one kernel body over 200 grid points.  At point `t` the body reads rows `8000 t … 8000 t + 7999` of
  the gathered node features and of the edge attributes, and all of two weight matrices, a bias row, a third weight
  matrix and a second bias row, and stores `max (hs·Wh + ea·We + b1, 0)·W2 + b2` of them as rows
  `8000 t … 8000 t + 7999` of the output.  Since an edge's message depends on the row-indexed operands through that
  edge's row only, the 200 blocks written back are the blocks of ONE function of the whole arrays, and they cover
  the output: after the last point the output array is `Cert.Gnn.edgeMsg` of the arrays the region found (`final`).
-/
import proofs.«163580_j15788299780297_2_alg».proof.Proof.Gen.KernelIdeal.Frame
import proofs.«163580_j15788299780297_2_alg».proof.Proof.Spec
import proofs.«163580_j15788299780297_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Msg1

open Cert.KernelIdeal Cert.KernelIdeal.Gen Idealize.ShloMosaic Idealize.ShloMosaic.TcCoe Idealize.SL.Sem
open Idealize.ShloMosaic.ValueIdx Cert.Gnn
open Idealize.ShloMosaic.Pipeline (Dat)
open scoped BigOperators

/-! ## The body's payload is the edge message of its blocks -/

/-- The printed dimension numbers of the two 64-deep products are the plain row-by-column product's. -/
theorem dot64 : dot_S8000x64_S64x64_S8000x64_1_0_0_1_n_n = DotDims.plain 8000 64 64 := rfl
/-- The printed dimension numbers of the 4-deep product are the plain row-by-column product's. -/
theorem dot4 : dot_S8000x4_S4x64_S8000x64_1_0_0_1_n_n = DotDims.plain 8000 4 64 := rfl

/-- At row `p` and column `q` the payload is `max (hs·Wh + ea·We + b1, 0)·W2 + b2` of its seven blocks: each product
    into the zero array is the sum over its contraction coordinate, each bias row is read at the column, the
    truncation to the narrower float is the identity on the extended reals. -/
theorem pay_eq (v0 : Vec Ideal S8000x64 .bf16) (v2 : Vec Ideal S8000x4 .bf16) (v4 : Vec Ideal S64x64 .bf16)
    (v6 : Vec Ideal S4x64 .bf16) (v11 : Vec Ideal S1x64 .f32) (v18 : Vec Ideal S64x64 .bf16) (v21 : Vec Ideal S1x64 .f32) :
    k1_pay1 v0 v2 v4 v6 v11 v18 v21 = edgeMsg 8000 v0 v2 v4 v6 v11 v18 v21 := by
  funext j
  obtain ⟨p, q, rfl⟩ : ∃ (p : Fin 8000) (q : Fin 64), j = ix2 p q := ⟨j 0, j 1, eq_ix2 j⟩
  rw [edgeMsg_apply]
  unfold k1_pay1 edgeMsgAt edgeHidAt
  simp only [shapeCast_self, dot64, dot4, addf_apply, maximumf_apply, truncf_apply, broadcast_apply,
    broadcastTo_1b_ab_apply, Cert.LibPlainMatmul.matmul_zero_apply]
  rfl

/-- An edge's message depends on the row-indexed operands through that edge's row only, and on the weights as
    they are: equal rows and equal weights give equal messages. -/
theorem edgeMsgAt_blocks {n n' : ℕ} (hs : Mat n 64) (hs' : Mat n' 64) (ea : Mat n 4) (ea' : Mat n' 4)
    (wh wh' : Mat 64 64) (we we' : Mat 4 64) (b1 b1' : Mat 1 64) (w2 w2' : Mat 64 64) (b2 b2' : Mat 1 64)
    (p : Fin n) (r : Fin n') (c : Fin 64)
    (hh : ∀ q, hs (ix2 p q) = hs' (ix2 r q)) (he : ∀ q, ea (ix2 p q) = ea' (ix2 r q))
    (hwh : wh = wh') (hwe : we = we') (hb1 : b1 = b1') (hw2 : w2 = w2') (hb2 : b2 = b2') :
    edgeMsgAt n hs ea wh we b1 w2 b2 p c = edgeMsgAt n' hs' ea' wh' we' b1' w2' b2' r c := by
  subst hwh hwe hb1 hw2 hb2
  exact edgeMsgAt_rows hs hs' ea ea' wh we b1 w2 b2 p r c hh he

/-! ## The windows' blocks as parts of their arrays -/

theorem hz : (![0, 0] : Fin 2 → Nat) = fun _ => 0 := funext fun a => by fin_cases a <;> rfl

/-- The printed index maps, decided over the grid: the two row-blocked inputs and the output sit at block `(t, 0)`,
    the weights and the biases at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- Row `p` of the gathered-features block at point `t` is row `8000 t + p` of the array. -/
theorem blk0_apply (c : Dev nD) (t : Fin cfg1.N) (p : Fin 8000) (k : Fin 64) (r : Fin 1600000)
    (hr : r.val = t.val * 8000 + p.val) :
    (iblk1 V c 0 t : Vec Ideal S8000x64 .bf16) (ix2 p k)
      = (V c (Pipeline.arrRef spec1 0) : Vec Ideal S1600000x64 .bf16) (ix2 r k) := by
  obtain ⟨e0, e1, -⟩ := idx_facts t
  unfold iblk1
  rw [View.read_apply]
  refine congrArg (V c (Pipeline.arrRef spec1 0) : Vec Ideal S1600000x64 .bf16) (funext fun a => Fin.ext ?_)
  match a with
  | ⟨0, _⟩ => show win1_0.index t (0 : Fin 2) * 8000 + 1 * p.val = r.val; rw [e0, hr]; omega
  | ⟨1, _⟩ => show win1_0.index t (1 : Fin 2) * 64 + 1 * k.val = k.val; rw [e1]; omega

/-- Row `p` of the edge-attributes block at point `t` is row `8000 t + p` of the array. -/
theorem blk1_apply (c : Dev nD) (t : Fin cfg1.N) (p : Fin 8000) (k : Fin 4) (r : Fin 1600000)
    (hr : r.val = t.val * 8000 + p.val) :
    (iblk1 V c 1 t : Vec Ideal S8000x4 .bf16) (ix2 p k)
      = (V c (Pipeline.arrRef spec1 1) : Vec Ideal S1600000x4 .bf16) (ix2 r k) := by
  obtain ⟨-, -, e0, e1, -⟩ := idx_facts t
  unfold iblk1
  rw [View.read_apply]
  refine congrArg (V c (Pipeline.arrRef spec1 1) : Vec Ideal S1600000x4 .bf16) (funext fun a => Fin.ext ?_)
  match a with
  | ⟨0, _⟩ => show win1_1.index t (0 : Fin 2) * 8000 + 1 * p.val = r.val; rw [e0, hr]; omega
  | ⟨1, _⟩ => show win1_1.index t (1 : Fin 2) * 4 + 1 * k.val = k.val; rw [e1]; omega

/-- A weight's or a bias's block is its whole array: the block index is `(0, 0)` and the block has the array's sizes. -/
theorem blk2_eq (c : Dev nD) (t : Fin cfg1.N) :
    (iblk1 V c 2 t : Vec Ideal S64x64 .bf16) = (V c (Pipeline.arrRef spec1 2) : Vec Ideal S64x64 .bf16) := by
  obtain ⟨-, -, -, -, e0, e1, -⟩ := idx_facts t
  funext y
  unfold iblk1
  rw [View.read_apply]
  refine congrArg (V c (Pipeline.arrRef spec1 2) : Vec Ideal S64x64 .bf16) (funext fun a => Fin.ext ?_)
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

theorem blk3_eq (c : Dev nD) (t : Fin cfg1.N) :
    (iblk1 V c 3 t : Vec Ideal S4x64 .bf16) = (V c (Pipeline.arrRef spec1 3) : Vec Ideal S4x64 .bf16) := by
  obtain ⟨-, -, -, -, -, -, e0, e1, -⟩ := idx_facts t
  funext y
  unfold iblk1
  rw [View.read_apply]
  refine congrArg (V c (Pipeline.arrRef spec1 3) : Vec Ideal S4x64 .bf16) (funext fun a => Fin.ext ?_)
  match a with
  | ⟨0, _⟩ => show win1_3.index t (0 : Fin 2) * 4 + 1 * (y 0).val = (y 0).val; rw [e0]; omega
  | ⟨1, _⟩ => show win1_3.index t (1 : Fin 2) * 64 + 1 * (y 1).val = (y 1).val; rw [e1]; omega

theorem blk4_eq (c : Dev nD) (t : Fin cfg1.N) :
    (iblk1 V c 4 t : Vec Ideal S1x64 .f32) = (V c (Pipeline.arrRef spec1 4) : Vec Ideal S1x64 .f32) := by
  obtain ⟨-, -, -, -, -, -, -, -, e0, e1, -⟩ := idx_facts t
  funext y
  unfold iblk1
  rw [View.read_apply]
  refine congrArg (V c (Pipeline.arrRef spec1 4) : Vec Ideal S1x64 .f32) (funext fun a => Fin.ext ?_)
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

theorem blk5_eq (c : Dev nD) (t : Fin cfg1.N) :
    (iblk1 V c 5 t : Vec Ideal S64x64 .bf16) = (V c (Pipeline.arrRef spec1 5) : Vec Ideal S64x64 .bf16) := by
  obtain ⟨-, -, -, -, -, -, -, -, -, -, e0, e1, -⟩ := idx_facts t
  funext y
  unfold iblk1
  rw [View.read_apply]
  refine congrArg (V c (Pipeline.arrRef spec1 5) : Vec Ideal S64x64 .bf16) (funext fun a => Fin.ext ?_)
  match a with
  | ⟨0, _⟩ => show win1_5.index t (0 : Fin 2) * 64 + 1 * (y 0).val = (y 0).val; rw [e0]; omega
  | ⟨1, _⟩ => show win1_5.index t (1 : Fin 2) * 64 + 1 * (y 1).val = (y 1).val; rw [e1]; omega

theorem blk6_eq (c : Dev nD) (t : Fin cfg1.N) :
    (iblk1 V c 6 t : Vec Ideal S1x64 .f32) = (V c (Pipeline.arrRef spec1 6) : Vec Ideal S1x64 .f32) := by
  obtain ⟨-, -, -, -, -, -, -, -, -, -, -, -, e0, e1, -⟩ := idx_facts t
  funext y
  unfold iblk1
  rw [View.read_apply]
  refine congrArg (V c (Pipeline.arrRef spec1 6) : Vec Ideal S1x64 .f32) (funext fun a => Fin.ext ?_)
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

/-! ## What a point writes back, and the array after the last point -/

/-- The edge messages of the whole arrays the region finds. -/
abbrev G (c : Dev nD) : Mat 1600000 64 :=
  edgeMsg 1600000 (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6))

set_option maxHeartbeats 1000000 in
/-- The body's result on the blocks at point `t` is block `t` of the whole arrays' edge messages: the payload is
    the edge message of the blocks (`pay_eq`), row `p` of a row-indexed block is row `8000 t + p` of its array, and
    the weights' blocks are the weights. -/
theorem body_eq (c : Dev nD) (t : Fin cfg1.N) :
    (cfg1.win 7).cut (grid1.coords t)
        (out1_7 (F := Ideal) (iblk1 V c 0 t) (iblk1 V c 1 t) (iblk1 V c 2 t) (iblk1 V c 3 t) (iblk1 V c 4 t)
          (iblk1 V c 5 t) (iblk1 V c 6 t))
      = ((cfg1.win 7).blk t).view.read (Elt Ideal) (G V c) := by
  unfold out1_7
  rw [View.canon_unit_zero hz]
  simp only [View.ld_unit_zero (S := S8000x64) hz, View.ld_unit_zero (S := S8000x4) hz, View.ld_unit_zero (S := S64x64) hz,
    View.ld_unit_zero (S := S4x64) hz, View.ld_unit_zero (S := S1x64) hz]
  rw [pay_eq]
  funext j
  obtain ⟨p, q, rfl⟩ : ∃ (p : Fin 8000) (q : Fin 64), j = ix2 p q := ⟨j 0, j 1, eq_ix2 j⟩
  have ht : t.val < 200 := lt_of_lt_of_eq t.isLt N_1
  obtain ⟨r, hr⟩ : ∃ r : Fin 1600000, r.val = t.val * 8000 + p.val := ⟨⟨t.val * 8000 + p.val, by have := p.isLt; omega⟩, rfl⟩
  obtain ⟨-, -, -, -, -, -, -, -, -, -, -, -, -, -, e0, e1⟩ := idx_facts t
  have hemb : ((cfg1.win 7).blk t).view.emb (ix2 p q) = ix2 r q := by
    funext a
    apply Fin.ext
    match a with
    | ⟨0, _⟩ => show win1_7.index t (0 : Fin 2) * 8000 + 1 * p.val = r.val; rw [e0, hr]; omega
    | ⟨1, _⟩ => show win1_7.index t (1 : Fin 2) * 64 + 1 * q.val = q.val; rw [e1]; omega
  rw [View.read_apply, hemb]
  show edgeMsg 8000 _ _ _ _ _ _ _ (ix2 p q) = edgeMsg 1600000 _ _ _ _ _ _ _ (ix2 r q)
  rw [edgeMsg_apply, edgeMsg_apply]
  exact edgeMsgAt_blocks _ _ _ _ _ _ _ _ _ _ _ _ _ _ p r q (fun k => blk0_apply V c t p k r hr)
    (fun k => blk1_apply V c t p k r hr) (blk2_eq V c t) (blk3_eq V c t) (blk4_eq V c t) (blk5_eq V c t) (blk6_eq V c t)

/-- An index of the array is in point `t`'s block iff each coordinate is in the block's range on its axis. -/
theorem mem_blk (t : Fin cfg1.N) (i : S1600000x64.Idx) :
    i ∈ ((cfg1.win 7).blk t).view.set ↔ ∀ a : Fin 2, win1_7.index t a * S8000x64.size a ≤ (i a).val
      ∧ (i a).val < win1_7.index t a * S8000x64.size a + S8000x64.size a := by
  show i ∈ ((View.whole main_v34).slice (win1_7.rect t)).set ↔ _
  rw [View.set_slice_whole, Rect.mem_set_unit]
  exact Iff.rfl

/-- Every index of the array is in some point's block: row `r` in point `r / 8000`'s, whatever the column. -/
theorem cover (i : S1600000x64.Idx) :
    ∃ t : Fin cfg1.N, (cfg1.win 7).flush t = true ∧ i ∈ ((cfg1.win 7).blk t).view.set := by
  have hi0 : (i 0).val < 1600000 := (i 0).isLt
  have hi1 : (i 1).val < 64 := (i 1).isLt
  obtain ⟨t, ht⟩ : ∃ t : Fin cfg1.N, t.val = (i 0).val / 8000 :=
    ⟨⟨(i 0).val / 8000, lt_of_lt_of_eq (by omega : (i 0).val / 8000 < 200) N_1.symm⟩, rfl⟩
  obtain ⟨-, -, -, -, -, -, -, -, -, -, -, -, -, -, e0, e1⟩ := idx_facts t
  refine ⟨t, flush1_7 t, ?_⟩
  rw [mem_blk]
  intro a
  match a with
  | ⟨0, _⟩ =>
    show win1_7.index t (0 : Fin 2) * 8000 ≤ (i 0).val ∧ (i 0).val < win1_7.index t (0 : Fin 2) * 8000 + 8000
    rw [e0, ht]; omega
  | ⟨1, _⟩ =>
    show win1_7.index t (1 : Fin 2) * 64 ≤ (i 1).val ∧ (i 1).val < win1_7.index t (1 : Fin 2) * 64 + 64
    rw [e1]; omega

/-- WHAT POINT `t` WRITES BACK is block `t` of the whole arrays' edge messages. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 (F := Ideal) V c).after 7 t) = _
  rw [after1_7]
  exact body_eq V c t

/-- THE ARRAY after the last point: the edge messages of the whole arrays the region finds — every point writes its
    block back, and the blocks cover the array. -/
theorem final (V : (c : Dev nD) → (b : Ref sig .tc) → Buf (Elt Ideal) ((c : Thread nD τ).loc b)) (c : Dev nD) :
    (dat1 (F := Ideal) V c).arrAt 7 cfg1.N
      = Cert.Gnn.edgeMsg 1600000 (V c (Pipeline.arrRef spec1 0)) (V c (Pipeline.arrRef spec1 1))
          (V c (Pipeline.arrRef spec1 2)) (V c (Pipeline.arrRef spec1 3)) (V c (Pipeline.arrRef spec1 4))
          (V c (Pipeline.arrRef spec1 5)) (V c (Pipeline.arrRef spec1 6)) :=
  (dat1 (F := Ideal) V c).arrAt_eq_of_cover 7 (G V c) (fun t _ => flushed_eq V c t) cover

end Cert.KernelIdeal.Msg1

end
-- ==== Proof.KFold1.lean ====
/-
  The kernel program's buffers at the two boundaries around region 1: after the stretch of host operations before it,
  each buffer the region or a later segment reads is the named function of the launch memory (read off the stretch's
  operations, the earlier boundary's contents substituted); after the region its result array is the specification's
  stage function of its operand arrays, and every buffer still to be read is as before (an operand array of the region
  is not written by it).
-/
import proofs.«163580_j15788299780297_2_alg».proof.Proof.KFold0
import proofs.«163580_j15788299780297_2_alg».proof.Proof.KMsg1

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## After the host operations before region 1 (boundary 3) -/

set_option maxHeartbeats 4000000 in
theorem W3_main_v8 (c : Dev nD) : W3 m ρ c (Proc.devRef .tc main_v8) = (truncf (F := Ideal) .bf16 (X2 m c) bitsLt_bf16_f32 : Terms.B S1600000x4) := by
  show StableHlo.after hostOps1 (W2 m ρ c) (Proc.devRef .tc main_v8) = _
  after_results
  rw [W2_main_arg2 m ρ c]
  all_goals rfl
set_option maxHeartbeats 4000000 in
theorem W3_main_v10 (c : Dev nD) : W3 m ρ c (Proc.devRef .tc main_v10) = Terms.whAll (X5 m c) := by
  show StableHlo.after hostOps1 (W2 m ρ c) (Proc.devRef .tc main_v10) = _
  after_results
  rw [W2_main_arg5 m ρ c]
  all_goals rfl
set_option maxHeartbeats 4000000 in
theorem W3_main_v12 (c : Dev nD) : W3 m ρ c (Proc.devRef .tc main_v12) = Terms.weAll (X5 m c) := by
  show StableHlo.after hostOps1 (W2 m ρ c) (Proc.devRef .tc main_v12) = _
  after_results
  rw [W2_main_arg5 m ρ c]
  all_goals rfl
set_option maxHeartbeats 4000000 in
theorem W3_main_v13 (c : Dev nD) : W3 m ρ c (Proc.devRef .tc main_v13) = Terms.w2All (X7 m c) := by
  show StableHlo.after hostOps1 (W2 m ρ c) (Proc.devRef .tc main_v13) = _
  after_results
  rw [W2_main_arg7 m ρ c]
  all_goals rfl
set_option maxHeartbeats 4000000 in
theorem W3_main_v21 (c : Dev nD) : W3 m ρ c (Proc.devRef .tc main_v21) = HS0 m c := by
  show StableHlo.after hostOps1 (W2 m ρ c) (Proc.devRef .tc main_v21) = _
  after_results
  rw [W2_main_v7 m ρ c, W2_main_v1 m ρ c]
  all_goals rfl
set_option maxHeartbeats 4000000 in
theorem W3_main_v23 (c : Dev nD) : W3 m ρ c (Proc.devRef .tc main_v23) = WH0 m c := by
  show StableHlo.after hostOps1 (W2 m ρ c) (Proc.devRef .tc main_v23) = _
  after_results
  rw [W2_main_arg5 m ρ c]
  all_goals rfl
set_option maxHeartbeats 4000000 in
theorem W3_main_v25 (c : Dev nD) : W3 m ρ c (Proc.devRef .tc main_v25) = WE0 m c := by
  show StableHlo.after hostOps1 (W2 m ρ c) (Proc.devRef .tc main_v25) = _
  after_results
  rw [W2_main_arg5 m ρ c]
  all_goals rfl
set_option maxHeartbeats 4000000 in
theorem W3_main_v32 (c : Dev nD) : W3 m ρ c (Proc.devRef .tc main_v32) = Terms.asRow (B10 m c) := by
  show StableHlo.after hostOps1 (W2 m ρ c) (Proc.devRef .tc main_v32) = _
  after_results
  rw [W2_main_arg6 m ρ c]
  all_goals rfl
set_option maxHeartbeats 4000000 in
theorem W3_main_v29 (c : Dev nD) : W3 m ρ c (Proc.devRef .tc main_v29) = W20 m c := by
  show StableHlo.after hostOps1 (W2 m ρ c) (Proc.devRef .tc main_v29) = _
  after_results
  rw [W2_main_arg7 m ρ c]
  all_goals rfl
set_option maxHeartbeats 4000000 in
theorem W3_main_v33 (c : Dev nD) : W3 m ρ c (Proc.devRef .tc main_v33) = Terms.asRow (B20 m c) := by
  show StableHlo.after hostOps1 (W2 m ρ c) (Proc.devRef .tc main_v33) = _
  after_results
  rw [W2_main_arg8 m ρ c]
  all_goals rfl
theorem W3_main_v1 (c : Dev nD) : W3 m ρ c (Proc.devRef .tc main_v1) = Sx m c :=
  (StableHlo.after_of_forall_not_mem (b := Proc.devRef .tc main_v1) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_v1 m ρ c)
theorem W3_main_v3 (c : Dev nD) : W3 m ρ c (Proc.devRef .tc main_v3) = Dx m c :=
  (StableHlo.after_of_forall_not_mem (b := Proc.devRef .tc main_v3) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_v3 m ρ c)
theorem W3_main_v7 (c : Dev nD) : W3 m ρ c (Proc.devRef .tc main_v7) = Hk0 m c :=
  (StableHlo.after_of_forall_not_mem (b := Proc.devRef .tc main_v7) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_v7 m ρ c)
theorem W3_main_arg6 (c : Dev nD) : W3 m ρ c (Proc.devRef .tc main_arg6) = X6 m c :=
  (StableHlo.after_of_forall_not_mem (b := Proc.devRef .tc main_arg6) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg6 m ρ c)
theorem W3_main_arg8 (c : Dev nD) : W3 m ρ c (Proc.devRef .tc main_arg8) = X8 m c :=
  (StableHlo.after_of_forall_not_mem (b := Proc.devRef .tc main_arg8) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg8 m ρ c)
theorem W3_main_arg9 (c : Dev nD) : W3 m ρ c (Proc.devRef .tc main_arg9) = X9 m c :=
  (StableHlo.after_of_forall_not_mem (b := Proc.devRef .tc main_arg9) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg9 m ρ c)
theorem W3_main_arg10 (c : Dev nD) : W3 m ρ c (Proc.devRef .tc main_arg10) = X10 m c :=
  (StableHlo.after_of_forall_not_mem (b := Proc.devRef .tc main_arg10) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg10 m ρ c)
theorem W3_main_arg11 (c : Dev nD) : W3 m ρ c (Proc.devRef .tc main_arg11) = X11 m c :=
  (StableHlo.after_of_forall_not_mem (b := Proc.devRef .tc main_arg11) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg11 m ρ c)
theorem W3_main_arg12 (c : Dev nD) : W3 m ρ c (Proc.devRef .tc main_arg12) = X12 m c :=
  (StableHlo.after_of_forall_not_mem (b := Proc.devRef .tc main_arg12) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg12 m ρ c)
theorem W3_main_arg13 (c : Dev nD) : W3 m ρ c (Proc.devRef .tc main_arg13) = X13 m c :=
  (StableHlo.after_of_forall_not_mem (b := Proc.devRef .tc main_arg13) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg13 m ρ c)
theorem W3_main_arg14 (c : Dev nD) : W3 m ρ c (Proc.devRef .tc main_arg14) = X14 m c :=
  (StableHlo.after_of_forall_not_mem (b := Proc.devRef .tc main_arg14) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg14 m ρ c)

/-! ## After region 1 (boundary 4) -/

set_option maxHeartbeats 4000000 in
theorem W4_main_v34 (c : Dev nD) : W4 m ρ c (Proc.devRef .tc main_v34) = M0 m c := by
  refine (W4_arr m ρ c 7).trans ?_
  refine (Cert.KernelIdeal.Msg1.final (V3 m ρ) c).trans ?_
  show Cert.Gnn.edgeMsg 1600000 (W3 m ρ c (Proc.devRef .tc main_v21)) (W3 m ρ c (Proc.devRef .tc main_v8)) (W3 m ρ c (Proc.devRef .tc main_v23)) (W3 m ρ c (Proc.devRef .tc main_v25)) (W3 m ρ c (Proc.devRef .tc main_v32)) (W3 m ρ c (Proc.devRef .tc main_v29)) (W3 m ρ c (Proc.devRef .tc main_v33)) = _
  rw [W3_main_v21 m ρ c, W3_main_v8 m ρ c, W3_main_v23 m ρ c, W3_main_v25 m ρ c, W3_main_v32 m ρ c, W3_main_v29 m ρ c, W3_main_v33 m ρ c]
  all_goals rfl
theorem W4_main_v1 (c : Dev nD) : W4 m ρ c (Proc.devRef .tc main_v1) = Sx m c :=
  (W4_of_ne m ρ c main_v1 (by decide)).trans (W3_main_v1 m ρ c)
theorem W4_main_v3 (c : Dev nD) : W4 m ρ c (Proc.devRef .tc main_v3) = Dx m c :=
  (W4_of_ne m ρ c main_v3 (by decide)).trans (W3_main_v3 m ρ c)
theorem W4_main_v8 (c : Dev nD) : W4 m ρ c (Proc.devRef .tc main_v8) = (truncf (F := Ideal) .bf16 (X2 m c) bitsLt_bf16_f32 : Terms.B S1600000x4) :=
  ((W4_arr m ρ c 1).trans (((dat1 (V3 m ρ) c).arrAt_in 1 rfl cfg1.N).trans (A_eq1 (V3 m ρ) c 1))).trans (W3_main_v8 m ρ c)
theorem W4_main_v10 (c : Dev nD) : W4 m ρ c (Proc.devRef .tc main_v10) = Terms.whAll (X5 m c) :=
  (W4_of_ne m ρ c main_v10 (by decide)).trans (W3_main_v10 m ρ c)
theorem W4_main_v12 (c : Dev nD) : W4 m ρ c (Proc.devRef .tc main_v12) = Terms.weAll (X5 m c) :=
  (W4_of_ne m ρ c main_v12 (by decide)).trans (W3_main_v12 m ρ c)
theorem W4_main_v13 (c : Dev nD) : W4 m ρ c (Proc.devRef .tc main_v13) = Terms.w2All (X7 m c) :=
  (W4_of_ne m ρ c main_v13 (by decide)).trans (W3_main_v13 m ρ c)
theorem W4_main_arg6 (c : Dev nD) : W4 m ρ c (Proc.devRef .tc main_arg6) = X6 m c :=
  (W4_of_ne m ρ c main_arg6 (by decide)).trans (W3_main_arg6 m ρ c)
theorem W4_main_arg8 (c : Dev nD) : W4 m ρ c (Proc.devRef .tc main_arg8) = X8 m c :=
  (W4_of_ne m ρ c main_arg8 (by decide)).trans (W3_main_arg8 m ρ c)
theorem W4_main_arg9 (c : Dev nD) : W4 m ρ c (Proc.devRef .tc main_arg9) = X9 m c :=
  (W4_of_ne m ρ c main_arg9 (by decide)).trans (W3_main_arg9 m ρ c)
theorem W4_main_arg10 (c : Dev nD) : W4 m ρ c (Proc.devRef .tc main_arg10) = X10 m c :=
  (W4_of_ne m ρ c main_arg10 (by decide)).trans (W3_main_arg10 m ρ c)
theorem W4_main_arg11 (c : Dev nD) : W4 m ρ c (Proc.devRef .tc main_arg11) = X11 m c :=
  (W4_of_ne m ρ c main_arg11 (by decide)).trans (W3_main_arg11 m ρ c)
theorem W4_main_arg12 (c : Dev nD) : W4 m ρ c (Proc.devRef .tc main_arg12) = X12 m c :=
  (W4_of_ne m ρ c main_arg12 (by decide)).trans (W3_main_arg12 m ρ c)
theorem W4_main_arg13 (c : Dev nD) : W4 m ρ c (Proc.devRef .tc main_arg13) = X13 m c :=
  (W4_of_ne m ρ c main_arg13 (by decide)).trans (W3_main_arg13 m ρ c)
theorem W4_main_arg14 (c : Dev nD) : W4 m ρ c (Proc.devRef .tc main_arg14) = X14 m c :=
  (W4_of_ne m ρ c main_arg14 (by decide)).trans (W3_main_arg14 m ρ c)
theorem W4_main_v7 (c : Dev nD) : W4 m ρ c (Proc.devRef .tc main_v7) = Hk0 m c :=
  (W4_of_ne m ρ c main_v7 (by decide)).trans (W3_main_v7 m ρ c)

end Cert.KernelIdeal.Whole

end
-- ==== Proof.KNorm2.lean ====
/-
  The normalisation region 2 of the kernel program, read as one function of whole arrays.

  The region runs a pointwise body over a grid of 10 points: point `t` reads rows `5000·t … 5000·t + 4999` of the two
  row-indexed operands `h` and `a` (128 columns), reads the four one-row operands (mean `μ`, variance `v`, scale `γ`,
  shift `β`) whole, and writes the same rows of the result,
      `h + max ((a - μ)·rsqrt (v + ε)·γ + β, 0)`,
  every operation exact on the extended reals.  Since that function is row-local, the ten written blocks are the ten row
  blocks of ONE matrix, `Cert.Gnn.normResid 50000 128 h a μ v γ β` of the whole arrays, and they tile the result array.

  * `pay_eq`     : the body's value at block size is `normResid 5000 128` of the loaded blocks;
  * `idx_facts`  : the windows' block indices over the grid: `(t, 0)` for the row-blocked windows, `(0, 0)` for the rows;
  * `row_blk`, `mat_blk` : a one-row window's block is its array; a row-blocked window's block at `(p, q)` is its array at
                   `(5000·t + p, q)`;
  * `flushed_eq` : what point `t` writes back is block `t` of `normResid 50000 128` of the whole arrays;
  * `mem_blk`, `cover` : row `r` is in the block of point `r / 5000`;
  * `final`      : the result array after the region.
-/
import proofs.«163580_j15788299780297_2_alg».proof.Proof.Gen.KernelIdeal.Frame
import proofs.«163580_j15788299780297_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Norm2

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Gen

/-- The zero offsets of a whole-block rectangle, however they are spelt. -/
theorem hz : (![0, 0] : Fin 2 → Nat) = fun _ => 0 := funext fun a => by fin_cases a <;> rfl

/-- The reciprocal square root of a vector, read at an index. -/
theorem rsqrt_apply {s : Shape} {φ : FTy} (x : FVec Ideal s φ) (i : s.Idx) : rsqrt x i = Ideal.rsqrt (x i) := rfl

/-! ## The body's value -/

/-- The body's value on its loaded blocks is `h + max ((a - μ)·rsqrt (v + ε)·γ + β, 0)` at 5000 rows: each operation
    read at an index, the one-row operands broadcast over the rows. -/
theorem pay_eq (mu var gam bet : Vec Ideal S1x128 .f32) (a h : Vec Ideal S5000x128 .f32) :
    k2_pay1 mu var gam bet a h = Cert.Gnn.normResid 5000 128 h a mu var gam bet := by
  funext j
  obtain ⟨p, q, rfl⟩ : ∃ (p : Fin 5000) (q : Fin 128), j = ix2 p q := ⟨j 0, j 1, eq_ix2 j⟩
  rw [Cert.Gnn.normResid_apply]
  unfold Cert.Gnn.normResidAt k2_pay1
  simp only [shapeCast_self, addf_apply, maximumf_apply, mulf_apply, subf_apply, broadcast_apply, rsqrt_apply, broadcastTo_1b_ab_apply]
  rfl

/-! ## The windows' blocks -/

/-- The block indices over the grid: the three row-blocked windows (the two operands and the result) are at `(t, 0)`, the
    four one-row windows at `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The grid has ten points. -/
theorem t_lt (t : Fin cfg2.N) : t.val < 10 := Nat.lt_of_lt_of_eq t.isLt N_2

section Blocks

variable (V : (c : Dev nD) → (b : Ref sig .tc) → Buf (Elt Ideal) ((c : Thread nD τ).loc b))

/-- The mean's window holds its whole one-row array at every point. -/
theorem row_blk2 (c : Dev nD) (t : Fin cfg2.N) (y : S1x128.Idx) :
    iblk2 V c 2 t y = V c (Pipeline.arrRef spec2 2) y := by
  obtain ⟨-, -, -, -, e0, e1, -⟩ := idx_facts t
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The variance's window holds its whole one-row array at every point. -/
theorem row_blk3 (c : Dev nD) (t : Fin cfg2.N) (y : S1x128.Idx) :
    iblk2 V c 3 t y = V c (Pipeline.arrRef spec2 3) y := by
  obtain ⟨-, -, -, -, -, -, e0, e1, -⟩ := idx_facts t
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The scale's window holds its whole one-row array at every point. -/
theorem row_blk4 (c : Dev nD) (t : Fin cfg2.N) (y : S1x128.Idx) :
    iblk2 V c 4 t y = V c (Pipeline.arrRef spec2 4) y := by
  obtain ⟨-, -, -, -, -, -, -, -, e0, e1, -⟩ := idx_facts t
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The shift's window holds its whole one-row array at every point. -/
theorem row_blk5 (c : Dev nD) (t : Fin cfg2.N) (y : S1x128.Idx) :
    iblk2 V c 5 t y = V c (Pipeline.arrRef spec2 5) y := by
  obtain ⟨-, -, -, -, -, -, -, -, -, -, e0, e1, -⟩ := idx_facts t
  show V c (Pipeline.arrRef spec2 5) (((cfg2.win 5).blk t).view.emb y) = V c (Pipeline.arrRef spec2 5) y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- The first operand's block at point `t`, at `(p, q)`, is its array at `(5000·t + p, q)`. -/
theorem mat_blk0 (c : Dev nD) (t : Fin cfg2.N) (p : Fin 5000) (q : Fin 128) (r : Fin 50000) (hr : r.val = t.val * 5000 + p.val) :
    iblk2 V c 0 t (ix2 p q) = V c (Pipeline.arrRef spec2 0) (ix2 r q) := by
  obtain ⟨e0, e1, -⟩ := idx_facts t
  show V c (Pipeline.arrRef spec2 0) (((cfg2.win 0).blk t).view.emb (ix2 p q)) = V c (Pipeline.arrRef spec2 0) (ix2 r q)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * q.val = q.val; omega

/-- The second operand's block at point `t`, at `(p, q)`, is its array at `(5000·t + p, q)`. -/
theorem mat_blk1 (c : Dev nD) (t : Fin cfg2.N) (p : Fin 5000) (q : Fin 128) (r : Fin 50000) (hr : r.val = t.val * 5000 + p.val) :
    iblk2 V c 1 t (ix2 p q) = V c (Pipeline.arrRef spec2 1) (ix2 r q) := by
  obtain ⟨-, -, e0, e1, -⟩ := idx_facts t
  show V c (Pipeline.arrRef spec2 1) (((cfg2.win 1).blk t).view.emb (ix2 p q)) = V c (Pipeline.arrRef spec2 1) (ix2 r q)
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * q.val = q.val; omega

/-- The result's block at point `t` sits at rows `5000·t …`: its index `(p, q)` is the array's `(5000·t + p, q)`. -/
theorem out_emb (t : Fin cfg2.N) (p : Fin 5000) (q : Fin 128) (r : Fin 50000) (hr : r.val = t.val * 5000 + p.val) :
    ((cfg2.win 6).blk t).view.emb (ix2 p q) = ix2 r q := by
  obtain ⟨-, -, -, -, -, -, -, -, -, -, -, -, e0, e1⟩ := idx_facts t
  refine funext fun a => Fin.ext ?_
  match a with
  | ⟨0, _⟩ => show win2_6.index t (0 : Fin 2) * 5000 + 1 * p.val = r.val; omega
  | ⟨1, _⟩ => show win2_6.index t (1 : Fin 2) * 128 + 1 * q.val = q.val; omega

/-! ## What a point writes back -/

/-- The matrix the result array ends holding: the stage of the whole arrays as the region finds them. -/
abbrev G (c : Dev nD) : S50000x128.Idx → EReal :=
  Cert.Gnn.normResid 50000 128 (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))

/-- Point `t` writes back block `t` of that matrix: the stage is row-local, and the operands' blocks at point `t` are the
    same rows of their arrays. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S1x128) hz]
  rw [pay_eq]
  funext j
  obtain ⟨p, q, rfl⟩ : ∃ (p : Fin 5000) (q : Fin 128), j = ix2 p q := ⟨j 0, j 1, eq_ix2 j⟩
  have ht := t_lt t
  have hr : t.val * 5000 + p.val < 50000 := by have := p.isLt; omega
  show Cert.Gnn.normResid 5000 128 (iblk2 V c 0 t) (iblk2 V c 1 t) (iblk2 V c 2 t) (iblk2 V c 3 t) (iblk2 V c 4 t) (iblk2 V c 5 t) (ix2 p q)
    = G V c (((cfg2.win 6).blk t).view.emb (ix2 p q))
  rw [out_emb t p q ⟨t.val * 5000 + p.val, hr⟩ rfl]
  rw [show (iblk2 V c 2 t : S1x128.Idx → EReal) = V c (Pipeline.arrRef spec2 2) from funext (row_blk2 V c t),
    show (iblk2 V c 3 t : S1x128.Idx → EReal) = V c (Pipeline.arrRef spec2 3) from funext (row_blk3 V c t),
    show (iblk2 V c 4 t : S1x128.Idx → EReal) = V c (Pipeline.arrRef spec2 4) from funext (row_blk4 V c t),
    show (iblk2 V c 5 t : S1x128.Idx → EReal) = V c (Pipeline.arrRef spec2 5) from funext (row_blk5 V c t)]
  exact Cert.Gnn.normResidAt_rows _ _ _ _ _ _ _ _ p ⟨t.val * 5000 + p.val, hr⟩ q
    (mat_blk0 V c t p q _ rfl) (mat_blk1 V c t p q _ rfl)

/-! ## The blocks tile the array -/

/-- An index of the result array is in point `t`'s block iff each coordinate is in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v70).slice (win2_6.rect t)).set ↔ _
  rw [View.set_slice_whole, Rect.mem_set_unit]
  exact Iff.rfl

/-- Row `r` of the result array is written by point `r / 5000`; every column is in every block. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : (i 0).val / 5000 < cfg2.N := by rw [show cfg2.N = 10 from N_2]; omega
  refine ⟨⟨(i 0).val / 5000, hN⟩, flush2_6 _, ?_⟩
  rw [mem_blk]
  obtain ⟨-, -, -, -, -, -, -, -, -, -, -, -, e0, e1⟩ := idx_facts ⟨(i 0).val / 5000, hN⟩
  have e0' : win2_6.index ⟨(i 0).val / 5000, hN⟩ (0 : Fin 2) = (i 0).val / 5000 := e0
  intro a
  match a with
  | ⟨0, _⟩ =>
    show win2_6.index ⟨(i 0).val / 5000, hN⟩ (0 : Fin 2) * 5000 ≤ (i 0).val ∧ (i 0).val < win2_6.index ⟨(i 0).val / 5000, hN⟩ (0 : Fin 2) * 5000 + 5000
    omega
  | ⟨1, _⟩ =>
    show win2_6.index ⟨(i 0).val / 5000, hN⟩ (1 : Fin 2) * 128 ≤ (i 1).val ∧ (i 1).val < win2_6.index ⟨(i 0).val / 5000, hN⟩ (1 : Fin 2) * 128 + 128
    omega

/-! ## The result array -/

/-- After the region the result array holds `h + max ((a - μ)·rsqrt (v + ε)·γ + β, 0)` of the whole operand arrays as the
    region found them. -/
theorem final (c : Dev nD) :
    (dat2 (F := Ideal) V c).arrAt 6 cfg2.N = Cert.Gnn.normResid 50000 128 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 (G V c) (fun t _ => flushed_eq V c t) cover

end Blocks

end Cert.KernelIdeal.Norm2

end
-- ==== Proof.KFold2.lean ====
/-
  The kernel program's buffers at the two boundaries around region 2: after the stretch of host operations before it,
  each buffer the region or a later segment reads is the named function of the launch memory (read off the stretch's
  operations, the earlier boundary's contents substituted); after the region its result array is the specification's
  stage function of its operand arrays, and every buffer still to be read is as before (an operand array of the region
  is not written by it).
-/
import proofs.«163580_j15788299780297_2_alg».proof.Proof.KFold1
import proofs.«163580_j15788299780297_2_alg».proof.Proof.KNorm2

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## After the host operations before region 2 (boundary 5) -/

set_option maxHeartbeats 4000000 in
theorem W5_main_v52 (c : Dev nD) : W5 m ρ c (Proc.devRef .tc main_v52) = Terms.view (Hk0 m c) := by
  show StableHlo.after hostOps2 (W4 m ρ c) (Proc.devRef .tc main_v52) = _
  after_results
  rw [W4_main_v7 m ρ c]
  all_goals rfl
set_option maxHeartbeats 4000000 in
theorem W5_main_v53 (c : Dev nD) : W5 m ρ c (Proc.devRef .tc main_v53) = Terms.view (AG0 m c) := by
  show StableHlo.after hostOps2 (W4 m ρ c) (Proc.devRef .tc main_v53) = _
  after_results
  rw [W4_main_v3 m ρ c, W4_main_v34 m ρ c]
  all_goals rfl
set_option maxHeartbeats 4000000 in
theorem W5_main_v57 (c : Dev nD) : W5 m ρ c (Proc.devRef .tc main_v57) = Terms.tile (MU0 m c) := by
  show StableHlo.after hostOps2 (W4 m ρ c) (Proc.devRef .tc main_v57) = _
  after_results
  rw [W4_main_v3 m ρ c, W4_main_v34 m ρ c]
  all_goals rfl
set_option maxHeartbeats 4000000 in
theorem W5_main_v61 (c : Dev nD) : W5 m ρ c (Proc.devRef .tc main_v61) = Terms.tile (VAR0 m c) := by
  show StableHlo.after hostOps2 (W4 m ρ c) (Proc.devRef .tc main_v61) = _
  after_results
  rw [W4_main_v3 m ρ c, W4_main_v34 m ρ c]
  all_goals rfl
set_option maxHeartbeats 4000000 in
theorem W5_main_v65 (c : Dev nD) : W5 m ρ c (Proc.devRef .tc main_v65) = Terms.tile (G0 m c) := by
  show StableHlo.after hostOps2 (W4 m ρ c) (Proc.devRef .tc main_v65) = _
  after_results
  rw [W4_main_arg9 m ρ c]
  all_goals rfl
set_option maxHeartbeats 4000000 in
theorem W5_main_v69 (c : Dev nD) : W5 m ρ c (Proc.devRef .tc main_v69) = Terms.tile (Bt0 m c) := by
  show StableHlo.after hostOps2 (W4 m ρ c) (Proc.devRef .tc main_v69) = _
  after_results
  rw [W4_main_arg10 m ρ c]
  all_goals rfl
theorem W5_main_v1 (c : Dev nD) : W5 m ρ c (Proc.devRef .tc main_v1) = Sx m c :=
  (StableHlo.after_of_forall_not_mem (b := Proc.devRef .tc main_v1) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_v1 m ρ c)
theorem W5_main_v3 (c : Dev nD) : W5 m ρ c (Proc.devRef .tc main_v3) = Dx m c :=
  (StableHlo.after_of_forall_not_mem (b := Proc.devRef .tc main_v3) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_v3 m ρ c)
theorem W5_main_v8 (c : Dev nD) : W5 m ρ c (Proc.devRef .tc main_v8) = (truncf (F := Ideal) .bf16 (X2 m c) bitsLt_bf16_f32 : Terms.B S1600000x4) :=
  (StableHlo.after_of_forall_not_mem (b := Proc.devRef .tc main_v8) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_v8 m ρ c)
theorem W5_main_v10 (c : Dev nD) : W5 m ρ c (Proc.devRef .tc main_v10) = Terms.whAll (X5 m c) :=
  (StableHlo.after_of_forall_not_mem (b := Proc.devRef .tc main_v10) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_v10 m ρ c)
theorem W5_main_v12 (c : Dev nD) : W5 m ρ c (Proc.devRef .tc main_v12) = Terms.weAll (X5 m c) :=
  (StableHlo.after_of_forall_not_mem (b := Proc.devRef .tc main_v12) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_v12 m ρ c)
theorem W5_main_v13 (c : Dev nD) : W5 m ρ c (Proc.devRef .tc main_v13) = Terms.w2All (X7 m c) :=
  (StableHlo.after_of_forall_not_mem (b := Proc.devRef .tc main_v13) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_v13 m ρ c)
theorem W5_main_arg6 (c : Dev nD) : W5 m ρ c (Proc.devRef .tc main_arg6) = X6 m c :=
  (StableHlo.after_of_forall_not_mem (b := Proc.devRef .tc main_arg6) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg6 m ρ c)
theorem W5_main_arg8 (c : Dev nD) : W5 m ρ c (Proc.devRef .tc main_arg8) = X8 m c :=
  (StableHlo.after_of_forall_not_mem (b := Proc.devRef .tc main_arg8) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg8 m ρ c)
theorem W5_main_arg9 (c : Dev nD) : W5 m ρ c (Proc.devRef .tc main_arg9) = X9 m c :=
  (StableHlo.after_of_forall_not_mem (b := Proc.devRef .tc main_arg9) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg9 m ρ c)
theorem W5_main_arg10 (c : Dev nD) : W5 m ρ c (Proc.devRef .tc main_arg10) = X10 m c :=
  (StableHlo.after_of_forall_not_mem (b := Proc.devRef .tc main_arg10) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg10 m ρ c)
theorem W5_main_arg11 (c : Dev nD) : W5 m ρ c (Proc.devRef .tc main_arg11) = X11 m c :=
  (StableHlo.after_of_forall_not_mem (b := Proc.devRef .tc main_arg11) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg11 m ρ c)
theorem W5_main_arg12 (c : Dev nD) : W5 m ρ c (Proc.devRef .tc main_arg12) = X12 m c :=
  (StableHlo.after_of_forall_not_mem (b := Proc.devRef .tc main_arg12) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg12 m ρ c)
theorem W5_main_arg13 (c : Dev nD) : W5 m ρ c (Proc.devRef .tc main_arg13) = X13 m c :=
  (StableHlo.after_of_forall_not_mem (b := Proc.devRef .tc main_arg13) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg13 m ρ c)
theorem W5_main_arg14 (c : Dev nD) : W5 m ρ c (Proc.devRef .tc main_arg14) = X14 m c :=
  (StableHlo.after_of_forall_not_mem (b := Proc.devRef .tc main_arg14) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg14 m ρ c)

/-! ## After region 2 (boundary 6) -/

set_option maxHeartbeats 4000000 in
theorem W6_main_v70 (c : Dev nD) : W6 m ρ c (Proc.devRef .tc main_v70) = NV0 m c := by
  refine (W6_arr m ρ c 6).trans ?_
  refine (Cert.KernelIdeal.Norm2.final (V5 m ρ) c).trans ?_
  show Cert.Gnn.normResid 50000 128 (W5 m ρ c (Proc.devRef .tc main_v52)) (W5 m ρ c (Proc.devRef .tc main_v53)) (W5 m ρ c (Proc.devRef .tc main_v57)) (W5 m ρ c (Proc.devRef .tc main_v61)) (W5 m ρ c (Proc.devRef .tc main_v65)) (W5 m ρ c (Proc.devRef .tc main_v69)) = _
  rw [W5_main_v52 m ρ c, W5_main_v53 m ρ c, W5_main_v57 m ρ c, W5_main_v61 m ρ c, W5_main_v65 m ρ c, W5_main_v69 m ρ c]
  all_goals rfl
theorem W6_main_v1 (c : Dev nD) : W6 m ρ c (Proc.devRef .tc main_v1) = Sx m c :=
  (W6_of_ne m ρ c main_v1 (by decide)).trans (W5_main_v1 m ρ c)
theorem W6_main_v3 (c : Dev nD) : W6 m ρ c (Proc.devRef .tc main_v3) = Dx m c :=
  (W6_of_ne m ρ c main_v3 (by decide)).trans (W5_main_v3 m ρ c)
theorem W6_main_v8 (c : Dev nD) : W6 m ρ c (Proc.devRef .tc main_v8) = (truncf (F := Ideal) .bf16 (X2 m c) bitsLt_bf16_f32 : Terms.B S1600000x4) :=
  (W6_of_ne m ρ c main_v8 (by decide)).trans (W5_main_v8 m ρ c)
theorem W6_main_v10 (c : Dev nD) : W6 m ρ c (Proc.devRef .tc main_v10) = Terms.whAll (X5 m c) :=
  (W6_of_ne m ρ c main_v10 (by decide)).trans (W5_main_v10 m ρ c)
theorem W6_main_v12 (c : Dev nD) : W6 m ρ c (Proc.devRef .tc main_v12) = Terms.weAll (X5 m c) :=
  (W6_of_ne m ρ c main_v12 (by decide)).trans (W5_main_v12 m ρ c)
theorem W6_main_v13 (c : Dev nD) : W6 m ρ c (Proc.devRef .tc main_v13) = Terms.w2All (X7 m c) :=
  (W6_of_ne m ρ c main_v13 (by decide)).trans (W5_main_v13 m ρ c)
theorem W6_main_arg6 (c : Dev nD) : W6 m ρ c (Proc.devRef .tc main_arg6) = X6 m c :=
  (W6_of_ne m ρ c main_arg6 (by decide)).trans (W5_main_arg6 m ρ c)
theorem W6_main_arg8 (c : Dev nD) : W6 m ρ c (Proc.devRef .tc main_arg8) = X8 m c :=
  (W6_of_ne m ρ c main_arg8 (by decide)).trans (W5_main_arg8 m ρ c)
theorem W6_main_arg9 (c : Dev nD) : W6 m ρ c (Proc.devRef .tc main_arg9) = X9 m c :=
  (W6_of_ne m ρ c main_arg9 (by decide)).trans (W5_main_arg9 m ρ c)
theorem W6_main_arg10 (c : Dev nD) : W6 m ρ c (Proc.devRef .tc main_arg10) = X10 m c :=
  (W6_of_ne m ρ c main_arg10 (by decide)).trans (W5_main_arg10 m ρ c)
theorem W6_main_arg11 (c : Dev nD) : W6 m ρ c (Proc.devRef .tc main_arg11) = X11 m c :=
  (W6_of_ne m ρ c main_arg11 (by decide)).trans (W5_main_arg11 m ρ c)
theorem W6_main_arg12 (c : Dev nD) : W6 m ρ c (Proc.devRef .tc main_arg12) = X12 m c :=
  (W6_of_ne m ρ c main_arg12 (by decide)).trans (W5_main_arg12 m ρ c)
theorem W6_main_arg13 (c : Dev nD) : W6 m ρ c (Proc.devRef .tc main_arg13) = X13 m c :=
  (W6_of_ne m ρ c main_arg13 (by decide)).trans (W5_main_arg13 m ρ c)
theorem W6_main_arg14 (c : Dev nD) : W6 m ρ c (Proc.devRef .tc main_arg14) = X14 m c :=
  (W6_of_ne m ρ c main_arg14 (by decide)).trans (W5_main_arg14 m ρ c)

end Cert.KernelIdeal.Whole

end
-- ==== Proof.KMsg3.lean ====
/-
  The edge-message region: what its output array holds after the last grid point.

  The region runs one kernel body over 200 grid points.  At point `t` the body reads rows `8000 t … 8000 t + 7999` of
  the gathered node features and of the edge attributes, and all of two weight matrices, a bias row, a third weight
  matrix and a second bias row, and stores `max (hs·Wh + ea·We + b1, 0)·W2 + b2` of them as rows
  `8000 t … 8000 t + 7999` of the output.  Since an edge's message depends on the row-indexed operands through that
  edge's row only, the 200 blocks written back are the blocks of ONE function of the whole arrays, and they cover
  the output: after the last point the output array is `Cert.Gnn.edgeMsg` of the arrays the region found (`final`).
-/
import proofs.«163580_j15788299780297_2_alg».proof.Proof.Gen.KernelIdeal.Frame
import proofs.«163580_j15788299780297_2_alg».proof.Proof.Spec
import proofs.«163580_j15788299780297_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Msg3

open Cert.KernelIdeal Cert.KernelIdeal.Gen Idealize.ShloMosaic Idealize.ShloMosaic.TcCoe Idealize.SL.Sem
open Idealize.ShloMosaic.ValueIdx Cert.Gnn
open Idealize.ShloMosaic.Pipeline (Dat)
open scoped BigOperators

/-! ## The body's payload is the edge message of its blocks -/

/-- The printed dimension numbers of the two 64-deep products are the plain row-by-column product's. -/
theorem dot64 : dot_S8000x64_S64x64_S8000x64_1_0_0_1_n_n = DotDims.plain 8000 64 64 := rfl
/-- The printed dimension numbers of the 4-deep product are the plain row-by-column product's. -/
theorem dot4 : dot_S8000x4_S4x64_S8000x64_1_0_0_1_n_n = DotDims.plain 8000 4 64 := rfl

/-- At row `p` and column `q` the payload is `max (hs·Wh + ea·We + b1, 0)·W2 + b2` of its seven blocks: each product
    into the zero array is the sum over its contraction coordinate, each bias row is read at the column, the
    truncation to the narrower float is the identity on the extended reals. -/
theorem pay_eq (v0 : Vec Ideal S8000x64 .bf16) (v2 : Vec Ideal S8000x4 .bf16) (v4 : Vec Ideal S64x64 .bf16)
    (v6 : Vec Ideal S4x64 .bf16) (v11 : Vec Ideal S1x64 .f32) (v18 : Vec Ideal S64x64 .bf16) (v21 : Vec Ideal S1x64 .f32) :
    k3_pay1 v0 v2 v4 v6 v11 v18 v21 = edgeMsg 8000 v0 v2 v4 v6 v11 v18 v21 := by
  funext j
  obtain ⟨p, q, rfl⟩ : ∃ (p : Fin 8000) (q : Fin 64), j = ix2 p q := ⟨j 0, j 1, eq_ix2 j⟩
  rw [edgeMsg_apply]
  unfold k3_pay1 edgeMsgAt edgeHidAt
  simp only [shapeCast_self, dot64, dot4, addf_apply, maximumf_apply, truncf_apply, broadcast_apply,
    broadcastTo_1b_ab_apply, Cert.LibPlainMatmul.matmul_zero_apply]
  rfl

/-- An edge's message depends on the row-indexed operands through that edge's row only, and on the weights as
    they are: equal rows and equal weights give equal messages. -/
theorem edgeMsgAt_blocks {n n' : ℕ} (hs : Mat n 64) (hs' : Mat n' 64) (ea : Mat n 4) (ea' : Mat n' 4)
    (wh wh' : Mat 64 64) (we we' : Mat 4 64) (b1 b1' : Mat 1 64) (w2 w2' : Mat 64 64) (b2 b2' : Mat 1 64)
    (p : Fin n) (r : Fin n') (c : Fin 64)
    (hh : ∀ q, hs (ix2 p q) = hs' (ix2 r q)) (he : ∀ q, ea (ix2 p q) = ea' (ix2 r q))
    (hwh : wh = wh') (hwe : we = we') (hb1 : b1 = b1') (hw2 : w2 = w2') (hb2 : b2 = b2') :
    edgeMsgAt n hs ea wh we b1 w2 b2 p c = edgeMsgAt n' hs' ea' wh' we' b1' w2' b2' r c := by
  subst hwh hwe hb1 hw2 hb2
  exact edgeMsgAt_rows hs hs' ea ea' wh we b1 w2 b2 p r c hh he

/-! ## The windows' blocks as parts of their arrays -/

theorem hz : (![0, 0] : Fin 2 → Nat) = fun _ => 0 := funext fun a => by fin_cases a <;> rfl

/-- The printed index maps, decided over the grid: the two row-blocked inputs and the output sit at block `(t, 0)`,
    the weights and the biases at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

variable (V : (c : Dev nD) → (b : Ref sig .tc) → Buf (Elt Ideal) ((c : Thread nD τ).loc b))

/-- Row `p` of the gathered-features block at point `t` is row `8000 t + p` of the array. -/
theorem blk0_apply (c : Dev nD) (t : Fin cfg3.N) (p : Fin 8000) (k : Fin 64) (r : Fin 1600000)
    (hr : r.val = t.val * 8000 + p.val) :
    (iblk3 V c 0 t : Vec Ideal S8000x64 .bf16) (ix2 p k)
      = (V c (Pipeline.arrRef spec3 0) : Vec Ideal S1600000x64 .bf16) (ix2 r k) := by
  obtain ⟨e0, e1, -⟩ := idx_facts t
  unfold iblk3
  rw [View.read_apply]
  refine congrArg (V c (Pipeline.arrRef spec3 0) : Vec Ideal S1600000x64 .bf16) (funext fun a => Fin.ext ?_)
  match a with
  | ⟨0, _⟩ => show win3_0.index t (0 : Fin 2) * 8000 + 1 * p.val = r.val; rw [e0, hr]; omega
  | ⟨1, _⟩ => show win3_0.index t (1 : Fin 2) * 64 + 1 * k.val = k.val; rw [e1]; omega

/-- Row `p` of the edge-attributes block at point `t` is row `8000 t + p` of the array. -/
theorem blk1_apply (c : Dev nD) (t : Fin cfg3.N) (p : Fin 8000) (k : Fin 4) (r : Fin 1600000)
    (hr : r.val = t.val * 8000 + p.val) :
    (iblk3 V c 1 t : Vec Ideal S8000x4 .bf16) (ix2 p k)
      = (V c (Pipeline.arrRef spec3 1) : Vec Ideal S1600000x4 .bf16) (ix2 r k) := by
  obtain ⟨-, -, e0, e1, -⟩ := idx_facts t
  unfold iblk3
  rw [View.read_apply]
  refine congrArg (V c (Pipeline.arrRef spec3 1) : Vec Ideal S1600000x4 .bf16) (funext fun a => Fin.ext ?_)
  match a with
  | ⟨0, _⟩ => show win3_1.index t (0 : Fin 2) * 8000 + 1 * p.val = r.val; rw [e0, hr]; omega
  | ⟨1, _⟩ => show win3_1.index t (1 : Fin 2) * 4 + 1 * k.val = k.val; rw [e1]; omega

/-- A weight's or a bias's block is its whole array: the block index is `(0, 0)` and the block has the array's sizes. -/
theorem blk2_eq (c : Dev nD) (t : Fin cfg3.N) :
    (iblk3 V c 2 t : Vec Ideal S64x64 .bf16) = (V c (Pipeline.arrRef spec3 2) : Vec Ideal S64x64 .bf16) := by
  obtain ⟨-, -, -, -, e0, e1, -⟩ := idx_facts t
  funext y
  unfold iblk3
  rw [View.read_apply]
  refine congrArg (V c (Pipeline.arrRef spec3 2) : Vec Ideal S64x64 .bf16) (funext fun a => Fin.ext ?_)
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

theorem blk3_eq (c : Dev nD) (t : Fin cfg3.N) :
    (iblk3 V c 3 t : Vec Ideal S4x64 .bf16) = (V c (Pipeline.arrRef spec3 3) : Vec Ideal S4x64 .bf16) := by
  obtain ⟨-, -, -, -, -, -, e0, e1, -⟩ := idx_facts t
  funext y
  unfold iblk3
  rw [View.read_apply]
  refine congrArg (V c (Pipeline.arrRef spec3 3) : Vec Ideal S4x64 .bf16) (funext fun a => Fin.ext ?_)
  match a with
  | ⟨0, _⟩ => show win3_3.index t (0 : Fin 2) * 4 + 1 * (y 0).val = (y 0).val; rw [e0]; omega
  | ⟨1, _⟩ => show win3_3.index t (1 : Fin 2) * 64 + 1 * (y 1).val = (y 1).val; rw [e1]; omega

theorem blk4_eq (c : Dev nD) (t : Fin cfg3.N) :
    (iblk3 V c 4 t : Vec Ideal S1x64 .f32) = (V c (Pipeline.arrRef spec3 4) : Vec Ideal S1x64 .f32) := by
  obtain ⟨-, -, -, -, -, -, -, -, e0, e1, -⟩ := idx_facts t
  funext y
  unfold iblk3
  rw [View.read_apply]
  refine congrArg (V c (Pipeline.arrRef spec3 4) : Vec Ideal S1x64 .f32) (funext fun a => Fin.ext ?_)
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega

theorem blk5_eq (c : Dev nD) (t : Fin cfg3.N) :
    (iblk3 V c 5 t : Vec Ideal S64x64 .bf16) = (V c (Pipeline.arrRef spec3 5) : Vec Ideal S64x64 .bf16) := by
  obtain ⟨-, -, -, -, -, -, -, -, -, -, e0, e1, -⟩ := idx_facts t
  funext y
  unfold iblk3
  rw [View.read_apply]
  refine congrArg (V c (Pipeline.arrRef spec3 5) : Vec Ideal S64x64 .bf16) (funext fun a => Fin.ext ?_)
  match a with
  | ⟨0, _⟩ => show win3_5.index t (0 : Fin 2) * 64 + 1 * (y 0).val = (y 0).val; rw [e0]; omega
  | ⟨1, _⟩ => show win3_5.index t (1 : Fin 2) * 64 + 1 * (y 1).val = (y 1).val; rw [e1]; omega

theorem blk6_eq (c : Dev nD) (t : Fin cfg3.N) :
    (iblk3 V c 6 t : Vec Ideal S1x64 .f32) = (V c (Pipeline.arrRef spec3 6) : Vec Ideal S1x64 .f32) := by
  obtain ⟨-, -, -, -, -, -, -, -, -, -, -, -, e0, e1, -⟩ := idx_facts t
  funext y
  unfold iblk3
  rw [View.read_apply]
  refine congrArg (V c (Pipeline.arrRef spec3 6) : Vec Ideal S1x64 .f32) (funext fun a => Fin.ext ?_)
  match a with
  | ⟨0, _⟩ => show win3_6.index t (0 : Fin 2) * 1 + 1 * (y 0).val = (y 0).val; rw [e0]; omega
  | ⟨1, _⟩ => show win3_6.index t (1 : Fin 2) * 64 + 1 * (y 1).val = (y 1).val; rw [e1]; omega

/-! ## What a point writes back, and the array after the last point -/

/-- The edge messages of the whole arrays the region finds. -/
abbrev G (c : Dev nD) : Mat 1600000 64 :=
  edgeMsg 1600000 (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6))

set_option maxHeartbeats 1000000 in
/-- The body's result on the blocks at point `t` is block `t` of the whole arrays' edge messages: the payload is
    the edge message of the blocks (`pay_eq`), row `p` of a row-indexed block is row `8000 t + p` of its array, and
    the weights' blocks are the weights. -/
theorem body_eq (c : Dev nD) (t : Fin cfg3.N) :
    (cfg3.win 7).cut (grid3.coords t)
        (out3_7 (F := Ideal) (iblk3 V c 0 t) (iblk3 V c 1 t) (iblk3 V c 2 t) (iblk3 V c 3 t) (iblk3 V c 4 t)
          (iblk3 V c 5 t) (iblk3 V c 6 t))
      = ((cfg3.win 7).blk t).view.read (Elt Ideal) (G V c) := by
  unfold out3_7
  rw [View.canon_unit_zero hz]
  simp only [View.ld_unit_zero (S := S8000x64) hz, View.ld_unit_zero (S := S8000x4) hz, View.ld_unit_zero (S := S64x64) hz,
    View.ld_unit_zero (S := S4x64) hz, View.ld_unit_zero (S := S1x64) hz]
  rw [pay_eq]
  funext j
  obtain ⟨p, q, rfl⟩ : ∃ (p : Fin 8000) (q : Fin 64), j = ix2 p q := ⟨j 0, j 1, eq_ix2 j⟩
  have ht : t.val < 200 := lt_of_lt_of_eq t.isLt N_3
  obtain ⟨r, hr⟩ : ∃ r : Fin 1600000, r.val = t.val * 8000 + p.val := ⟨⟨t.val * 8000 + p.val, by have := p.isLt; omega⟩, rfl⟩
  obtain ⟨-, -, -, -, -, -, -, -, -, -, -, -, -, -, e0, e1⟩ := idx_facts t
  have hemb : ((cfg3.win 7).blk t).view.emb (ix2 p q) = ix2 r q := by
    funext a
    apply Fin.ext
    match a with
    | ⟨0, _⟩ => show win3_7.index t (0 : Fin 2) * 8000 + 1 * p.val = r.val; rw [e0, hr]; omega
    | ⟨1, _⟩ => show win3_7.index t (1 : Fin 2) * 64 + 1 * q.val = q.val; rw [e1]; omega
  rw [View.read_apply, hemb]
  show edgeMsg 8000 _ _ _ _ _ _ _ (ix2 p q) = edgeMsg 1600000 _ _ _ _ _ _ _ (ix2 r q)
  rw [edgeMsg_apply, edgeMsg_apply]
  exact edgeMsgAt_blocks _ _ _ _ _ _ _ _ _ _ _ _ _ _ p r q (fun k => blk0_apply V c t p k r hr)
    (fun k => blk1_apply V c t p k r hr) (blk2_eq V c t) (blk3_eq V c t) (blk4_eq V c t) (blk5_eq V c t) (blk6_eq V c t)

/-- An index of the array is in point `t`'s block iff each coordinate is in the block's range on its axis. -/
theorem mem_blk (t : Fin cfg3.N) (i : S1600000x64.Idx) :
    i ∈ ((cfg3.win 7).blk t).view.set ↔ ∀ a : Fin 2, win3_7.index t a * S8000x64.size a ≤ (i a).val
      ∧ (i a).val < win3_7.index t a * S8000x64.size a + S8000x64.size a := by
  show i ∈ ((View.whole main_v92).slice (win3_7.rect t)).set ↔ _
  rw [View.set_slice_whole, Rect.mem_set_unit]
  exact Iff.rfl

/-- Every index of the array is in some point's block: row `r` in point `r / 8000`'s, whatever the column. -/
theorem cover (i : S1600000x64.Idx) :
    ∃ t : Fin cfg3.N, (cfg3.win 7).flush t = true ∧ i ∈ ((cfg3.win 7).blk t).view.set := by
  have hi0 : (i 0).val < 1600000 := (i 0).isLt
  have hi1 : (i 1).val < 64 := (i 1).isLt
  obtain ⟨t, ht⟩ : ∃ t : Fin cfg3.N, t.val = (i 0).val / 8000 :=
    ⟨⟨(i 0).val / 8000, lt_of_lt_of_eq (by omega : (i 0).val / 8000 < 200) N_3.symm⟩, rfl⟩
  obtain ⟨-, -, -, -, -, -, -, -, -, -, -, -, -, -, e0, e1⟩ := idx_facts t
  refine ⟨t, flush3_7 t, ?_⟩
  rw [mem_blk]
  intro a
  match a with
  | ⟨0, _⟩ =>
    show win3_7.index t (0 : Fin 2) * 8000 ≤ (i 0).val ∧ (i 0).val < win3_7.index t (0 : Fin 2) * 8000 + 8000
    rw [e0, ht]; omega
  | ⟨1, _⟩ =>
    show win3_7.index t (1 : Fin 2) * 64 ≤ (i 1).val ∧ (i 1).val < win3_7.index t (1 : Fin 2) * 64 + 64
    rw [e1]; omega

/-- WHAT POINT `t` WRITES BACK is block `t` of the whole arrays' edge messages. -/
theorem flushed_eq (c : Dev nD) (t : Fin cfg3.N) :
    (dat3 (F := Ideal) V c).flushed 7 t = ((cfg3.win 7).blk t).view.read (Elt Ideal) (G V c) := by
  show (cfg3.win 7).cut (grid3.coords t) ((dat3 (F := Ideal) V c).after 7 t) = _
  rw [after3_7]
  exact body_eq V c t

/-- THE ARRAY after the last point: the edge messages of the whole arrays the region finds — every point writes its
    block back, and the blocks cover the array. -/
theorem final (V : (c : Dev nD) → (b : Ref sig .tc) → Buf (Elt Ideal) ((c : Thread nD τ).loc b)) (c : Dev nD) :
    (dat3 (F := Ideal) V c).arrAt 7 cfg3.N
      = Cert.Gnn.edgeMsg 1600000 (V c (Pipeline.arrRef spec3 0)) (V c (Pipeline.arrRef spec3 1))
          (V c (Pipeline.arrRef spec3 2)) (V c (Pipeline.arrRef spec3 3)) (V c (Pipeline.arrRef spec3 4))
          (V c (Pipeline.arrRef spec3 5)) (V c (Pipeline.arrRef spec3 6)) :=
  (dat3 (F := Ideal) V c).arrAt_eq_of_cover 7 (G V c) (fun t _ => flushed_eq V c t) cover

end Cert.KernelIdeal.Msg3

end
-- ==== Proof.KFold3.lean ====
/-
  The kernel program's buffers at the two boundaries around region 3: after the stretch of host operations before it,
  each buffer the region or a later segment reads is the named function of the launch memory (read off the stretch's
  operations, the earlier boundary's contents substituted); after the region its result array is the specification's
  stage function of its operand arrays, and every buffer still to be read is as before (an operand array of the region
  is not written by it).
-/
import proofs.«163580_j15788299780297_2_alg».proof.Proof.KFold2
import proofs.«163580_j15788299780297_2_alg».proof.Proof.KMsg3

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## After the host operations before region 3 (boundary 7) -/

set_option maxHeartbeats 4000000 in
theorem W7_main_v71 (c : Dev nD) : W7 m ρ c (Proc.devRef .tc main_v71) = Hk1 m c := by
  show StableHlo.after hostOps3 (W6 m ρ c) (Proc.devRef .tc main_v71) = _
  after_results
  rw [W6_main_v70 m ρ c]
  all_goals rfl
set_option maxHeartbeats 4000000 in
theorem W7_main_v79 (c : Dev nD) : W7 m ρ c (Proc.devRef .tc main_v79) = HS1 m c := by
  show StableHlo.after hostOps3 (W6 m ρ c) (Proc.devRef .tc main_v79) = _
  after_results
  rw [W6_main_v70 m ρ c, W6_main_v1 m ρ c]
  all_goals rfl
set_option maxHeartbeats 4000000 in
theorem W7_main_v81 (c : Dev nD) : W7 m ρ c (Proc.devRef .tc main_v81) = WH1 m c := by
  show StableHlo.after hostOps3 (W6 m ρ c) (Proc.devRef .tc main_v81) = _
  after_results
  rw [W6_main_v10 m ρ c]
  all_goals rfl
set_option maxHeartbeats 4000000 in
theorem W7_main_v83 (c : Dev nD) : W7 m ρ c (Proc.devRef .tc main_v83) = WE1 m c := by
  show StableHlo.after hostOps3 (W6 m ρ c) (Proc.devRef .tc main_v83) = _
  after_results
  rw [W6_main_v12 m ρ c]
  all_goals rfl
set_option maxHeartbeats 4000000 in
theorem W7_main_v90 (c : Dev nD) : W7 m ρ c (Proc.devRef .tc main_v90) = Terms.asRow (B11 m c) := by
  show StableHlo.after hostOps3 (W6 m ρ c) (Proc.devRef .tc main_v90) = _
  after_results
  rw [W6_main_arg6 m ρ c]
  all_goals rfl
set_option maxHeartbeats 4000000 in
theorem W7_main_v87 (c : Dev nD) : W7 m ρ c (Proc.devRef .tc main_v87) = W21 m c := by
  show StableHlo.after hostOps3 (W6 m ρ c) (Proc.devRef .tc main_v87) = _
  after_results
  rw [W6_main_v13 m ρ c]
  all_goals rfl
set_option maxHeartbeats 4000000 in
theorem W7_main_v91 (c : Dev nD) : W7 m ρ c (Proc.devRef .tc main_v91) = Terms.asRow (B21 m c) := by
  show StableHlo.after hostOps3 (W6 m ρ c) (Proc.devRef .tc main_v91) = _
  after_results
  rw [W6_main_arg8 m ρ c]
  all_goals rfl
theorem W7_main_v1 (c : Dev nD) : W7 m ρ c (Proc.devRef .tc main_v1) = Sx m c :=
  (StableHlo.after_of_forall_not_mem (b := Proc.devRef .tc main_v1) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_v1 m ρ c)
theorem W7_main_v3 (c : Dev nD) : W7 m ρ c (Proc.devRef .tc main_v3) = Dx m c :=
  (StableHlo.after_of_forall_not_mem (b := Proc.devRef .tc main_v3) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_v3 m ρ c)
theorem W7_main_v8 (c : Dev nD) : W7 m ρ c (Proc.devRef .tc main_v8) = (truncf (F := Ideal) .bf16 (X2 m c) bitsLt_bf16_f32 : Terms.B S1600000x4) :=
  (StableHlo.after_of_forall_not_mem (b := Proc.devRef .tc main_v8) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_v8 m ρ c)
theorem W7_main_v10 (c : Dev nD) : W7 m ρ c (Proc.devRef .tc main_v10) = Terms.whAll (X5 m c) :=
  (StableHlo.after_of_forall_not_mem (b := Proc.devRef .tc main_v10) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_v10 m ρ c)
theorem W7_main_v12 (c : Dev nD) : W7 m ρ c (Proc.devRef .tc main_v12) = Terms.weAll (X5 m c) :=
  (StableHlo.after_of_forall_not_mem (b := Proc.devRef .tc main_v12) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_v12 m ρ c)
theorem W7_main_v13 (c : Dev nD) : W7 m ρ c (Proc.devRef .tc main_v13) = Terms.w2All (X7 m c) :=
  (StableHlo.after_of_forall_not_mem (b := Proc.devRef .tc main_v13) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_v13 m ρ c)
theorem W7_main_arg6 (c : Dev nD) : W7 m ρ c (Proc.devRef .tc main_arg6) = X6 m c :=
  (StableHlo.after_of_forall_not_mem (b := Proc.devRef .tc main_arg6) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg6 m ρ c)
theorem W7_main_arg8 (c : Dev nD) : W7 m ρ c (Proc.devRef .tc main_arg8) = X8 m c :=
  (StableHlo.after_of_forall_not_mem (b := Proc.devRef .tc main_arg8) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg8 m ρ c)
theorem W7_main_arg9 (c : Dev nD) : W7 m ρ c (Proc.devRef .tc main_arg9) = X9 m c :=
  (StableHlo.after_of_forall_not_mem (b := Proc.devRef .tc main_arg9) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg9 m ρ c)
theorem W7_main_arg10 (c : Dev nD) : W7 m ρ c (Proc.devRef .tc main_arg10) = X10 m c :=
  (StableHlo.after_of_forall_not_mem (b := Proc.devRef .tc main_arg10) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg10 m ρ c)
theorem W7_main_arg11 (c : Dev nD) : W7 m ρ c (Proc.devRef .tc main_arg11) = X11 m c :=
  (StableHlo.after_of_forall_not_mem (b := Proc.devRef .tc main_arg11) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg11 m ρ c)
theorem W7_main_arg12 (c : Dev nD) : W7 m ρ c (Proc.devRef .tc main_arg12) = X12 m c :=
  (StableHlo.after_of_forall_not_mem (b := Proc.devRef .tc main_arg12) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg12 m ρ c)
theorem W7_main_arg13 (c : Dev nD) : W7 m ρ c (Proc.devRef .tc main_arg13) = X13 m c :=
  (StableHlo.after_of_forall_not_mem (b := Proc.devRef .tc main_arg13) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg13 m ρ c)
theorem W7_main_arg14 (c : Dev nD) : W7 m ρ c (Proc.devRef .tc main_arg14) = X14 m c :=
  (StableHlo.after_of_forall_not_mem (b := Proc.devRef .tc main_arg14) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg14 m ρ c)

/-! ## After region 3 (boundary 8) -/

set_option maxHeartbeats 4000000 in
theorem W8_main_v92 (c : Dev nD) : W8 m ρ c (Proc.devRef .tc main_v92) = M1 m c := by
  refine (W8_arr m ρ c 7).trans ?_
  refine (Cert.KernelIdeal.Msg3.final (V7 m ρ) c).trans ?_
  show Cert.Gnn.edgeMsg 1600000 (W7 m ρ c (Proc.devRef .tc main_v79)) (W7 m ρ c (Proc.devRef .tc main_v8)) (W7 m ρ c (Proc.devRef .tc main_v81)) (W7 m ρ c (Proc.devRef .tc main_v83)) (W7 m ρ c (Proc.devRef .tc main_v90)) (W7 m ρ c (Proc.devRef .tc main_v87)) (W7 m ρ c (Proc.devRef .tc main_v91)) = _
  rw [W7_main_v79 m ρ c, W7_main_v8 m ρ c, W7_main_v81 m ρ c, W7_main_v83 m ρ c, W7_main_v90 m ρ c, W7_main_v87 m ρ c, W7_main_v91 m ρ c]
  all_goals rfl
theorem W8_main_v1 (c : Dev nD) : W8 m ρ c (Proc.devRef .tc main_v1) = Sx m c :=
  (W8_of_ne m ρ c main_v1 (by decide)).trans (W7_main_v1 m ρ c)
theorem W8_main_v3 (c : Dev nD) : W8 m ρ c (Proc.devRef .tc main_v3) = Dx m c :=
  (W8_of_ne m ρ c main_v3 (by decide)).trans (W7_main_v3 m ρ c)
theorem W8_main_v8 (c : Dev nD) : W8 m ρ c (Proc.devRef .tc main_v8) = (truncf (F := Ideal) .bf16 (X2 m c) bitsLt_bf16_f32 : Terms.B S1600000x4) :=
  ((W8_arr m ρ c 1).trans (((dat3 (V7 m ρ) c).arrAt_in 1 rfl cfg3.N).trans (A_eq3 (V7 m ρ) c 1))).trans (W7_main_v8 m ρ c)
theorem W8_main_v10 (c : Dev nD) : W8 m ρ c (Proc.devRef .tc main_v10) = Terms.whAll (X5 m c) :=
  (W8_of_ne m ρ c main_v10 (by decide)).trans (W7_main_v10 m ρ c)
theorem W8_main_v12 (c : Dev nD) : W8 m ρ c (Proc.devRef .tc main_v12) = Terms.weAll (X5 m c) :=
  (W8_of_ne m ρ c main_v12 (by decide)).trans (W7_main_v12 m ρ c)
theorem W8_main_v13 (c : Dev nD) : W8 m ρ c (Proc.devRef .tc main_v13) = Terms.w2All (X7 m c) :=
  (W8_of_ne m ρ c main_v13 (by decide)).trans (W7_main_v13 m ρ c)
theorem W8_main_arg6 (c : Dev nD) : W8 m ρ c (Proc.devRef .tc main_arg6) = X6 m c :=
  (W8_of_ne m ρ c main_arg6 (by decide)).trans (W7_main_arg6 m ρ c)
theorem W8_main_arg8 (c : Dev nD) : W8 m ρ c (Proc.devRef .tc main_arg8) = X8 m c :=
  (W8_of_ne m ρ c main_arg8 (by decide)).trans (W7_main_arg8 m ρ c)
theorem W8_main_arg9 (c : Dev nD) : W8 m ρ c (Proc.devRef .tc main_arg9) = X9 m c :=
  (W8_of_ne m ρ c main_arg9 (by decide)).trans (W7_main_arg9 m ρ c)
theorem W8_main_arg10 (c : Dev nD) : W8 m ρ c (Proc.devRef .tc main_arg10) = X10 m c :=
  (W8_of_ne m ρ c main_arg10 (by decide)).trans (W7_main_arg10 m ρ c)
theorem W8_main_arg11 (c : Dev nD) : W8 m ρ c (Proc.devRef .tc main_arg11) = X11 m c :=
  (W8_of_ne m ρ c main_arg11 (by decide)).trans (W7_main_arg11 m ρ c)
theorem W8_main_arg12 (c : Dev nD) : W8 m ρ c (Proc.devRef .tc main_arg12) = X12 m c :=
  (W8_of_ne m ρ c main_arg12 (by decide)).trans (W7_main_arg12 m ρ c)
theorem W8_main_arg13 (c : Dev nD) : W8 m ρ c (Proc.devRef .tc main_arg13) = X13 m c :=
  (W8_of_ne m ρ c main_arg13 (by decide)).trans (W7_main_arg13 m ρ c)
theorem W8_main_arg14 (c : Dev nD) : W8 m ρ c (Proc.devRef .tc main_arg14) = X14 m c :=
  (W8_of_ne m ρ c main_arg14 (by decide)).trans (W7_main_arg14 m ρ c)
theorem W8_main_v71 (c : Dev nD) : W8 m ρ c (Proc.devRef .tc main_v71) = Hk1 m c :=
  (W8_of_ne m ρ c main_v71 (by decide)).trans (W7_main_v71 m ρ c)

end Cert.KernelIdeal.Whole

end
-- ==== Proof.KNorm4.lean ====
/-
  The normalisation region 4 of the kernel program, read as one function of whole arrays.

  The region runs a pointwise body over a grid of 10 points: point `t` reads rows `5000·t … 5000·t + 4999` of the two
  row-indexed operands `h` and `a` (128 columns), reads the four one-row operands (mean `μ`, variance `v`, scale `γ`,
  shift `β`) whole, and writes the same rows of the result,
      `h + max ((a - μ)·rsqrt (v + ε)·γ + β, 0)`,
  every operation exact on the extended reals.  Since that function is row-local, the ten written blocks are the ten row
  blocks of ONE matrix, `Cert.Gnn.normResid 50000 128 h a μ v γ β` of the whole arrays, and they tile the result array.

  * `pay_eq`     : the body's value at block size is `normResid 5000 128` of the loaded blocks;
  * `idx_facts`  : the windows' block indices over the grid: `(t, 0)` for the row-blocked windows, `(0, 0)` for the rows;
  * `row_blk`, `mat_blk` : a one-row window's block is its array; a row-blocked window's block at `(p, q)` is its array at
                   `(5000·t + p, q)`;
  * `flushed_eq` : what point `t` writes back is block `t` of `normResid 50000 128` of the whole arrays;
  * `mem_blk`, `cover` : row `r` is in the block of point `r / 5000`;
  * `final`      : the result array after the region.
-/
import proofs.«163580_j15788299780297_2_alg».proof.Proof.Gen.KernelIdeal.Frame
import proofs.«163580_j15788299780297_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Norm4

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Gen

/-- The zero offsets of a whole-block rectangle, however they are spelt. -/
theorem hz : (![0, 0] : Fin 2 → Nat) = fun _ => 0 := funext fun a => by fin_cases a <;> rfl

/-- The reciprocal square root of a vector, read at an index. -/
theorem rsqrt_apply {s : Shape} {φ : FTy} (x : FVec Ideal s φ) (i : s.Idx) : rsqrt x i = Ideal.rsqrt (x i) := rfl

/-! ## The body's value -/

/-- The body's value on its loaded blocks is `h + max ((a - μ)·rsqrt (v + ε)·γ + β, 0)` at 5000 rows: each operation
    read at an index, the one-row operands broadcast over the rows. -/
theorem pay_eq (mu var gam bet : Vec Ideal S1x128 .f32) (a h : Vec Ideal S5000x128 .f32) :
    k4_pay1 mu var gam bet a h = Cert.Gnn.normResid 5000 128 h a mu var gam bet := by
  funext j
  obtain ⟨p, q, rfl⟩ : ∃ (p : Fin 5000) (q : Fin 128), j = ix2 p q := ⟨j 0, j 1, eq_ix2 j⟩
  rw [Cert.Gnn.normResid_apply]
  unfold Cert.Gnn.normResidAt k4_pay1
  simp only [shapeCast_self, addf_apply, maximumf_apply, mulf_apply, subf_apply, broadcast_apply, rsqrt_apply, broadcastTo_1b_ab_apply]
  rfl

/-! ## The windows' blocks -/

/-- The block indices over the grid: the three row-blocked windows (the two operands and the result) are at `(t, 0)`, the
    four one-row windows at `(0, 0)`. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The grid has ten points. -/
theorem t_lt (t : Fin cfg4.N) : t.val < 10 := Nat.lt_of_lt_of_eq t.isLt N_4

section Blocks

variable (V : (c : Dev nD) → (b : Ref sig .tc) → Buf (Elt Ideal) ((c : Thread nD τ).loc b))

/-- The mean's window holds its whole one-row array at every point. -/
theorem row_blk2 (c : Dev nD) (t : Fin cfg4.N) (y : S1x128.Idx) :
    iblk4 V c 2 t y = V c (Pipeline.arrRef spec4 2) y := by
  obtain ⟨-, -, -, -, e0, e1, -⟩ := idx_facts t
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- The variance's window holds its whole one-row array at every point. -/
theorem row_blk3 (c : Dev nD) (t : Fin cfg4.N) (y : S1x128.Idx) :
    iblk4 V c 3 t y = V c (Pipeline.arrRef spec4 3) y := by
  obtain ⟨-, -, -, -, -, -, e0, e1, -⟩ := idx_facts t
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- The scale's window holds its whole one-row array at every point. -/
theorem row_blk4 (c : Dev nD) (t : Fin cfg4.N) (y : S1x128.Idx) :
    iblk4 V c 4 t y = V c (Pipeline.arrRef spec4 4) y := by
  obtain ⟨-, -, -, -, -, -, -, -, e0, e1, -⟩ := idx_facts t
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- The shift's window holds its whole one-row array at every point. -/
theorem row_blk5 (c : Dev nD) (t : Fin cfg4.N) (y : S1x128.Idx) :
    iblk4 V c 5 t y = V c (Pipeline.arrRef spec4 5) y := by
  obtain ⟨-, -, -, -, -, -, -, -, -, -, e0, e1, -⟩ := idx_facts t
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 1 + 1 * (y 0).val = (y 0).val; omega
  | ⟨1, _⟩ => show win4_5.index t (1 : Fin 2) * 128 + 1 * (y 1).val = (y 1).val; omega

/-- The first operand's block at point `t`, at `(p, q)`, is its array at `(5000·t + p, q)`. -/
theorem mat_blk0 (c : Dev nD) (t : Fin cfg4.N) (p : Fin 5000) (q : Fin 128) (r : Fin 50000) (hr : r.val = t.val * 5000 + p.val) :
    iblk4 V c 0 t (ix2 p q) = V c (Pipeline.arrRef spec4 0) (ix2 r q) := by
  obtain ⟨e0, e1, -⟩ := idx_facts t
  show V c (Pipeline.arrRef spec4 0) (((cfg4.win 0).blk t).view.emb (ix2 p q)) = V c (Pipeline.arrRef spec4 0) (ix2 r q)
  refine congrArg _ (funext fun a => Fin.ext ?_)
  match a with
  | ⟨0, _⟩ => show win4_0.index t (0 : Fin 2) * 5000 + 1 * p.val = r.val; omega
  | ⟨1, _⟩ => show win4_0.index t (1 : Fin 2) * 128 + 1 * q.val = q.val; omega

/-- The second operand's block at point `t`, at `(p, q)`, is its array at `(5000·t + p, q)`. -/
theorem mat_blk1 (c : Dev nD) (t : Fin cfg4.N) (p : Fin 5000) (q : Fin 128) (r : Fin 50000) (hr : r.val = t.val * 5000 + p.val) :
    iblk4 V c 1 t (ix2 p q) = V c (Pipeline.arrRef spec4 1) (ix2 r q) := by
  obtain ⟨-, -, e0, e1, -⟩ := idx_facts t
  show V c (Pipeline.arrRef spec4 1) (((cfg4.win 1).blk t).view.emb (ix2 p q)) = V c (Pipeline.arrRef spec4 1) (ix2 r q)
  refine congrArg _ (funext fun a => Fin.ext ?_)
  match a with
  | ⟨0, _⟩ => show win4_1.index t (0 : Fin 2) * 5000 + 1 * p.val = r.val; omega
  | ⟨1, _⟩ => show win4_1.index t (1 : Fin 2) * 128 + 1 * q.val = q.val; omega

/-- The result's block at point `t` sits at rows `5000·t …`: its index `(p, q)` is the array's `(5000·t + p, q)`. -/
theorem out_emb (t : Fin cfg4.N) (p : Fin 5000) (q : Fin 128) (r : Fin 50000) (hr : r.val = t.val * 5000 + p.val) :
    ((cfg4.win 6).blk t).view.emb (ix2 p q) = ix2 r q := by
  obtain ⟨-, -, -, -, -, -, -, -, -, -, -, -, e0, e1⟩ := idx_facts t
  refine funext fun a => Fin.ext ?_
  match a with
  | ⟨0, _⟩ => show win4_6.index t (0 : Fin 2) * 5000 + 1 * p.val = r.val; omega
  | ⟨1, _⟩ => show win4_6.index t (1 : Fin 2) * 128 + 1 * q.val = q.val; omega

/-! ## What a point writes back -/

/-- The matrix the result array ends holding: the stage of the whole arrays as the region finds them. -/
abbrev G (c : Dev nD) : S50000x128.Idx → EReal :=
  Cert.Gnn.normResid 50000 128 (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))

/-- Point `t` writes back block `t` of that matrix: the stage is row-local, and the operands' blocks at point `t` are the
    same rows of their arrays. -/
theorem flushed_eq (c : Dev nD) (t : Fin cfg4.N) :
    (dat4 (F := Ideal) V c).flushed 6 t = ((cfg4.win 6).blk t).view.read (Elt Ideal) (G V c) := by
  show (cfg4.win 6).cut (grid4.coords t) ((dat4 V c).after 6 t) = _
  rw [after4_6]
  unfold out4_6
  rw [View.canon_unit_zero hz]
  simp only [View.ld_unit_zero (S := S5000x128) hz, View.ld_unit_zero (S := S1x128) hz]
  rw [pay_eq]
  funext j
  obtain ⟨p, q, rfl⟩ : ∃ (p : Fin 5000) (q : Fin 128), j = ix2 p q := ⟨j 0, j 1, eq_ix2 j⟩
  have ht := t_lt t
  have hr : t.val * 5000 + p.val < 50000 := by have := p.isLt; omega
  show Cert.Gnn.normResid 5000 128 (iblk4 V c 0 t) (iblk4 V c 1 t) (iblk4 V c 2 t) (iblk4 V c 3 t) (iblk4 V c 4 t) (iblk4 V c 5 t) (ix2 p q)
    = G V c (((cfg4.win 6).blk t).view.emb (ix2 p q))
  rw [out_emb t p q ⟨t.val * 5000 + p.val, hr⟩ rfl]
  rw [show (iblk4 V c 2 t : S1x128.Idx → EReal) = V c (Pipeline.arrRef spec4 2) from funext (row_blk2 V c t),
    show (iblk4 V c 3 t : S1x128.Idx → EReal) = V c (Pipeline.arrRef spec4 3) from funext (row_blk3 V c t),
    show (iblk4 V c 4 t : S1x128.Idx → EReal) = V c (Pipeline.arrRef spec4 4) from funext (row_blk4 V c t),
    show (iblk4 V c 5 t : S1x128.Idx → EReal) = V c (Pipeline.arrRef spec4 5) from funext (row_blk5 V c t)]
  exact Cert.Gnn.normResidAt_rows _ _ _ _ _ _ _ _ p ⟨t.val * 5000 + p.val, hr⟩ q
    (mat_blk0 V c t p q _ rfl) (mat_blk1 V c t p q _ rfl)

/-! ## The blocks tile the array -/

/-- An index of the result array is in point `t`'s block iff each coordinate is in the block's range on its axis. -/
theorem mem_blk (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v128).slice (win4_6.rect t)).set ↔ _
  rw [View.set_slice_whole, Rect.mem_set_unit]
  exact Iff.rfl

/-- Row `r` of the result array is written by point `r / 5000`; every column is in every block. -/
theorem cover (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  have hN : (i 0).val / 5000 < cfg4.N := by rw [show cfg4.N = 10 from N_4]; omega
  refine ⟨⟨(i 0).val / 5000, hN⟩, flush4_6 _, ?_⟩
  rw [mem_blk]
  obtain ⟨-, -, -, -, -, -, -, -, -, -, -, -, e0, e1⟩ := idx_facts ⟨(i 0).val / 5000, hN⟩
  have e0' : win4_6.index ⟨(i 0).val / 5000, hN⟩ (0 : Fin 2) = (i 0).val / 5000 := e0
  intro a
  match a with
  | ⟨0, _⟩ =>
    show win4_6.index ⟨(i 0).val / 5000, hN⟩ (0 : Fin 2) * 5000 ≤ (i 0).val ∧ (i 0).val < win4_6.index ⟨(i 0).val / 5000, hN⟩ (0 : Fin 2) * 5000 + 5000
    omega
  | ⟨1, _⟩ =>
    show win4_6.index ⟨(i 0).val / 5000, hN⟩ (1 : Fin 2) * 128 ≤ (i 1).val ∧ (i 1).val < win4_6.index ⟨(i 0).val / 5000, hN⟩ (1 : Fin 2) * 128 + 128
    omega

/-! ## The result array -/

/-- After the region the result array holds `h + max ((a - μ)·rsqrt (v + ε)·γ + β, 0)` of the whole operand arrays as the
    region found them. -/
theorem final (c : Dev nD) :
    (dat4 (F := Ideal) V c).arrAt 6 cfg4.N = Cert.Gnn.normResid 50000 128 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 6 (G V c) (fun t _ => flushed_eq V c t) cover

end Blocks

end Cert.KernelIdeal.Norm4

end
-- ==== Proof.KFold4.lean ====
/-
  The kernel program's buffers at the two boundaries around region 4: after the stretch of host operations before it,
  each buffer the region or a later segment reads is the named function of the launch memory (read off the stretch's
  operations, the earlier boundary's contents substituted); after the region its result array is the specification's
  stage function of its operand arrays, and every buffer still to be read is as before (an operand array of the region
  is not written by it).
-/
import proofs.«163580_j15788299780297_2_alg».proof.Proof.KFold3
import proofs.«163580_j15788299780297_2_alg».proof.Proof.KNorm4

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## After the host operations before region 4 (boundary 9) -/

set_option maxHeartbeats 4000000 in
theorem W9_main_v110 (c : Dev nD) : W9 m ρ c (Proc.devRef .tc main_v110) = Terms.view (Hk1 m c) := by
  show StableHlo.after hostOps4 (W8 m ρ c) (Proc.devRef .tc main_v110) = _
  after_results
  rw [W8_main_v71 m ρ c]
  all_goals rfl
set_option maxHeartbeats 4000000 in
theorem W9_main_v111 (c : Dev nD) : W9 m ρ c (Proc.devRef .tc main_v111) = Terms.view (AG1 m c) := by
  show StableHlo.after hostOps4 (W8 m ρ c) (Proc.devRef .tc main_v111) = _
  after_results
  rw [W8_main_v3 m ρ c, W8_main_v92 m ρ c]
  all_goals rfl
set_option maxHeartbeats 4000000 in
theorem W9_main_v115 (c : Dev nD) : W9 m ρ c (Proc.devRef .tc main_v115) = Terms.tile (MU1 m c) := by
  show StableHlo.after hostOps4 (W8 m ρ c) (Proc.devRef .tc main_v115) = _
  after_results
  rw [W8_main_v3 m ρ c, W8_main_v92 m ρ c]
  all_goals rfl
set_option maxHeartbeats 4000000 in
theorem W9_main_v119 (c : Dev nD) : W9 m ρ c (Proc.devRef .tc main_v119) = Terms.tile (VAR1 m c) := by
  show StableHlo.after hostOps4 (W8 m ρ c) (Proc.devRef .tc main_v119) = _
  after_results
  rw [W8_main_v3 m ρ c, W8_main_v92 m ρ c]
  all_goals rfl
set_option maxHeartbeats 4000000 in
theorem W9_main_v123 (c : Dev nD) : W9 m ρ c (Proc.devRef .tc main_v123) = Terms.tile (G1 m c) := by
  show StableHlo.after hostOps4 (W8 m ρ c) (Proc.devRef .tc main_v123) = _
  after_results
  rw [W8_main_arg9 m ρ c]
  all_goals rfl
set_option maxHeartbeats 4000000 in
theorem W9_main_v127 (c : Dev nD) : W9 m ρ c (Proc.devRef .tc main_v127) = Terms.tile (Bt1 m c) := by
  show StableHlo.after hostOps4 (W8 m ρ c) (Proc.devRef .tc main_v127) = _
  after_results
  rw [W8_main_arg10 m ρ c]
  all_goals rfl
theorem W9_main_v1 (c : Dev nD) : W9 m ρ c (Proc.devRef .tc main_v1) = Sx m c :=
  (StableHlo.after_of_forall_not_mem (b := Proc.devRef .tc main_v1) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_v1 m ρ c)
theorem W9_main_v3 (c : Dev nD) : W9 m ρ c (Proc.devRef .tc main_v3) = Dx m c :=
  (StableHlo.after_of_forall_not_mem (b := Proc.devRef .tc main_v3) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_v3 m ρ c)
theorem W9_main_v8 (c : Dev nD) : W9 m ρ c (Proc.devRef .tc main_v8) = (truncf (F := Ideal) .bf16 (X2 m c) bitsLt_bf16_f32 : Terms.B S1600000x4) :=
  (StableHlo.after_of_forall_not_mem (b := Proc.devRef .tc main_v8) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_v8 m ρ c)
theorem W9_main_v10 (c : Dev nD) : W9 m ρ c (Proc.devRef .tc main_v10) = Terms.whAll (X5 m c) :=
  (StableHlo.after_of_forall_not_mem (b := Proc.devRef .tc main_v10) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_v10 m ρ c)
theorem W9_main_v12 (c : Dev nD) : W9 m ρ c (Proc.devRef .tc main_v12) = Terms.weAll (X5 m c) :=
  (StableHlo.after_of_forall_not_mem (b := Proc.devRef .tc main_v12) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_v12 m ρ c)
theorem W9_main_v13 (c : Dev nD) : W9 m ρ c (Proc.devRef .tc main_v13) = Terms.w2All (X7 m c) :=
  (StableHlo.after_of_forall_not_mem (b := Proc.devRef .tc main_v13) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_v13 m ρ c)
theorem W9_main_arg6 (c : Dev nD) : W9 m ρ c (Proc.devRef .tc main_arg6) = X6 m c :=
  (StableHlo.after_of_forall_not_mem (b := Proc.devRef .tc main_arg6) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg6 m ρ c)
theorem W9_main_arg8 (c : Dev nD) : W9 m ρ c (Proc.devRef .tc main_arg8) = X8 m c :=
  (StableHlo.after_of_forall_not_mem (b := Proc.devRef .tc main_arg8) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg8 m ρ c)
theorem W9_main_arg9 (c : Dev nD) : W9 m ρ c (Proc.devRef .tc main_arg9) = X9 m c :=
  (StableHlo.after_of_forall_not_mem (b := Proc.devRef .tc main_arg9) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg9 m ρ c)
theorem W9_main_arg10 (c : Dev nD) : W9 m ρ c (Proc.devRef .tc main_arg10) = X10 m c :=
  (StableHlo.after_of_forall_not_mem (b := Proc.devRef .tc main_arg10) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg10 m ρ c)
theorem W9_main_arg11 (c : Dev nD) : W9 m ρ c (Proc.devRef .tc main_arg11) = X11 m c :=
  (StableHlo.after_of_forall_not_mem (b := Proc.devRef .tc main_arg11) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg11 m ρ c)
theorem W9_main_arg12 (c : Dev nD) : W9 m ρ c (Proc.devRef .tc main_arg12) = X12 m c :=
  (StableHlo.after_of_forall_not_mem (b := Proc.devRef .tc main_arg12) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg12 m ρ c)
theorem W9_main_arg13 (c : Dev nD) : W9 m ρ c (Proc.devRef .tc main_arg13) = X13 m c :=
  (StableHlo.after_of_forall_not_mem (b := Proc.devRef .tc main_arg13) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg13 m ρ c)
theorem W9_main_arg14 (c : Dev nD) : W9 m ρ c (Proc.devRef .tc main_arg14) = X14 m c :=
  (StableHlo.after_of_forall_not_mem (b := Proc.devRef .tc main_arg14) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg14 m ρ c)

/-! ## After region 4 (boundary 10) -/

set_option maxHeartbeats 4000000 in
theorem W10_main_v128 (c : Dev nD) : W10 m ρ c (Proc.devRef .tc main_v128) = NV1 m c := by
  refine (W10_arr m ρ c 6).trans ?_
  refine (Cert.KernelIdeal.Norm4.final (V9 m ρ) c).trans ?_
  show Cert.Gnn.normResid 50000 128 (W9 m ρ c (Proc.devRef .tc main_v110)) (W9 m ρ c (Proc.devRef .tc main_v111)) (W9 m ρ c (Proc.devRef .tc main_v115)) (W9 m ρ c (Proc.devRef .tc main_v119)) (W9 m ρ c (Proc.devRef .tc main_v123)) (W9 m ρ c (Proc.devRef .tc main_v127)) = _
  rw [W9_main_v110 m ρ c, W9_main_v111 m ρ c, W9_main_v115 m ρ c, W9_main_v119 m ρ c, W9_main_v123 m ρ c, W9_main_v127 m ρ c]
  all_goals rfl
theorem W10_main_v3 (c : Dev nD) : W10 m ρ c (Proc.devRef .tc main_v3) = Dx m c :=
  (W10_of_ne m ρ c main_v3 (by decide)).trans (W9_main_v3 m ρ c)
theorem W10_main_v8 (c : Dev nD) : W10 m ρ c (Proc.devRef .tc main_v8) = (truncf (F := Ideal) .bf16 (X2 m c) bitsLt_bf16_f32 : Terms.B S1600000x4) :=
  (W10_of_ne m ρ c main_v8 (by decide)).trans (W9_main_v8 m ρ c)
theorem W10_main_arg9 (c : Dev nD) : W10 m ρ c (Proc.devRef .tc main_arg9) = X9 m c :=
  (W10_of_ne m ρ c main_arg9 (by decide)).trans (W9_main_arg9 m ρ c)
theorem W10_main_arg10 (c : Dev nD) : W10 m ρ c (Proc.devRef .tc main_arg10) = X10 m c :=
  (W10_of_ne m ρ c main_arg10 (by decide)).trans (W9_main_arg10 m ρ c)
theorem W10_main_arg11 (c : Dev nD) : W10 m ρ c (Proc.devRef .tc main_arg11) = X11 m c :=
  (W10_of_ne m ρ c main_arg11 (by decide)).trans (W9_main_arg11 m ρ c)
theorem W10_main_arg12 (c : Dev nD) : W10 m ρ c (Proc.devRef .tc main_arg12) = X12 m c :=
  (W10_of_ne m ρ c main_arg12 (by decide)).trans (W9_main_arg12 m ρ c)
theorem W10_main_arg13 (c : Dev nD) : W10 m ρ c (Proc.devRef .tc main_arg13) = X13 m c :=
  (W10_of_ne m ρ c main_arg13 (by decide)).trans (W9_main_arg13 m ρ c)
theorem W10_main_arg14 (c : Dev nD) : W10 m ρ c (Proc.devRef .tc main_arg14) = X14 m c :=
  (W10_of_ne m ρ c main_arg14 (by decide)).trans (W9_main_arg14 m ρ c)
theorem W10_main_v1 (c : Dev nD) : W10 m ρ c (Proc.devRef .tc main_v1) = Sx m c :=
  (W10_of_ne m ρ c main_v1 (by decide)).trans (W9_main_v1 m ρ c)
theorem W10_main_v10 (c : Dev nD) : W10 m ρ c (Proc.devRef .tc main_v10) = Terms.whAll (X5 m c) :=
  (W10_of_ne m ρ c main_v10 (by decide)).trans (W9_main_v10 m ρ c)
theorem W10_main_v12 (c : Dev nD) : W10 m ρ c (Proc.devRef .tc main_v12) = Terms.weAll (X5 m c) :=
  (W10_of_ne m ρ c main_v12 (by decide)).trans (W9_main_v12 m ρ c)
theorem W10_main_arg6 (c : Dev nD) : W10 m ρ c (Proc.devRef .tc main_arg6) = X6 m c :=
  (W10_of_ne m ρ c main_arg6 (by decide)).trans (W9_main_arg6 m ρ c)
theorem W10_main_v13 (c : Dev nD) : W10 m ρ c (Proc.devRef .tc main_v13) = Terms.w2All (X7 m c) :=
  (W10_of_ne m ρ c main_v13 (by decide)).trans (W9_main_v13 m ρ c)
theorem W10_main_arg8 (c : Dev nD) : W10 m ρ c (Proc.devRef .tc main_arg8) = X8 m c :=
  (W10_of_ne m ρ c main_arg8 (by decide)).trans (W9_main_arg8 m ρ c)

end Cert.KernelIdeal.Whole

end
-- ==== Proof.KMsg5.lean ====
/-
  The edge-message region: what its output array holds after the last grid point.

  The region runs one kernel body over 200 grid points.  At point `t` the body reads rows `8000 t … 8000 t + 7999` of
  the gathered node features and of the edge attributes, and all of two weight matrices, a bias row, a third weight
  matrix and a second bias row, and stores `max (hs·Wh + ea·We + b1, 0)·W2 + b2` of them as rows
  `8000 t … 8000 t + 7999` of the output.  Since an edge's message depends on the row-indexed operands through that
  edge's row only, the 200 blocks written back are the blocks of ONE function of the whole arrays, and they cover
  the output: after the last point the output array is `Cert.Gnn.edgeMsg` of the arrays the region found (`final`).
-/
import proofs.«163580_j15788299780297_2_alg».proof.Proof.Gen.KernelIdeal.Frame
import proofs.«163580_j15788299780297_2_alg».proof.Proof.Spec
import proofs.«163580_j15788299780297_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Msg5

open Cert.KernelIdeal Cert.KernelIdeal.Gen Idealize.ShloMosaic Idealize.ShloMosaic.TcCoe Idealize.SL.Sem
open Idealize.ShloMosaic.ValueIdx Cert.Gnn
open Idealize.ShloMosaic.Pipeline (Dat)
open scoped BigOperators

/-! ## The body's payload is the edge message of its blocks -/

/-- The printed dimension numbers of the two 64-deep products are the plain row-by-column product's. -/
theorem dot64 : dot_S8000x64_S64x64_S8000x64_1_0_0_1_n_n = DotDims.plain 8000 64 64 := rfl
/-- The printed dimension numbers of the 4-deep product are the plain row-by-column product's. -/
theorem dot4 : dot_S8000x4_S4x64_S8000x64_1_0_0_1_n_n = DotDims.plain 8000 4 64 := rfl

/-- At row `p` and column `q` the payload is `max (hs·Wh + ea·We + b1, 0)·W2 + b2` of its seven blocks: each product
    into the zero array is the sum over its contraction coordinate, each bias row is read at the column, the
    truncation to the narrower float is the identity on the extended reals. -/
theorem pay_eq (v0 : Vec Ideal S8000x64 .bf16) (v2 : Vec Ideal S8000x4 .bf16) (v4 : Vec Ideal S64x64 .bf16)
    (v6 : Vec Ideal S4x64 .bf16) (v11 : Vec Ideal S1x64 .f32) (v18 : Vec Ideal S64x64 .bf16) (v21 : Vec Ideal S1x64 .f32) :
    k5_pay1 v0 v2 v4 v6 v11 v18 v21 = edgeMsg 8000 v0 v2 v4 v6 v11 v18 v21 := by
  funext j
  obtain ⟨p, q, rfl⟩ : ∃ (p : Fin 8000) (q : Fin 64), j = ix2 p q := ⟨j 0, j 1, eq_ix2 j⟩
  rw [edgeMsg_apply]
  unfold k5_pay1 edgeMsgAt edgeHidAt
  simp only [shapeCast_self, dot64, dot4, addf_apply, maximumf_apply, truncf_apply, broadcast_apply,
    broadcastTo_1b_ab_apply, Cert.LibPlainMatmul.matmul_zero_apply]
  rfl

/-- An edge's message depends on the row-indexed operands through that edge's row only, and on the weights as
    they are: equal rows and equal weights give equal messages. -/
theorem edgeMsgAt_blocks {n n' : ℕ} (hs : Mat n 64) (hs' : Mat n' 64) (ea : Mat n 4) (ea' : Mat n' 4)
    (wh wh' : Mat 64 64) (we we' : Mat 4 64) (b1 b1' : Mat 1 64) (w2 w2' : Mat 64 64) (b2 b2' : Mat 1 64)
    (p : Fin n) (r : Fin n') (c : Fin 64)
    (hh : ∀ q, hs (ix2 p q) = hs' (ix2 r q)) (he : ∀ q, ea (ix2 p q) = ea' (ix2 r q))
    (hwh : wh = wh') (hwe : we = we') (hb1 : b1 = b1') (hw2 : w2 = w2') (hb2 : b2 = b2') :
    edgeMsgAt n hs ea wh we b1 w2 b2 p c = edgeMsgAt n' hs' ea' wh' we' b1' w2' b2' r c := by
  subst hwh hwe hb1 hw2 hb2
  exact edgeMsgAt_rows hs hs' ea ea' wh we b1 w2 b2 p r c hh he

/-! ## The windows' blocks as parts of their arrays -/

theorem hz : (![0, 0] : Fin 2 → Nat) = fun _ => 0 := funext fun a => by fin_cases a <;> rfl

/-- The printed index maps, decided over the grid: the two row-blocked inputs and the output sit at block `(t, 0)`,
    the weights and the biases at block `(0, 0)`. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

variable (V : (c : Dev nD) → (b : Ref sig .tc) → Buf (Elt Ideal) ((c : Thread nD τ).loc b))

/-- Row `p` of the gathered-features block at point `t` is row `8000 t + p` of the array. -/
theorem blk0_apply (c : Dev nD) (t : Fin cfg5.N) (p : Fin 8000) (k : Fin 64) (r : Fin 1600000)
    (hr : r.val = t.val * 8000 + p.val) :
    (iblk5 V c 0 t : Vec Ideal S8000x64 .bf16) (ix2 p k)
      = (V c (Pipeline.arrRef spec5 0) : Vec Ideal S1600000x64 .bf16) (ix2 r k) := by
  obtain ⟨e0, e1, -⟩ := idx_facts t
  unfold iblk5
  rw [View.read_apply]
  refine congrArg (V c (Pipeline.arrRef spec5 0) : Vec Ideal S1600000x64 .bf16) (funext fun a => Fin.ext ?_)
  match a with
  | ⟨0, _⟩ => show win5_0.index t (0 : Fin 2) * 8000 + 1 * p.val = r.val; rw [e0, hr]; omega
  | ⟨1, _⟩ => show win5_0.index t (1 : Fin 2) * 64 + 1 * k.val = k.val; rw [e1]; omega

/-- Row `p` of the edge-attributes block at point `t` is row `8000 t + p` of the array. -/
theorem blk1_apply (c : Dev nD) (t : Fin cfg5.N) (p : Fin 8000) (k : Fin 4) (r : Fin 1600000)
    (hr : r.val = t.val * 8000 + p.val) :
    (iblk5 V c 1 t : Vec Ideal S8000x4 .bf16) (ix2 p k)
      = (V c (Pipeline.arrRef spec5 1) : Vec Ideal S1600000x4 .bf16) (ix2 r k) := by
  obtain ⟨-, -, e0, e1, -⟩ := idx_facts t
  unfold iblk5
  rw [View.read_apply]
  refine congrArg (V c (Pipeline.arrRef spec5 1) : Vec Ideal S1600000x4 .bf16) (funext fun a => Fin.ext ?_)
  match a with
  | ⟨0, _⟩ => show win5_1.index t (0 : Fin 2) * 8000 + 1 * p.val = r.val; rw [e0, hr]; omega
  | ⟨1, _⟩ => show win5_1.index t (1 : Fin 2) * 4 + 1 * k.val = k.val; rw [e1]; omega

/-- A weight's or a bias's block is its whole array: the block index is `(0, 0)` and the block has the array's sizes. -/
theorem blk2_eq (c : Dev nD) (t : Fin cfg5.N) :
    (iblk5 V c 2 t : Vec Ideal S64x64 .bf16) = (V c (Pipeline.arrRef spec5 2) : Vec Ideal S64x64 .bf16) := by
  obtain ⟨-, -, -, -, e0, e1, -⟩ := idx_facts t
  funext y
  unfold iblk5
  rw [View.read_apply]
  refine congrArg (V c (Pipeline.arrRef spec5 2) : Vec Ideal S64x64 .bf16) (funext fun a => Fin.ext ?_)
  match a with
  | ⟨0, _⟩ => show win5_2.index t (0 : Fin 2) * 64 + 1 * (y 0).val = (y 0).val; rw [e0]; omega
  | ⟨1, _⟩ => show win5_2.index t (1 : Fin 2) * 64 + 1 * (y 1).val = (y 1).val; rw [e1]; omega

theorem blk3_eq (c : Dev nD) (t : Fin cfg5.N) :
    (iblk5 V c 3 t : Vec Ideal S4x64 .bf16) = (V c (Pipeline.arrRef spec5 3) : Vec Ideal S4x64 .bf16) := by
  obtain ⟨-, -, -, -, -, -, e0, e1, -⟩ := idx_facts t
  funext y
  unfold iblk5
  rw [View.read_apply]
  refine congrArg (V c (Pipeline.arrRef spec5 3) : Vec Ideal S4x64 .bf16) (funext fun a => Fin.ext ?_)
  match a with
  | ⟨0, _⟩ => show win5_3.index t (0 : Fin 2) * 4 + 1 * (y 0).val = (y 0).val; rw [e0]; omega
  | ⟨1, _⟩ => show win5_3.index t (1 : Fin 2) * 64 + 1 * (y 1).val = (y 1).val; rw [e1]; omega

theorem blk4_eq (c : Dev nD) (t : Fin cfg5.N) :
    (iblk5 V c 4 t : Vec Ideal S1x64 .f32) = (V c (Pipeline.arrRef spec5 4) : Vec Ideal S1x64 .f32) := by
  obtain ⟨-, -, -, -, -, -, -, -, e0, e1, -⟩ := idx_facts t
  funext y
  unfold iblk5
  rw [View.read_apply]
  refine congrArg (V c (Pipeline.arrRef spec5 4) : Vec Ideal S1x64 .f32) (funext fun a => Fin.ext ?_)
  match a with
  | ⟨0, _⟩ => show win5_4.index t (0 : Fin 2) * 1 + 1 * (y 0).val = (y 0).val; rw [e0]; omega
  | ⟨1, _⟩ => show win5_4.index t (1 : Fin 2) * 64 + 1 * (y 1).val = (y 1).val; rw [e1]; omega

theorem blk5_eq (c : Dev nD) (t : Fin cfg5.N) :
    (iblk5 V c 5 t : Vec Ideal S64x64 .bf16) = (V c (Pipeline.arrRef spec5 5) : Vec Ideal S64x64 .bf16) := by
  obtain ⟨-, -, -, -, -, -, -, -, -, -, e0, e1, -⟩ := idx_facts t
  funext y
  unfold iblk5
  rw [View.read_apply]
  refine congrArg (V c (Pipeline.arrRef spec5 5) : Vec Ideal S64x64 .bf16) (funext fun a => Fin.ext ?_)
  match a with
  | ⟨0, _⟩ => show win5_5.index t (0 : Fin 2) * 64 + 1 * (y 0).val = (y 0).val; rw [e0]; omega
  | ⟨1, _⟩ => show win5_5.index t (1 : Fin 2) * 64 + 1 * (y 1).val = (y 1).val; rw [e1]; omega

theorem blk6_eq (c : Dev nD) (t : Fin cfg5.N) :
    (iblk5 V c 6 t : Vec Ideal S1x64 .f32) = (V c (Pipeline.arrRef spec5 6) : Vec Ideal S1x64 .f32) := by
  obtain ⟨-, -, -, -, -, -, -, -, -, -, -, -, e0, e1, -⟩ := idx_facts t
  funext y
  unfold iblk5
  rw [View.read_apply]
  refine congrArg (V c (Pipeline.arrRef spec5 6) : Vec Ideal S1x64 .f32) (funext fun a => Fin.ext ?_)
  match a with
  | ⟨0, _⟩ => show win5_6.index t (0 : Fin 2) * 1 + 1 * (y 0).val = (y 0).val; rw [e0]; omega
  | ⟨1, _⟩ => show win5_6.index t (1 : Fin 2) * 64 + 1 * (y 1).val = (y 1).val; rw [e1]; omega

/-! ## What a point writes back, and the array after the last point -/

/-- The edge messages of the whole arrays the region finds. -/
abbrev G (c : Dev nD) : Mat 1600000 64 :=
  edgeMsg 1600000 (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))
    (V c (Pipeline.arrRef spec5 6))

set_option maxHeartbeats 1000000 in
/-- The body's result on the blocks at point `t` is block `t` of the whole arrays' edge messages: the payload is
    the edge message of the blocks (`pay_eq`), row `p` of a row-indexed block is row `8000 t + p` of its array, and
    the weights' blocks are the weights. -/
theorem body_eq (c : Dev nD) (t : Fin cfg5.N) :
    (cfg5.win 7).cut (grid5.coords t)
        (out5_7 (F := Ideal) (iblk5 V c 0 t) (iblk5 V c 1 t) (iblk5 V c 2 t) (iblk5 V c 3 t) (iblk5 V c 4 t)
          (iblk5 V c 5 t) (iblk5 V c 6 t))
      = ((cfg5.win 7).blk t).view.read (Elt Ideal) (G V c) := by
  unfold out5_7
  rw [View.canon_unit_zero hz]
  simp only [View.ld_unit_zero (S := S8000x64) hz, View.ld_unit_zero (S := S8000x4) hz, View.ld_unit_zero (S := S64x64) hz,
    View.ld_unit_zero (S := S4x64) hz, View.ld_unit_zero (S := S1x64) hz]
  rw [pay_eq]
  funext j
  obtain ⟨p, q, rfl⟩ : ∃ (p : Fin 8000) (q : Fin 64), j = ix2 p q := ⟨j 0, j 1, eq_ix2 j⟩
  have ht : t.val < 200 := lt_of_lt_of_eq t.isLt N_5
  obtain ⟨r, hr⟩ : ∃ r : Fin 1600000, r.val = t.val * 8000 + p.val := ⟨⟨t.val * 8000 + p.val, by have := p.isLt; omega⟩, rfl⟩
  obtain ⟨-, -, -, -, -, -, -, -, -, -, -, -, -, -, e0, e1⟩ := idx_facts t
  have hemb : ((cfg5.win 7).blk t).view.emb (ix2 p q) = ix2 r q := by
    funext a
    apply Fin.ext
    match a with
    | ⟨0, _⟩ => show win5_7.index t (0 : Fin 2) * 8000 + 1 * p.val = r.val; rw [e0, hr]; omega
    | ⟨1, _⟩ => show win5_7.index t (1 : Fin 2) * 64 + 1 * q.val = q.val; rw [e1]; omega
  rw [View.read_apply, hemb]
  show edgeMsg 8000 _ _ _ _ _ _ _ (ix2 p q) = edgeMsg 1600000 _ _ _ _ _ _ _ (ix2 r q)
  rw [edgeMsg_apply, edgeMsg_apply]
  exact edgeMsgAt_blocks _ _ _ _ _ _ _ _ _ _ _ _ _ _ p r q (fun k => blk0_apply V c t p k r hr)
    (fun k => blk1_apply V c t p k r hr) (blk2_eq V c t) (blk3_eq V c t) (blk4_eq V c t) (blk5_eq V c t) (blk6_eq V c t)

/-- An index of the array is in point `t`'s block iff each coordinate is in the block's range on its axis. -/
theorem mem_blk (t : Fin cfg5.N) (i : S1600000x64.Idx) :
    i ∈ ((cfg5.win 7).blk t).view.set ↔ ∀ a : Fin 2, win5_7.index t a * S8000x64.size a ≤ (i a).val
      ∧ (i a).val < win5_7.index t a * S8000x64.size a + S8000x64.size a := by
  show i ∈ ((View.whole main_v150).slice (win5_7.rect t)).set ↔ _
  rw [View.set_slice_whole, Rect.mem_set_unit]
  exact Iff.rfl

/-- Every index of the array is in some point's block: row `r` in point `r / 8000`'s, whatever the column. -/
theorem cover (i : S1600000x64.Idx) :
    ∃ t : Fin cfg5.N, (cfg5.win 7).flush t = true ∧ i ∈ ((cfg5.win 7).blk t).view.set := by
  have hi0 : (i 0).val < 1600000 := (i 0).isLt
  have hi1 : (i 1).val < 64 := (i 1).isLt
  obtain ⟨t, ht⟩ : ∃ t : Fin cfg5.N, t.val = (i 0).val / 8000 :=
    ⟨⟨(i 0).val / 8000, lt_of_lt_of_eq (by omega : (i 0).val / 8000 < 200) N_5.symm⟩, rfl⟩
  obtain ⟨-, -, -, -, -, -, -, -, -, -, -, -, -, -, e0, e1⟩ := idx_facts t
  refine ⟨t, flush5_7 t, ?_⟩
  rw [mem_blk]
  intro a
  match a with
  | ⟨0, _⟩ =>
    show win5_7.index t (0 : Fin 2) * 8000 ≤ (i 0).val ∧ (i 0).val < win5_7.index t (0 : Fin 2) * 8000 + 8000
    rw [e0, ht]; omega
  | ⟨1, _⟩ =>
    show win5_7.index t (1 : Fin 2) * 64 ≤ (i 1).val ∧ (i 1).val < win5_7.index t (1 : Fin 2) * 64 + 64
    rw [e1]; omega

/-- WHAT POINT `t` WRITES BACK is block `t` of the whole arrays' edge messages. -/
theorem flushed_eq (c : Dev nD) (t : Fin cfg5.N) :
    (dat5 (F := Ideal) V c).flushed 7 t = ((cfg5.win 7).blk t).view.read (Elt Ideal) (G V c) := by
  show (cfg5.win 7).cut (grid5.coords t) ((dat5 (F := Ideal) V c).after 7 t) = _
  rw [after5_7]
  exact body_eq V c t

/-- THE ARRAY after the last point: the edge messages of the whole arrays the region finds — every point writes its
    block back, and the blocks cover the array. -/
theorem final (V : (c : Dev nD) → (b : Ref sig .tc) → Buf (Elt Ideal) ((c : Thread nD τ).loc b)) (c : Dev nD) :
    (dat5 (F := Ideal) V c).arrAt 7 cfg5.N
      = Cert.Gnn.edgeMsg 1600000 (V c (Pipeline.arrRef spec5 0)) (V c (Pipeline.arrRef spec5 1))
          (V c (Pipeline.arrRef spec5 2)) (V c (Pipeline.arrRef spec5 3)) (V c (Pipeline.arrRef spec5 4))
          (V c (Pipeline.arrRef spec5 5)) (V c (Pipeline.arrRef spec5 6)) :=
  (dat5 (F := Ideal) V c).arrAt_eq_of_cover 7 (G V c) (fun t _ => flushed_eq V c t) cover

end Cert.KernelIdeal.Msg5

end
-- ==== Proof.KFold5.lean ====
/-
  The kernel program's buffers at the two boundaries around region 5: after the stretch of host operations before it,
  each buffer the region or a later segment reads is the named function of the launch memory (read off the stretch's
  operations, the earlier boundary's contents substituted); after the region its result array is the specification's
  stage function of its operand arrays, and every buffer still to be read is as before (an operand array of the region
  is not written by it).
-/
import proofs.«163580_j15788299780297_2_alg».proof.Proof.KFold4
import proofs.«163580_j15788299780297_2_alg».proof.Proof.KMsg5

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## After the host operations before region 5 (boundary 11) -/

set_option maxHeartbeats 4000000 in
theorem W11_main_v129 (c : Dev nD) : W11 m ρ c (Proc.devRef .tc main_v129) = Hk2 m c := by
  show StableHlo.after hostOps5 (W10 m ρ c) (Proc.devRef .tc main_v129) = _
  after_results
  rw [W10_main_v128 m ρ c]
  all_goals rfl
set_option maxHeartbeats 4000000 in
theorem W11_main_v137 (c : Dev nD) : W11 m ρ c (Proc.devRef .tc main_v137) = HS2 m c := by
  show StableHlo.after hostOps5 (W10 m ρ c) (Proc.devRef .tc main_v137) = _
  after_results
  rw [W10_main_v128 m ρ c, W10_main_v1 m ρ c]
  all_goals rfl
set_option maxHeartbeats 4000000 in
theorem W11_main_v139 (c : Dev nD) : W11 m ρ c (Proc.devRef .tc main_v139) = WH2 m c := by
  show StableHlo.after hostOps5 (W10 m ρ c) (Proc.devRef .tc main_v139) = _
  after_results
  rw [W10_main_v10 m ρ c]
  all_goals rfl
set_option maxHeartbeats 4000000 in
theorem W11_main_v141 (c : Dev nD) : W11 m ρ c (Proc.devRef .tc main_v141) = WE2 m c := by
  show StableHlo.after hostOps5 (W10 m ρ c) (Proc.devRef .tc main_v141) = _
  after_results
  rw [W10_main_v12 m ρ c]
  all_goals rfl
set_option maxHeartbeats 4000000 in
theorem W11_main_v148 (c : Dev nD) : W11 m ρ c (Proc.devRef .tc main_v148) = Terms.asRow (B12 m c) := by
  show StableHlo.after hostOps5 (W10 m ρ c) (Proc.devRef .tc main_v148) = _
  after_results
  rw [W10_main_arg6 m ρ c]
  all_goals rfl
set_option maxHeartbeats 4000000 in
theorem W11_main_v145 (c : Dev nD) : W11 m ρ c (Proc.devRef .tc main_v145) = W22 m c := by
  show StableHlo.after hostOps5 (W10 m ρ c) (Proc.devRef .tc main_v145) = _
  after_results
  rw [W10_main_v13 m ρ c]
  all_goals rfl
set_option maxHeartbeats 4000000 in
theorem W11_main_v149 (c : Dev nD) : W11 m ρ c (Proc.devRef .tc main_v149) = Terms.asRow (B22 m c) := by
  show StableHlo.after hostOps5 (W10 m ρ c) (Proc.devRef .tc main_v149) = _
  after_results
  rw [W10_main_arg8 m ρ c]
  all_goals rfl
theorem W11_main_v3 (c : Dev nD) : W11 m ρ c (Proc.devRef .tc main_v3) = Dx m c :=
  (StableHlo.after_of_forall_not_mem (b := Proc.devRef .tc main_v3) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_main_v3 m ρ c)
theorem W11_main_v8 (c : Dev nD) : W11 m ρ c (Proc.devRef .tc main_v8) = (truncf (F := Ideal) .bf16 (X2 m c) bitsLt_bf16_f32 : Terms.B S1600000x4) :=
  (StableHlo.after_of_forall_not_mem (b := Proc.devRef .tc main_v8) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_main_v8 m ρ c)
theorem W11_main_arg9 (c : Dev nD) : W11 m ρ c (Proc.devRef .tc main_arg9) = X9 m c :=
  (StableHlo.after_of_forall_not_mem (b := Proc.devRef .tc main_arg9) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_main_arg9 m ρ c)
theorem W11_main_arg10 (c : Dev nD) : W11 m ρ c (Proc.devRef .tc main_arg10) = X10 m c :=
  (StableHlo.after_of_forall_not_mem (b := Proc.devRef .tc main_arg10) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_main_arg10 m ρ c)
theorem W11_main_arg11 (c : Dev nD) : W11 m ρ c (Proc.devRef .tc main_arg11) = X11 m c :=
  (StableHlo.after_of_forall_not_mem (b := Proc.devRef .tc main_arg11) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_main_arg11 m ρ c)
theorem W11_main_arg12 (c : Dev nD) : W11 m ρ c (Proc.devRef .tc main_arg12) = X12 m c :=
  (StableHlo.after_of_forall_not_mem (b := Proc.devRef .tc main_arg12) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_main_arg12 m ρ c)
theorem W11_main_arg13 (c : Dev nD) : W11 m ρ c (Proc.devRef .tc main_arg13) = X13 m c :=
  (StableHlo.after_of_forall_not_mem (b := Proc.devRef .tc main_arg13) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_main_arg13 m ρ c)
theorem W11_main_arg14 (c : Dev nD) : W11 m ρ c (Proc.devRef .tc main_arg14) = X14 m c :=
  (StableHlo.after_of_forall_not_mem (b := Proc.devRef .tc main_arg14) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_main_arg14 m ρ c)

/-! ## After region 5 (boundary 12) -/

set_option maxHeartbeats 4000000 in
theorem W12_main_v150 (c : Dev nD) : W12 m ρ c (Proc.devRef .tc main_v150) = M2 m c := by
  refine (W12_arr m ρ c 7).trans ?_
  refine (Cert.KernelIdeal.Msg5.final (V11 m ρ) c).trans ?_
  show Cert.Gnn.edgeMsg 1600000 (W11 m ρ c (Proc.devRef .tc main_v137)) (W11 m ρ c (Proc.devRef .tc main_v8)) (W11 m ρ c (Proc.devRef .tc main_v139)) (W11 m ρ c (Proc.devRef .tc main_v141)) (W11 m ρ c (Proc.devRef .tc main_v148)) (W11 m ρ c (Proc.devRef .tc main_v145)) (W11 m ρ c (Proc.devRef .tc main_v149)) = _
  rw [W11_main_v137 m ρ c, W11_main_v8 m ρ c, W11_main_v139 m ρ c, W11_main_v141 m ρ c, W11_main_v148 m ρ c, W11_main_v145 m ρ c, W11_main_v149 m ρ c]
  all_goals rfl
theorem W12_main_arg11 (c : Dev nD) : W12 m ρ c (Proc.devRef .tc main_arg11) = X11 m c :=
  (W12_of_ne m ρ c main_arg11 (by decide)).trans (W11_main_arg11 m ρ c)
theorem W12_main_arg12 (c : Dev nD) : W12 m ρ c (Proc.devRef .tc main_arg12) = X12 m c :=
  (W12_of_ne m ρ c main_arg12 (by decide)).trans (W11_main_arg12 m ρ c)
theorem W12_main_arg13 (c : Dev nD) : W12 m ρ c (Proc.devRef .tc main_arg13) = X13 m c :=
  (W12_of_ne m ρ c main_arg13 (by decide)).trans (W11_main_arg13 m ρ c)
theorem W12_main_arg14 (c : Dev nD) : W12 m ρ c (Proc.devRef .tc main_arg14) = X14 m c :=
  (W12_of_ne m ρ c main_arg14 (by decide)).trans (W11_main_arg14 m ρ c)
theorem W12_main_v129 (c : Dev nD) : W12 m ρ c (Proc.devRef .tc main_v129) = Hk2 m c :=
  (W12_of_ne m ρ c main_v129 (by decide)).trans (W11_main_v129 m ρ c)
theorem W12_main_v3 (c : Dev nD) : W12 m ρ c (Proc.devRef .tc main_v3) = Dx m c :=
  (W12_of_ne m ρ c main_v3 (by decide)).trans (W11_main_v3 m ρ c)
theorem W12_main_arg9 (c : Dev nD) : W12 m ρ c (Proc.devRef .tc main_arg9) = X9 m c :=
  (W12_of_ne m ρ c main_arg9 (by decide)).trans (W11_main_arg9 m ρ c)
theorem W12_main_arg10 (c : Dev nD) : W12 m ρ c (Proc.devRef .tc main_arg10) = X10 m c :=
  (W12_of_ne m ρ c main_arg10 (by decide)).trans (W11_main_arg10 m ρ c)

end Cert.KernelIdeal.Whole

end
-- ==== Proof.KNorm6.lean ====
/-
  The normalisation region 6 of the kernel program, read as one function of whole arrays.

  The region runs a pointwise body over a grid of 10 points: point `t` reads rows `5000·t … 5000·t + 4999` of the two
  row-indexed operands `h` and `a` (128 columns), reads the four one-row operands (mean `μ`, variance `v`, scale `γ`,
  shift `β`) whole, and writes the same rows of the result,
      `h + max ((a - μ)·rsqrt (v + ε)·γ + β, 0)`,
  every operation exact on the extended reals.  Since that function is row-local, the ten written blocks are the ten row
  blocks of ONE matrix, `Cert.Gnn.normResid 50000 128 h a μ v γ β` of the whole arrays, and they tile the result array.

  * `pay_eq`     : the body's value at block size is `normResid 5000 128` of the loaded blocks;
  * `idx_facts`  : the windows' block indices over the grid: `(t, 0)` for the row-blocked windows, `(0, 0)` for the rows;
  * `row_blk`, `mat_blk` : a one-row window's block is its array; a row-blocked window's block at `(p, q)` is its array at
                   `(5000·t + p, q)`;
  * `flushed_eq` : what point `t` writes back is block `t` of `normResid 50000 128` of the whole arrays;
  * `mem_blk`, `cover` : row `r` is in the block of point `r / 5000`;
  * `final`      : the result array after the region.
-/
import proofs.«163580_j15788299780297_2_alg».proof.Proof.Gen.KernelIdeal.Frame
import proofs.«163580_j15788299780297_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Norm6

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Gen

/-- The zero offsets of a whole-block rectangle, however they are spelt. -/
theorem hz : (![0, 0] : Fin 2 → Nat) = fun _ => 0 := funext fun a => by fin_cases a <;> rfl

/-- The reciprocal square root of a vector, read at an index. -/
theorem rsqrt_apply {s : Shape} {φ : FTy} (x : FVec Ideal s φ) (i : s.Idx) : rsqrt x i = Ideal.rsqrt (x i) := rfl

/-! ## The body's value -/

/-- The body's value on its loaded blocks is `h + max ((a - μ)·rsqrt (v + ε)·γ + β, 0)` at 5000 rows: each operation
    read at an index, the one-row operands broadcast over the rows. -/
theorem pay_eq (mu var gam bet : Vec Ideal S1x128 .f32) (a h : Vec Ideal S5000x128 .f32) :
    k6_pay1 mu var gam bet a h = Cert.Gnn.normResid 5000 128 h a mu var gam bet := by
  funext j
  obtain ⟨p, q, rfl⟩ : ∃ (p : Fin 5000) (q : Fin 128), j = ix2 p q := ⟨j 0, j 1, eq_ix2 j⟩
  rw [Cert.Gnn.normResid_apply]
  unfold Cert.Gnn.normResidAt k6_pay1
  simp only [shapeCast_self, addf_apply, maximumf_apply, mulf_apply, subf_apply, broadcast_apply, rsqrt_apply, broadcastTo_1b_ab_apply]
  rfl

/-! ## The windows' blocks -/

/-- The block indices over the grid: the three row-blocked windows (the two operands and the result) are at `(t, 0)`, the
    four one-row windows at `(0, 0)`. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- The grid has ten points. -/
theorem t_lt (t : Fin cfg6.N) : t.val < 10 := Nat.lt_of_lt_of_eq t.isLt N_6

section Blocks

variable (V : (c : Dev nD) → (b : Ref sig .tc) → Buf (Elt Ideal) ((c : Thread nD τ).loc b))

/-- The mean's window holds its whole one-row array at every point. -/
theorem row_blk2 (c : Dev nD) (t : Fin cfg6.N) (y : S1x128.Idx) :
    iblk6 V c 2 t y = V c (Pipeline.arrRef spec6 2) y := by
  obtain ⟨-, -, -, -, e0, e1, -⟩ := idx_facts t
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- The variance's window holds its whole one-row array at every point. -/
theorem row_blk3 (c : Dev nD) (t : Fin cfg6.N) (y : S1x128.Idx) :
    iblk6 V c 3 t y = V c (Pipeline.arrRef spec6 3) y := by
  obtain ⟨-, -, -, -, -, -, e0, e1, -⟩ := idx_facts t
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 128 + 1 * (y 1).val = (y 1).val; omega

/-- The scale's window holds its whole one-row array at every point. -/
theorem row_blk4 (c : Dev nD) (t : Fin cfg6.N) (y : S1x128.Idx) :
    iblk6 V c 4 t y = V c (Pipeline.arrRef spec6 4) y := by
  obtain ⟨-, -, -, -, -, -, -, -, e0, e1, -⟩ := idx_facts t
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 128 + 1 * (y 1).val = (y 1).val; omega

/-- The shift's window holds its whole one-row array at every point. -/
theorem row_blk5 (c : Dev nD) (t : Fin cfg6.N) (y : S1x128.Idx) :
    iblk6 V c 5 t y = V c (Pipeline.arrRef spec6 5) y := by
  obtain ⟨-, -, -, -, -, -, -, -, -, -, e0, e1, -⟩ := idx_facts t
  show V c (Pipeline.arrRef spec6 5) (((cfg6.win 5).blk t).view.emb y) = V c (Pipeline.arrRef spec6 5) y
  refine congrArg _ (funext fun a => Fin.ext ?_)
  match a with
  | ⟨0, _⟩ => show win6_5.index t (0 : Fin 2) * 1 + 1 * (y 0).val = (y 0).val; omega
  | ⟨1, _⟩ => show win6_5.index t (1 : Fin 2) * 128 + 1 * (y 1).val = (y 1).val; omega

/-- The first operand's block at point `t`, at `(p, q)`, is its array at `(5000·t + p, q)`. -/
theorem mat_blk0 (c : Dev nD) (t : Fin cfg6.N) (p : Fin 5000) (q : Fin 128) (r : Fin 50000) (hr : r.val = t.val * 5000 + p.val) :
    iblk6 V c 0 t (ix2 p q) = V c (Pipeline.arrRef spec6 0) (ix2 r q) := by
  obtain ⟨e0, e1, -⟩ := idx_facts t
  show V c (Pipeline.arrRef spec6 0) (((cfg6.win 0).blk t).view.emb (ix2 p q)) = V c (Pipeline.arrRef spec6 0) (ix2 r q)
  refine congrArg _ (funext fun a => Fin.ext ?_)
  match a with
  | ⟨0, _⟩ => show win6_0.index t (0 : Fin 2) * 5000 + 1 * p.val = r.val; omega
  | ⟨1, _⟩ => show win6_0.index t (1 : Fin 2) * 128 + 1 * q.val = q.val; omega

/-- The second operand's block at point `t`, at `(p, q)`, is its array at `(5000·t + p, q)`. -/
theorem mat_blk1 (c : Dev nD) (t : Fin cfg6.N) (p : Fin 5000) (q : Fin 128) (r : Fin 50000) (hr : r.val = t.val * 5000 + p.val) :
    iblk6 V c 1 t (ix2 p q) = V c (Pipeline.arrRef spec6 1) (ix2 r q) := by
  obtain ⟨-, -, e0, e1, -⟩ := idx_facts t
  show V c (Pipeline.arrRef spec6 1) (((cfg6.win 1).blk t).view.emb (ix2 p q)) = V c (Pipeline.arrRef spec6 1) (ix2 r q)
  refine congrArg _ (funext fun a => Fin.ext ?_)
  match a with
  | ⟨0, _⟩ => show win6_1.index t (0 : Fin 2) * 5000 + 1 * p.val = r.val; omega
  | ⟨1, _⟩ => show win6_1.index t (1 : Fin 2) * 128 + 1 * q.val = q.val; omega

/-- The result's block at point `t` sits at rows `5000·t …`: its index `(p, q)` is the array's `(5000·t + p, q)`. -/
theorem out_emb (t : Fin cfg6.N) (p : Fin 5000) (q : Fin 128) (r : Fin 50000) (hr : r.val = t.val * 5000 + p.val) :
    ((cfg6.win 6).blk t).view.emb (ix2 p q) = ix2 r q := by
  obtain ⟨-, -, -, -, -, -, -, -, -, -, -, -, e0, e1⟩ := idx_facts t
  refine funext fun a => Fin.ext ?_
  match a with
  | ⟨0, _⟩ => show win6_6.index t (0 : Fin 2) * 5000 + 1 * p.val = r.val; omega
  | ⟨1, _⟩ => show win6_6.index t (1 : Fin 2) * 128 + 1 * q.val = q.val; omega

/-! ## What a point writes back -/

/-- The matrix the result array ends holding: the stage of the whole arrays as the region finds them. -/
abbrev G (c : Dev nD) : S50000x128.Idx → EReal :=
  Cert.Gnn.normResid 50000 128 (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))

/-- Point `t` writes back block `t` of that matrix: the stage is row-local, and the operands' blocks at point `t` are the
    same rows of their arrays. -/
theorem flushed_eq (c : Dev nD) (t : Fin cfg6.N) :
    (dat6 (F := Ideal) V c).flushed 6 t = ((cfg6.win 6).blk t).view.read (Elt Ideal) (G V c) := by
  show (cfg6.win 6).cut (grid6.coords t) ((dat6 V c).after 6 t) = _
  rw [after6_6]
  unfold out6_6
  rw [View.canon_unit_zero hz]
  simp only [View.ld_unit_zero (S := S5000x128) hz, View.ld_unit_zero (S := S1x128) hz]
  rw [pay_eq]
  funext j
  obtain ⟨p, q, rfl⟩ : ∃ (p : Fin 5000) (q : Fin 128), j = ix2 p q := ⟨j 0, j 1, eq_ix2 j⟩
  have ht := t_lt t
  have hr : t.val * 5000 + p.val < 50000 := by have := p.isLt; omega
  show Cert.Gnn.normResid 5000 128 (iblk6 V c 0 t) (iblk6 V c 1 t) (iblk6 V c 2 t) (iblk6 V c 3 t) (iblk6 V c 4 t) (iblk6 V c 5 t) (ix2 p q)
    = G V c (((cfg6.win 6).blk t).view.emb (ix2 p q))
  rw [out_emb t p q ⟨t.val * 5000 + p.val, hr⟩ rfl]
  rw [show (iblk6 V c 2 t : S1x128.Idx → EReal) = V c (Pipeline.arrRef spec6 2) from funext (row_blk2 V c t),
    show (iblk6 V c 3 t : S1x128.Idx → EReal) = V c (Pipeline.arrRef spec6 3) from funext (row_blk3 V c t),
    show (iblk6 V c 4 t : S1x128.Idx → EReal) = V c (Pipeline.arrRef spec6 4) from funext (row_blk4 V c t),
    show (iblk6 V c 5 t : S1x128.Idx → EReal) = V c (Pipeline.arrRef spec6 5) from funext (row_blk5 V c t)]
  exact Cert.Gnn.normResidAt_rows _ _ _ _ _ _ _ _ p ⟨t.val * 5000 + p.val, hr⟩ q
    (mat_blk0 V c t p q _ rfl) (mat_blk1 V c t p q _ rfl)

/-! ## The blocks tile the array -/

/-- An index of the result array is in point `t`'s block iff each coordinate is in the block's range on its axis. -/
theorem mem_blk (t : Fin cfg6.N) (i : S50000x128.Idx) :
    i ∈ ((cfg6.win 6).blk t).view.set ↔ ∀ a : Fin 2, win6_6.index t a * S5000x128.size a ≤ (i a).val ∧ (i a).val < win6_6.index t a * S5000x128.size a + S5000x128.size a := by
  show i ∈ ((View.whole main_v186).slice (win6_6.rect t)).set ↔ _
  rw [View.set_slice_whole, Rect.mem_set_unit]
  exact Iff.rfl

/-- Row `r` of the result array is written by point `r / 5000`; every column is in every block. -/
theorem cover (i : S50000x128.Idx) :
    ∃ t : Fin cfg6.N, (cfg6.win 6).flush t = true ∧ i ∈ ((cfg6.win 6).blk t).view.set := by
  have hi0 : (i 0).val < 50000 := (i 0).isLt
  have hi1 : (i 1).val < 128 := (i 1).isLt
  have hN : (i 0).val / 5000 < cfg6.N := by rw [show cfg6.N = 10 from N_6]; omega
  refine ⟨⟨(i 0).val / 5000, hN⟩, flush6_6 _, ?_⟩
  rw [mem_blk]
  obtain ⟨-, -, -, -, -, -, -, -, -, -, -, -, e0, e1⟩ := idx_facts ⟨(i 0).val / 5000, hN⟩
  have e0' : win6_6.index ⟨(i 0).val / 5000, hN⟩ (0 : Fin 2) = (i 0).val / 5000 := e0
  intro a
  match a with
  | ⟨0, _⟩ =>
    show win6_6.index ⟨(i 0).val / 5000, hN⟩ (0 : Fin 2) * 5000 ≤ (i 0).val ∧ (i 0).val < win6_6.index ⟨(i 0).val / 5000, hN⟩ (0 : Fin 2) * 5000 + 5000
    omega
  | ⟨1, _⟩ =>
    show win6_6.index ⟨(i 0).val / 5000, hN⟩ (1 : Fin 2) * 128 ≤ (i 1).val ∧ (i 1).val < win6_6.index ⟨(i 0).val / 5000, hN⟩ (1 : Fin 2) * 128 + 128
    omega

/-! ## The result array -/

/-- After the region the result array holds `h + max ((a - μ)·rsqrt (v + ε)·γ + β, 0)` of the whole operand arrays as the
    region found them. -/
theorem final (c : Dev nD) :
    (dat6 (F := Ideal) V c).arrAt 6 cfg6.N = Cert.Gnn.normResid 50000 128 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) :=
  (dat6 V c).arrAt_eq_of_cover 6 (G V c) (fun t _ => flushed_eq V c t) cover

end Blocks

end Cert.KernelIdeal.Norm6

end
-- ==== Proof.KFold6.lean ====
/-
  The kernel program's buffers at the two boundaries around region 6: after the stretch of host operations before it,
  each buffer the region or a later segment reads is the named function of the launch memory (read off the stretch's
  operations, the earlier boundary's contents substituted); after the region its result array is the specification's
  stage function of its operand arrays, and every buffer still to be read is as before (an operand array of the region
  is not written by it).
-/
import proofs.«163580_j15788299780297_2_alg».proof.Proof.KFold5
import proofs.«163580_j15788299780297_2_alg».proof.Proof.KNorm6

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## After the host operations before region 6 (boundary 13) -/

set_option maxHeartbeats 4000000 in
theorem W13_main_v168 (c : Dev nD) : W13 m ρ c (Proc.devRef .tc main_v168) = Terms.view (Hk2 m c) := by
  show StableHlo.after hostOps6 (W12 m ρ c) (Proc.devRef .tc main_v168) = _
  after_results
  rw [W12_main_v129 m ρ c]
  all_goals rfl
set_option maxHeartbeats 4000000 in
theorem W13_main_v169 (c : Dev nD) : W13 m ρ c (Proc.devRef .tc main_v169) = Terms.view (AG2 m c) := by
  show StableHlo.after hostOps6 (W12 m ρ c) (Proc.devRef .tc main_v169) = _
  after_results
  rw [W12_main_v3 m ρ c, W12_main_v150 m ρ c]
  all_goals rfl
set_option maxHeartbeats 4000000 in
theorem W13_main_v173 (c : Dev nD) : W13 m ρ c (Proc.devRef .tc main_v173) = Terms.tile (MU2 m c) := by
  show StableHlo.after hostOps6 (W12 m ρ c) (Proc.devRef .tc main_v173) = _
  after_results
  rw [W12_main_v3 m ρ c, W12_main_v150 m ρ c]
  all_goals rfl
set_option maxHeartbeats 4000000 in
theorem W13_main_v177 (c : Dev nD) : W13 m ρ c (Proc.devRef .tc main_v177) = Terms.tile (VAR2 m c) := by
  show StableHlo.after hostOps6 (W12 m ρ c) (Proc.devRef .tc main_v177) = _
  after_results
  rw [W12_main_v3 m ρ c, W12_main_v150 m ρ c]
  all_goals rfl
set_option maxHeartbeats 4000000 in
theorem W13_main_v181 (c : Dev nD) : W13 m ρ c (Proc.devRef .tc main_v181) = Terms.tile (G2 m c) := by
  show StableHlo.after hostOps6 (W12 m ρ c) (Proc.devRef .tc main_v181) = _
  after_results
  rw [W12_main_arg9 m ρ c]
  all_goals rfl
set_option maxHeartbeats 4000000 in
theorem W13_main_v185 (c : Dev nD) : W13 m ρ c (Proc.devRef .tc main_v185) = Terms.tile (Bt2 m c) := by
  show StableHlo.after hostOps6 (W12 m ρ c) (Proc.devRef .tc main_v185) = _
  after_results
  rw [W12_main_arg10 m ρ c]
  all_goals rfl
theorem W13_main_arg11 (c : Dev nD) : W13 m ρ c (Proc.devRef .tc main_arg11) = X11 m c :=
  (StableHlo.after_of_forall_not_mem (b := Proc.devRef .tc main_arg11) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W12_main_arg11 m ρ c)
theorem W13_main_arg12 (c : Dev nD) : W13 m ρ c (Proc.devRef .tc main_arg12) = X12 m c :=
  (StableHlo.after_of_forall_not_mem (b := Proc.devRef .tc main_arg12) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W12_main_arg12 m ρ c)
theorem W13_main_arg13 (c : Dev nD) : W13 m ρ c (Proc.devRef .tc main_arg13) = X13 m c :=
  (StableHlo.after_of_forall_not_mem (b := Proc.devRef .tc main_arg13) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W12_main_arg13 m ρ c)
theorem W13_main_arg14 (c : Dev nD) : W13 m ρ c (Proc.devRef .tc main_arg14) = X14 m c :=
  (StableHlo.after_of_forall_not_mem (b := Proc.devRef .tc main_arg14) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W12_main_arg14 m ρ c)

/-! ## After region 6 (boundary 14) -/

set_option maxHeartbeats 4000000 in
theorem W14_main_v186 (c : Dev nD) : W14 m ρ c (Proc.devRef .tc main_v186) = NV2 m c := by
  refine (W14_arr m ρ c 6).trans ?_
  refine (Cert.KernelIdeal.Norm6.final (V13 m ρ) c).trans ?_
  show Cert.Gnn.normResid 50000 128 (W13 m ρ c (Proc.devRef .tc main_v168)) (W13 m ρ c (Proc.devRef .tc main_v169)) (W13 m ρ c (Proc.devRef .tc main_v173)) (W13 m ρ c (Proc.devRef .tc main_v177)) (W13 m ρ c (Proc.devRef .tc main_v181)) (W13 m ρ c (Proc.devRef .tc main_v185)) = _
  rw [W13_main_v168 m ρ c, W13_main_v169 m ρ c, W13_main_v173 m ρ c, W13_main_v177 m ρ c, W13_main_v181 m ρ c, W13_main_v185 m ρ c]
  all_goals rfl
theorem W14_main_arg11 (c : Dev nD) : W14 m ρ c (Proc.devRef .tc main_arg11) = X11 m c :=
  (W14_of_ne m ρ c main_arg11 (by decide)).trans (W13_main_arg11 m ρ c)
theorem W14_main_arg12 (c : Dev nD) : W14 m ρ c (Proc.devRef .tc main_arg12) = X12 m c :=
  (W14_of_ne m ρ c main_arg12 (by decide)).trans (W13_main_arg12 m ρ c)
theorem W14_main_arg13 (c : Dev nD) : W14 m ρ c (Proc.devRef .tc main_arg13) = X13 m c :=
  (W14_of_ne m ρ c main_arg13 (by decide)).trans (W13_main_arg13 m ρ c)
theorem W14_main_arg14 (c : Dev nD) : W14 m ρ c (Proc.devRef .tc main_arg14) = X14 m c :=
  (W14_of_ne m ρ c main_arg14 (by decide)).trans (W13_main_arg14 m ρ c)

end Cert.KernelIdeal.Whole

end
-- ==== Proof.KReadout.lean ====
/-
  The read-out's region: ten blocks of 10000 rows, each block the two-layer map `max (x·W3 + b3, 0)·W4 + b4` of its rows.

  The block payload is the two-layer map at block size (`pay_eq`); the row-blocked windows sit at block index `(t, 0)`,
  the two weight and the two bias windows at `(0, 0)`, so their blocks are the whole arrays (`idx_facts`, `w3blk` …
  `b4blk`); row `p` of block `t` is row `10000·t + p` of the array, and the map is row-local, so what point `t`
  writes back is block `t` of the map of the whole arrays (`flushed_eq`); the ten blocks cover the 100000 rows
  (`cover`), hence the array ends holding the map of the whole arrays (`final`).
-/
import proofs.«163580_j15788299780297_2_alg».proof.Proof.Gen.KernelIdeal.Frame
import proofs.«163580_j15788299780297_2_alg».proof.Proof.Spec
import proofs.«163580_j15788299780297_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Readout

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

theorem hz : (![0, 0] : Fin 2 → Nat) = fun _ => 0 := funext fun a => by fin_cases a <;> rfl

/-- The block payload at an entry: the hidden layer `max (x·W3 + b3, 0)` times `W4`, plus `b4`. -/
theorem pay_apply (v0 : Vec Ideal S10000x64 .bf16) (v2 : Vec Ideal S64x64 .bf16) (v5 : Vec Ideal S1x64 .f32)
    (v12 : Vec Ideal S64x3 .bf16) (v15 : Vec Ideal S1x3 .f32) (p : Fin 10000) (q : Fin 3) :
    k7_pay1 v0 v2 v5 v12 v15 (ix2 p q) = Cert.Gnn.mlpTwoAt 10000 64 64 3 v0 v2 v5 v12 v15 p q := by
  unfold k7_pay1
  simp only [shapeCast_self]
  rw [addf_apply]
  rw [show dot_S10000x64_S64x3_S10000x3_1_0_0_1_n_n = DotDims.plain 10000 64 3 from rfl]
  rw [Cert.LibPlainMatmul.matmul_zero_apply 10000 64 3 none _ v12 p q]
  rw [broadcastTo_1b_ab_apply v15 broadcasts_S1x3_S10000x3 p q]
  unfold Cert.Gnn.mlpTwoAt
  refine congrArg (· + v15 (ix2 0 q)) (Finset.sum_congr rfl fun j _ => ?_)
  refine congrArg (· * v12 (ix2 j q)) ?_
  rw [truncf_apply, maximumf_apply, addf_apply, broadcast_apply]
  rw [show dot_S10000x64_S64x64_S10000x64_1_0_0_1_n_n = DotDims.plain 10000 64 64 from rfl]
  rw [Cert.LibPlainMatmul.matmul_zero_apply 10000 64 64 none v0 v2 p j]
  rw [broadcastTo_1b_ab_apply v5 broadcasts_S1x64_S10000x64 p j]
  rfl

/-- The block payload is the two-layer read-out at block size. -/
theorem pay_eq (v0 : Vec Ideal S10000x64 .bf16) (v2 : Vec Ideal S64x64 .bf16) (v5 : Vec Ideal S1x64 .f32)
    (v12 : Vec Ideal S64x3 .bf16) (v15 : Vec Ideal S1x3 .f32) :
    k7_pay1 v0 v2 v5 v12 v15 = Cert.Gnn.mlpTwo 10000 64 64 3 v0 v2 v5 v12 v15 := by
  funext j
  obtain ⟨p, q, rfl⟩ : ∃ (p : Fin 10000) (q : Fin 3), j = ix2 p q := ⟨j 0, j 1, eq_ix2 j⟩
  rw [pay_apply, Cert.Gnn.mlpTwo_apply]

/-- The printed index maps over the grid: the row-blocked windows at `(t, 0)`, the weight and bias windows at `(0, 0)`. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

variable (V : (c : Dev nD) → (b : Ref sig .tc) → Buf (Elt Ideal) ((c : Thread nD τ).loc b))

/-- The first weight window's block is the whole array. -/
theorem w3blk (c : Dev nD) (t : Fin cfg7.N) : iblk7 (F := Ideal) V c 1 t = V c (Pipeline.arrRef spec7 1) := by
  have e := idx_facts t
  unfold iblk7
  funext y
  show V c (Pipeline.arrRef spec7 1) (((cfg7.win 1).blk t).view.emb y) = V c (Pipeline.arrRef spec7 1) y
  refine congrArg _ (funext fun a => Fin.ext ?_)
  match a with
  | ⟨0, _⟩ => show win7_1.index t (0 : Fin 2) * 64 + 1 * (y 0).val = (y 0).val; omega
  | ⟨1, _⟩ => show win7_1.index t (1 : Fin 2) * 64 + 1 * (y 1).val = (y 1).val; omega

/-- The first bias window's block is the whole row. -/
theorem b3blk (c : Dev nD) (t : Fin cfg7.N) : iblk7 (F := Ideal) V c 2 t = V c (Pipeline.arrRef spec7 2) := by
  have e := idx_facts t
  unfold iblk7
  funext y
  show V c (Pipeline.arrRef spec7 2) (((cfg7.win 2).blk t).view.emb y) = V c (Pipeline.arrRef spec7 2) y
  refine congrArg _ (funext fun a => Fin.ext ?_)
  match a with
  | ⟨0, _⟩ => show win7_2.index t (0 : Fin 2) * 1 + 1 * (y 0).val = (y 0).val; omega
  | ⟨1, _⟩ => show win7_2.index t (1 : Fin 2) * 64 + 1 * (y 1).val = (y 1).val; omega

/-- The second weight window's block is the whole array. -/
theorem w4blk (c : Dev nD) (t : Fin cfg7.N) : iblk7 (F := Ideal) V c 3 t = V c (Pipeline.arrRef spec7 3) := by
  have e := idx_facts t
  unfold iblk7
  funext y
  show V c (Pipeline.arrRef spec7 3) (((cfg7.win 3).blk t).view.emb y) = V c (Pipeline.arrRef spec7 3) y
  refine congrArg _ (funext fun a => Fin.ext ?_)
  match a with
  | ⟨0, _⟩ => show win7_3.index t (0 : Fin 2) * 64 + 1 * (y 0).val = (y 0).val; omega
  | ⟨1, _⟩ => show win7_3.index t (1 : Fin 2) * 3 + 1 * (y 1).val = (y 1).val; omega

/-- The second bias window's block is the whole row. -/
theorem b4blk (c : Dev nD) (t : Fin cfg7.N) : iblk7 (F := Ideal) V c 4 t = V c (Pipeline.arrRef spec7 4) := by
  have e := idx_facts t
  unfold iblk7
  funext y
  show V c (Pipeline.arrRef spec7 4) (((cfg7.win 4).blk t).view.emb y) = V c (Pipeline.arrRef spec7 4) y
  refine congrArg _ (funext fun a => Fin.ext ?_)
  match a with
  | ⟨0, _⟩ => show win7_4.index t (0 : Fin 2) * 1 + 1 * (y 0).val = (y 0).val; omega
  | ⟨1, _⟩ => show win7_4.index t (1 : Fin 2) * 3 + 1 * (y 1).val = (y 1).val; omega

set_option maxHeartbeats 1600000 in
/-- What point `t` writes back is block `t` of the two-layer map of the whole arrays. -/
theorem flushed_eq (c : Dev nD) (t : Fin cfg7.N) :
    (dat7 (F := Ideal) V c).flushed 5 t = ((cfg7.win 5).blk t).view.read (Elt Ideal)
      (Cert.Gnn.mlpTwo 100000 64 64 3 (V c (Pipeline.arrRef spec7 0)) (V c (Pipeline.arrRef spec7 1)) (V c (Pipeline.arrRef spec7 2))
        (V c (Pipeline.arrRef spec7 3)) (V c (Pipeline.arrRef spec7 4))) := by
  show (cfg7.win 5).cut (grid7.coords t) ((dat7 V c).after 5 t) = _
  rw [after7_5]
  unfold out7_5
  rw [View.canon_unit_zero hz]
  simp only [View.ld_unit_zero (S := S10000x64) hz, View.ld_unit_zero (S := S64x64) hz, View.ld_unit_zero (S := S1x64) hz,
    View.ld_unit_zero (S := S64x3) hz, View.ld_unit_zero (S := S1x3) hz]
  rw [pay_eq, w3blk, b3blk, w4blk, b4blk]
  have e := idx_facts t
  have hN : cfg7.N = 10 := N_7
  have ht : t.val < 10 := hN ▸ t.isLt
  refine funext fun (j : S10000x3.Idx) => ?_
  obtain ⟨p, q, rfl⟩ : ∃ (p : Fin 10000) (q : Fin 3), j = ix2 p q := ⟨j 0, j 1, eq_ix2 j⟩
  have hr : t.val * 10000 + p.val < 100000 := by have := p.isLt; omega
  have hemb : ((cfg7.win 5).blk t).view.emb (ix2 p q) = ix2 (⟨t.val * 10000 + p.val, hr⟩ : Fin 100000) q := by
    funext a; apply Fin.ext
    match a with
    | ⟨0, _⟩ => show win7_5.index t (0 : Fin 2) * 10000 + 1 * p.val = t.val * 10000 + p.val; omega
    | ⟨1, _⟩ => show win7_5.index t (1 : Fin 2) * 3 + 1 * q.val = q.val; omega
  show Cert.Gnn.mlpTwo 10000 64 64 3 (iblk7 V c 0 t) (V c (Pipeline.arrRef spec7 1)) (V c (Pipeline.arrRef spec7 2))
        (V c (Pipeline.arrRef spec7 3)) (V c (Pipeline.arrRef spec7 4)) (ix2 p q)
    = Cert.Gnn.mlpTwo 100000 64 64 3 (V c (Pipeline.arrRef spec7 0)) (V c (Pipeline.arrRef spec7 1)) (V c (Pipeline.arrRef spec7 2))
        (V c (Pipeline.arrRef spec7 3)) (V c (Pipeline.arrRef spec7 4)) (((cfg7.win 5).blk t).view.emb (ix2 p q))
  rw [hemb, Cert.Gnn.mlpTwo_apply, Cert.Gnn.mlpTwo_apply]
  refine Cert.Gnn.mlpTwoAt_rows _ _ _ _ _ _ p _ q fun k => ?_
  unfold iblk7
  show V c (Pipeline.arrRef spec7 0) (((cfg7.win 0).blk t).view.emb (ix2 p k)) = V c (Pipeline.arrRef spec7 0) (ix2 _ k)
  refine congrArg _ (funext fun a => Fin.ext ?_)
  match a with
  | ⟨0, _⟩ => show win7_0.index t (0 : Fin 2) * 10000 + 1 * p.val = t.val * 10000 + p.val; omega
  | ⟨1, _⟩ => show win7_0.index t (1 : Fin 2) * 64 + 1 * k.val = k.val; omega

/-- An index of the array is in point `t`'s block iff each coordinate is in the block's range on its axis. -/
theorem mem_blk (t : Fin cfg7.N) (i : S100000x3.Idx) :
    i ∈ ((cfg7.win 5).blk t).view.set ↔ ∀ a : Fin 2, win7_5.index t a * S10000x3.size a ≤ (i a).val ∧ (i a).val < win7_5.index t a * S10000x3.size a + S10000x3.size a := by
  show i ∈ ((View.whole main_v193).slice (win7_5.rect t)).set ↔ _
  rw [View.set_slice_whole, Rect.mem_set_unit]
  exact Iff.rfl

/-- Every index of the array is in some point's block: row `r` is in block `r / 10000`. -/
theorem cover (i : S100000x3.Idx) : ∃ t : Fin cfg7.N, (cfg7.win 5).flush t = true ∧ i ∈ ((cfg7.win 5).blk t).view.set := by
  have hi0 : (i 0).val < 100000 := (i 0).isLt
  have hi1 : (i 1).val < 3 := (i 1).isLt
  have hN : cfg7.N = 10 := N_7
  let t : Fin cfg7.N := ⟨(i 0).val / 10000, by rw [hN]; omega⟩
  have e := idx_facts t
  have e10 : win7_5.index t (0 : Fin 2) = (i 0).val / 10000 := e.2.2.2.2.2.2.2.2.2.2.1
  have e11 : win7_5.index t (1 : Fin 2) = 0 := e.2.2.2.2.2.2.2.2.2.2.2
  refine ⟨t, flush7_5 t, ?_⟩
  rw [mem_blk]
  intro a
  match a with
  | ⟨0, _⟩ => show win7_5.index t (0 : Fin 2) * 10000 ≤ (i 0).val ∧ (i 0).val < win7_5.index t (0 : Fin 2) * 10000 + 10000; omega
  | ⟨1, _⟩ => show win7_5.index t (1 : Fin 2) * 3 ≤ (i 1).val ∧ (i 1).val < win7_5.index t (1 : Fin 2) * 3 + 3; omega

/-- The read-out's output array after the region: the two-layer map of the arrays the region finds. -/
theorem final (c : Dev nD) :
    (dat7 (F := Ideal) V c).arrAt 5 cfg7.N = Cert.Gnn.mlpTwo 100000 64 64 3 (V c (Pipeline.arrRef spec7 0)) (V c (Pipeline.arrRef spec7 1))
      (V c (Pipeline.arrRef spec7 2)) (V c (Pipeline.arrRef spec7 3)) (V c (Pipeline.arrRef spec7 4)) :=
  (dat7 (F := Ideal) V c).arrAt_eq_of_cover 5 _ (fun t _ => flushed_eq V c t) cover

end Cert.KernelIdeal.Readout

end
-- ==== Proof.KFold7.lean ====
/-
  The kernel program's buffers at the two boundaries around region 7: after the stretch of host operations before it,
  each buffer the region or a later segment reads is the named function of the launch memory (read off the stretch's
  operations, the earlier boundary's contents substituted); after the region its result array is the specification's
  stage function of its operand arrays, and every buffer still to be read is as before (an operand array of the region
  is not written by it).
-/
import proofs.«163580_j15788299780297_2_alg».proof.Proof.KFold6
import proofs.«163580_j15788299780297_2_alg».proof.Proof.KReadout

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## After the host operations before region 7 (boundary 15) -/

set_option maxHeartbeats 4000000 in
theorem W15_main_v188 (c : Dev nD) : W15 m ρ c (Proc.devRef .tc main_v188) = (truncf (F := Ideal) .bf16 (Hk3 m c) bitsLt_bf16_f32 : Terms.B S100000x64) := by
  show StableHlo.after hostOps7 (W14 m ρ c) (Proc.devRef .tc main_v188) = _
  after_results
  rw [W14_main_v186 m ρ c]
  all_goals rfl
set_option maxHeartbeats 4000000 in
theorem W15_main_v189 (c : Dev nD) : W15 m ρ c (Proc.devRef .tc main_v189) = (truncf (F := Ideal) .bf16 (X11 m c) bitsLt_bf16_f32 : Terms.B S64x64) := by
  show StableHlo.after hostOps7 (W14 m ρ c) (Proc.devRef .tc main_v189) = _
  after_results
  rw [W14_main_arg11 m ρ c]
  all_goals rfl
set_option maxHeartbeats 4000000 in
theorem W15_main_v191 (c : Dev nD) : W15 m ρ c (Proc.devRef .tc main_v191) = Terms.asRow (X12 m c) := by
  show StableHlo.after hostOps7 (W14 m ρ c) (Proc.devRef .tc main_v191) = _
  after_results
  rw [W14_main_arg12 m ρ c]
  all_goals rfl
set_option maxHeartbeats 4000000 in
theorem W15_main_v190 (c : Dev nD) : W15 m ρ c (Proc.devRef .tc main_v190) = (truncf (F := Ideal) .bf16 (X13 m c) bitsLt_bf16_f32 : Terms.B S64x3) := by
  show StableHlo.after hostOps7 (W14 m ρ c) (Proc.devRef .tc main_v190) = _
  after_results
  rw [W14_main_arg13 m ρ c]
  all_goals rfl
set_option maxHeartbeats 4000000 in
theorem W15_main_v192 (c : Dev nD) : W15 m ρ c (Proc.devRef .tc main_v192) = (shapeCast _ (X14 m c) shapeCasts_S3_S1x3 : Terms.A S1x3) := by
  show StableHlo.after hostOps7 (W14 m ρ c) (Proc.devRef .tc main_v192) = _
  after_results
  rw [W14_main_arg14 m ρ c]
  all_goals rfl

/-! ## After region 7 (boundary 16) -/

set_option maxHeartbeats 4000000 in
theorem W16_main_v193 (c : Dev nD) : W16 m ρ c (Proc.devRef .tc main_v193) = Terms.outK (X0 m c) (X1 m c) (X2 m c) (X3 m c) (X4 m c) (X5 m c) (X6 m c) (X7 m c) (X8 m c) (X9 m c) (X10 m c) (X11 m c) (X12 m c) (X13 m c) (X14 m c) := by
  refine (W16_arr m ρ c 5).trans ?_
  refine (Cert.KernelIdeal.Readout.final (V15 m ρ) c).trans ?_
  show Cert.Gnn.mlpTwo 100000 64 64 3 (W15 m ρ c (Proc.devRef .tc main_v188)) (W15 m ρ c (Proc.devRef .tc main_v189)) (W15 m ρ c (Proc.devRef .tc main_v191)) (W15 m ρ c (Proc.devRef .tc main_v190)) (W15 m ρ c (Proc.devRef .tc main_v192)) = _
  rw [W15_main_v188 m ρ c, W15_main_v189 m ρ c, W15_main_v191 m ρ c, W15_main_v190 m ρ c, W15_main_v192 m ρ c]
  all_goals rfl

end Cert.KernelIdeal.Whole

end
-- ==== Proof.RefTerms.lean ====
/-
  The reference program's stages as functions of arrays, in the reference's own operations.

  `encR` is the node encoder (product, bias, maximum with zero); `srcIdx` / `dstIdx` the two rows of the edge list;
  `gatherR` the rows of the node features at the (wrapped) source indices; `msgR` an edge's message from the joined
  features (product with the 68-row weight, bias, maximum with zero, second product, bias); `aggR` the sum of the
  messages at their destination nodes; `meanR` a column mean over the nodes, `varR` the column mean of the squared
  deviations; `normR` normalisation, affine map, maximum with zero and the residual sum; `layerR` one whole layer;
  `w1At` … the layer's weights cut out of the stacked parameters; `finR` the read-out; `outR` the whole program.
-/
import proofs.«163580_j15788299780297_2_alg».proof.ReferenceIdeal
import proofs.«163580_j15788299780297_2_alg».proof.Proof.Gen.ReferenceIdeal

noncomputable section

namespace Cert.ReferenceIdeal.Terms

open Cert.ReferenceIdeal Cert.ReferenceIdeal.Gen Idealize.ShloMosaic

variable {F : FTy → Type} [FloatOps F]

/-- The contents of a float array of shape `S`. -/
abbrev A (F : FTy → Type) (S : Shape) : Type := (⟨S, .f32⟩ : BufTy).Contents (Elt F)
/-- The contents of a 32-bit integer array of shape `S`. -/
abbrev I (F : FTy → Type) (S : Shape) : Type := (⟨S, .i32⟩ : BufTy).Contents (Elt F)

/-- A `[64]` vector as every row of a `[100000, 64]` matrix. -/
abbrev rowsN (v : A F S64) : A F S100000x64 :=
  broadcastInDim S100000x64 ![0, 1] bcast_S1x64_S100000x64_0_1 (broadcastInDim S1x64 ![1] bcast_S64_S1x64_1 v)
/-- A `[64]` vector as every row of a `[1600000, 64]` matrix. -/
abbrev rowsE (v : A F S64) : A F S1600000x64 :=
  broadcastInDim S1600000x64 ![0, 1] bcast_S1x64_S1600000x64_0_1 (broadcastInDim S1x64 ![1] bcast_S64_S1x64_1 v)
/-- The zero matrix over the nodes. -/
abbrev zerosN : A F S100000x64 := broadcastInDim S100000x64 ![] bcast_S_S100000x64 (constant S_ .f32 0x00000000#32)
/-- The zero matrix over the edges. -/
abbrev zerosE : A F S1600000x64 := broadcastInDim S1600000x64 ![] bcast_S_S1600000x64 (constant S_ .f32 0x00000000#32)

def encR (x : A F S100000x5) (win : A F S5x64) (bin : A F S64) : A F S100000x64 :=
  maximumf (addf (Host.dotGeneral dot_S100000x5_S5x64_S100000x64_1_0_0_1_n_n none x win) (rowsN bin)) zerosN

def srcIdx (ei : I F S2x1600000) : I F S1600000 :=
  shapeCast _ (extractStridedSlice S1x1600000 ![0, 0] ei slices_S2x1600000_S1x1600000_0_0) shapeCasts_S1x1600000_S1600000
def dstIdx (ei : I F S2x1600000) : I F S1600000 :=
  shapeCast _ (extractStridedSlice S1x1600000 ![1, 0] ei slices_S2x1600000_S1x1600000_1_0) shapeCasts_S1x1600000_S1600000

def gatherR (h : A F S100000x64) (src : I F S1600000) : A F S1600000x64 :=
  Host.gather gather_S100000x64_S1600000x1_S1600000x64_1_0_n_n_0_1_164 h
    (broadcastInDim S1600000x1 ![0] bcast_S1600000_S1600000x1_0
      (select (cmpi .slt src (broadcastInDim S1600000 ![] bcast_S_S1600000 (constantI S_ 32 0#32)))
        (addi src (broadcastInDim S1600000 ![] bcast_S_S1600000 (constantI S_ 32 100000#32))) src))

def msgR (hs : A F S1600000x64) (ea : A F S1600000x4) (w1 : A F S68x64) (b1 : A F S64) (w2 : A F S64x64) (b2 : A F S64) :
    A F S1600000x64 :=
  addf (Host.dotGeneral dot_S1600000x64_S64x64_S1600000x64_1_0_0_1_n_n none
      (maximumf (addf (Host.dotGeneral dot_S1600000x68_S68x64_S1600000x64_1_0_0_1_n_n none
          (concatenate S1600000x68 1 [⟨S1600000x64, hs⟩, ⟨S1600000x4, ea⟩] concatenates_S1600000x64_S1600000x4_S1600000x68_d1) w1)
        (rowsE b1)) zerosE) w2) (rowsE b2)

def aggR (dst : I F S1600000) (msg : A F S1600000x64) : A F S100000x64 :=
  Host.scatterAdd scatter_S100000x64_S1600000x1_S1600000x64_1_0_0_1 zerosN
    (broadcastInDim S1600000x1 ![0] bcast_S1600000_S1600000x1_0 dst) msg

def meanR (a : A F S100000x64) : A F S64 :=
  Host.divf (Host.reduceAdd a (constant S_ .f32 0x00000000#32) reducesTo_S100000x64_S64_d0 h_S_)
    (broadcastInDim S64 ![] bcast_S_S64 (constant S_ .f32 0x47C35000#32))

def varR (a : A F S100000x64) (mu : A F S64) : A F S64 :=
  meanR (mulf (subf a (rowsN mu)) (subf a (rowsN mu)))

def normR (h a : A F S100000x64) (mu var gam bet : A F S64) : A F S100000x64 :=
  addf h (maximumf (addf (mulf (mulf (subf a (rowsN mu))
      (rowsN (Host.rsqrt (addf var (broadcastInDim S64 ![] bcast_S_S64 (constant S_ .f32 0x3727C5AC#32)))))) (rowsN gam)) (rowsN bet)) zerosN)

/-- One layer: gather, message, aggregate, statistics, normalise and add. -/
def layerR (h : A F S100000x64) (src dst : I F S1600000) (ea : A F S1600000x4) (w1 : A F S68x64) (b1 : A F S64)
    (w2 : A F S64x64) (b2 gam bet : A F S64) : A F S100000x64 :=
  normR h (aggR dst (msgR (gatherR h src) ea w1 b1 w2 b2))
    (meanR (aggR dst (msgR (gatherR h src) ea w1 b1 w2 b2)))
    (varR (aggR dst (msgR (gatherR h src) ea w1 b1 w2 b2)) (meanR (aggR dst (msgR (gatherR h src) ea w1 b1 w2 b2))))
    gam bet

def finR (h : A F S100000x64) (w3 : A F S64x64) (b3 : A F S64) (w4 : A F S64x3) (b4 : A F S3) : A F S100000x3 :=
  addf (Host.dotGeneral dot_S100000x64_S64x3_S100000x3_1_0_0_1_n_n none
      (maximumf (addf (Host.dotGeneral dot_S100000x64_S64x64_S100000x64_1_0_0_1_n_n none h w3) (rowsN b3)) zerosN) w4)
    (broadcastInDim S100000x3 ![0, 1] bcast_S1x3_S100000x3_0_1 (broadcastInDim S1x3 ![1] bcast_S3_S1x3_1 b4))

/-! ## The layer's parameters cut out of the stacked arrays, and the whole program -/

def w1At0 (w : A F S3x68x64) : A F S68x64 := shapeCast _ (extractStridedSlice S1x68x64 ![0, 0, 0] w slices_S3x68x64_S1x68x64_0_0_0) shapeCasts_S1x68x64_S68x64
def w1At1 (w : A F S3x68x64) : A F S68x64 := shapeCast _ (extractStridedSlice S1x68x64 ![1, 0, 0] w slices_S3x68x64_S1x68x64_1_0_0) shapeCasts_S1x68x64_S68x64
def w1At2 (w : A F S3x68x64) : A F S68x64 := shapeCast _ (extractStridedSlice S1x68x64 ![2, 0, 0] w slices_S3x68x64_S1x68x64_2_0_0) shapeCasts_S1x68x64_S68x64
def w2At0 (w : A F S3x64x64) : A F S64x64 := shapeCast _ (extractStridedSlice S1x64x64 ![0, 0, 0] w slices_S3x64x64_S1x64x64_0_0_0) shapeCasts_S1x64x64_S64x64
def w2At1 (w : A F S3x64x64) : A F S64x64 := shapeCast _ (extractStridedSlice S1x64x64 ![1, 0, 0] w slices_S3x64x64_S1x64x64_1_0_0) shapeCasts_S1x64x64_S64x64
def w2At2 (w : A F S3x64x64) : A F S64x64 := shapeCast _ (extractStridedSlice S1x64x64 ![2, 0, 0] w slices_S3x64x64_S1x64x64_2_0_0) shapeCasts_S1x64x64_S64x64
def rowAt0 (v : A F S3x64) : A F S64 := shapeCast _ (extractStridedSlice S1x64 ![0, 0] v slices_S3x64_S1x64_0_0) shapeCasts_S1x64_S64
def rowAt1 (v : A F S3x64) : A F S64 := shapeCast _ (extractStridedSlice S1x64 ![1, 0] v slices_S3x64_S1x64_1_0) shapeCasts_S1x64_S64
def rowAt2 (v : A F S3x64) : A F S64 := shapeCast _ (extractStridedSlice S1x64 ![2, 0] v slices_S3x64_S1x64_2_0) shapeCasts_S1x64_S64

/-- The node features after the first layer. -/
def h1R (x : A F S100000x5) (ei : I F S2x1600000) (ea : A F S1600000x4) (win : A F S5x64) (bin : A F S64) (w1 : A F S3x68x64)
    (b1 : A F S3x64) (w2 : A F S3x64x64) (b2 gam bet : A F S3x64) : A F S100000x64 :=
  layerR (encR x win bin) (srcIdx ei) (dstIdx ei) ea (w1At0 w1) (rowAt0 b1) (w2At0 w2) (rowAt0 b2) (rowAt0 gam) (rowAt0 bet)
/-- … after the second … -/
def h2R (x : A F S100000x5) (ei : I F S2x1600000) (ea : A F S1600000x4) (win : A F S5x64) (bin : A F S64) (w1 : A F S3x68x64)
    (b1 : A F S3x64) (w2 : A F S3x64x64) (b2 gam bet : A F S3x64) : A F S100000x64 :=
  layerR (h1R x ei ea win bin w1 b1 w2 b2 gam bet) (srcIdx ei) (dstIdx ei) ea (w1At1 w1) (rowAt1 b1) (w2At1 w2) (rowAt1 b2) (rowAt1 gam) (rowAt1 bet)
/-- … and after the third. -/
def h3R (x : A F S100000x5) (ei : I F S2x1600000) (ea : A F S1600000x4) (win : A F S5x64) (bin : A F S64) (w1 : A F S3x68x64)
    (b1 : A F S3x64) (w2 : A F S3x64x64) (b2 gam bet : A F S3x64) : A F S100000x64 :=
  layerR (h2R x ei ea win bin w1 b1 w2 b2 gam bet) (srcIdx ei) (dstIdx ei) ea (w1At2 w1) (rowAt2 b1) (w2At2 w2) (rowAt2 b2) (rowAt2 gam) (rowAt2 bet)

/-- The whole reference: encoder, three layers, read-out. -/
def outR (x : A F S100000x5) (ei : I F S2x1600000) (ea : A F S1600000x4) (win : A F S5x64) (bin : A F S64) (w1 : A F S3x68x64)
    (b1 : A F S3x64) (w2 : A F S3x64x64) (b2 gam bet : A F S3x64) (w3 : A F S64x64) (b3 : A F S64) (w4 : A F S64x3) (b4 : A F S3) :
    A F S100000x3 :=
  finR (h3R x ei ea win bin w1 b1 w2 b2 gam bet) w3 b3 w4 b4

end Cert.ReferenceIdeal.Terms

end
-- ==== Proof.RefRun.lean ====
/-
  The reference program's run, read back in five stages.

  The program is a straight line of 235 host operations (`OpsP.ops`), so that every buffer ends at the fold
  `after ops` of the operations' results over the launch contents. The fold of a concatenation is the fold of
  the second list over the fold of the first (`after_append`); the list is cut at the stage boundaries into the
  encoder, the three layers and the read-out, and for an ARBITRARY valuation each stage's result buffer is the
  stage function of `RefTerms` of the buffers the stage reads, while a buffer the stage does not write — the two
  index vectors and the fifteen arguments among them — is kept (`after_kept`). Composing the five stages gives
  the result buffer as `Terms.outR` of the fifteen arguments' launch contents, with the arguments unchanged.
-/
import proofs.«163580_j15788299780297_2_alg».proof.Proof.RefOps
import proofs.«163580_j15788299780297_2_alg».proof.Proof.RefTerms

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.ReferenceIdeal.OpsP

/-- The fold over a concatenation: the second list's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line each of whose operations writes one buffer, those buffers listed in `W`, keeps every buffer not in `W`. -/
theorem after_kept {τ : Topo} {sig : RefSig} {Val : EltTy → Type} {l : List (HloOp τ sig Val)} {W : List (Ref sig .tc)}
    (h : List.Forall₂ (fun op y => op.writes = {Proc.devRef (τ := τ) .tc y}) l W) {r : Ref sig .tc} (hr : r ∉ W)
    (V : Valuation τ sig Val) : after l V (Proc.devRef .tc r) = V (Proc.devRef .tc r) := by
  induction h generalizing V with
  | nil => rfl
  | @cons op y l W hw _ ih =>
    have hy : r ≠ y := fun e => hr (by rw [e]; exact List.mem_cons_self)
    rw [after_cons, ih (fun hm => hr (List.mem_cons_of_mem _ hm)), op.result_of_not_mem V]
    rw [hw, Finset.mem_singleton]
    exact fun e => hy (Proc.devRef_injective _ e)

variable {F : FTy → Type} [FloatOps F]

/-! ## The five stages' operations -/

/-- The first 11 operations: the edge list cut into source and destination indices, and the node encoder. -/
def opsE : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x5_S5x64_S100000x64_1_0_0_1_n_n none l r) : (⟨S100000x5, .f32⟩ : BufTy).Contents (Elt F) → (⟨S5x64, .f32⟩ : BufTy).Contents (Elt F) → (⟨S100000x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v7) (TRef.of (T := ⟨S100000x64, .f32⟩) main_call0_v0) (TRef.of (T := ⟨S100000x64, .f32⟩) main_v8) maximumf ]

/-- The 71 operations of the first layer. -/
def opsL0 : List (HloOp τ sig (Elt F)) :=
  [ nullary main_c (constantI S_ 32 0#32),
    unary main_c main_v9 (broadcastInDim S1600000 ![] bcast_S_S1600000 : (⟨S_, .i32⟩ : BufTy).Contents (Elt F) → (⟨S1600000, .i32⟩ : BufTy).Contents (Elt F)),
    binary main_v1 main_v9 main_v10 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v11 (broadcastInDim S1600000 ![] bcast_S_S1600000 : (⟨S_, .i32⟩ : BufTy).Contents (Elt F) → (⟨S1600000, .i32⟩ : BufTy).Contents (Elt F)),
    binary main_v1 main_v11 main_v12 (addi : (⟨S1600000, .i32⟩ : BufTy).Contents (Elt F) → (⟨S1600000, .i32⟩ : BufTy).Contents (Elt F) → (⟨S1600000, .i32⟩ : BufTy).Contents (Elt F)),
    ternary main_v10 main_v12 main_v1 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v13 main_v14 (broadcastInDim S1600000x1 ![0] bcast_S1600000_S1600000x1_0 : (⟨S1600000, .i32⟩ : BufTy).Contents (Elt F) → (⟨S1600000x1, .i32⟩ : BufTy).Contents (Elt F)),
    binary main_v8 main_v14 main_v15 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v15 main_arg2 main_v16 ((fun a b => concatenate S1600000x68 1 [⟨S1600000x64, a⟩, ⟨S1600000x4, b⟩] concatenates_S1600000x64_S1600000x4_S1600000x68_d1) : (⟨S1600000x64, .f32⟩ : BufTy).Contents (Elt F) → (⟨S1600000x4, .f32⟩ : BufTy).Contents (Elt F) → (⟨S1600000x68, .f32⟩ : BufTy).Contents (Elt F)),
    unary main_arg5 main_v17 ((extractStridedSlice S1x68x64 ![0, 0, 0] · slices_S3x68x64_S1x68x64_0_0_0) : (⟨S3x68x64, .f32⟩ : BufTy).Contents (Elt F) → (⟨S1x68x64, .f32⟩ : BufTy).Contents (Elt F)),
    reshape main_v17 main_v18 rfl shapeCasts_S1x68x64_S68x64,
    binary main_v16 main_v18 main_v19 ((fun l r => Host.dotGeneral dot_S1600000x68_S68x64_S1600000x64_1_0_0_1_n_n none l r) : (⟨S1600000x68, .f32⟩ : BufTy).Contents (Elt F) → (⟨S68x64, .f32⟩ : BufTy).Contents (Elt F) → (⟨S1600000x64, .f32⟩ : BufTy).Contents (Elt F)),
    unary main_arg6 main_v20 ((extractStridedSlice S1x64 ![0, 0] · slices_S3x64_S1x64_0_0) : (⟨S3x64, .f32⟩ : BufTy).Contents (Elt F) → (⟨S1x64, .f32⟩ : BufTy).Contents (Elt F)),
    reshape main_v20 main_v21 rfl shapeCasts_S1x64_S64,
    unary main_v21 main_v22 (broadcastInDim S1x64 ![1] bcast_S64_S1x64_1 : (⟨S64, .f32⟩ : BufTy).Contents (Elt F) → (⟨S1x64, .f32⟩ : BufTy).Contents (Elt F)),
    unary main_v22 main_v23 (broadcastInDim S1600000x64 ![0, 1] bcast_S1x64_S1600000x64_0_1 : (⟨S1x64, .f32⟩ : BufTy).Contents (Elt F) → (⟨S1600000x64, .f32⟩ : BufTy).Contents (Elt F)),
    binary main_v19 main_v23 main_v24 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1600000x64, .f32⟩) main_call1_v0) (broadcastInDim S1600000x64 ![] bcast_S_S1600000x64),
    TRef.binary (TRef.of (T := ⟨S1600000x64, .f32⟩) main_v24) (TRef.of (T := ⟨S1600000x64, .f32⟩) main_call1_v0) (TRef.of (T := ⟨S1600000x64, .f32⟩) main_v25) maximumf,
    unary main_arg7 main_v26 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v26 main_v27 rfl shapeCasts_S1x64x64_S64x64,
    binary main_v25 main_v27 main_v28 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg8 main_v29 ((extractStridedSlice S1x64 ![0, 0] · slices_S3x64_S1x64_0_0) : (⟨S3x64, .f32⟩ : BufTy).Contents (Elt F) → (⟨S1x64, .f32⟩ : BufTy).Contents (Elt F)),
    reshape main_v29 main_v30 rfl shapeCasts_S1x64_S64,
    unary main_v30 main_v31 (broadcastInDim S1x64 ![1] bcast_S64_S1x64_1 : (⟨S64, .f32⟩ : BufTy).Contents (Elt F) → (⟨S1x64, .f32⟩ : BufTy).Contents (Elt F)),
    unary main_v31 main_v32 (broadcastInDim S1600000x64 ![0, 1] bcast_S1x64_S1600000x64_0_1 : (⟨S1x64, .f32⟩ : BufTy).Contents (Elt F) → (⟨S1600000x64, .f32⟩ : BufTy).Contents (Elt F)),
    binary main_v28 main_v32 main_v33 (addf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v34 (broadcastInDim S100000x64 ![] bcast_S_S100000x64 : (⟨S_, .f32⟩ : BufTy).Contents (Elt F) → (⟨S100000x64, .f32⟩ : BufTy).Contents (Elt F)),
    unary main_v3 main_v35 (broadcastInDim S1600000x1 ![0] bcast_S1600000_S1600000x1_0 : (⟨S1600000, .i32⟩ : BufTy).Contents (Elt F) → (⟨S1600000x1, .i32⟩ : BufTy).Contents (Elt F)),
    ternary main_v34 main_v35 main_v33 main_v36 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg9 main_v37 ((extractStridedSlice S1x64 ![0, 0] · slices_S3x64_S1x64_0_0) : (⟨S3x64, .f32⟩ : BufTy).Contents (Elt F) → (⟨S1x64, .f32⟩ : BufTy).Contents (Elt F)),
    reshape main_v37 main_v38 rfl shapeCasts_S1x64_S64,
    unary main_arg10 main_v39 ((extractStridedSlice S1x64 ![0, 0] · slices_S3x64_S1x64_0_0) : (⟨S3x64, .f32⟩ : BufTy).Contents (Elt F) → (⟨S1x64, .f32⟩ : BufTy).Contents (Elt F)),
    reshape main_v39 main_v40 rfl shapeCasts_S1x64_S64,
    nullary main_cst_1 (constant S_ .f32 0x00000000#32),
    binary main_v36 main_cst_1 main_v41 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v42 (broadcastInDim S64 ![] bcast_S_S64 : (⟨S_, .f32⟩ : BufTy).Contents (Elt F) → (⟨S64, .f32⟩ : BufTy).Contents (Elt F)),
    binary main_v41 main_v42 main_v43 (Host.divf : (⟨S64, .f32⟩ : BufTy).Contents (Elt F) → (⟨S64, .f32⟩ : BufTy).Contents (Elt F) → (⟨S64, .f32⟩ : BufTy).Contents (Elt F)),
    unary main_v43 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v36 main_v45 main_v46 (subf : (⟨S100000x64, .f32⟩ : BufTy).Contents (Elt F) → (⟨S100000x64, .f32⟩ : BufTy).Contents (Elt F) → (⟨S100000x64, .f32⟩ : BufTy).Contents (Elt F)),
    binary main_v46 main_v46 main_v47 (mulf : (⟨S100000x64, .f32⟩ : BufTy).Contents (Elt F) → (⟨S100000x64, .f32⟩ : BufTy).Contents (Elt F) → (⟨S100000x64, .f32⟩ : BufTy).Contents (Elt F)),
    nullary main_cst_3 (constant S_ .f32 0x00000000#32),
    binary main_v47 main_cst_3 main_v48 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_4 (constant S_ .f32 0x47C35000#32),
    unary main_cst_4 main_v49 (broadcastInDim S64 ![] bcast_S_S64 : (⟨S_, .f32⟩ : BufTy).Contents (Elt F) → (⟨S64, .f32⟩ : BufTy).Contents (Elt F)),
    binary main_v48 main_v49 main_v50 (Host.divf : (⟨S64, .f32⟩ : BufTy).Contents (Elt F) → (⟨S64, .f32⟩ : BufTy).Contents (Elt F) → (⟨S64, .f32⟩ : BufTy).Contents (Elt F)),
    unary main_v43 main_v51 (broadcastInDim S1x64 ![1] bcast_S64_S1x64_1 : (⟨S64, .f32⟩ : BufTy).Contents (Elt F) → (⟨S1x64, .f32⟩ : BufTy).Contents (Elt F)),
    unary main_v51 main_v52 (broadcastInDim S100000x64 ![0, 1] bcast_S1x64_S100000x64_0_1 : (⟨S1x64, .f32⟩ : BufTy).Contents (Elt F) → (⟨S100000x64, .f32⟩ : BufTy).Contents (Elt F)),
    binary main_v36 main_v52 main_v53 (subf : (⟨S100000x64, .f32⟩ : BufTy).Contents (Elt F) → (⟨S100000x64, .f32⟩ : BufTy).Contents (Elt F) → (⟨S100000x64, .f32⟩ : BufTy).Contents (Elt F)),
    nullary main_cst_5 (constant S_ .f32 0x3727C5AC#32),
    unary main_cst_5 main_v54 (broadcastInDim S64 ![] bcast_S_S64 : (⟨S_, .f32⟩ : BufTy).Contents (Elt F) → (⟨S64, .f32⟩ : BufTy).Contents (Elt F)),
    binary main_v50 main_v54 main_v55 (addf : (⟨S64, .f32⟩ : BufTy).Contents (Elt F) → (⟨S64, .f32⟩ : BufTy).Contents (Elt F) → (⟨S64, .f32⟩ : BufTy).Contents (Elt F)),
    unary main_v55 main_v56 (Host.rsqrt : (⟨S64, .f32⟩ : BufTy).Contents (Elt F) → (⟨S64, .f32⟩ : BufTy).Contents (Elt F)),
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S100000x64 ![0, 1] bcast_S1x64_S100000x64_0_1 : (⟨S1x64, .f32⟩ : BufTy).Contents (Elt F) → (⟨S100000x64, .f32⟩ : BufTy).Contents (Elt F)),
    binary main_v53 main_v58 main_v59 (mulf : (⟨S100000x64, .f32⟩ : BufTy).Contents (Elt F) → (⟨S100000x64, .f32⟩ : BufTy).Contents (Elt F) → (⟨S100000x64, .f32⟩ : BufTy).Contents (Elt F)),
    unary main_v38 main_v60 (broadcastInDim S1x64 ![1] bcast_S64_S1x64_1 : (⟨S64, .f32⟩ : BufTy).Contents (Elt F) → (⟨S1x64, .f32⟩ : BufTy).Contents (Elt F)),
    unary main_v60 main_v61 (broadcastInDim S100000x64 ![0, 1] bcast_S1x64_S100000x64_0_1 : (⟨S1x64, .f32⟩ : BufTy).Contents (Elt F) → (⟨S100000x64, .f32⟩ : BufTy).Contents (Elt F)),
    binary main_v59 main_v61 main_v62 (mulf : (⟨S100000x64, .f32⟩ : BufTy).Contents (Elt F) → (⟨S100000x64, .f32⟩ : BufTy).Contents (Elt F) → (⟨S100000x64, .f32⟩ : BufTy).Contents (Elt F)),
    unary main_v40 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v62 main_v64 main_v65 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v65) (TRef.of (T := ⟨S100000x64, .f32⟩) main_call2_v0) (TRef.of (T := ⟨S100000x64, .f32⟩) main_v66) maximumf,
    binary main_v8 main_v66 main_v67 (addf : (⟨S100000x64, .f32⟩ : BufTy).Contents (Elt F) → (⟨S100000x64, .f32⟩ : BufTy).Contents (Elt F) → (⟨S100000x64, .f32⟩ : BufTy).Contents (Elt F)) ]

/-- The 71 operations of the second layer. -/
def opsL1 : List (HloOp τ sig (Elt F)) :=
  [ nullary main_c_6 (constantI S_ 32 0#32),
    unary main_c_6 main_v68 (broadcastInDim S1600000 ![] bcast_S_S1600000 : (⟨S_, .i32⟩ : BufTy).Contents (Elt F) → (⟨S1600000, .i32⟩ : BufTy).Contents (Elt F)),
    binary main_v1 main_v68 main_v69 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v70 (broadcastInDim S1600000 ![] bcast_S_S1600000 : (⟨S_, .i32⟩ : BufTy).Contents (Elt F) → (⟨S1600000, .i32⟩ : BufTy).Contents (Elt F)),
    binary main_v1 main_v70 main_v71 (addi : (⟨S1600000, .i32⟩ : BufTy).Contents (Elt F) → (⟨S1600000, .i32⟩ : BufTy).Contents (Elt F) → (⟨S1600000, .i32⟩ : BufTy).Contents (Elt F)),
    ternary main_v69 main_v71 main_v1 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v72 main_v73 (broadcastInDim S1600000x1 ![0] bcast_S1600000_S1600000x1_0 : (⟨S1600000, .i32⟩ : BufTy).Contents (Elt F) → (⟨S1600000x1, .i32⟩ : BufTy).Contents (Elt F)),
    binary main_v67 main_v73 main_v74 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v74 main_arg2 main_v75 ((fun a b => concatenate S1600000x68 1 [⟨S1600000x64, a⟩, ⟨S1600000x4, b⟩] concatenates_S1600000x64_S1600000x4_S1600000x68_d1) : (⟨S1600000x64, .f32⟩ : BufTy).Contents (Elt F) → (⟨S1600000x4, .f32⟩ : BufTy).Contents (Elt F) → (⟨S1600000x68, .f32⟩ : BufTy).Contents (Elt F)),
    unary main_arg5 main_v76 ((extractStridedSlice S1x68x64 ![1, 0, 0] · slices_S3x68x64_S1x68x64_1_0_0) : (⟨S3x68x64, .f32⟩ : BufTy).Contents (Elt F) → (⟨S1x68x64, .f32⟩ : BufTy).Contents (Elt F)),
    reshape main_v76 main_v77 rfl shapeCasts_S1x68x64_S68x64,
    binary main_v75 main_v77 main_v78 ((fun l r => Host.dotGeneral dot_S1600000x68_S68x64_S1600000x64_1_0_0_1_n_n none l r) : (⟨S1600000x68, .f32⟩ : BufTy).Contents (Elt F) → (⟨S68x64, .f32⟩ : BufTy).Contents (Elt F) → (⟨S1600000x64, .f32⟩ : BufTy).Contents (Elt F)),
    unary main_arg6 main_v79 ((extractStridedSlice S1x64 ![1, 0] · slices_S3x64_S1x64_1_0) : (⟨S3x64, .f32⟩ : BufTy).Contents (Elt F) → (⟨S1x64, .f32⟩ : BufTy).Contents (Elt F)),
    reshape main_v79 main_v80 rfl shapeCasts_S1x64_S64,
    unary main_v80 main_v81 (broadcastInDim S1x64 ![1] bcast_S64_S1x64_1 : (⟨S64, .f32⟩ : BufTy).Contents (Elt F) → (⟨S1x64, .f32⟩ : BufTy).Contents (Elt F)),
    unary main_v81 main_v82 (broadcastInDim S1600000x64 ![0, 1] bcast_S1x64_S1600000x64_0_1 : (⟨S1x64, .f32⟩ : BufTy).Contents (Elt F) → (⟨S1600000x64, .f32⟩ : BufTy).Contents (Elt F)),
    binary main_v78 main_v82 main_v83 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1600000x64, .f32⟩) main_call3_v0) (broadcastInDim S1600000x64 ![] bcast_S_S1600000x64),
    TRef.binary (TRef.of (T := ⟨S1600000x64, .f32⟩) main_v83) (TRef.of (T := ⟨S1600000x64, .f32⟩) main_call3_v0) (TRef.of (T := ⟨S1600000x64, .f32⟩) main_v84) maximumf,
    unary main_arg7 main_v85 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v85 main_v86 rfl shapeCasts_S1x64x64_S64x64,
    binary main_v84 main_v86 main_v87 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg8 main_v88 ((extractStridedSlice S1x64 ![1, 0] · slices_S3x64_S1x64_1_0) : (⟨S3x64, .f32⟩ : BufTy).Contents (Elt F) → (⟨S1x64, .f32⟩ : BufTy).Contents (Elt F)),
    reshape main_v88 main_v89 rfl shapeCasts_S1x64_S64,
    unary main_v89 main_v90 (broadcastInDim S1x64 ![1] bcast_S64_S1x64_1 : (⟨S64, .f32⟩ : BufTy).Contents (Elt F) → (⟨S1x64, .f32⟩ : BufTy).Contents (Elt F)),
    unary main_v90 main_v91 (broadcastInDim S1600000x64 ![0, 1] bcast_S1x64_S1600000x64_0_1 : (⟨S1x64, .f32⟩ : BufTy).Contents (Elt F) → (⟨S1600000x64, .f32⟩ : BufTy).Contents (Elt F)),
    binary main_v87 main_v91 main_v92 (addf : (⟨S1600000x64, .f32⟩ : BufTy).Contents (Elt F) → (⟨S1600000x64, .f32⟩ : BufTy).Contents (Elt F) → (⟨S1600000x64, .f32⟩ : BufTy).Contents (Elt F)),
    nullary main_cst_8 (constant S_ .f32 0x00000000#32),
    unary main_cst_8 main_v93 (broadcastInDim S100000x64 ![] bcast_S_S100000x64 : (⟨S_, .f32⟩ : BufTy).Contents (Elt F) → (⟨S100000x64, .f32⟩ : BufTy).Contents (Elt F)),
    unary main_v3 main_v94 (broadcastInDim S1600000x1 ![0] bcast_S1600000_S1600000x1_0 : (⟨S1600000, .i32⟩ : BufTy).Contents (Elt F) → (⟨S1600000x1, .i32⟩ : BufTy).Contents (Elt F)),
    ternary main_v93 main_v94 main_v92 main_v95 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg9 main_v96 ((extractStridedSlice S1x64 ![1, 0] · slices_S3x64_S1x64_1_0) : (⟨S3x64, .f32⟩ : BufTy).Contents (Elt F) → (⟨S1x64, .f32⟩ : BufTy).Contents (Elt F)),
    reshape main_v96 main_v97 rfl shapeCasts_S1x64_S64,
    unary main_arg10 main_v98 ((extractStridedSlice S1x64 ![1, 0] · slices_S3x64_S1x64_1_0) : (⟨S3x64, .f32⟩ : BufTy).Contents (Elt F) → (⟨S1x64, .f32⟩ : BufTy).Contents (Elt F)),
    reshape main_v98 main_v99 rfl shapeCasts_S1x64_S64,
    nullary main_cst_9 (constant S_ .f32 0x00000000#32),
    binary main_v95 main_cst_9 main_v100 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_10 (constant S_ .f32 0x47C35000#32),
    unary main_cst_10 main_v101 (broadcastInDim S64 ![] bcast_S_S64 : (⟨S_, .f32⟩ : BufTy).Contents (Elt F) → (⟨S64, .f32⟩ : BufTy).Contents (Elt F)),
    binary main_v100 main_v101 main_v102 (Host.divf : (⟨S64, .f32⟩ : BufTy).Contents (Elt F) → (⟨S64, .f32⟩ : BufTy).Contents (Elt F) → (⟨S64, .f32⟩ : BufTy).Contents (Elt F)),
    unary main_v102 main_v103 (broadcastInDim S1x64 ![1] bcast_S64_S1x64_1 : (⟨S64, .f32⟩ : BufTy).Contents (Elt F) → (⟨S1x64, .f32⟩ : BufTy).Contents (Elt F)),
    unary main_v103 main_v104 (broadcastInDim S100000x64 ![0, 1] bcast_S1x64_S100000x64_0_1 : (⟨S1x64, .f32⟩ : BufTy).Contents (Elt F) → (⟨S100000x64, .f32⟩ : BufTy).Contents (Elt F)),
    binary main_v95 main_v104 main_v105 (subf : (⟨S100000x64, .f32⟩ : BufTy).Contents (Elt F) → (⟨S100000x64, .f32⟩ : BufTy).Contents (Elt F) → (⟨S100000x64, .f32⟩ : BufTy).Contents (Elt F)),
    binary main_v105 main_v105 main_v106 (mulf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x00000000#32),
    binary main_v106 main_cst_11 main_v107 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_12 (constant S_ .f32 0x47C35000#32),
    unary main_cst_12 main_v108 (broadcastInDim S64 ![] bcast_S_S64 : (⟨S_, .f32⟩ : BufTy).Contents (Elt F) → (⟨S64, .f32⟩ : BufTy).Contents (Elt F)),
    binary main_v107 main_v108 main_v109 (Host.divf : (⟨S64, .f32⟩ : BufTy).Contents (Elt F) → (⟨S64, .f32⟩ : BufTy).Contents (Elt F) → (⟨S64, .f32⟩ : BufTy).Contents (Elt F)),
    unary main_v102 main_v110 (broadcastInDim S1x64 ![1] bcast_S64_S1x64_1 : (⟨S64, .f32⟩ : BufTy).Contents (Elt F) → (⟨S1x64, .f32⟩ : BufTy).Contents (Elt F)),
    unary main_v110 main_v111 (broadcastInDim S100000x64 ![0, 1] bcast_S1x64_S100000x64_0_1 : (⟨S1x64, .f32⟩ : BufTy).Contents (Elt F) → (⟨S100000x64, .f32⟩ : BufTy).Contents (Elt F)),
    binary main_v95 main_v111 main_v112 (subf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3727C5AC#32),
    unary main_cst_13 main_v113 (broadcastInDim S64 ![] bcast_S_S64 : (⟨S_, .f32⟩ : BufTy).Contents (Elt F) → (⟨S64, .f32⟩ : BufTy).Contents (Elt F)),
    binary main_v109 main_v113 main_v114 (addf : (⟨S64, .f32⟩ : BufTy).Contents (Elt F) → (⟨S64, .f32⟩ : BufTy).Contents (Elt F) → (⟨S64, .f32⟩ : BufTy).Contents (Elt F)),
    unary main_v114 main_v115 (Host.rsqrt : (⟨S64, .f32⟩ : BufTy).Contents (Elt F) → (⟨S64, .f32⟩ : BufTy).Contents (Elt F)),
    unary main_v115 main_v116 (broadcastInDim S1x64 ![1] bcast_S64_S1x64_1 : (⟨S64, .f32⟩ : BufTy).Contents (Elt F) → (⟨S1x64, .f32⟩ : BufTy).Contents (Elt F)),
    unary main_v116 main_v117 (broadcastInDim S100000x64 ![0, 1] bcast_S1x64_S100000x64_0_1 : (⟨S1x64, .f32⟩ : BufTy).Contents (Elt F) → (⟨S100000x64, .f32⟩ : BufTy).Contents (Elt F)),
    binary main_v112 main_v117 main_v118 (mulf : (⟨S100000x64, .f32⟩ : BufTy).Contents (Elt F) → (⟨S100000x64, .f32⟩ : BufTy).Contents (Elt F) → (⟨S100000x64, .f32⟩ : BufTy).Contents (Elt F)),
    unary main_v97 main_v119 (broadcastInDim S1x64 ![1] bcast_S64_S1x64_1 : (⟨S64, .f32⟩ : BufTy).Contents (Elt F) → (⟨S1x64, .f32⟩ : BufTy).Contents (Elt F)),
    unary main_v119 main_v120 (broadcastInDim S100000x64 ![0, 1] bcast_S1x64_S100000x64_0_1 : (⟨S1x64, .f32⟩ : BufTy).Contents (Elt F) → (⟨S100000x64, .f32⟩ : BufTy).Contents (Elt F)),
    binary main_v118 main_v120 main_v121 (mulf : (⟨S100000x64, .f32⟩ : BufTy).Contents (Elt F) → (⟨S100000x64, .f32⟩ : BufTy).Contents (Elt F) → (⟨S100000x64, .f32⟩ : BufTy).Contents (Elt F)),
    unary main_v99 main_v122 (broadcastInDim S1x64 ![1] bcast_S64_S1x64_1 : (⟨S64, .f32⟩ : BufTy).Contents (Elt F) → (⟨S1x64, .f32⟩ : BufTy).Contents (Elt F)),
    unary main_v122 main_v123 (broadcastInDim S100000x64 ![0, 1] bcast_S1x64_S100000x64_0_1 : (⟨S1x64, .f32⟩ : BufTy).Contents (Elt F) → (⟨S100000x64, .f32⟩ : BufTy).Contents (Elt F)),
    binary main_v121 main_v123 main_v124 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v124) (TRef.of (T := ⟨S100000x64, .f32⟩) main_call4_v0) (TRef.of (T := ⟨S100000x64, .f32⟩) main_v125) maximumf,
    binary main_v67 main_v125 main_v126 (addf : (⟨S100000x64, .f32⟩ : BufTy).Contents (Elt F) → (⟨S100000x64, .f32⟩ : BufTy).Contents (Elt F) → (⟨S100000x64, .f32⟩ : BufTy).Contents (Elt F)) ]

/-- The 71 operations of the third layer. -/
def opsL2 : List (HloOp τ sig (Elt F)) :=
  [ nullary main_c_14 (constantI S_ 32 0#32),
    unary main_c_14 main_v127 (broadcastInDim S1600000 ![] bcast_S_S1600000 : (⟨S_, .i32⟩ : BufTy).Contents (Elt F) → (⟨S1600000, .i32⟩ : BufTy).Contents (Elt F)),
    binary main_v1 main_v127 main_v128 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v129 (broadcastInDim S1600000 ![] bcast_S_S1600000 : (⟨S_, .i32⟩ : BufTy).Contents (Elt F) → (⟨S1600000, .i32⟩ : BufTy).Contents (Elt F)),
    binary main_v1 main_v129 main_v130 (addi : (⟨S1600000, .i32⟩ : BufTy).Contents (Elt F) → (⟨S1600000, .i32⟩ : BufTy).Contents (Elt F) → (⟨S1600000, .i32⟩ : BufTy).Contents (Elt F)),
    ternary main_v128 main_v130 main_v1 main_v131 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v131 main_v132 (broadcastInDim S1600000x1 ![0] bcast_S1600000_S1600000x1_0 : (⟨S1600000, .i32⟩ : BufTy).Contents (Elt F) → (⟨S1600000x1, .i32⟩ : BufTy).Contents (Elt F)),
    binary main_v126 main_v132 main_v133 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v133 main_arg2 main_v134 ((fun a b => concatenate S1600000x68 1 [⟨S1600000x64, a⟩, ⟨S1600000x4, b⟩] concatenates_S1600000x64_S1600000x4_S1600000x68_d1) : (⟨S1600000x64, .f32⟩ : BufTy).Contents (Elt F) → (⟨S1600000x4, .f32⟩ : BufTy).Contents (Elt F) → (⟨S1600000x68, .f32⟩ : BufTy).Contents (Elt F)),
    unary main_arg5 main_v135 ((extractStridedSlice S1x68x64 ![2, 0, 0] · slices_S3x68x64_S1x68x64_2_0_0) : (⟨S3x68x64, .f32⟩ : BufTy).Contents (Elt F) → (⟨S1x68x64, .f32⟩ : BufTy).Contents (Elt F)),
    reshape main_v135 main_v136 rfl shapeCasts_S1x68x64_S68x64,
    binary main_v134 main_v136 main_v137 ((fun l r => Host.dotGeneral dot_S1600000x68_S68x64_S1600000x64_1_0_0_1_n_n none l r) : (⟨S1600000x68, .f32⟩ : BufTy).Contents (Elt F) → (⟨S68x64, .f32⟩ : BufTy).Contents (Elt F) → (⟨S1600000x64, .f32⟩ : BufTy).Contents (Elt F)),
    unary main_arg6 main_v138 ((extractStridedSlice S1x64 ![2, 0] · slices_S3x64_S1x64_2_0) : (⟨S3x64, .f32⟩ : BufTy).Contents (Elt F) → (⟨S1x64, .f32⟩ : BufTy).Contents (Elt F)),
    reshape main_v138 main_v139 rfl shapeCasts_S1x64_S64,
    unary main_v139 main_v140 (broadcastInDim S1x64 ![1] bcast_S64_S1x64_1 : (⟨S64, .f32⟩ : BufTy).Contents (Elt F) → (⟨S1x64, .f32⟩ : BufTy).Contents (Elt F)),
    unary main_v140 main_v141 (broadcastInDim S1600000x64 ![0, 1] bcast_S1x64_S1600000x64_0_1 : (⟨S1x64, .f32⟩ : BufTy).Contents (Elt F) → (⟨S1600000x64, .f32⟩ : BufTy).Contents (Elt F)),
    binary main_v137 main_v141 main_v142 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1600000x64, .f32⟩) main_call5_v0) (broadcastInDim S1600000x64 ![] bcast_S_S1600000x64),
    TRef.binary (TRef.of (T := ⟨S1600000x64, .f32⟩) main_v142) (TRef.of (T := ⟨S1600000x64, .f32⟩) main_call5_v0) (TRef.of (T := ⟨S1600000x64, .f32⟩) main_v143) maximumf,
    unary main_arg7 main_v144 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v144 main_v145 rfl shapeCasts_S1x64x64_S64x64,
    binary main_v143 main_v145 main_v146 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg8 main_v147 ((extractStridedSlice S1x64 ![2, 0] · slices_S3x64_S1x64_2_0) : (⟨S3x64, .f32⟩ : BufTy).Contents (Elt F) → (⟨S1x64, .f32⟩ : BufTy).Contents (Elt F)),
    reshape main_v147 main_v148 rfl shapeCasts_S1x64_S64,
    unary main_v148 main_v149 (broadcastInDim S1x64 ![1] bcast_S64_S1x64_1 : (⟨S64, .f32⟩ : BufTy).Contents (Elt F) → (⟨S1x64, .f32⟩ : BufTy).Contents (Elt F)),
    unary main_v149 main_v150 (broadcastInDim S1600000x64 ![0, 1] bcast_S1x64_S1600000x64_0_1 : (⟨S1x64, .f32⟩ : BufTy).Contents (Elt F) → (⟨S1600000x64, .f32⟩ : BufTy).Contents (Elt F)),
    binary main_v146 main_v150 main_v151 (addf : (⟨S1600000x64, .f32⟩ : BufTy).Contents (Elt F) → (⟨S1600000x64, .f32⟩ : BufTy).Contents (Elt F) → (⟨S1600000x64, .f32⟩ : BufTy).Contents (Elt F)),
    nullary main_cst_16 (constant S_ .f32 0x00000000#32),
    unary main_cst_16 main_v152 (broadcastInDim S100000x64 ![] bcast_S_S100000x64 : (⟨S_, .f32⟩ : BufTy).Contents (Elt F) → (⟨S100000x64, .f32⟩ : BufTy).Contents (Elt F)),
    unary main_v3 main_v153 (broadcastInDim S1600000x1 ![0] bcast_S1600000_S1600000x1_0 : (⟨S1600000, .i32⟩ : BufTy).Contents (Elt F) → (⟨S1600000x1, .i32⟩ : BufTy).Contents (Elt F)),
    ternary main_v152 main_v153 main_v151 main_v154 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg9 main_v155 ((extractStridedSlice S1x64 ![2, 0] · slices_S3x64_S1x64_2_0) : (⟨S3x64, .f32⟩ : BufTy).Contents (Elt F) → (⟨S1x64, .f32⟩ : BufTy).Contents (Elt F)),
    reshape main_v155 main_v156 rfl shapeCasts_S1x64_S64,
    unary main_arg10 main_v157 ((extractStridedSlice S1x64 ![2, 0] · slices_S3x64_S1x64_2_0) : (⟨S3x64, .f32⟩ : BufTy).Contents (Elt F) → (⟨S1x64, .f32⟩ : BufTy).Contents (Elt F)),
    reshape main_v157 main_v158 rfl shapeCasts_S1x64_S64,
    nullary main_cst_17 (constant S_ .f32 0x00000000#32),
    binary main_v154 main_cst_17 main_v159 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_18 (constant S_ .f32 0x47C35000#32),
    unary main_cst_18 main_v160 (broadcastInDim S64 ![] bcast_S_S64 : (⟨S_, .f32⟩ : BufTy).Contents (Elt F) → (⟨S64, .f32⟩ : BufTy).Contents (Elt F)),
    binary main_v159 main_v160 main_v161 (Host.divf : (⟨S64, .f32⟩ : BufTy).Contents (Elt F) → (⟨S64, .f32⟩ : BufTy).Contents (Elt F) → (⟨S64, .f32⟩ : BufTy).Contents (Elt F)),
    unary main_v161 main_v162 (broadcastInDim S1x64 ![1] bcast_S64_S1x64_1 : (⟨S64, .f32⟩ : BufTy).Contents (Elt F) → (⟨S1x64, .f32⟩ : BufTy).Contents (Elt F)),
    unary main_v162 main_v163 (broadcastInDim S100000x64 ![0, 1] bcast_S1x64_S100000x64_0_1 : (⟨S1x64, .f32⟩ : BufTy).Contents (Elt F) → (⟨S100000x64, .f32⟩ : BufTy).Contents (Elt F)),
    binary main_v154 main_v163 main_v164 (subf : (⟨S100000x64, .f32⟩ : BufTy).Contents (Elt F) → (⟨S100000x64, .f32⟩ : BufTy).Contents (Elt F) → (⟨S100000x64, .f32⟩ : BufTy).Contents (Elt F)),
    binary main_v164 main_v164 main_v165 (mulf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x00000000#32),
    binary main_v165 main_cst_19 main_v166 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_20 (constant S_ .f32 0x47C35000#32),
    unary main_cst_20 main_v167 (broadcastInDim S64 ![] bcast_S_S64 : (⟨S_, .f32⟩ : BufTy).Contents (Elt F) → (⟨S64, .f32⟩ : BufTy).Contents (Elt F)),
    binary main_v166 main_v167 main_v168 (Host.divf : (⟨S64, .f32⟩ : BufTy).Contents (Elt F) → (⟨S64, .f32⟩ : BufTy).Contents (Elt F) → (⟨S64, .f32⟩ : BufTy).Contents (Elt F)),
    unary main_v161 main_v169 (broadcastInDim S1x64 ![1] bcast_S64_S1x64_1 : (⟨S64, .f32⟩ : BufTy).Contents (Elt F) → (⟨S1x64, .f32⟩ : BufTy).Contents (Elt F)),
    unary main_v169 main_v170 (broadcastInDim S100000x64 ![0, 1] bcast_S1x64_S100000x64_0_1 : (⟨S1x64, .f32⟩ : BufTy).Contents (Elt F) → (⟨S100000x64, .f32⟩ : BufTy).Contents (Elt F)),
    binary main_v154 main_v170 main_v171 (subf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x3727C5AC#32),
    unary main_cst_21 main_v172 (broadcastInDim S64 ![] bcast_S_S64 : (⟨S_, .f32⟩ : BufTy).Contents (Elt F) → (⟨S64, .f32⟩ : BufTy).Contents (Elt F)),
    binary main_v168 main_v172 main_v173 (addf : (⟨S64, .f32⟩ : BufTy).Contents (Elt F) → (⟨S64, .f32⟩ : BufTy).Contents (Elt F) → (⟨S64, .f32⟩ : BufTy).Contents (Elt F)),
    unary main_v173 main_v174 (Host.rsqrt : (⟨S64, .f32⟩ : BufTy).Contents (Elt F) → (⟨S64, .f32⟩ : BufTy).Contents (Elt F)),
    unary main_v174 main_v175 (broadcastInDim S1x64 ![1] bcast_S64_S1x64_1 : (⟨S64, .f32⟩ : BufTy).Contents (Elt F) → (⟨S1x64, .f32⟩ : BufTy).Contents (Elt F)),
    unary main_v175 main_v176 (broadcastInDim S100000x64 ![0, 1] bcast_S1x64_S100000x64_0_1 : (⟨S1x64, .f32⟩ : BufTy).Contents (Elt F) → (⟨S100000x64, .f32⟩ : BufTy).Contents (Elt F)),
    binary main_v171 main_v176 main_v177 (mulf : (⟨S100000x64, .f32⟩ : BufTy).Contents (Elt F) → (⟨S100000x64, .f32⟩ : BufTy).Contents (Elt F) → (⟨S100000x64, .f32⟩ : BufTy).Contents (Elt F)),
    unary main_v156 main_v178 (broadcastInDim S1x64 ![1] bcast_S64_S1x64_1 : (⟨S64, .f32⟩ : BufTy).Contents (Elt F) → (⟨S1x64, .f32⟩ : BufTy).Contents (Elt F)),
    unary main_v178 main_v179 (broadcastInDim S100000x64 ![0, 1] bcast_S1x64_S100000x64_0_1 : (⟨S1x64, .f32⟩ : BufTy).Contents (Elt F) → (⟨S100000x64, .f32⟩ : BufTy).Contents (Elt F)),
    binary main_v177 main_v179 main_v180 (mulf : (⟨S100000x64, .f32⟩ : BufTy).Contents (Elt F) → (⟨S100000x64, .f32⟩ : BufTy).Contents (Elt F) → (⟨S100000x64, .f32⟩ : BufTy).Contents (Elt F)),
    unary main_v158 main_v181 (broadcastInDim S1x64 ![1] bcast_S64_S1x64_1 : (⟨S64, .f32⟩ : BufTy).Contents (Elt F) → (⟨S1x64, .f32⟩ : BufTy).Contents (Elt F)),
    unary main_v181 main_v182 (broadcastInDim S100000x64 ![0, 1] bcast_S1x64_S100000x64_0_1 : (⟨S1x64, .f32⟩ : BufTy).Contents (Elt F) → (⟨S100000x64, .f32⟩ : BufTy).Contents (Elt F)),
    binary main_v180 main_v182 main_v183 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x64, .f32⟩) main_call6_v0) (broadcastInDim S100000x64 ![] bcast_S_S100000x64),
    TRef.binary (TRef.of (T := ⟨S100000x64, .f32⟩) main_v183) (TRef.of (T := ⟨S100000x64, .f32⟩) main_call6_v0) (TRef.of (T := ⟨S100000x64, .f32⟩) main_v184) maximumf,
    binary main_v126 main_v184 main_v185 (addf : (⟨S100000x64, .f32⟩ : BufTy).Contents (Elt F) → (⟨S100000x64, .f32⟩ : BufTy).Contents (Elt F) → (⟨S100000x64, .f32⟩ : BufTy).Contents (Elt F)) ]

/-- The last 11 operations: the read-out. -/
def opsF : List (HloOp τ sig (Elt F)) :=
  [ binary main_v185 main_arg11 main_v186 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg12 main_v187 (broadcastInDim S1x64 ![1] bcast_S64_S1x64_1 : (⟨S64, .f32⟩ : BufTy).Contents (Elt F) → (⟨S1x64, .f32⟩ : BufTy).Contents (Elt F)),
    unary main_v187 main_v188 (broadcastInDim S100000x64 ![0, 1] bcast_S1x64_S100000x64_0_1 : (⟨S1x64, .f32⟩ : BufTy).Contents (Elt F) → (⟨S100000x64, .f32⟩ : BufTy).Contents (Elt F)),
    binary main_v186 main_v188 main_v189 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v189) (TRef.of (T := ⟨S100000x64, .f32⟩) main_call7_v0) (TRef.of (T := ⟨S100000x64, .f32⟩) main_v190) maximumf,
    binary main_v190 main_arg13 main_v191 ((fun l r => Host.dotGeneral dot_S100000x64_S64x3_S100000x3_1_0_0_1_n_n none l r) : (⟨S100000x64, .f32⟩ : BufTy).Contents (Elt F) → (⟨S64x3, .f32⟩ : BufTy).Contents (Elt F) → (⟨S100000x3, .f32⟩ : BufTy).Contents (Elt F)),
    unary main_arg14 main_v192 (broadcastInDim S1x3 ![1] bcast_S3_S1x3_1 : (⟨S3, .f32⟩ : BufTy).Contents (Elt F) → (⟨S1x3, .f32⟩ : BufTy).Contents (Elt F)),
    unary main_v192 main_v193 (broadcastInDim S100000x3 ![0, 1] bcast_S1x3_S100000x3_0_1 : (⟨S1x3, .f32⟩ : BufTy).Contents (Elt F) → (⟨S100000x3, .f32⟩ : BufTy).Contents (Elt F)),
    binary main_v191 main_v193 main_v194 (addf : (⟨S100000x3, .f32⟩ : BufTy).Contents (Elt F) → (⟨S100000x3, .f32⟩ : BufTy).Contents (Elt F) → (⟨S100000x3, .f32⟩ : BufTy).Contents (Elt F)) ]

set_option maxRecDepth 8192 in
/-- The program's operations are the five stages' in order. -/
theorem ops_split : (ops : List (HloOp τ sig (Elt F))) = opsE ++ (opsL0 ++ (opsL1 ++ (opsL2 ++ opsF))) := rfl

/-- The whole fold, stage by stage. -/
theorem after_ops (V : Valuation τ sig (Elt F)) :
    after ops V = after opsF (after opsL2 (after opsL1 (after opsL0 (after opsE V)))) := by
  rw [ops_split, after_append, after_append, after_append, after_append]

/-! ## The encoder stage -/

/-- The source indices: the edge list's first row. -/
theorem afterE_src (V : Valuation τ sig (Elt F)) :
    after opsE V (Proc.devRef (τ := τ) .tc main_v1) = Terms.srcIdx (V (Proc.devRef (τ := τ) .tc main_arg1)) := by
  unfold opsE; after_results_simp; rfl
/-- The destination indices: its second row. -/
theorem afterE_dst (V : Valuation τ sig (Elt F)) :
    after opsE V (Proc.devRef (τ := τ) .tc main_v3) = Terms.dstIdx (V (Proc.devRef (τ := τ) .tc main_arg1)) := by
  unfold opsE; after_results_simp; rfl
/-- The encoded node features. -/
theorem afterE_enc (V : Valuation τ sig (Elt F)) :
    after opsE V (Proc.devRef (τ := τ) .tc main_v8) = Terms.encR (V (Proc.devRef (τ := τ) .tc main_arg0)) (V (Proc.devRef (τ := τ) .tc main_arg3)) (V (Proc.devRef (τ := τ) .tc main_arg4)) := by
  unfold opsE; after_results_simp; rfl
/-- The buffers the encoder stage's operations write, in order. -/
def writesE : List (Ref sig .tc) :=
  [main_v0, main_v1, main_v2, main_v3, main_v4, main_v5, main_v6, main_v7, main_call0_cst, main_call0_v0, main_v8]
theorem writesE_ok : List.Forall₂ (fun op y => op.writes = {Proc.devRef (τ := τ) .tc y}) (opsE (F := F)) writesE := by
  unfold opsE writesE
  repeat (first | exact List.Forall₂.nil | refine List.Forall₂.cons rfl ?_)
theorem keptE_arg0 (V : Valuation τ sig (Elt F)) : after opsE V (Proc.devRef (τ := τ) .tc main_arg0) = V (Proc.devRef (τ := τ) .tc main_arg0) :=
  after_kept writesE_ok (by decide) V
theorem keptE_arg1 (V : Valuation τ sig (Elt F)) : after opsE V (Proc.devRef (τ := τ) .tc main_arg1) = V (Proc.devRef (τ := τ) .tc main_arg1) :=
  after_kept writesE_ok (by decide) V
theorem keptE_arg2 (V : Valuation τ sig (Elt F)) : after opsE V (Proc.devRef (τ := τ) .tc main_arg2) = V (Proc.devRef (τ := τ) .tc main_arg2) :=
  after_kept writesE_ok (by decide) V
theorem keptE_arg3 (V : Valuation τ sig (Elt F)) : after opsE V (Proc.devRef (τ := τ) .tc main_arg3) = V (Proc.devRef (τ := τ) .tc main_arg3) :=
  after_kept writesE_ok (by decide) V
theorem keptE_arg4 (V : Valuation τ sig (Elt F)) : after opsE V (Proc.devRef (τ := τ) .tc main_arg4) = V (Proc.devRef (τ := τ) .tc main_arg4) :=
  after_kept writesE_ok (by decide) V
theorem keptE_arg5 (V : Valuation τ sig (Elt F)) : after opsE V (Proc.devRef (τ := τ) .tc main_arg5) = V (Proc.devRef (τ := τ) .tc main_arg5) :=
  after_kept writesE_ok (by decide) V
theorem keptE_arg6 (V : Valuation τ sig (Elt F)) : after opsE V (Proc.devRef (τ := τ) .tc main_arg6) = V (Proc.devRef (τ := τ) .tc main_arg6) :=
  after_kept writesE_ok (by decide) V
theorem keptE_arg7 (V : Valuation τ sig (Elt F)) : after opsE V (Proc.devRef (τ := τ) .tc main_arg7) = V (Proc.devRef (τ := τ) .tc main_arg7) :=
  after_kept writesE_ok (by decide) V
theorem keptE_arg8 (V : Valuation τ sig (Elt F)) : after opsE V (Proc.devRef (τ := τ) .tc main_arg8) = V (Proc.devRef (τ := τ) .tc main_arg8) :=
  after_kept writesE_ok (by decide) V
theorem keptE_arg9 (V : Valuation τ sig (Elt F)) : after opsE V (Proc.devRef (τ := τ) .tc main_arg9) = V (Proc.devRef (τ := τ) .tc main_arg9) :=
  after_kept writesE_ok (by decide) V
theorem keptE_arg10 (V : Valuation τ sig (Elt F)) : after opsE V (Proc.devRef (τ := τ) .tc main_arg10) = V (Proc.devRef (τ := τ) .tc main_arg10) :=
  after_kept writesE_ok (by decide) V
theorem keptE_arg11 (V : Valuation τ sig (Elt F)) : after opsE V (Proc.devRef (τ := τ) .tc main_arg11) = V (Proc.devRef (τ := τ) .tc main_arg11) :=
  after_kept writesE_ok (by decide) V
theorem keptE_arg12 (V : Valuation τ sig (Elt F)) : after opsE V (Proc.devRef (τ := τ) .tc main_arg12) = V (Proc.devRef (τ := τ) .tc main_arg12) :=
  after_kept writesE_ok (by decide) V
theorem keptE_arg13 (V : Valuation τ sig (Elt F)) : after opsE V (Proc.devRef (τ := τ) .tc main_arg13) = V (Proc.devRef (τ := τ) .tc main_arg13) :=
  after_kept writesE_ok (by decide) V
theorem keptE_arg14 (V : Valuation τ sig (Elt F)) : after opsE V (Proc.devRef (τ := τ) .tc main_arg14) = V (Proc.devRef (τ := τ) .tc main_arg14) :=
  after_kept writesE_ok (by decide) V

/-! ## Layer 1 -/

/-- Layer 1: the layer function of the layer's input, the two index vectors, the edge attributes and the layer's cut
    of each stacked parameter. -/
theorem afterL0_out (V : Valuation τ sig (Elt F)) :
    after opsL0 V (Proc.devRef (τ := τ) .tc main_v67)
      = Terms.layerR (V (Proc.devRef (τ := τ) .tc main_v8)) (V (Proc.devRef (τ := τ) .tc main_v1)) (V (Proc.devRef (τ := τ) .tc main_v3)) (V (Proc.devRef (τ := τ) .tc main_arg2))
          (Terms.w1At0 (V (Proc.devRef (τ := τ) .tc main_arg5))) (Terms.rowAt0 (V (Proc.devRef (τ := τ) .tc main_arg6)))
          (Terms.w2At0 (V (Proc.devRef (τ := τ) .tc main_arg7))) (Terms.rowAt0 (V (Proc.devRef (τ := τ) .tc main_arg8)))
          (Terms.rowAt0 (V (Proc.devRef (τ := τ) .tc main_arg9))) (Terms.rowAt0 (V (Proc.devRef (τ := τ) .tc main_arg10))) := by
  unfold opsL0
  after_results_simp
  rfl
/-- The buffers layer 1's operations write, in order. -/
def writesL0 : List (Ref sig .tc) :=
  [main_c, main_v9, main_v10, main_c_0, main_v11, main_v12, main_v13, main_v14, main_v15, main_v16, main_v17, main_v18, main_v19, main_v20, main_v21, main_v22, main_v23, main_v24, main_call1_cst, main_call1_v0, main_v25, main_v26, main_v27, main_v28, main_v29, main_v30, main_v31, main_v32, main_v33, main_cst, main_v34, main_v35, main_v36, main_v37, main_v38, main_v39, main_v40, main_cst_1, main_v41, main_cst_2, main_v42, main_v43, main_v44, main_v45, main_v46, main_v47, main_cst_3, main_v48, main_cst_4, main_v49, main_v50, main_v51, main_v52, main_v53, main_cst_5, main_v54, main_v55, main_v56, main_v57, main_v58, main_v59, main_v60, main_v61, main_v62, main_v63, main_v64, main_v65, main_call2_cst, main_call2_v0, main_v66, main_v67]
theorem writesL0_ok : List.Forall₂ (fun op y => op.writes = {Proc.devRef (τ := τ) .tc y}) (opsL0 (F := F)) writesL0 := by
  unfold opsL0 writesL0
  repeat (first | exact List.Forall₂.nil | refine List.Forall₂.cons rfl ?_)
theorem keptL0_v1 (V : Valuation τ sig (Elt F)) : after opsL0 V (Proc.devRef (τ := τ) .tc main_v1) = V (Proc.devRef (τ := τ) .tc main_v1) :=
  after_kept writesL0_ok (by decide) V
theorem keptL0_v3 (V : Valuation τ sig (Elt F)) : after opsL0 V (Proc.devRef (τ := τ) .tc main_v3) = V (Proc.devRef (τ := τ) .tc main_v3) :=
  after_kept writesL0_ok (by decide) V
theorem keptL0_arg0 (V : Valuation τ sig (Elt F)) : after opsL0 V (Proc.devRef (τ := τ) .tc main_arg0) = V (Proc.devRef (τ := τ) .tc main_arg0) :=
  after_kept writesL0_ok (by decide) V
theorem keptL0_arg1 (V : Valuation τ sig (Elt F)) : after opsL0 V (Proc.devRef (τ := τ) .tc main_arg1) = V (Proc.devRef (τ := τ) .tc main_arg1) :=
  after_kept writesL0_ok (by decide) V
theorem keptL0_arg2 (V : Valuation τ sig (Elt F)) : after opsL0 V (Proc.devRef (τ := τ) .tc main_arg2) = V (Proc.devRef (τ := τ) .tc main_arg2) :=
  after_kept writesL0_ok (by decide) V
theorem keptL0_arg3 (V : Valuation τ sig (Elt F)) : after opsL0 V (Proc.devRef (τ := τ) .tc main_arg3) = V (Proc.devRef (τ := τ) .tc main_arg3) :=
  after_kept writesL0_ok (by decide) V
theorem keptL0_arg4 (V : Valuation τ sig (Elt F)) : after opsL0 V (Proc.devRef (τ := τ) .tc main_arg4) = V (Proc.devRef (τ := τ) .tc main_arg4) :=
  after_kept writesL0_ok (by decide) V
theorem keptL0_arg5 (V : Valuation τ sig (Elt F)) : after opsL0 V (Proc.devRef (τ := τ) .tc main_arg5) = V (Proc.devRef (τ := τ) .tc main_arg5) :=
  after_kept writesL0_ok (by decide) V
theorem keptL0_arg6 (V : Valuation τ sig (Elt F)) : after opsL0 V (Proc.devRef (τ := τ) .tc main_arg6) = V (Proc.devRef (τ := τ) .tc main_arg6) :=
  after_kept writesL0_ok (by decide) V
theorem keptL0_arg7 (V : Valuation τ sig (Elt F)) : after opsL0 V (Proc.devRef (τ := τ) .tc main_arg7) = V (Proc.devRef (τ := τ) .tc main_arg7) :=
  after_kept writesL0_ok (by decide) V
theorem keptL0_arg8 (V : Valuation τ sig (Elt F)) : after opsL0 V (Proc.devRef (τ := τ) .tc main_arg8) = V (Proc.devRef (τ := τ) .tc main_arg8) :=
  after_kept writesL0_ok (by decide) V
theorem keptL0_arg9 (V : Valuation τ sig (Elt F)) : after opsL0 V (Proc.devRef (τ := τ) .tc main_arg9) = V (Proc.devRef (τ := τ) .tc main_arg9) :=
  after_kept writesL0_ok (by decide) V
theorem keptL0_arg10 (V : Valuation τ sig (Elt F)) : after opsL0 V (Proc.devRef (τ := τ) .tc main_arg10) = V (Proc.devRef (τ := τ) .tc main_arg10) :=
  after_kept writesL0_ok (by decide) V
theorem keptL0_arg11 (V : Valuation τ sig (Elt F)) : after opsL0 V (Proc.devRef (τ := τ) .tc main_arg11) = V (Proc.devRef (τ := τ) .tc main_arg11) :=
  after_kept writesL0_ok (by decide) V
theorem keptL0_arg12 (V : Valuation τ sig (Elt F)) : after opsL0 V (Proc.devRef (τ := τ) .tc main_arg12) = V (Proc.devRef (τ := τ) .tc main_arg12) :=
  after_kept writesL0_ok (by decide) V
theorem keptL0_arg13 (V : Valuation τ sig (Elt F)) : after opsL0 V (Proc.devRef (τ := τ) .tc main_arg13) = V (Proc.devRef (τ := τ) .tc main_arg13) :=
  after_kept writesL0_ok (by decide) V
theorem keptL0_arg14 (V : Valuation τ sig (Elt F)) : after opsL0 V (Proc.devRef (τ := τ) .tc main_arg14) = V (Proc.devRef (τ := τ) .tc main_arg14) :=
  after_kept writesL0_ok (by decide) V

/-! ## Layer 2 -/

/-- Layer 2: the layer function of the layer's input, the two index vectors, the edge attributes and the layer's cut
    of each stacked parameter. -/
theorem afterL1_out (V : Valuation τ sig (Elt F)) :
    after opsL1 V (Proc.devRef (τ := τ) .tc main_v126)
      = Terms.layerR (V (Proc.devRef (τ := τ) .tc main_v67)) (V (Proc.devRef (τ := τ) .tc main_v1)) (V (Proc.devRef (τ := τ) .tc main_v3)) (V (Proc.devRef (τ := τ) .tc main_arg2))
          (Terms.w1At1 (V (Proc.devRef (τ := τ) .tc main_arg5))) (Terms.rowAt1 (V (Proc.devRef (τ := τ) .tc main_arg6)))
          (Terms.w2At1 (V (Proc.devRef (τ := τ) .tc main_arg7))) (Terms.rowAt1 (V (Proc.devRef (τ := τ) .tc main_arg8)))
          (Terms.rowAt1 (V (Proc.devRef (τ := τ) .tc main_arg9))) (Terms.rowAt1 (V (Proc.devRef (τ := τ) .tc main_arg10))) := by
  unfold opsL1
  after_results_simp
  rfl
/-- The buffers layer 2's operations write, in order. -/
def writesL1 : List (Ref sig .tc) :=
  [main_c_6, main_v68, main_v69, main_c_7, main_v70, main_v71, main_v72, main_v73, main_v74, main_v75, main_v76, main_v77, main_v78, main_v79, main_v80, main_v81, main_v82, main_v83, main_call3_cst, main_call3_v0, main_v84, main_v85, main_v86, main_v87, main_v88, main_v89, main_v90, main_v91, main_v92, main_cst_8, main_v93, main_v94, main_v95, main_v96, main_v97, main_v98, main_v99, main_cst_9, main_v100, main_cst_10, main_v101, main_v102, main_v103, main_v104, main_v105, main_v106, main_cst_11, main_v107, main_cst_12, main_v108, main_v109, main_v110, main_v111, main_v112, main_cst_13, main_v113, main_v114, main_v115, main_v116, main_v117, main_v118, main_v119, main_v120, main_v121, main_v122, main_v123, main_v124, main_call4_cst, main_call4_v0, main_v125, main_v126]
theorem writesL1_ok : List.Forall₂ (fun op y => op.writes = {Proc.devRef (τ := τ) .tc y}) (opsL1 (F := F)) writesL1 := by
  unfold opsL1 writesL1
  repeat (first | exact List.Forall₂.nil | refine List.Forall₂.cons rfl ?_)
theorem keptL1_v1 (V : Valuation τ sig (Elt F)) : after opsL1 V (Proc.devRef (τ := τ) .tc main_v1) = V (Proc.devRef (τ := τ) .tc main_v1) :=
  after_kept writesL1_ok (by decide) V
theorem keptL1_v3 (V : Valuation τ sig (Elt F)) : after opsL1 V (Proc.devRef (τ := τ) .tc main_v3) = V (Proc.devRef (τ := τ) .tc main_v3) :=
  after_kept writesL1_ok (by decide) V
theorem keptL1_arg0 (V : Valuation τ sig (Elt F)) : after opsL1 V (Proc.devRef (τ := τ) .tc main_arg0) = V (Proc.devRef (τ := τ) .tc main_arg0) :=
  after_kept writesL1_ok (by decide) V
theorem keptL1_arg1 (V : Valuation τ sig (Elt F)) : after opsL1 V (Proc.devRef (τ := τ) .tc main_arg1) = V (Proc.devRef (τ := τ) .tc main_arg1) :=
  after_kept writesL1_ok (by decide) V
theorem keptL1_arg2 (V : Valuation τ sig (Elt F)) : after opsL1 V (Proc.devRef (τ := τ) .tc main_arg2) = V (Proc.devRef (τ := τ) .tc main_arg2) :=
  after_kept writesL1_ok (by decide) V
theorem keptL1_arg3 (V : Valuation τ sig (Elt F)) : after opsL1 V (Proc.devRef (τ := τ) .tc main_arg3) = V (Proc.devRef (τ := τ) .tc main_arg3) :=
  after_kept writesL1_ok (by decide) V
theorem keptL1_arg4 (V : Valuation τ sig (Elt F)) : after opsL1 V (Proc.devRef (τ := τ) .tc main_arg4) = V (Proc.devRef (τ := τ) .tc main_arg4) :=
  after_kept writesL1_ok (by decide) V
theorem keptL1_arg5 (V : Valuation τ sig (Elt F)) : after opsL1 V (Proc.devRef (τ := τ) .tc main_arg5) = V (Proc.devRef (τ := τ) .tc main_arg5) :=
  after_kept writesL1_ok (by decide) V
theorem keptL1_arg6 (V : Valuation τ sig (Elt F)) : after opsL1 V (Proc.devRef (τ := τ) .tc main_arg6) = V (Proc.devRef (τ := τ) .tc main_arg6) :=
  after_kept writesL1_ok (by decide) V
theorem keptL1_arg7 (V : Valuation τ sig (Elt F)) : after opsL1 V (Proc.devRef (τ := τ) .tc main_arg7) = V (Proc.devRef (τ := τ) .tc main_arg7) :=
  after_kept writesL1_ok (by decide) V
theorem keptL1_arg8 (V : Valuation τ sig (Elt F)) : after opsL1 V (Proc.devRef (τ := τ) .tc main_arg8) = V (Proc.devRef (τ := τ) .tc main_arg8) :=
  after_kept writesL1_ok (by decide) V
theorem keptL1_arg9 (V : Valuation τ sig (Elt F)) : after opsL1 V (Proc.devRef (τ := τ) .tc main_arg9) = V (Proc.devRef (τ := τ) .tc main_arg9) :=
  after_kept writesL1_ok (by decide) V
theorem keptL1_arg10 (V : Valuation τ sig (Elt F)) : after opsL1 V (Proc.devRef (τ := τ) .tc main_arg10) = V (Proc.devRef (τ := τ) .tc main_arg10) :=
  after_kept writesL1_ok (by decide) V
theorem keptL1_arg11 (V : Valuation τ sig (Elt F)) : after opsL1 V (Proc.devRef (τ := τ) .tc main_arg11) = V (Proc.devRef (τ := τ) .tc main_arg11) :=
  after_kept writesL1_ok (by decide) V
theorem keptL1_arg12 (V : Valuation τ sig (Elt F)) : after opsL1 V (Proc.devRef (τ := τ) .tc main_arg12) = V (Proc.devRef (τ := τ) .tc main_arg12) :=
  after_kept writesL1_ok (by decide) V
theorem keptL1_arg13 (V : Valuation τ sig (Elt F)) : after opsL1 V (Proc.devRef (τ := τ) .tc main_arg13) = V (Proc.devRef (τ := τ) .tc main_arg13) :=
  after_kept writesL1_ok (by decide) V
theorem keptL1_arg14 (V : Valuation τ sig (Elt F)) : after opsL1 V (Proc.devRef (τ := τ) .tc main_arg14) = V (Proc.devRef (τ := τ) .tc main_arg14) :=
  after_kept writesL1_ok (by decide) V

/-! ## Layer 3 -/

/-- Layer 3: the layer function of the layer's input, the two index vectors, the edge attributes and the layer's cut
    of each stacked parameter. -/
theorem afterL2_out (V : Valuation τ sig (Elt F)) :
    after opsL2 V (Proc.devRef (τ := τ) .tc main_v185)
      = Terms.layerR (V (Proc.devRef (τ := τ) .tc main_v126)) (V (Proc.devRef (τ := τ) .tc main_v1)) (V (Proc.devRef (τ := τ) .tc main_v3)) (V (Proc.devRef (τ := τ) .tc main_arg2))
          (Terms.w1At2 (V (Proc.devRef (τ := τ) .tc main_arg5))) (Terms.rowAt2 (V (Proc.devRef (τ := τ) .tc main_arg6)))
          (Terms.w2At2 (V (Proc.devRef (τ := τ) .tc main_arg7))) (Terms.rowAt2 (V (Proc.devRef (τ := τ) .tc main_arg8)))
          (Terms.rowAt2 (V (Proc.devRef (τ := τ) .tc main_arg9))) (Terms.rowAt2 (V (Proc.devRef (τ := τ) .tc main_arg10))) := by
  unfold opsL2
  after_results_simp
  rfl
/-- The buffers layer 3's operations write, in order. -/
def writesL2 : List (Ref sig .tc) :=
  [main_c_14, main_v127, main_v128, main_c_15, main_v129, main_v130, main_v131, main_v132, main_v133, main_v134, main_v135, main_v136, main_v137, main_v138, main_v139, main_v140, main_v141, main_v142, main_call5_cst, main_call5_v0, main_v143, main_v144, main_v145, main_v146, main_v147, main_v148, main_v149, main_v150, main_v151, main_cst_16, main_v152, main_v153, main_v154, main_v155, main_v156, main_v157, main_v158, main_cst_17, main_v159, main_cst_18, main_v160, main_v161, main_v162, main_v163, main_v164, main_v165, main_cst_19, main_v166, main_cst_20, main_v167, main_v168, main_v169, main_v170, main_v171, main_cst_21, main_v172, main_v173, main_v174, main_v175, main_v176, main_v177, main_v178, main_v179, main_v180, main_v181, main_v182, main_v183, main_call6_cst, main_call6_v0, main_v184, main_v185]
theorem writesL2_ok : List.Forall₂ (fun op y => op.writes = {Proc.devRef (τ := τ) .tc y}) (opsL2 (F := F)) writesL2 := by
  unfold opsL2 writesL2
  repeat (first | exact List.Forall₂.nil | refine List.Forall₂.cons rfl ?_)
theorem keptL2_arg0 (V : Valuation τ sig (Elt F)) : after opsL2 V (Proc.devRef (τ := τ) .tc main_arg0) = V (Proc.devRef (τ := τ) .tc main_arg0) :=
  after_kept writesL2_ok (by decide) V
theorem keptL2_arg1 (V : Valuation τ sig (Elt F)) : after opsL2 V (Proc.devRef (τ := τ) .tc main_arg1) = V (Proc.devRef (τ := τ) .tc main_arg1) :=
  after_kept writesL2_ok (by decide) V
theorem keptL2_arg2 (V : Valuation τ sig (Elt F)) : after opsL2 V (Proc.devRef (τ := τ) .tc main_arg2) = V (Proc.devRef (τ := τ) .tc main_arg2) :=
  after_kept writesL2_ok (by decide) V
theorem keptL2_arg3 (V : Valuation τ sig (Elt F)) : after opsL2 V (Proc.devRef (τ := τ) .tc main_arg3) = V (Proc.devRef (τ := τ) .tc main_arg3) :=
  after_kept writesL2_ok (by decide) V
theorem keptL2_arg4 (V : Valuation τ sig (Elt F)) : after opsL2 V (Proc.devRef (τ := τ) .tc main_arg4) = V (Proc.devRef (τ := τ) .tc main_arg4) :=
  after_kept writesL2_ok (by decide) V
theorem keptL2_arg5 (V : Valuation τ sig (Elt F)) : after opsL2 V (Proc.devRef (τ := τ) .tc main_arg5) = V (Proc.devRef (τ := τ) .tc main_arg5) :=
  after_kept writesL2_ok (by decide) V
theorem keptL2_arg6 (V : Valuation τ sig (Elt F)) : after opsL2 V (Proc.devRef (τ := τ) .tc main_arg6) = V (Proc.devRef (τ := τ) .tc main_arg6) :=
  after_kept writesL2_ok (by decide) V
theorem keptL2_arg7 (V : Valuation τ sig (Elt F)) : after opsL2 V (Proc.devRef (τ := τ) .tc main_arg7) = V (Proc.devRef (τ := τ) .tc main_arg7) :=
  after_kept writesL2_ok (by decide) V
theorem keptL2_arg8 (V : Valuation τ sig (Elt F)) : after opsL2 V (Proc.devRef (τ := τ) .tc main_arg8) = V (Proc.devRef (τ := τ) .tc main_arg8) :=
  after_kept writesL2_ok (by decide) V
theorem keptL2_arg9 (V : Valuation τ sig (Elt F)) : after opsL2 V (Proc.devRef (τ := τ) .tc main_arg9) = V (Proc.devRef (τ := τ) .tc main_arg9) :=
  after_kept writesL2_ok (by decide) V
theorem keptL2_arg10 (V : Valuation τ sig (Elt F)) : after opsL2 V (Proc.devRef (τ := τ) .tc main_arg10) = V (Proc.devRef (τ := τ) .tc main_arg10) :=
  after_kept writesL2_ok (by decide) V
theorem keptL2_arg11 (V : Valuation τ sig (Elt F)) : after opsL2 V (Proc.devRef (τ := τ) .tc main_arg11) = V (Proc.devRef (τ := τ) .tc main_arg11) :=
  after_kept writesL2_ok (by decide) V
theorem keptL2_arg12 (V : Valuation τ sig (Elt F)) : after opsL2 V (Proc.devRef (τ := τ) .tc main_arg12) = V (Proc.devRef (τ := τ) .tc main_arg12) :=
  after_kept writesL2_ok (by decide) V
theorem keptL2_arg13 (V : Valuation τ sig (Elt F)) : after opsL2 V (Proc.devRef (τ := τ) .tc main_arg13) = V (Proc.devRef (τ := τ) .tc main_arg13) :=
  after_kept writesL2_ok (by decide) V
theorem keptL2_arg14 (V : Valuation τ sig (Elt F)) : after opsL2 V (Proc.devRef (τ := τ) .tc main_arg14) = V (Proc.devRef (τ := τ) .tc main_arg14) :=
  after_kept writesL2_ok (by decide) V

/-! ## The read-out -/

theorem afterF_out (V : Valuation τ sig (Elt F)) :
    after opsF V (Proc.devRef (τ := τ) .tc main_v194)
      = Terms.finR (V (Proc.devRef (τ := τ) .tc main_v185)) (V (Proc.devRef (τ := τ) .tc main_arg11)) (V (Proc.devRef (τ := τ) .tc main_arg12)) (V (Proc.devRef (τ := τ) .tc main_arg13)) (V (Proc.devRef (τ := τ) .tc main_arg14)) := by
  unfold opsF; after_results_simp; rfl
/-- The buffers the read-out's operations write, in order. -/
def writesF : List (Ref sig .tc) :=
  [main_v186, main_v187, main_v188, main_v189, main_call7_cst, main_call7_v0, main_v190, main_v191, main_v192, main_v193, main_v194]
theorem writesF_ok : List.Forall₂ (fun op y => op.writes = {Proc.devRef (τ := τ) .tc y}) (opsF (F := F)) writesF := by
  unfold opsF writesF
  repeat (first | exact List.Forall₂.nil | refine List.Forall₂.cons rfl ?_)
theorem keptF_arg0 (V : Valuation τ sig (Elt F)) : after opsF V (Proc.devRef (τ := τ) .tc main_arg0) = V (Proc.devRef (τ := τ) .tc main_arg0) :=
  after_kept writesF_ok (by decide) V
theorem keptF_arg1 (V : Valuation τ sig (Elt F)) : after opsF V (Proc.devRef (τ := τ) .tc main_arg1) = V (Proc.devRef (τ := τ) .tc main_arg1) :=
  after_kept writesF_ok (by decide) V
theorem keptF_arg2 (V : Valuation τ sig (Elt F)) : after opsF V (Proc.devRef (τ := τ) .tc main_arg2) = V (Proc.devRef (τ := τ) .tc main_arg2) :=
  after_kept writesF_ok (by decide) V
theorem keptF_arg3 (V : Valuation τ sig (Elt F)) : after opsF V (Proc.devRef (τ := τ) .tc main_arg3) = V (Proc.devRef (τ := τ) .tc main_arg3) :=
  after_kept writesF_ok (by decide) V
theorem keptF_arg4 (V : Valuation τ sig (Elt F)) : after opsF V (Proc.devRef (τ := τ) .tc main_arg4) = V (Proc.devRef (τ := τ) .tc main_arg4) :=
  after_kept writesF_ok (by decide) V
theorem keptF_arg5 (V : Valuation τ sig (Elt F)) : after opsF V (Proc.devRef (τ := τ) .tc main_arg5) = V (Proc.devRef (τ := τ) .tc main_arg5) :=
  after_kept writesF_ok (by decide) V
theorem keptF_arg6 (V : Valuation τ sig (Elt F)) : after opsF V (Proc.devRef (τ := τ) .tc main_arg6) = V (Proc.devRef (τ := τ) .tc main_arg6) :=
  after_kept writesF_ok (by decide) V
theorem keptF_arg7 (V : Valuation τ sig (Elt F)) : after opsF V (Proc.devRef (τ := τ) .tc main_arg7) = V (Proc.devRef (τ := τ) .tc main_arg7) :=
  after_kept writesF_ok (by decide) V
theorem keptF_arg8 (V : Valuation τ sig (Elt F)) : after opsF V (Proc.devRef (τ := τ) .tc main_arg8) = V (Proc.devRef (τ := τ) .tc main_arg8) :=
  after_kept writesF_ok (by decide) V
theorem keptF_arg9 (V : Valuation τ sig (Elt F)) : after opsF V (Proc.devRef (τ := τ) .tc main_arg9) = V (Proc.devRef (τ := τ) .tc main_arg9) :=
  after_kept writesF_ok (by decide) V
theorem keptF_arg10 (V : Valuation τ sig (Elt F)) : after opsF V (Proc.devRef (τ := τ) .tc main_arg10) = V (Proc.devRef (τ := τ) .tc main_arg10) :=
  after_kept writesF_ok (by decide) V
theorem keptF_arg11 (V : Valuation τ sig (Elt F)) : after opsF V (Proc.devRef (τ := τ) .tc main_arg11) = V (Proc.devRef (τ := τ) .tc main_arg11) :=
  after_kept writesF_ok (by decide) V
theorem keptF_arg12 (V : Valuation τ sig (Elt F)) : after opsF V (Proc.devRef (τ := τ) .tc main_arg12) = V (Proc.devRef (τ := τ) .tc main_arg12) :=
  after_kept writesF_ok (by decide) V
theorem keptF_arg13 (V : Valuation τ sig (Elt F)) : after opsF V (Proc.devRef (τ := τ) .tc main_arg13) = V (Proc.devRef (τ := τ) .tc main_arg13) :=
  after_kept writesF_ok (by decide) V
theorem keptF_arg14 (V : Valuation τ sig (Elt F)) : after opsF V (Proc.devRef (τ := τ) .tc main_arg14) = V (Proc.devRef (τ := τ) .tc main_arg14) :=
  after_kept writesF_ok (by decide) V

/-! ## The whole run -/

/-- The result buffer after the whole line, from any valuation: the whole reference function of the fifteen arguments' contents. -/
theorem after_ops_out (V : Valuation τ sig (Elt F)) :
    after ops V (Proc.devRef (τ := τ) .tc main_v194)
      = Terms.outR (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) := by
  rw [after_ops, afterF_out]
  rw [afterL2_out, keptL2_arg11, keptL2_arg12, keptL2_arg13, keptL2_arg14]
  rw [afterL1_out, keptL1_v1, keptL1_v3, keptL1_arg2, keptL1_arg5, keptL1_arg6, keptL1_arg7, keptL1_arg8, keptL1_arg9, keptL1_arg10, keptL1_arg11, keptL1_arg12, keptL1_arg13, keptL1_arg14]
  rw [afterL0_out, keptL0_v1, keptL0_v3, keptL0_arg2, keptL0_arg5, keptL0_arg6, keptL0_arg7, keptL0_arg8, keptL0_arg9, keptL0_arg10, keptL0_arg11, keptL0_arg12, keptL0_arg13, keptL0_arg14]
  rw [afterE_enc, afterE_src, afterE_dst, keptE_arg2, keptE_arg5, keptE_arg6, keptE_arg7, keptE_arg8, keptE_arg9, keptE_arg10, keptE_arg11, keptE_arg12, keptE_arg13, keptE_arg14]
  rfl
theorem after_ops_arg0 (V : Valuation τ sig (Elt F)) : after ops V (Proc.devRef (τ := τ) .tc main_arg0) = V (Proc.devRef (τ := τ) .tc main_arg0) := by
  rw [after_ops, keptF_arg0, keptL2_arg0, keptL1_arg0, keptL0_arg0, keptE_arg0]
theorem after_ops_arg1 (V : Valuation τ sig (Elt F)) : after ops V (Proc.devRef (τ := τ) .tc main_arg1) = V (Proc.devRef (τ := τ) .tc main_arg1) := by
  rw [after_ops, keptF_arg1, keptL2_arg1, keptL1_arg1, keptL0_arg1, keptE_arg1]
theorem after_ops_arg2 (V : Valuation τ sig (Elt F)) : after ops V (Proc.devRef (τ := τ) .tc main_arg2) = V (Proc.devRef (τ := τ) .tc main_arg2) := by
  rw [after_ops, keptF_arg2, keptL2_arg2, keptL1_arg2, keptL0_arg2, keptE_arg2]
theorem after_ops_arg3 (V : Valuation τ sig (Elt F)) : after ops V (Proc.devRef (τ := τ) .tc main_arg3) = V (Proc.devRef (τ := τ) .tc main_arg3) := by
  rw [after_ops, keptF_arg3, keptL2_arg3, keptL1_arg3, keptL0_arg3, keptE_arg3]
theorem after_ops_arg4 (V : Valuation τ sig (Elt F)) : after ops V (Proc.devRef (τ := τ) .tc main_arg4) = V (Proc.devRef (τ := τ) .tc main_arg4) := by
  rw [after_ops, keptF_arg4, keptL2_arg4, keptL1_arg4, keptL0_arg4, keptE_arg4]
theorem after_ops_arg5 (V : Valuation τ sig (Elt F)) : after ops V (Proc.devRef (τ := τ) .tc main_arg5) = V (Proc.devRef (τ := τ) .tc main_arg5) := by
  rw [after_ops, keptF_arg5, keptL2_arg5, keptL1_arg5, keptL0_arg5, keptE_arg5]
theorem after_ops_arg6 (V : Valuation τ sig (Elt F)) : after ops V (Proc.devRef (τ := τ) .tc main_arg6) = V (Proc.devRef (τ := τ) .tc main_arg6) := by
  rw [after_ops, keptF_arg6, keptL2_arg6, keptL1_arg6, keptL0_arg6, keptE_arg6]
theorem after_ops_arg7 (V : Valuation τ sig (Elt F)) : after ops V (Proc.devRef (τ := τ) .tc main_arg7) = V (Proc.devRef (τ := τ) .tc main_arg7) := by
  rw [after_ops, keptF_arg7, keptL2_arg7, keptL1_arg7, keptL0_arg7, keptE_arg7]
theorem after_ops_arg8 (V : Valuation τ sig (Elt F)) : after ops V (Proc.devRef (τ := τ) .tc main_arg8) = V (Proc.devRef (τ := τ) .tc main_arg8) := by
  rw [after_ops, keptF_arg8, keptL2_arg8, keptL1_arg8, keptL0_arg8, keptE_arg8]
theorem after_ops_arg9 (V : Valuation τ sig (Elt F)) : after ops V (Proc.devRef (τ := τ) .tc main_arg9) = V (Proc.devRef (τ := τ) .tc main_arg9) := by
  rw [after_ops, keptF_arg9, keptL2_arg9, keptL1_arg9, keptL0_arg9, keptE_arg9]
theorem after_ops_arg10 (V : Valuation τ sig (Elt F)) : after ops V (Proc.devRef (τ := τ) .tc main_arg10) = V (Proc.devRef (τ := τ) .tc main_arg10) := by
  rw [after_ops, keptF_arg10, keptL2_arg10, keptL1_arg10, keptL0_arg10, keptE_arg10]
theorem after_ops_arg11 (V : Valuation τ sig (Elt F)) : after ops V (Proc.devRef (τ := τ) .tc main_arg11) = V (Proc.devRef (τ := τ) .tc main_arg11) := by
  rw [after_ops, keptF_arg11, keptL2_arg11, keptL1_arg11, keptL0_arg11, keptE_arg11]
theorem after_ops_arg12 (V : Valuation τ sig (Elt F)) : after ops V (Proc.devRef (τ := τ) .tc main_arg12) = V (Proc.devRef (τ := τ) .tc main_arg12) := by
  rw [after_ops, keptF_arg12, keptL2_arg12, keptL1_arg12, keptL0_arg12, keptE_arg12]
theorem after_ops_arg13 (V : Valuation τ sig (Elt F)) : after ops V (Proc.devRef (τ := τ) .tc main_arg13) = V (Proc.devRef (τ := τ) .tc main_arg13) := by
  rw [after_ops, keptF_arg13, keptL2_arg13, keptL1_arg13, keptL0_arg13, keptE_arg13]
theorem after_ops_arg14 (V : Valuation τ sig (Elt F)) : after ops V (Proc.devRef (τ := τ) .tc main_arg14) = V (Proc.devRef (τ := τ) .tc main_arg14) := by
  rw [after_ops, keptF_arg14, keptL2_arg14, keptL1_arg14, keptL0_arg14, keptE_arg14]

/-- No operation of the line allocates: each determines its results. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- On every device, for any float values, from any memory with zero counters: every weakly fair execution of
    @main terminates with the result buffer at the whole reference function `Terms.outR` of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v194)
        = Terms.outR (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v194).trans (after_ops_out (launchContents m c)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c)),
      (h c main_arg6).trans (after_ops_arg6 (launchContents m c)),
      (h c main_arg7).trans (after_ops_arg7 (launchContents m c)),
      (h c main_arg8).trans (after_ops_arg8 (launchContents m c)),
      (h c main_arg9).trans (after_ops_arg9 (launchContents m c)),
      (h c main_arg10).trans (after_ops_arg10 (launchContents m c)),
      (h c main_arg11).trans (after_ops_arg11 (launchContents m c)),
      (h c main_arg12).trans (after_ops_arg12 (launchContents m c)),
      (h c main_arg13).trans (after_ops_arg13 (launchContents m c)),
      (h c main_arg14).trans (after_ops_arg14 (launchContents m c))⟩)
    (run_seq scopedRefs_eq scopedSems_eq defs main (fun _ => ops) main_eq (fun _ => ops_sub) m ρ
      (fun _ => List.forall_iff_forall_mem.mp ops_fresh))

end Cert.ReferenceIdeal.Whole

end
-- ==== Proof.LibBroadcasts.lean ====
/-
  The small broadcasts and the one reshape the graph convolution's host arithmetic uses, read at an index, for any
  sizes: a vector as a one-column matrix, a one-column matrix spread over C columns, a scalar spread over any shape, a
  vector as a one-row matrix (as a broadcast and as a reshape), a one-row matrix spread over N rows.
-/
import Idealize.ShloMosaic.Lib.Pipeline.Value
import Idealize.ShloMosaic.Lib.ValueIdx

noncomputable section

namespace Cert.LibBroadcasts

open Idealize.ShloMosaic Idealize.ShloMosaic.ValueIdx

variable {α : Type}

/-- A [K] vector broadcast to a [K, 1] column, read at (e, 0), is the vector at e. -/
theorem column_apply {K : Nat} (h : (⟨1, ![K]⟩ : Shape).BroadcastsInDim ⟨2, ![K, 1]⟩ ![0])
    (y : (⟨1, ![K]⟩ : Shape).Idx → α) (e : Fin K) (z : Fin 1) :
    broadcastInDim ⟨2, ![K, 1]⟩ ![0] h y (ix2 e z) = y (ix1 e) :=
  broadcastInDim_apply _ h y _ _ (fun a => match a with
    | ⟨0, _⟩ => by
      have := e.isLt
      show e.val = if K = 1 then 0 else e.val
      split <;> omega)

/-- A [K, 1] column broadcast over C columns, read at (e, k), is the column at (e, 0). -/
theorem spread_apply {K C : Nat} (h : (⟨2, ![K, 1]⟩ : Shape).BroadcastsInDim ⟨2, ![K, C]⟩ ![0, 1])
    (y : (⟨2, ![K, 1]⟩ : Shape).Idx → α) (e : Fin K) (k : Fin C) :
    broadcastInDim ⟨2, ![K, C]⟩ ![0, 1] h y (ix2 e k) = y (ix2 e 0) :=
  broadcastInDim_apply _ h y _ _ (fun a => match a with
    | ⟨0, _⟩ => by
      have := e.isLt
      show e.val = if K = 1 then 0 else e.val
      split <;> omega
    | ⟨1, _⟩ => by show 0 = if (1 : Nat) = 1 then 0 else k.val; rw [if_pos rfl])

/-- A scalar broadcast to any shape is the scalar everywhere. -/
theorem scalar_apply {t : Shape} (h : (⟨0, ![]⟩ : Shape).BroadcastsInDim t ![])
    (y : (⟨0, ![]⟩ : Shape).Idx → α) (j : t.Idx) :
    broadcastInDim t ![] h y j = y (fun a => a.elim0) :=
  broadcastInDim_apply _ h y _ _ (fun a => a.elim0)

/-- A [C] vector broadcast to a [1, C] row, read at (0, k), is the vector at k. -/
theorem row_apply {C : Nat} (h : (⟨1, ![C]⟩ : Shape).BroadcastsInDim ⟨2, ![1, C]⟩ ![1])
    (y : (⟨1, ![C]⟩ : Shape).Idx → α) (z : Fin 1) (k : Fin C) :
    broadcastInDim ⟨2, ![1, C]⟩ ![1] h y (ix2 z k) = y (ix1 k) :=
  broadcastInDim_apply _ h y _ _ (fun a => match a with
    | ⟨0, _⟩ => by
      have := k.isLt
      show k.val = if C = 1 then 0 else k.val
      split <;> omega)

/-- A [1, C] row broadcast over N rows, read at (i, k), is the row at (0, k). -/
theorem rows_apply {N C : Nat} (h : (⟨2, ![1, C]⟩ : Shape).BroadcastsInDim ⟨2, ![N, C]⟩ ![0, 1])
    (y : (⟨2, ![1, C]⟩ : Shape).Idx → α) (i : Fin N) (k : Fin C) :
    broadcastInDim ⟨2, ![N, C]⟩ ![0, 1] h y (ix2 i k) = y (ix2 0 k) :=
  broadcastInDim_apply _ h y _ _ (fun a => match a with
    | ⟨0, _⟩ => by show 0 = if (1 : Nat) = 1 then 0 else i.val; rw [if_pos rfl]
    | ⟨1, _⟩ => by
      have := k.isLt
      show k.val = if C = 1 then 0 else k.val
      split <;> omega)

/-- A [C] vector reshaped to a [1, C] row, read at (0, k), is the vector at k. -/
theorem row_cast_apply {C : Nat} (h : (⟨1, ![C]⟩ : Shape).ShapeCasts ⟨2, ![1, C]⟩)
    (y : (⟨1, ![C]⟩ : Shape).Idx → α) (z : Fin 1) (k : Fin C) :
    shapeCast ⟨2, ![1, C]⟩ y h (ix2 z k) = y (ix1 k) :=
  shapeCast_apply y h (ix2 z k) (ix1 k) (by
    rewrite [Shape.rowMajor_val_two, Shape.rowMajor_val_one]
    have := z.isLt
    show k.val = z.val * C + k.val
    have hz : z.val = 0 := by omega
    rw [hz]; omega)

end Cert.LibBroadcasts

end
-- ==== Proof.LibConcatColumns.lean ====
/-
  Two rank-2 arrays with the same number of rows, joined along the columns, read at an entry.
-/
import Idealize.ShloMosaic.Lib.Pipeline.Value
import Idealize.ShloMosaic.Lib.ValueIdx

noncomputable section

namespace Cert.Lib

open Idealize.ShloMosaic Idealize.ShloMosaic.ValueIdx

/-- An `[a, b₁]` array and an `[a, b₂]` array concatenated along axis 1 into an `[a, n]` array (`n = b₁ + b₂`), read
    at row `p` and column `j`: the first array at `(p, j)` when `j < b₁`, otherwise the second at `(p, j - b₁)`. -/
theorem concat_columns_apply {α : Type} {a b₁ b₂ n : ℕ} (x₁ : (⟨2, ![a, b₁]⟩ : Shape).Idx → α)
    (x₂ : (⟨2, ![a, b₂]⟩ : Shape).Idx → α)
    (h : Shape.Concatenates [(⟨2, ![a, b₁]⟩ : Shape), (⟨2, ![a, b₂]⟩ : Shape)] (⟨2, ![a, n]⟩ : Shape) 1) (hn : n = b₁ + b₂)
    (p : Fin a) (j : Fin n) :
    concatenate (⟨2, ![a, n]⟩ : Shape) 1 [⟨(⟨2, ![a, b₁]⟩ : Shape), x₁⟩, ⟨(⟨2, ![a, b₂]⟩ : Shape), x₂⟩] h (ix2 p j)
      = if hj : j.val < b₁ then x₁ (ix2 p (⟨j.val, hj⟩ : Fin b₁))
        else x₂ (ix2 p (⟨j.val - b₁, by have := j.isLt; omega⟩ : Fin b₂)) := by
  split
  · next hj =>
    exact concatenate_pair_apply_left 1 x₁ x₂ h (ix2 p j) rfl (ix2 p (⟨j.val, hj⟩ : Fin b₁))
      (fun b => by match b with | ⟨0, _⟩ => rfl | ⟨1, _⟩ => rfl)
  · next hj =>
    exact concatenate_pair_apply_right 1 x₁ x₂ h (ix2 p j) rfl rfl
      (ix2 p (⟨j.val - b₁, by have := j.isLt; omega⟩ : Fin b₂))
      (fun b hb => by
        match b with
        | ⟨0, _⟩ => rfl
        | ⟨1, _⟩ => exact absurd rfl hb)
      (by show j.val - b₁ + b₁ = j.val; omega)

end Cert.Lib

end
-- ==== Proof.RefStages.lean ====
/-
  The reference's dense stages are the specification's stages.

  Each of the reference's stages — the encoder, an edge's message, normalisation with the residual sum, the read-out — is
  a short chain of whole-array operations.  Read at a row `p` and a column `c`, every operation is its scalar form:
  a product with contraction of the second axis against the first is `∑ k, W p k · X k c`, a vector spread over the
  rows is the vector's entry at `c`, a scalar spread over a shape is the scalar, and the elementwise operations act
  entrywise.  The entry so read is the specification's entry.  For the message the joined row of 64 + 4 entries is
  multiplied with a weight of 68 rows: the sum over the 68 positions is the sum over the first 64 plus the sum over the
  last 4.
-/
import proofs.«163580_j15788299780297_2_alg».proof.Proof.RefTerms
import proofs.«163580_j15788299780297_2_alg».proof.Proof.Spec
import proofs.«163580_j15788299780297_2_alg».proof.Proof.LibPlainMatmul
import proofs.«163580_j15788299780297_2_alg».proof.Proof.LibBroadcasts
import proofs.«163580_j15788299780297_2_alg».proof.Proof.LibConcatColumns

noncomputable section

namespace Cert.ReferenceIdeal.Stages

open Cert.ReferenceIdeal Cert.ReferenceIdeal.Gen Idealize.ShloMosaic Idealize.ShloMosaic.ValueIdx
open scoped BigOperators

/-! ## The shared readings -/

/-- A `[64]` vector as a one-row matrix. -/
abbrev row (v : Terms.A Ideal S64) : Cert.Gnn.Mat 1 64 := broadcastInDim S1x64 ![1] bcast_S64_S1x64_1 v

/-- The one-row form of a vector, read at `(0, c)`, is the vector at `c`. -/
theorem row_apply (v : Terms.A Ideal S64) (z : Fin 1) (c : Fin 64) : row v (ix2 z c) = v (ix1 c) :=
  Cert.LibBroadcasts.row_apply (C := 64) bcast_S64_S1x64_1 v z c

/-- A vector spread over the rows of the node matrix, read at `(p, c)`, is its one-row form at `(0, c)`. -/
theorem rowsN_apply (v : Terms.A Ideal S64) (p : Fin 100000) (c : Fin 64) :
    Terms.rowsN v (ix2 p c) = row v (ix2 0 c) :=
  Cert.LibBroadcasts.rows_apply (N := 100000) (C := 64) bcast_S1x64_S100000x64_0_1 _ p c

/-- The same over the edge matrix. -/
theorem rowsE_apply (v : Terms.A Ideal S64) (p : Fin 1600000) (c : Fin 64) :
    Terms.rowsE v (ix2 p c) = row v (ix2 0 c) :=
  Cert.LibBroadcasts.rows_apply (N := 1600000) (C := 64) bcast_S1x64_S1600000x64_0_1 _ p c

/-- The zero matrix over the nodes, read anywhere, is the zero word's value. -/
theorem zerosN_apply (j : S100000x64.Idx) : (Terms.zerosN (F := Ideal)) j = Cert.Gnn.zeroE :=
  Cert.LibBroadcasts.scalar_apply bcast_S_S100000x64 _ j

/-- The same over the edges. -/
theorem zerosE_apply (j : S1600000x64.Idx) : (Terms.zerosE (F := Ideal)) j = Cert.Gnn.zeroE :=
  Cert.LibBroadcasts.scalar_apply bcast_S_S1600000x64 _ j

/-- Product, bias, maximum with zero over the nodes, read at an entry: `max (∑ q, x p q · w q c + b c, 0)`. -/
theorem denseN_apply {K : ℕ} (x : Cert.Gnn.Mat 100000 K) (w : Cert.Gnn.Mat K 64) (b : Terms.A Ideal S64)
    (p : Fin 100000) (c : Fin 64) :
    maximumf (addf (Host.dotGeneral (F := Ideal) (φ₁ := .f32) (φ₂ := .f32) (DotDims.plain 100000 K 64) none x w) (Terms.rowsN b)) (Terms.zerosN (F := Ideal)) (ix2 p c)
      = Cert.Gnn.denseReluAt 100000 K 64 x w (row b) p c := by
  show max (Host.dotGeneral (F := Ideal) (φ₁ := .f32) (φ₂ := .f32) (DotDims.plain 100000 K 64) none x w (ix2 p c) + Terms.rowsN b (ix2 p c))
      (Terms.zerosN (F := Ideal) (ix2 p c)) = _
  rw [Cert.LibPlainMatmul.dotGeneral_apply, rowsN_apply, zerosN_apply]
  rfl

/-! ## The encoder -/

theorem enc_eq (x : Terms.A Ideal S100000x5) (win : Terms.A Ideal S5x64) (bin : Terms.A Ideal S64) :
    Terms.encR x win bin
      = Cert.Gnn.denseRelu 100000 5 64 x win (broadcastInDim S1x64 ![1] bcast_S64_S1x64_1 bin) := by
  funext i
  obtain ⟨p, c, rfl⟩ : ∃ (p : Fin 100000) (c : Fin 64), i = ix2 p c := ⟨i 0, i 1, eq_ix2 i⟩
  rw [Cert.Gnn.denseRelu_apply]
  exact denseN_apply (K := 5) x win bin p c

/-! ## Normalisation, maximum with zero, residual sum -/

/-- The reciprocal root of the shifted variance, spread as a row: at `(0, c)` it is `rsqrt (var c + ε)`. -/
theorem rsqrtRow_apply (var : Terms.A Ideal S64) (c : Fin 64) :
    row (Host.rsqrt (addf var (broadcastInDim S64 ![] bcast_S_S64 (constant (F := Ideal) S_ .f32 0x3727C5AC#32)))) (ix2 0 c)
      = Ideal.rsqrt (row var (ix2 0 c) + Cert.Gnn.epsE) := by
  rw [row_apply, row_apply]
  show Ideal.rsqrt (var (ix1 c)
      + broadcastInDim S64 ![] bcast_S_S64 (constant (F := Ideal) S_ .f32 0x3727C5AC#32) (ix1 c)) = _
  rw [Cert.LibBroadcasts.scalar_apply]
  rfl

theorem norm_eq (h a : Terms.A Ideal S100000x64) (mu var gam bet : Terms.A Ideal S64) :
    Terms.normR h a mu var gam bet
      = Cert.Gnn.normResid 100000 64 h a (broadcastInDim S1x64 ![1] bcast_S64_S1x64_1 mu)
          (broadcastInDim S1x64 ![1] bcast_S64_S1x64_1 var) (broadcastInDim S1x64 ![1] bcast_S64_S1x64_1 gam)
          (broadcastInDim S1x64 ![1] bcast_S64_S1x64_1 bet) := by
  funext i
  obtain ⟨p, c, rfl⟩ : ∃ (p : Fin 100000) (c : Fin 64), i = ix2 p c := ⟨i 0, i 1, eq_ix2 i⟩
  rw [Cert.Gnn.normResid_apply]
  show h (ix2 p c) + max ((((a (ix2 p c) - Terms.rowsN mu (ix2 p c))
        * Terms.rowsN (Host.rsqrt (addf var (broadcastInDim S64 ![] bcast_S_S64 (constant (F := Ideal) S_ .f32 0x3727C5AC#32)))) (ix2 p c))
        * Terms.rowsN gam (ix2 p c)) + Terms.rowsN bet (ix2 p c)) (Terms.zerosN (F := Ideal) (ix2 p c)) = _
  rw [rowsN_apply, rowsN_apply, rowsN_apply, rowsN_apply, zerosN_apply, rsqrtRow_apply]
  rfl

/-! ## The read-out -/

theorem fin_eq (h : Terms.A Ideal S100000x64) (w3 : Terms.A Ideal S64x64) (b3 : Terms.A Ideal S64)
    (w4 : Terms.A Ideal S64x3) (b4 : Terms.A Ideal S3) :
    Terms.finR h w3 b3 w4 b4
      = Cert.Gnn.mlpTwo 100000 64 64 3 h w3 (broadcastInDim S1x64 ![1] bcast_S64_S1x64_1 b3) w4
          (broadcastInDim S1x3 ![1] bcast_S3_S1x3_1 b4) := by
  funext i
  obtain ⟨p, c, rfl⟩ : ∃ (p : Fin 100000) (c : Fin 3), i = ix2 p c := ⟨i 0, i 1, eq_ix2 i⟩
  rw [Cert.Gnn.mlpTwo_apply]
  show Host.dotGeneral (F := Ideal) (φ₁ := .f32) (φ₂ := .f32) (DotDims.plain 100000 64 3) none
        (maximumf (addf (Host.dotGeneral (F := Ideal) (φ₁ := .f32) (φ₂ := .f32) (DotDims.plain 100000 64 64) none h w3) (Terms.rowsN b3)) (Terms.zerosN (F := Ideal))) w4 (ix2 p c)
      + broadcastInDim S100000x3 ![0, 1] bcast_S1x3_S100000x3_0_1 (broadcastInDim S1x3 ![1] bcast_S3_S1x3_1 b4) (ix2 p c) = _
  rw [Cert.LibPlainMatmul.dotGeneral_apply,
    Cert.LibBroadcasts.rows_apply (N := 100000) (C := 3) bcast_S1x3_S100000x3_0_1 _ p c]
  unfold Cert.Gnn.mlpTwoAt
  refine congrArg (· + _) (Finset.sum_congr rfl fun j _ => congrArg (· * w4 (ix2 j c)) ?_)
  exact denseN_apply (K := 64) h w3 b3 p j

/-! ## An edge's message -/

/-- The first 64 rows of a 68-row weight: the part acting on the gathered node features. -/
abbrev whOf (w1 : Terms.A Ideal S68x64) : Cert.Gnn.Mat 64 64 :=
  fun i => w1 (ix2 (⟨(i 0).val, Nat.lt_trans (idx2_lt0 i) (by decide)⟩ : Fin 68) (i 1))
/-- Its last 4 rows: the part acting on the edge attributes. -/
abbrev weOf (w1 : Terms.A Ideal S68x64) : Cert.Gnn.Mat 4 64 :=
  fun i => w1 (ix2 (⟨64 + (i 0).val, Nat.add_lt_add_left (idx2_lt0 i) 64⟩ : Fin 68) (i 1))

/-- A sum over 68 positions is the sum over the first 64 plus the sum over the last 4. -/
theorem sum_68 (f : Fin 68 → EReal) :
    ∑ q : Fin 68, f q
      = (∑ q : Fin 64, f ⟨q.val, Nat.lt_trans q.isLt (by decide)⟩) + ∑ q : Fin 4, f ⟨64 + q.val, Nat.add_lt_add_left q.isLt 64⟩ :=
  Fin.sum_univ_add (a := 64) (b := 4) f

/-- The joined row at one of its first 64 positions is the node-feature row. -/
theorem cat_left (hs : Terms.A Ideal S1600000x64) (ea : Terms.A Ideal S1600000x4) (p : Fin 1600000) (q : Fin 64)
    (hq : q.val < 68) :
    concatenate S1600000x68 1 [⟨S1600000x64, hs⟩, ⟨S1600000x4, ea⟩] concatenates_S1600000x64_S1600000x4_S1600000x68_d1
        (ix2 p (⟨q.val, hq⟩ : Fin 68)) = hs (ix2 p q) := by
  rw [Cert.Lib.concat_columns_apply (a := 1600000) (b₁ := 64) (b₂ := 4) (n := 68) hs ea _ rfl p _, dif_pos q.isLt]

/-- At one of its last 4 positions it is the edge-attribute row. -/
theorem cat_right (hs : Terms.A Ideal S1600000x64) (ea : Terms.A Ideal S1600000x4) (p : Fin 1600000) (q : Fin 4)
    (hq : 64 + q.val < 68) :
    concatenate S1600000x68 1 [⟨S1600000x64, hs⟩, ⟨S1600000x4, ea⟩] concatenates_S1600000x64_S1600000x4_S1600000x68_d1
        (ix2 p (⟨64 + q.val, hq⟩ : Fin 68)) = ea (ix2 p q) := by
  rw [Cert.Lib.concat_columns_apply (a := 1600000) (b₁ := 64) (b₂ := 4) (n := 68) hs ea _ rfl p _,
    dif_neg (show ¬(64 + q.val < 64) by omega)]
  refine congrArg ea (congrArg (ix2 p) (Fin.ext ?_))
  show 64 + q.val - 64 = q.val
  omega

/-- The hidden layer of a message read at an entry. -/
theorem hidE_apply (hs : Terms.A Ideal S1600000x64) (ea : Terms.A Ideal S1600000x4) (w1 : Terms.A Ideal S68x64)
    (b1 : Terms.A Ideal S64) (p : Fin 1600000) (j : Fin 64) :
    maximumf (addf (Host.dotGeneral (F := Ideal) (φ₁ := .f32) (φ₂ := .f32) (DotDims.plain 1600000 68 64) none
          (concatenate S1600000x68 1 [⟨S1600000x64, hs⟩, ⟨S1600000x4, ea⟩] concatenates_S1600000x64_S1600000x4_S1600000x68_d1) w1)
        (Terms.rowsE b1)) (Terms.zerosE (F := Ideal)) (ix2 p j)
      = Cert.Gnn.edgeHidAt 1600000 hs ea (whOf w1) (weOf w1) (row b1) p j := by
  show max (Host.dotGeneral (F := Ideal) (φ₁ := .f32) (φ₂ := .f32) (DotDims.plain 1600000 68 64) none
          (concatenate S1600000x68 1 [⟨S1600000x64, hs⟩, ⟨S1600000x4, ea⟩] concatenates_S1600000x64_S1600000x4_S1600000x68_d1) w1 (ix2 p j)
        + Terms.rowsE b1 (ix2 p j)) (Terms.zerosE (F := Ideal) (ix2 p j)) = _
  rw [Cert.LibPlainMatmul.dotGeneral_apply, rowsE_apply, zerosE_apply, sum_68]
  unfold Cert.Gnn.edgeHidAt
  refine congrArg (fun t => max (t + row b1 (ix2 0 j)) Cert.Gnn.zeroE) ?_
  refine congrArg₂ (· + ·) (Finset.sum_congr rfl fun q _ => ?_) (Finset.sum_congr rfl fun q _ => ?_)
  · exact congrArg (· * w1 (ix2 (⟨q.val, Nat.lt_trans q.isLt (by decide)⟩ : Fin 68) j)) (cat_left hs ea p q _)
  · exact congrArg (· * w1 (ix2 (⟨64 + q.val, Nat.add_lt_add_left q.isLt 64⟩ : Fin 68) j)) (cat_right hs ea p q _)

theorem msg_eq (hs : Terms.A Ideal S1600000x64) (ea : Terms.A Ideal S1600000x4) (w1 : Terms.A Ideal S68x64)
    (b1 : Terms.A Ideal S64) (w2 : Terms.A Ideal S64x64) (b2 : Terms.A Ideal S64) :
    Terms.msgR hs ea w1 b1 w2 b2
      = Cert.Gnn.edgeMsg 1600000 hs ea (whOf w1) (weOf w1) (broadcastInDim S1x64 ![1] bcast_S64_S1x64_1 b1) w2
          (broadcastInDim S1x64 ![1] bcast_S64_S1x64_1 b2) := by
  funext i
  obtain ⟨p, c, rfl⟩ : ∃ (p : Fin 1600000) (c : Fin 64), i = ix2 p c := ⟨i 0, i 1, eq_ix2 i⟩
  rw [Cert.Gnn.edgeMsg_apply]
  show Host.dotGeneral (F := Ideal) (φ₁ := .f32) (φ₂ := .f32) (DotDims.plain 1600000 64 64) none
        (maximumf (addf (Host.dotGeneral (F := Ideal) (φ₁ := .f32) (φ₂ := .f32) (DotDims.plain 1600000 68 64) none
            (concatenate S1600000x68 1 [⟨S1600000x64, hs⟩, ⟨S1600000x4, ea⟩] concatenates_S1600000x64_S1600000x4_S1600000x68_d1) w1)
          (Terms.rowsE b1)) (Terms.zerosE (F := Ideal))) w2 (ix2 p c)
      + Terms.rowsE b2 (ix2 p c) = _
  rw [Cert.LibPlainMatmul.dotGeneral_apply, rowsE_apply]
  unfold Cert.Gnn.edgeMsgAt
  refine congrArg (· + _) (Finset.sum_congr rfl fun j _ => congrArg (· * w2 (ix2 j c)) ?_)
  exact hidE_apply hs ea w1 b1 p j

end Cert.ReferenceIdeal.Stages

end
-- ==== Proof.LibUnitAxisCasts.lean ====
/-
  Reshapes that only add or drop a unit axis, read at an entry.

  Dropping the leading unit axis of a `[1, a, b]` array gives the `[a, b]` array whose entry `(p, c)` is the
  operand's entry `(0, p, c)`; turning an `[a]` vector into an `[a, 1]` column gives the column whose entry `(p, 0)` is
  the vector's entry `p`. Both hold because a reshape keeps every entry's row-major position.
-/
import Idealize.ShloMosaic.Lib.Pipeline.Value
import Idealize.ShloMosaic.Lib.ValueIdx

namespace Cert.LibUnitAxisCasts

open Idealize.ShloMosaic Idealize.ShloMosaic.ValueIdx

/-- `[1, a, b] → [a, b]`: entry `(p, c)` is the operand's `(0, p, c)`. -/
theorem shapeCast_1ab_ab_apply {α : Type} {a b : ℕ} (v : (⟨3, ![1, a, b]⟩ : Shape).Idx → α)
    (h : (⟨3, ![1, a, b]⟩ : Shape).ShapeCasts ⟨2, ![a, b]⟩) (p : Fin a) (c : Fin b) :
    shapeCast ⟨2, ![a, b]⟩ v h (ix2 p c) = v (ix3 (0 : Fin 1) p c) :=
  shapeCast_apply v h (ix2 p c) (ix3 (0 : Fin 1) p c) (by
    rw [Shape.rowMajor_val_three, Shape.rowMajor_val_two]
    show ((0 : ℕ) * a + p.val) * b + c.val = p.val * b + c.val
    rw [Nat.zero_mul, Nat.zero_add])

/-- `[a] → [a, 1]`: entry `(p, 0)` is the operand's `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.LibUnitAxisCasts
-- ==== Proof.Cuts.lean ====
/-
  The two programs cut the same parameters the same way.

  One program reshapes a vector to a one-row matrix where the other broadcasts it; one cuts the stacked first weight
  into its 64 rows acting on node features and its 4 rows acting on edge attributes before taking a layer's slab, the
  other takes the layer's 68-row slab first.  Read at an entry, both sides are the same entry of the stacked array:
  a unit-stride slice shifts the index by its offsets, dropping a leading unit axis keeps the other coordinates, and
  rounding to the narrow format is the identity on the extended reals.
-/
import proofs.«163580_j15788299780297_2_alg».proof.Proof.KTerms
import proofs.«163580_j15788299780297_2_alg».proof.Proof.RefTerms
import proofs.«163580_j15788299780297_2_alg».proof.Proof.RefStages
import proofs.«163580_j15788299780297_2_alg».proof.Proof.Spec
import proofs.«163580_j15788299780297_2_alg».proof.Proof.LibUnitAxisCasts
import proofs.«163580_j15788299780297_2_alg».proof.Proof.LibBroadcasts

noncomputable section

namespace Cert.Cuts

open Idealize.ShloMosaic Idealize.ShloMosaic.ValueIdx

/-! ## A vector as a one-row matrix -/

/-- The reshape `[64] → [1, 64]` is the broadcast `[64] → [1, 64]`: both at `(0, c)` are the vector at `c`. -/
theorem asRow_eq (v : KernelIdeal.Terms.A KernelIdeal.S64) : KernelIdeal.Terms.asRow v = ReferenceIdeal.Stages.row v := by
  funext i
  obtain ⟨z, c, rfl⟩ : ∃ (z : Fin 1) (c : Fin 64), i = ix2 z c := ⟨i 0, i 1, eq_ix2 i⟩
  exact (Cert.LibBroadcasts.row_cast_apply (C := 64) KernelIdeal.Gen.shapeCasts_S64_S1x64 v z c).trans
    (ReferenceIdeal.Stages.row_apply v z c).symm

/-- The same for a `[3]` vector. -/
theorem row3_eq (b : KernelIdeal.Terms.A KernelIdeal.S3) :
    (shapeCast _ b KernelIdeal.Gen.shapeCasts_S3_S1x3 : KernelIdeal.Terms.A KernelIdeal.S1x3)
      = broadcastInDim ReferenceIdeal.S1x3 ![1] ReferenceIdeal.Gen.bcast_S3_S1x3_1 b := by
  funext i
  obtain ⟨z, c, rfl⟩ : ∃ (z : Fin 1) (c : Fin 3), i = ix2 z c := ⟨i 0, i 1, eq_ix2 i⟩
  exact (Cert.LibBroadcasts.row_cast_apply (C := 3) KernelIdeal.Gen.shapeCasts_S3_S1x3 b z c).trans
    (Cert.LibBroadcasts.row_apply (C := 3) ReferenceIdeal.Gen.bcast_S3_S1x3_1 b z c).symm

/-! ## A layer's slab of a stacked array -/

/-- Slab `l` of an `[n, a, b]` array, its leading unit axis dropped, read at `(p, c)`, is the array at `(l, p, c)`. -/
theorem slab_apply {α : Type} {n a b : ℕ} (l : ℕ) (w : (⟨3, ![n, a, b]⟩ : Shape).Idx → α)
    (hs : (⟨3, ![n, a, b]⟩ : Shape).Slices ![l, 0, 0] ⟨3, ![1, a, b]⟩)
    (hc : (⟨3, ![1, a, b]⟩ : Shape).ShapeCasts ⟨2, ![a, b]⟩) (hl : l < n) (p : Fin a) (c : Fin b) :
    shapeCast ⟨2, ![a, b]⟩ (extractStridedSlice ⟨3, ![1, a, b]⟩ ![l, 0, 0] w hs) hc (ix2 p c) = w (ix3 ⟨l, hl⟩ p c) := by
  rw [Cert.LibUnitAxisCasts.shapeCast_1ab_ab_apply]
  exact extractStridedSlice_apply _ w hs _ _ (fun d => match d with
    | ⟨0, _⟩ => rfl
    | ⟨1, _⟩ => (Nat.zero_add _).symm
    | ⟨2, _⟩ => (Nat.zero_add _).symm)

/-- The stacked first weights' node-feature rows at `(l, k, j)`: the stacked weight at `(l, k, j)`. -/
theorem whAll_apply (w : KernelIdeal.Terms.A KernelIdeal.S3x68x64) (l : Fin 3) (k : Fin 64) (j : Fin 64) (hk : k.val < 68) :
    KernelIdeal.Terms.whAll w (ix3 l k j) = w (ix3 l (⟨k.val, hk⟩ : Fin 68) j) := by
  show extractStridedSlice KernelIdeal.S3x64x64 ![0, 0, 0] w KernelIdeal.Gen.slices_S3x68x64_S3x64x64_0_0_0 (ix3 l k j) = _
  exact extractStridedSlice_apply _ w _ _ _ (fun d => match d with
    | ⟨0, _⟩ => (Nat.zero_add _).symm
    | ⟨1, _⟩ => (Nat.zero_add _).symm
    | ⟨2, _⟩ => (Nat.zero_add _).symm)

/-- The stacked first weights' edge-attribute rows at `(l, k, j)`: the stacked weight at `(l, 64 + k, j)`. -/
theorem weAll_apply (w : KernelIdeal.Terms.A KernelIdeal.S3x68x64) (l : Fin 3) (k : Fin 4) (j : Fin 64) (hk : 64 + k.val < 68) :
    KernelIdeal.Terms.weAll w (ix3 l k j) = w (ix3 l (⟨64 + k.val, hk⟩ : Fin 68) j) := by
  show extractStridedSlice KernelIdeal.S3x4x64 ![0, 64, 0] w KernelIdeal.Gen.slices_S3x68x64_S3x4x64_0_64_0 (ix3 l k j) = _
  exact extractStridedSlice_apply _ w _ _ _ (fun d => match d with
    | ⟨0, _⟩ => (Nat.zero_add _).symm
    | ⟨1, _⟩ => rfl
    | ⟨2, _⟩ => (Nat.zero_add _).symm)

/-- Cutting the node-feature rows and then taking slab `l` is taking slab `l` and then its first 64 rows. -/
theorem wh_slab (w : KernelIdeal.Terms.A KernelIdeal.S3x68x64) (l : ℕ) (hl : l < 3)
    (hs₁ : KernelIdeal.S3x64x64.Slices ![l, 0, 0] KernelIdeal.S1x64x64) (hc₁ : KernelIdeal.S1x64x64.ShapeCasts KernelIdeal.S64x64)
    (hs₂ : ReferenceIdeal.S3x68x64.Slices ![l, 0, 0] ReferenceIdeal.S1x68x64)
    (hc₂ : ReferenceIdeal.S1x68x64.ShapeCasts ReferenceIdeal.S68x64) :
    (shapeCast KernelIdeal.S64x64 (extractStridedSlice KernelIdeal.S1x64x64 ![l, 0, 0] (KernelIdeal.Terms.whAll w) hs₁) hc₁
        : Cert.Gnn.Mat 64 64)
      = ReferenceIdeal.Stages.whOf
          (shapeCast ReferenceIdeal.S68x64 (extractStridedSlice ReferenceIdeal.S1x68x64 ![l, 0, 0] w hs₂) hc₂) := by
  funext i
  obtain ⟨k, j, rfl⟩ : ∃ (k : Fin 64) (j : Fin 64), i = ix2 k j := ⟨i 0, i 1, eq_ix2 i⟩
  refine ((slab_apply l (KernelIdeal.Terms.whAll w) hs₁ hc₁ hl k j).trans
    (whAll_apply w ⟨l, hl⟩ k j (Nat.lt_trans k.isLt (by decide)))).trans ?_
  exact (slab_apply l w hs₂ hc₂ hl (⟨k.val, Nat.lt_trans k.isLt (by decide)⟩ : Fin 68) j).symm

/-- The same for the edge-attribute rows: slab `l`'s last 4 rows. -/
theorem we_slab (w : KernelIdeal.Terms.A KernelIdeal.S3x68x64) (l : ℕ) (hl : l < 3)
    (hs₁ : KernelIdeal.S3x4x64.Slices ![l, 0, 0] KernelIdeal.S1x4x64) (hc₁ : KernelIdeal.S1x4x64.ShapeCasts KernelIdeal.S4x64)
    (hs₂ : ReferenceIdeal.S3x68x64.Slices ![l, 0, 0] ReferenceIdeal.S1x68x64)
    (hc₂ : ReferenceIdeal.S1x68x64.ShapeCasts ReferenceIdeal.S68x64) :
    (shapeCast KernelIdeal.S4x64 (extractStridedSlice KernelIdeal.S1x4x64 ![l, 0, 0] (KernelIdeal.Terms.weAll w) hs₁) hc₁
        : Cert.Gnn.Mat 4 64)
      = ReferenceIdeal.Stages.weOf
          (shapeCast ReferenceIdeal.S68x64 (extractStridedSlice ReferenceIdeal.S1x68x64 ![l, 0, 0] w hs₂) hc₂) := by
  funext i
  obtain ⟨k, j, rfl⟩ : ∃ (k : Fin 4) (j : Fin 64), i = ix2 k j := ⟨i 0, i 1, eq_ix2 i⟩
  refine ((slab_apply l (KernelIdeal.Terms.weAll w) hs₁ hc₁ hl k j).trans
    (weAll_apply w ⟨l, hl⟩ k j (Nat.add_lt_add_left k.isLt 64))).trans ?_
  exact (slab_apply l w hs₂ hc₂ hl (⟨64 + k.val, Nat.add_lt_add_left k.isLt 64⟩ : Fin 68) j).symm

/-! ## The three layers -/

theorem wh_eq0 (w : KernelIdeal.Terms.A KernelIdeal.S3x68x64) :
    KernelIdeal.Terms.mat0 (KernelIdeal.Terms.whAll w) = ReferenceIdeal.Stages.whOf (ReferenceIdeal.Terms.w1At0 (F := Ideal) w) :=
  wh_slab w 0 (by decide) _ _ _ _
theorem we_eq0 (w : KernelIdeal.Terms.A KernelIdeal.S3x68x64) :
    KernelIdeal.Terms.emat0 (KernelIdeal.Terms.weAll w) = ReferenceIdeal.Stages.weOf (ReferenceIdeal.Terms.w1At0 (F := Ideal) w) :=
  we_slab w 0 (by decide) _ _ _ _
theorem wh_eq1 (w : KernelIdeal.Terms.A KernelIdeal.S3x68x64) :
    KernelIdeal.Terms.mat1 (KernelIdeal.Terms.whAll w) = ReferenceIdeal.Stages.whOf (ReferenceIdeal.Terms.w1At1 (F := Ideal) w) :=
  wh_slab w 1 (by decide) _ _ _ _
theorem we_eq1 (w : KernelIdeal.Terms.A KernelIdeal.S3x68x64) :
    KernelIdeal.Terms.emat1 (KernelIdeal.Terms.weAll w) = ReferenceIdeal.Stages.weOf (ReferenceIdeal.Terms.w1At1 (F := Ideal) w) :=
  we_slab w 1 (by decide) _ _ _ _
theorem wh_eq2 (w : KernelIdeal.Terms.A KernelIdeal.S3x68x64) :
    KernelIdeal.Terms.mat2 (KernelIdeal.Terms.whAll w) = ReferenceIdeal.Stages.whOf (ReferenceIdeal.Terms.w1At2 (F := Ideal) w) :=
  wh_slab w 2 (by decide) _ _ _ _
theorem we_eq2 (w : KernelIdeal.Terms.A KernelIdeal.S3x68x64) :
    KernelIdeal.Terms.emat2 (KernelIdeal.Terms.weAll w) = ReferenceIdeal.Stages.weOf (ReferenceIdeal.Terms.w1At2 (F := Ideal) w) :=
  we_slab w 2 (by decide) _ _ _ _

end Cert.Cuts

end
-- ==== Proof.Layout.lean ====
/-
  The normalisation stage's two-rows-per-row view.

  A `[100000, 64]` array read as `[50000, 128]` keeps every entry's row-major position: row `r` of the view holds rows
  `2r` and `2r + 1` of the array side by side, so entry `(n, c)` of the array is entry `(n / 2, (n % 2)·64 + c)` of the
  view. A `[64]` vector repeated twice in a `[1, 128]` row has the vector's entry `c` at both columns `c` and `64 + c`.
  Normalisation and residual act entry by entry (with the column's statistics), so computing them on the view with the
  repeated vectors and reading the result back as `[100000, 64]` is the plain normalisation on `[100000, 64]`
  (`normK_eq`).
-/
import proofs.«163580_j15788299780297_2_alg».proof.Proof.KTerms
import proofs.«163580_j15788299780297_2_alg».proof.Proof.Spec
import proofs.«163580_j15788299780297_2_alg».proof.Proof.LibBroadcasts
import Idealize.ShloMosaic.Lib.Pipeline.Value
import Idealize.ShloMosaic.Lib.ValueIdx
import Idealize.ShloMosaic.Lib.ValueLayout

noncomputable section

namespace Cert.Layout

open Idealize.ShloMosaic Idealize.ShloMosaic.ValueIdx
open Cert.KernelIdeal Cert.KernelIdeal.Gen Cert.KernelIdeal.Terms

/-- The view's row holding array row `n`. -/
abbrev rowOf (n : Fin 100000) : Fin 50000 := ⟨n.val / 2, by have := n.isLt; omega⟩
/-- The view's column holding array entry `(n, c)`. -/
abbrev colOf (n : Fin 100000) (c : Fin 64) : Fin 128 := ⟨(n.val % 2) * 64 + c.val, by have := c.isLt; omega⟩

/-- The view at `(n / 2, (n % 2)·64 + c)` is the array at `(n, c)`. -/
theorem view_apply (h : A S100000x64) (n : Fin 100000) (c : Fin 64) :
    view h (ix2 (rowOf n) (colOf n c)) = h (ix2 n c) := by
  unfold view
  refine shapeCast_apply h shapeCasts_S100000x64_S50000x128 (ix2 (rowOf n) (colOf n c)) (ix2 n c) ?_
  rw [Shape.rowMajor_val_two, Shape.rowMajor_val_two]
  show n.val * 64 + c.val = (n.val / 2) * 128 + ((n.val % 2) * 64 + c.val)
  omega

/-- Reading a `[50000, 128]` array back as `[100000, 64]`: entry `(n, c)` is the array's `(n / 2, (n % 2)·64 + c)`. -/
theorem unview_apply (g : A S50000x128) (n : Fin 100000) (c : Fin 64) :
    (shapeCast _ g shapeCasts_S50000x128_S100000x64 : A S100000x64) (ix2 n c) = g (ix2 (rowOf n) (colOf n c)) := by
  refine shapeCast_apply g shapeCasts_S50000x128_S100000x64 (ix2 n c) (ix2 (rowOf n) (colOf n c)) ?_
  rw [Shape.rowMajor_val_two, Shape.rowMajor_val_two]
  show (n.val / 2) * 128 + ((n.val % 2) * 64 + c.val) = n.val * 64 + c.val
  omega

/-- A `[64]` vector as a `[1, 64]` row, at `(0, c)`, is the vector at `c`. -/
theorem asRow_apply (v : A S64) (c : Fin 64) : asRow v (ix2 0 c) = v (ix1 c) := by
  unfold asRow
  exact Cert.LibBroadcasts.row_cast_apply shapeCasts_S64_S1x64 v 0 c

/-- The vector repeated twice, at column `p·64 + c` (`p` = 0 or 1), is the vector at `c`. -/
theorem tile_apply_half (v : A S64) (p : Fin 2) (c : Fin 64) :
    tile v (ix2 0 (⟨p.val * 64 + c.val, by have := p.isLt; have := c.isLt; omega⟩ : Fin 128)) = v (ix1 c) := by
  unfold tile
  refine (Cert.LibBroadcasts.row_cast_apply shapeCasts_S128_S1x128 _ 0 _).trans ?_
  refine (shapeCast_apply _ shapeCasts_S2x64_S128 _ (ix2 p c) ?_).trans ?_
  · rw [Shape.rowMajor_val_two, Shape.rowMajor_val_one]
    show p.val * 64 + c.val = p.val * 64 + c.val
    rfl
  · refine (Cert.LibBroadcasts.rows_apply bcast_S1x64_S2x64_0_1 (asRow v) p c).trans ?_
    exact asRow_apply v c

/-- The repeated vector at the view's column of `(n, c)` is the vector at `c`. -/
theorem tile_apply (v : A S64) (n : Fin 100000) (c : Fin 64) : tile v (ix2 0 (colOf n c)) = v (ix1 c) :=
  tile_apply_half v ⟨n.val % 2, by omega⟩ c

/-- Normalisation and residual computed on the two-rows-per-row view with the repeated vectors, read back, is the plain
    normalisation and residual on the `[100000, 64]` arrays. -/
theorem normK_eq (h a : A S100000x64) (mu var gam bet : A S64) :
    normK h a mu var gam bet
      = Cert.Gnn.normResid 100000 64 h a (asRow mu) (asRow var) (asRow gam) (asRow bet) := by
  funext i
  obtain ⟨n, c, rfl⟩ : ∃ (n : Fin 100000) (c : Fin 64), i = ix2 n c := ⟨i 0, i 1, eq_ix2 i⟩
  unfold normK
  refine (unview_apply _ n c).trans ?_
  rw [Cert.Gnn.normResid_apply, Cert.Gnn.normResid_apply]
  unfold Cert.Gnn.normResidAt
  rw [view_apply h n c, view_apply a n c, tile_apply mu n c, tile_apply var n c, tile_apply gam n c, tile_apply bet n c,
    asRow_apply mu c, asRow_apply var c, asRow_apply gam c, asRow_apply bet c]

end Cert.Layout

end
-- ==== Proof.Bridge.lean ====
/-
  The kernel program's value is the reference's.

  Both programs are the same composition of stages — encoder, three layers (gather, message, scatter-add, column
  statistics, normalise-and-add), read-out — and differ in how a stage is laid out:
  * the kernel rounds operands to a narrow format on the way into a product (the identity on the extended reals);
  * the message's first product is computed as two partial products, over the 64 gathered features and over the 4 edge
    attributes, where the reference multiplies the joined 68 columns by the whole weight: a sum over 68 positions split
    at 64 (no finiteness is needed: only that addition is commutative and associative);
  * normalisation and residual run on the `[50000, 128]` view with every per-feature vector repeated twice, where the
    reference broadcasts the vectors over `[100000, 64]`: the same entries at the same row-major positions;
  * a bias enters the kernel as a reshaped `[1, n]` row and the reference as a broadcast one.
  The gather, the scatter-add and the column statistics are the same host operations on both sides.
-/
import proofs.«163580_j15788299780297_2_alg».proof.Proof.KTerms
import proofs.«163580_j15788299780297_2_alg».proof.Proof.RefTerms
import proofs.«163580_j15788299780297_2_alg».proof.Proof.RefStages
import proofs.«163580_j15788299780297_2_alg».proof.Proof.Cuts
import proofs.«163580_j15788299780297_2_alg».proof.Proof.Layout

noncomputable section

namespace Cert.Bridge

open Idealize.ShloMosaic

/-- The encoder. -/
theorem enc_eq (x : Cert.KernelIdeal.Terms.A Cert.KernelIdeal.S100000x5) (win : Cert.KernelIdeal.Terms.A Cert.KernelIdeal.S5x64) (bin : Cert.KernelIdeal.Terms.A Cert.KernelIdeal.S64) :
    Cert.KernelIdeal.Terms.encK x win bin = Cert.ReferenceIdeal.Terms.encR (F := Ideal) x win bin := by
  refine Eq.trans ?_ (Cert.ReferenceIdeal.Stages.enc_eq x win bin).symm
  unfold Cert.KernelIdeal.Terms.encK
  rw [Cert.Cuts.asRow_eq]
  rfl

/-- An edge's message: the two partial products are the product with the joined weight. -/
theorem msg_eq (hs : Cert.KernelIdeal.Terms.B Cert.KernelIdeal.S1600000x64) (ea : Cert.KernelIdeal.Terms.A Cert.KernelIdeal.S1600000x4) (w1 : Cert.ReferenceIdeal.Terms.A Ideal Cert.ReferenceIdeal.S68x64)
    (b1 : Cert.KernelIdeal.Terms.A Cert.KernelIdeal.S64) (w2 : Cert.KernelIdeal.Terms.B Cert.KernelIdeal.S64x64) (b2 : Cert.KernelIdeal.Terms.A Cert.KernelIdeal.S64) :
    Cert.KernelIdeal.Terms.msgK hs ea (Cert.ReferenceIdeal.Stages.whOf w1) (Cert.ReferenceIdeal.Stages.weOf w1) b1 w2 b2 = Cert.ReferenceIdeal.Terms.msgR (F := Ideal) hs ea w1 b1 w2 b2 := by
  refine Eq.trans ?_ (Cert.ReferenceIdeal.Stages.msg_eq hs ea w1 b1 w2 b2).symm
  unfold Cert.KernelIdeal.Terms.msgK
  rw [Cert.Cuts.asRow_eq, Cert.Cuts.asRow_eq]
  rfl

/-- Normalisation and residual: the two-rows-per-row view computes the plain row-wise form. -/
theorem norm_eq (h a : Cert.KernelIdeal.Terms.A Cert.KernelIdeal.S100000x64) (mu var gam bet : Cert.KernelIdeal.Terms.A Cert.KernelIdeal.S64) :
    Cert.KernelIdeal.Terms.normK h a mu var gam bet = Cert.ReferenceIdeal.Terms.normR (F := Ideal) h a mu var gam bet := by
  refine Eq.trans (Cert.Layout.normK_eq h a mu var gam bet) ?_
  refine Eq.trans ?_ (Cert.ReferenceIdeal.Stages.norm_eq h a mu var gam bet).symm
  rw [Cert.Cuts.asRow_eq, Cert.Cuts.asRow_eq, Cert.Cuts.asRow_eq, Cert.Cuts.asRow_eq]

/-- One layer, given the kernel's two cuts of the first weight as the reference's whole cut. -/
theorem layer_eq (h : Cert.KernelIdeal.Terms.A Cert.KernelIdeal.S100000x64) (s d : Cert.KernelIdeal.Terms.I Cert.KernelIdeal.S1600000) (ea : Cert.KernelIdeal.Terms.A Cert.KernelIdeal.S1600000x4)
    (w1 : Cert.ReferenceIdeal.Terms.A Ideal Cert.ReferenceIdeal.S68x64) (wh : Cert.KernelIdeal.Terms.B Cert.KernelIdeal.S64x64) (we : Cert.KernelIdeal.Terms.B Cert.KernelIdeal.S4x64) (b1 : Cert.KernelIdeal.Terms.A Cert.KernelIdeal.S64)
    (w2 : Cert.KernelIdeal.Terms.B Cert.KernelIdeal.S64x64) (b2 gam bet : Cert.KernelIdeal.Terms.A Cert.KernelIdeal.S64) (hwh : wh = Cert.ReferenceIdeal.Stages.whOf w1) (hwe : we = Cert.ReferenceIdeal.Stages.weOf w1) :
    Cert.KernelIdeal.Terms.layerK h s d ea wh we b1 w2 b2 gam bet = Cert.ReferenceIdeal.Terms.layerR (F := Ideal) h s d ea w1 b1 w2 b2 gam bet := by
  subst hwh hwe
  have hm : Cert.KernelIdeal.Terms.msgK (Cert.KernelIdeal.Terms.gatherK h s) ea (Cert.ReferenceIdeal.Stages.whOf w1) (Cert.ReferenceIdeal.Stages.weOf w1) b1 w2 b2
      = Cert.ReferenceIdeal.Terms.msgR (F := Ideal) (Cert.ReferenceIdeal.Terms.gatherR (F := Ideal) h s) ea w1 b1 w2 b2 :=
    msg_eq (Cert.KernelIdeal.Terms.gatherK h s) ea w1 b1 w2 b2
  unfold Cert.KernelIdeal.Terms.layerK Cert.ReferenceIdeal.Terms.layerR
  rw [hm]
  exact norm_eq h _ _ _ gam bet

/-- The read-out. -/
theorem fin_eq (h : Cert.KernelIdeal.Terms.A Cert.KernelIdeal.S100000x64) (w3 : Cert.KernelIdeal.Terms.A Cert.KernelIdeal.S64x64) (b3 : Cert.KernelIdeal.Terms.A Cert.KernelIdeal.S64) (w4 : Cert.KernelIdeal.Terms.A Cert.KernelIdeal.S64x3)
    (b4 : Cert.KernelIdeal.Terms.A Cert.KernelIdeal.S3) : Cert.KernelIdeal.Terms.finK h w3 b3 w4 b4 = Cert.ReferenceIdeal.Terms.finR (F := Ideal) h w3 b3 w4 b4 := by
  refine Eq.trans ?_ (Cert.ReferenceIdeal.Stages.fin_eq h w3 b3 w4 b4).symm
  unfold Cert.KernelIdeal.Terms.finK
  rw [Cert.Cuts.asRow_eq, Cert.Cuts.row3_eq]
  rfl

theorem h1_eq (x : Cert.KernelIdeal.Terms.A Cert.KernelIdeal.S100000x5) (ei : Cert.KernelIdeal.Terms.I Cert.KernelIdeal.S2x1600000) (ea : Cert.KernelIdeal.Terms.A Cert.KernelIdeal.S1600000x4) (win : Cert.KernelIdeal.Terms.A Cert.KernelIdeal.S5x64) (bin : Cert.KernelIdeal.Terms.A Cert.KernelIdeal.S64)
    (w1 : Cert.KernelIdeal.Terms.A Cert.KernelIdeal.S3x68x64) (b1 : Cert.KernelIdeal.Terms.A Cert.KernelIdeal.S3x64) (w2 : Cert.KernelIdeal.Terms.A Cert.KernelIdeal.S3x64x64) (b2 gam bet : Cert.KernelIdeal.Terms.A Cert.KernelIdeal.S3x64) :
    Cert.KernelIdeal.Terms.h1K x ei ea win bin w1 b1 w2 b2 gam bet = Cert.ReferenceIdeal.Terms.h1R (F := Ideal) x ei ea win bin w1 b1 w2 b2 gam bet := by
  unfold Cert.KernelIdeal.Terms.h1K Cert.ReferenceIdeal.Terms.h1R
  rw [enc_eq]
  exact layer_eq _ _ _ ea (Cert.ReferenceIdeal.Terms.w1At0 (F := Ideal) w1) _ _ _ _ _ _ _ (Cert.Cuts.wh_eq0 w1) (Cert.Cuts.we_eq0 w1)

theorem h2_eq (x : Cert.KernelIdeal.Terms.A Cert.KernelIdeal.S100000x5) (ei : Cert.KernelIdeal.Terms.I Cert.KernelIdeal.S2x1600000) (ea : Cert.KernelIdeal.Terms.A Cert.KernelIdeal.S1600000x4) (win : Cert.KernelIdeal.Terms.A Cert.KernelIdeal.S5x64) (bin : Cert.KernelIdeal.Terms.A Cert.KernelIdeal.S64)
    (w1 : Cert.KernelIdeal.Terms.A Cert.KernelIdeal.S3x68x64) (b1 : Cert.KernelIdeal.Terms.A Cert.KernelIdeal.S3x64) (w2 : Cert.KernelIdeal.Terms.A Cert.KernelIdeal.S3x64x64) (b2 gam bet : Cert.KernelIdeal.Terms.A Cert.KernelIdeal.S3x64) :
    Cert.KernelIdeal.Terms.h2K x ei ea win bin w1 b1 w2 b2 gam bet = Cert.ReferenceIdeal.Terms.h2R (F := Ideal) x ei ea win bin w1 b1 w2 b2 gam bet := by
  unfold Cert.KernelIdeal.Terms.h2K Cert.ReferenceIdeal.Terms.h2R
  rw [h1_eq]
  exact layer_eq _ _ _ ea (Cert.ReferenceIdeal.Terms.w1At1 (F := Ideal) w1) _ _ _ _ _ _ _ (Cert.Cuts.wh_eq1 w1) (Cert.Cuts.we_eq1 w1)

theorem h3_eq (x : Cert.KernelIdeal.Terms.A Cert.KernelIdeal.S100000x5) (ei : Cert.KernelIdeal.Terms.I Cert.KernelIdeal.S2x1600000) (ea : Cert.KernelIdeal.Terms.A Cert.KernelIdeal.S1600000x4) (win : Cert.KernelIdeal.Terms.A Cert.KernelIdeal.S5x64) (bin : Cert.KernelIdeal.Terms.A Cert.KernelIdeal.S64)
    (w1 : Cert.KernelIdeal.Terms.A Cert.KernelIdeal.S3x68x64) (b1 : Cert.KernelIdeal.Terms.A Cert.KernelIdeal.S3x64) (w2 : Cert.KernelIdeal.Terms.A Cert.KernelIdeal.S3x64x64) (b2 gam bet : Cert.KernelIdeal.Terms.A Cert.KernelIdeal.S3x64) :
    Cert.KernelIdeal.Terms.h3K x ei ea win bin w1 b1 w2 b2 gam bet = Cert.ReferenceIdeal.Terms.h3R (F := Ideal) x ei ea win bin w1 b1 w2 b2 gam bet := by
  unfold Cert.KernelIdeal.Terms.h3K Cert.ReferenceIdeal.Terms.h3R
  rw [h2_eq]
  exact layer_eq _ _ _ ea (Cert.ReferenceIdeal.Terms.w1At2 (F := Ideal) w1) _ _ _ _ _ _ _ (Cert.Cuts.wh_eq2 w1) (Cert.Cuts.we_eq2 w1)

/-- The whole programs. -/
theorem out_eq (x : Cert.KernelIdeal.Terms.A Cert.KernelIdeal.S100000x5) (ei : Cert.KernelIdeal.Terms.I Cert.KernelIdeal.S2x1600000) (ea : Cert.KernelIdeal.Terms.A Cert.KernelIdeal.S1600000x4) (win : Cert.KernelIdeal.Terms.A Cert.KernelIdeal.S5x64) (bin : Cert.KernelIdeal.Terms.A Cert.KernelIdeal.S64)
    (w1 : Cert.KernelIdeal.Terms.A Cert.KernelIdeal.S3x68x64) (b1 : Cert.KernelIdeal.Terms.A Cert.KernelIdeal.S3x64) (w2 : Cert.KernelIdeal.Terms.A Cert.KernelIdeal.S3x64x64) (b2 gam bet : Cert.KernelIdeal.Terms.A Cert.KernelIdeal.S3x64)
    (w3 : Cert.KernelIdeal.Terms.A Cert.KernelIdeal.S64x64) (b3 : Cert.KernelIdeal.Terms.A Cert.KernelIdeal.S64) (w4 : Cert.KernelIdeal.Terms.A Cert.KernelIdeal.S64x3) (b4 : Cert.KernelIdeal.Terms.A Cert.KernelIdeal.S3) :
    Cert.KernelIdeal.Terms.outK x ei ea win bin w1 b1 w2 b2 gam bet w3 b3 w4 b4 = Cert.ReferenceIdeal.Terms.outR (F := Ideal) x ei ea win bin w1 b1 w2 b2 gam bet w3 b3 w4 b4 := by
  unfold Cert.KernelIdeal.Terms.outK Cert.ReferenceIdeal.Terms.outR
  rw [h3_eq]
  exact fin_eq _ w3 b3 w4 b4

end Cert.Bridge

end
-- ==== Proof.lean ====
/-
  The certificate of a three-layer message-passing network computed by eight tiled kernels against its plain
  array-program reference, on the extended reals.

  The three frames: the word-level and the idealized kernel programs by their region-by-region frame runs; the
  reference by its run with the result dropped.  The idealization rewrote nothing, so it is the program's own text read
  on the extended reals.  The value claim: the kernel program's result array, read off its run segment by segment, is
  one composition of stage functions of the fifteen argument arrays (`Cert.KernelIdeal.Terms.outK`); the reference's
  result is the same composition in the reference's operations (`Cert.ReferenceIdeal.Terms.outR`); and the two agree
  stage by stage (`Cert.Bridge.out_eq`): roundings to the narrow format are the identity, the message's first product
  over 64 + 4 columns is the product over the joined 68, the normalisation on the two-rows-per-row view is the
  row-wise one, and the gather, scatter-add and column statistics are the same operations on both sides.
-/
import proofs.«163580_j15788299780297_2_alg».proof.Defs
import proofs.«163580_j15788299780297_2_alg».proof.Proof.Gen.Kernel
import proofs.«163580_j15788299780297_2_alg».proof.Proof.Gen.Kernel.Skeleton
import proofs.«163580_j15788299780297_2_alg».proof.Proof.Gen.Kernel.Launch
import proofs.«163580_j15788299780297_2_alg».proof.Proof.Gen.Kernel.Points
import proofs.«163580_j15788299780297_2_alg».proof.Proof.Gen.Kernel.Frame
import proofs.«163580_j15788299780297_2_alg».proof.Proof.Gen.KernelIdeal
import proofs.«163580_j15788299780297_2_alg».proof.Proof.Gen.KernelIdeal.Skeleton
import proofs.«163580_j15788299780297_2_alg».proof.Proof.Gen.KernelIdeal.Launch
import proofs.«163580_j15788299780297_2_alg».proof.Proof.Gen.KernelIdeal.Points
import proofs.«163580_j15788299780297_2_alg».proof.Proof.Gen.KernelIdeal.Frame
import proofs.«163580_j15788299780297_2_alg».proof.Proof.Gen.ReferenceIdeal
import proofs.«163580_j15788299780297_2_alg».proof.Proof.Gen.Pre_finite_inputs
import proofs.«163580_j15788299780297_2_alg».proof.Proof.KRun
import proofs.«163580_j15788299780297_2_alg».proof.Proof.KFold7
import proofs.«163580_j15788299780297_2_alg».proof.Proof.RefRun
import proofs.«163580_j15788299780297_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Whole.run m ρ)

/-- The idealization rewrote no operation. -/
theorem preserves : Cert.preserves_Kernel_KernelIdeal := trivial

/-- Both programs end with their result arrays at one function of the (agreeing) argument arrays. -/
theorem algebraic : Cert.algebraic_KernelIdeal_ReferenceIdeal := by
  intro m ρ m' ρ' _ hagree
  refine ⟨fun c => Cert.KernelIdeal.Terms.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Whole.W16_main_v193 m ρ c), (h c).2⟩)
      (Cert.KernelIdeal.Whole.run_value m ρ)
  · refine (θ_run Cert.ReferenceIdeal.defs _ _).mono (fun r h c => ⟨(h c).1.trans ?_, (h c).2⟩)
      (Cert.ReferenceIdeal.Whole.run m' ρ')
    obtain ⟨e0, e1, e2, e3, e4, e5, e6, e7, e8, e9, e10, e11, e12, e13, e14⟩ := hagree c
    rw [e0, e1, e2, e3, e4, e5, e6, e7, e8, e9, e10, e11, e12, e13, e14]
    exact (Cert.Bridge.out_eq _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
